-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x4 : Shape := ⟨2, ![65536, 4]⟩
abbrev S14x512 : Shape := ⟨2, ![14, 512]⟩
abbrev S4x512 : Shape := ⟨2, ![4, 512]⟩
abbrev S9x4x512 : Shape := ⟨3, ![9, 4, 512]⟩
abbrev S9x512 : Shape := ⟨2, ![9, 512]⟩
abbrev S9x512x512 : Shape := ⟨3, ![9, 512, 512]⟩
abbrev S1536x512 : Shape := ⟨2, ![1536, 512]⟩
abbrev S512 : Shape := ⟨1, ![512]⟩
abbrev S_ : Shape := ⟨0, ![]⟩

class Facts : Prop where
  bcast_S_S65536x4 : S_.BroadcastsInDim S65536x4 (![] : Fin 0 → Fin S65536x4.rank)
  reducesTo_S65536x4_S_d0_1 : S65536x4.ReducesTo [0, 1] S_
  h_S_ : 0 < S_.numel
  bcast_S_S14x512 : S_.BroadcastsInDim S14x512 (![] : Fin 0 → Fin S14x512.rank)
  reducesTo_S14x512_S_d0_1 : S14x512.ReducesTo [0, 1] S_
  bcast_S_S4x512 : S_.BroadcastsInDim S4x512 (![] : Fin 0 → Fin S4x512.rank)
  reducesTo_S4x512_S_d0_1 : S4x512.ReducesTo [0, 1] S_
  bcast_S_S9x4x512 : S_.BroadcastsInDim S9x4x512 (![] : Fin 0 → Fin S9x4x512.rank)
  reducesTo_S9x4x512_S_d0_1_2 : S9x4x512.ReducesTo [0, 1, 2] S_
  bcast_S_S9x512 : S_.BroadcastsInDim S9x512 (![] : Fin 0 → Fin S9x512.rank)
  reducesTo_S9x512_S_d0_1 : S9x512.ReducesTo [0, 1] S_
  bcast_S_S9x512x512 : S_.BroadcastsInDim S9x512x512 (![] : Fin 0 → Fin S9x512x512.rank)
  reducesTo_S9x512x512_S_d0_1_2 : S9x512x512.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S1536x512 .f32) (main_arg10 : FVec F S512 .f32) (main_v33 : IVec S_ 1) : IVec S_ 1 :=
  let main_v34 : FVec F S1536x512 .f32 := Host.absf main_arg9
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg6 : FVec F S9x512 .f32) (main_arg7 : FVec F S9x512x512 .f32) (main_arg8 : FVec F S9x512 .f32) (main_arg9 : FVec F S1536x512 .f32) (main_arg10 : FVec F S512 .f32) (main_v13 : IVec S_ 1) (main_v16 : IVec S9x4x512 1) : IVec S_ 1 :=
  let main_c_5 : IVec S_ 1 := constantI S_ 1 1#1
  let main_v17 : IVec S_ 1 := (fun x v => Host.reduce IntOp.andi x v reducesTo_S9x4x512_S_d0_1_2 h_S_) main_v16 main_c_5
  let main_v18 : IVec S_ 1 := andi main_v13 main_v17
  let main_v19 : FVec F S9x512 .f32 := Host.absf main_arg6
  let main_cst_6 : FVec F S_ .f32 := constant S_ .f32 0x7F800000#32
  let main_v20 : FVec F S9x512 .f32 := broadcastInDim S9x512 ![] bcast_S_S9x512 main_cst_6
  let main_v21 : IVec S9x512 1 := cmpf .olt main_v19 main_v20
  let main_c_7 : IVec S_ 1 := constantI S_ 1 1#1
  let main_v22 : IVec S_ 1 := (fun x v => Host.reduce IntOp.andi x v reducesTo_S9x512_S_d0_1 h_S_) main_v21 main_c_7
  let main_v23 : IVec S_ 1 := andi main_v18 main_v22
  let main_v24 : FVec F S9x512x512 .f32 := Host.absf main_arg7
  let main_cst_8 : FVec F S_ .f32 := constant S_ .f32 0x7F800000#32
  let main_v25 : FVec F S9x512x512 .f32 := broadcastInDim S9x512x512 ![] bcast_S_S9x512x512 main_cst_8
  let main_v26 : IVec S9x512x512 1 := cmpf .olt main_v24 main_v25
  let main_c_9 : IVec S_ 1 := constantI S_ 1 1#1
  let main_v27 : IVec S_ 1 := (fun x v => Host.reduce IntOp.andi x v reducesTo_S9x512x512_S_d0_1_2 h_S_) main_v26 main_c_9
  let main_v28 : IVec S_ 1 := andi main_v23 main_v27
  let main_v29 : FVec F S9x512 .f32 := Host.absf main_arg8
  let main_cst_10 : FVec F S_ .f32 := constant S_ .f32 0x7F800000#32
  let main_v30 : FVec F S9x512 .f32 := broadcastInDim S9x512 ![] bcast_S_S9x512 main_cst_10
  let main_v31 : IVec S9x512 1 := cmpf .olt main_v29 main_v30
  let main_c_11 : IVec S_ 1 := constantI S_ 1 1#1
  let main_v32 : IVec S_ 1 := (fun x v => Host.reduce IntOp.andi x v reducesTo_S9x512_S_d0_1 h_S_) main_v31 main_c_11
  let main_v33 : IVec S_ 1 := andi main_v28 main_v32
  fn_part2 (F := F) main_arg9 main_arg10 main_v33

def fn {F : FTy → Type} [FloatOps F] (main_arg0 : IVec S65536 32) (main_arg1 : IVec S65536 32) (main_arg2 : FVec F S65536x4 .f32) (main_arg3 : FVec F S14x512 .f32) (main_arg4 : FVec F S4x512 .f32) (main_arg5 : FVec F S9x4x512 .f32) (main_arg6 : FVec F S9x512 .f32) (main_arg7 : FVec F S9x512x512 .f32) (main_arg8 : FVec F S9x512 .f32) (main_arg9 : FVec F S1536x512 .f32) (main_arg10 : FVec F S512 .f32) : IVec S_ 1 :=
  let main_v0 : FVec F S65536x4 .f32 := Host.absf main_arg2
  let main_cst : FVec F S_ .f32 := constant S_ .f32 0x7F800000#32
  let main_v1 : FVec F S65536x4 .f32 := broadcastInDim S65536x4 ![] bcast_S_S65536x4 main_cst
  let main_v2 : IVec S65536x4 1 := cmpf .olt main_v0 main_v1
  let main_c : IVec S_ 1 := constantI S_ 1 1#1
  let main_v3 : IVec S_ 1 := (fun x v => Host.reduce IntOp.andi x v reducesTo_S65536x4_S_d0_1 h_S_) main_v2 main_c
  let main_v4 : FVec F S14x512 .f32 := Host.absf main_arg3
  let main_cst_0 : FVec F S_ .f32 := constant S_ .f32 0x7F800000#32
  let main_v5 : FVec F S14x512 .f32 := broadcastInDim S14x512 ![] bcast_S_S14x512 main_cst_0
  let main_v6 : IVec S14x512 1 := cmpf .olt main_v4 main_v5
  let main_c_1 : IVec S_ 1 := constantI S_ 1 1#1
  let main_v7 : IVec S_ 1 := (fun x v => Host.reduce IntOp.andi x v reducesTo_S14x512_S_d0_1 h_S_) main_v6 main_c_1
  let main_v8 : IVec S_ 1 := andi main_v3 main_v7
  let main_v9 : FVec F S4x512 .f32 := Host.absf main_arg4
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S9x4x512 .f32 := Host.absf main_arg5
  let main_cst_4 : FVec F S_ .f32 := constant S_ .f32 0x7F800000#32
  let main_v15 : FVec F S9x4x512 .f32 := broadcastInDim S9x4x512 ![] bcast_S_S9x4x512 main_cst_4
  let main_v16 : IVec S9x4x512 1 := cmpf .olt main_v14 main_v15
  fn_part1 (F := F) main_arg6 main_arg7 main_arg8 main_arg9 main_arg10 main_v13 main_v16
-- ==== Kernel.lean ====
abbrev S65536 : Shape := ⟨1, ![65536]⟩
abbrev S65536x4 : Shape := ⟨2, ![65536, 4]⟩
abbrev S14x512 : Shape := ⟨2, ![14, 512]⟩
abbrev S4x512 : Shape := ⟨2, ![4, 512]⟩
abbrev S9x4x512 : Shape := ⟨3, ![9, 4, 512]⟩
abbrev S9x512 : Shape := ⟨2, ![9, 512]⟩
abbrev S9x512x512 : Shape := ⟨3, ![9, 512, 512]⟩
abbrev S1536x512 : Shape := ⟨2, ![1536, 512]⟩
abbrev S512 : Shape := ⟨1, ![512]⟩
abbrev S14 : Shape := ⟨1, ![14]⟩
abbrev S9x4 : Shape := ⟨2, ![9, 4]⟩
abbrev S_ : Shape := ⟨0, ![]⟩
abbrev S65536x1 : Shape := ⟨2, ![65536, 1]⟩
abbrev S9 : Shape := ⟨1, ![9]⟩
abbrev S1 : Shape := ⟨1, ![1]⟩
abbrev S8 : Shape := ⟨1, ![8]⟩
abbrev S73 : Shape := ⟨1, ![73]⟩
abbrev S9x1 : Shape := ⟨2, ![9, 1]⟩
abbrev S1x73 : Shape := ⟨2, ![1, 73]⟩
abbrev S9x73 : Shape := ⟨2, ![9, 73]⟩
abbrev S74752x4 : Shape := ⟨2, ![74752, 4]⟩
abbrev S74752 : Shape := ⟨1, ![74752]⟩
abbrev S74752x1 : Shape := ⟨2, ![74752, 1]⟩
abbrev S74752x512 : Shape := ⟨2, ![74752, 512]⟩
abbrev S1024x4 : Shape := ⟨2, ![1024, 4]⟩
abbrev S1024x512 : Shape := ⟨2, ![1024, 512]⟩
abbrev S1x4x512 : Shape := ⟨3, ![1, 4, 512]⟩
abbrev S1x512 : Shape := ⟨2, ![1, 512]⟩
abbrev S1x512x512 : Shape := ⟨3, ![1, 512, 512]⟩
abbrev S512x512 : Shape := ⟨2, ![512, 512]⟩
abbrev S65536x512 : Shape := ⟨2, ![65536, 512]⟩

abbrev nBuf : Space → Nat
  | .hbm => 246
  | .vmem => 14
  | .smem => 1
  | _ => 0

abbrev hbmTy0_0 (i : Nat) : BufTy := match i % 128 with
  | 0 => ⟨S65536, .i32⟩
  | 1 => ⟨S65536, .i32⟩
  | 2 => ⟨S65536x4, .f32⟩
  | 3 => ⟨S14x512, .f32⟩
  | 4 => ⟨S4x512, .f32⟩
  | 5 => ⟨S9x4x512, .f32⟩
  | 6 => ⟨S9x512, .f32⟩
  | 7 => ⟨S9x512x512, .f32⟩
  | 8 => ⟨S9x512, .f32⟩
  | 9 => ⟨S1536x512, .f32⟩
  | 10 => ⟨S512, .f32⟩
  | 11 => ⟨S14, .i32⟩
  | 12 => ⟨S9x4, .f32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S65536x1, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536x4, .f32⟩
  | 31 => ⟨S65536x4, .f32⟩
  | 32 => ⟨S65536, .i32⟩
  | 33 => ⟨S65536, .i32⟩
  | 34 => ⟨S65536, .i32⟩
  | 35 => ⟨S_, .i32⟩
  | 36 => ⟨S65536, .i32⟩
  | 37 => ⟨S65536, .i1⟩
  | 38 => ⟨S_, .i32⟩
  | 39 => ⟨S65536, .i32⟩
  | 40 => ⟨S65536, .i32⟩
  | 41 => ⟨S65536, .i32⟩
  | 42 => ⟨S65536x1, .i32⟩
  | 43 => ⟨S65536, .i32⟩
  | 44 => ⟨S_, .i32⟩
  | 45 => ⟨S9, .i32⟩
  | 46 => ⟨S_, .i32⟩
  | 47 => ⟨S_, .i32⟩
  | 48 => ⟨S65536, .i32⟩
  | 49 => ⟨S65536, .i32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S_, .i32⟩
  | 59 => ⟨S65536, .i32⟩
  | 60 => ⟨S9, .i32⟩
  | 61 => ⟨S_, .i32⟩
  | 62 => ⟨S9, .i32⟩
  | 63 => ⟨S9, .i32⟩
  | 64 => ⟨S_, .i32⟩
  | 65 => ⟨S9, .i32⟩
  | 66 => ⟨S9, .i32⟩
  | 67 => ⟨S_, .i32⟩
  | 68 => ⟨S_, .i32⟩
  | 69 => ⟨S9, .i32⟩
  | 70 => ⟨S9, .i32⟩
  | 71 => ⟨S9, .i32⟩
  | 72 => ⟨S_, .i32⟩
  | 73 => ⟨S9, .i32⟩
  | 74 => ⟨S9, .i1⟩
  | 75 => ⟨S9, .i32⟩
  | 76 => ⟨S9, .i32⟩
  | 77 => ⟨S_, .i32⟩
  | 78 => ⟨S9, .i32⟩
  | 79 => ⟨S9, .i1⟩
  | 80 => ⟨S9, .i1⟩
  | 81 => ⟨S_, .i32⟩
  | 82 => ⟨S9, .i32⟩
  | 83 => ⟨S9, .i32⟩
  | 84 => ⟨S9, .i32⟩
  | 85 => ⟨S_, .i32⟩
  | 86 => ⟨S1, .i32⟩
  | 87 => ⟨S_, .i32⟩
  | 88 => ⟨S_, .i32⟩
  | 89 => ⟨S9, .i32⟩
  | 90 => ⟨S8, .i32⟩
  | 91 => ⟨S9, .i32⟩
  | 92 => ⟨S_, .i32⟩
  | 93 => ⟨S1, .i32⟩
  | 94 => ⟨S_, .i32⟩
  | 95 => ⟨S_, .i32⟩
  | 96 => ⟨S9, .i32⟩
  | 97 => ⟨S8, .i32⟩
  | 98 => ⟨S9, .i32⟩
  | 99 => ⟨S_, .i32⟩
  | 100 => ⟨S9, .i32⟩
  | 101 => ⟨S9, .i32⟩
  | 102 => ⟨S65536, .i32⟩
  | 103 => ⟨S_, .i32⟩
  | 104 => ⟨S65536, .i32⟩
  | 105 => ⟨S65536, .i1⟩
  | 106 => ⟨S_, .i32⟩
  | 107 => ⟨S65536, .i32⟩
  | 108 => ⟨S65536, .i32⟩
  | 109 => ⟨S65536, .i32⟩
  | 110 => ⟨S65536x1, .i32⟩
  | 111 => ⟨S65536, .i32⟩
  | 112 => ⟨S_, .i32⟩
  | 113 => ⟨S65536, .i32⟩
  | 114 => ⟨S65536, .i1⟩
  | 115 => ⟨S_, .i32⟩
  | 116 => ⟨S65536, .i32⟩
  | 117 => ⟨S65536, .i32⟩
  | 118 => ⟨S65536, .i32⟩
  | 119 => ⟨S65536x1, .i32⟩
  | 120 => ⟨S65536, .i32⟩
  | 121 => ⟨S65536, .i32⟩
  | 122 => ⟨S65536, .i32⟩
  | 123 => ⟨S73, .i32⟩
  | 124 => ⟨S9x1, .i32⟩
  | 125 => ⟨S1x73, .i32⟩
  | 126 => ⟨S9x73, .i32⟩
  | 127 => ⟨S9x73, .i32⟩
  | _ => ⟨S65536, .i32⟩

abbrev hbmTy0_1 (i : Nat) : BufTy := match i % 128 with
  | 0 => ⟨S9x73, .i1⟩
  | 1 => ⟨S9x73, .i32⟩
  | 2 => ⟨S_, .i32⟩
  | 3 => ⟨S73, .i32⟩
  | 4 => ⟨S_, .i32⟩
  | 5 => ⟨S73, .i32⟩
  | 6 => ⟨S73, .i32⟩
  | 7 => ⟨S_, .i32⟩
  | 8 => ⟨S_, .i32⟩
  | 9 => ⟨S_, .i32⟩
  | 10 => ⟨S73, .i32⟩
  | 11 => ⟨S73, .i32⟩
  | 12 => ⟨S_, .i32⟩
  | 13 => ⟨S73, .i32⟩
  | 14 => ⟨S_, .i32⟩
  | 15 => ⟨S65536, .i32⟩
  | 16 => ⟨S65536, .i1⟩
  | 17 => ⟨S_, .i32⟩
  | 18 => ⟨S65536, .i32⟩
  | 19 => ⟨S65536, .i32⟩
  | 20 => ⟨S65536, .i32⟩
  | 21 => ⟨S65536x1, .i32⟩
  | 22 => ⟨S65536x4, .f32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536, .i32⟩
  | 41 => ⟨S_, .f32⟩
  | 42 => ⟨S74752x4, .f32⟩
  | 43 => ⟨S_, .i32⟩
  | 44 => ⟨S65536, .i32⟩
  | 45 => ⟨S65536, .i1⟩
  | 46 => ⟨S_, .i32⟩
  | 47 => ⟨S65536, .i32⟩
  | 48 => ⟨S65536, .i32⟩
  | 49 => ⟨S65536, .i32⟩
  | 50 => ⟨S65536x1, .i32⟩
  | 51 => ⟨S74752x4, .f32⟩
  | 52 => ⟨S_, .i32⟩
  | 53 => ⟨S74752, .i32⟩
  | 54 => ⟨S_, .i32⟩
  | 55 => ⟨S65536, .i32⟩
  | 56 => ⟨S65536, .i1⟩
  | 57 => ⟨S_, .i32⟩
  | 58 => ⟨S65536, .i32⟩
  | 59 => ⟨S65536, .i32⟩
  | 60 => ⟨S65536, .i32⟩
  | 61 => ⟨S65536x1, .i32⟩
  | 62 => ⟨S74752, .i32⟩
  | 63 => ⟨S_, .i32⟩
  | 64 => ⟨S74752, .i32⟩
  | 65 => ⟨S_, .i32⟩
  | 66 => ⟨S65536, .i32⟩
  | 67 => ⟨S65536, .i1⟩
  | 68 => ⟨S_, .i32⟩
  | 69 => ⟨S65536, .i32⟩
  | 70 => ⟨S65536, .i32⟩
  | 71 => ⟨S65536, .i32⟩
  | 72 => ⟨S65536x1, .i32⟩
  | 73 => ⟨S74752, .i32⟩
  | 74 => ⟨S14x512, .bf16⟩
  | 75 => ⟨S_, .i32⟩
  | 76 => ⟨S74752, .i32⟩
  | 77 => ⟨S74752, .i1⟩
  | 78 => ⟨S_, .i32⟩
  | 79 => ⟨S74752, .i32⟩
  | 80 => ⟨S74752, .i32⟩
  | 81 => ⟨S74752, .i32⟩
  | 82 => ⟨S74752x1, .i32⟩
  | 83 => ⟨S74752x512, .bf16⟩
  | 84 => ⟨S4x512, .bf16⟩
  | 85 => ⟨S_, .i32⟩
  | 86 => ⟨S74752, .i32⟩
  | 87 => ⟨S74752, .i1⟩
  | 88 => ⟨S_, .i32⟩
  | 89 => ⟨S74752, .i32⟩
  | 90 => ⟨S74752, .i32⟩
  | 91 => ⟨S74752, .i32⟩
  | 92 => ⟨S74752x1, .i32⟩
  | 93 => ⟨S74752x512, .bf16⟩
  | 94 => ⟨S_, .i32⟩
  | 95 => ⟨S65536, .i32⟩
  | 96 => ⟨S_, .i32⟩
  | 97 => ⟨S65536, .i32⟩
  | 98 => ⟨S65536, .i1⟩
  | 99 => ⟨S_, .i32⟩
  | 100 => ⟨S65536, .i32⟩
  | 101 => ⟨S65536, .i32⟩
  | 102 => ⟨S65536, .i32⟩
  | 103 => ⟨S65536x1, .i32⟩
  | 104 => ⟨S65536, .i32⟩
  | 105 => ⟨S9x4x512, .bf16⟩
  | 106 => ⟨S9x512x512, .bf16⟩
  | 107 => ⟨S1536x512, .bf16⟩
  | 108 => ⟨S74752x512, .f32⟩
  | 109 => ⟨S_, .i32⟩
  | 110 => ⟨S65536, .i32⟩
  | 111 => ⟨S65536, .i1⟩
  | 112 => ⟨S_, .i32⟩
  | 113 => ⟨S65536, .i32⟩
  | 114 => ⟨S65536, .i32⟩
  | 115 => ⟨S65536, .i32⟩
  | 116 => ⟨S65536x1, .i32⟩
  | 117 => ⟨S65536x512, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | .local _ .vmem, ⟨0, _⟩ => ⟨S1024x4, .f32⟩
  | .local _ .vmem, ⟨1, _⟩ => ⟨S1024x4, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S9x4x512, .bf16⟩
  | .local _ .vmem, ⟨7, _⟩ => ⟨S9x512, .f32⟩
  | .local _ .vmem, ⟨8, _⟩ => ⟨S9x512x512, .bf16⟩
  | .local _ .vmem, ⟨9, _⟩ => ⟨S9x512, .f32⟩
  | .local _ .vmem, ⟨10, _⟩ => ⟨S1536x512, .bf16⟩
  | .local _ .vmem, ⟨11, _⟩ => ⟨S512, .f32⟩
  | .local _ .vmem, ⟨12, _⟩ => ⟨S1024x512, .f32⟩
  | .local _ .vmem, ⟨13, _⟩ => ⟨S1024x512, .f32⟩
  | .local _ .smem, ⟨0, _⟩ => ⟨S73, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1_0 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_10 : Ref sig .tc := ⟨.hbm, 58, rfl⟩
abbrev main_v31 : Ref sig .tc := ⟨.hbm, 59, rfl⟩
abbrev main_v32 : Ref sig .tc := ⟨.hbm, 60, rfl⟩
abbrev main_c_11 : Ref sig .tc := ⟨.hbm, 61, rfl⟩
abbrev main_v33 : Ref sig .tc := ⟨.hbm, 62, rfl⟩
abbrev main_v34 : Ref sig .tc := ⟨.hbm, 63, rfl⟩
abbrev main_c_12 : Ref sig .tc := ⟨.hbm, 64, rfl⟩
abbrev main_v35 : Ref sig .tc := ⟨.hbm, 65, rfl⟩
abbrev main_v36 : Ref sig .tc := ⟨.hbm, 66, rfl⟩
abbrev main_c_13 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v37 : Ref sig .tc := ⟨.hbm, 84, rfl⟩
abbrev main_c_14 : Ref sig .tc := ⟨.hbm, 85, rfl⟩
abbrev main_v38 : Ref sig .tc := ⟨.hbm, 86, rfl⟩
abbrev main_call3_call0_c : Ref sig .tc := ⟨.hbm, 87, rfl⟩
abbrev main_call3_call0_v0 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_15 : Ref sig .tc := ⟨.hbm, 92, rfl⟩
abbrev main_v42 : Ref sig .tc := ⟨.hbm, 93, rfl⟩
abbrev main_call4_call0_c : Ref sig .tc := ⟨.hbm, 94, rfl⟩
abbrev main_call4_call0_v0 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_c_16 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_c_17 : Ref sig .tc := ⟨.hbm, 103, rfl⟩
abbrev main_v49 : Ref sig .tc := ⟨.hbm, 104, rfl⟩
abbrev main_v50 : Ref sig .tc := ⟨.hbm, 105, rfl⟩
abbrev main_c_18 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_19 : Ref sig .tc := ⟨.hbm, 112, rfl⟩
abbrev main_v56 : Ref sig .tc := ⟨.hbm, 113, rfl⟩
abbrev main_v57 : Ref sig .tc := ⟨.hbm, 114, rfl⟩
abbrev main_c_20 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_21 : Ref sig .tc := ⟨.hbm, 130, rfl⟩
abbrev main_v72 : Ref sig .tc := ⟨.hbm, 131, rfl⟩
abbrev main_c_22 : Ref sig .tc := ⟨.hbm, 132, rfl⟩
abbrev main_v73 : Ref sig .tc := ⟨.hbm, 133, rfl⟩
abbrev main_v74 : Ref sig .tc := ⟨.hbm, 134, rfl⟩
abbrev main_c_23 : Ref sig .tc := ⟨.hbm, 135, rfl⟩
abbrev main_c_24 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_c_25 : Ref sig .tc := ⟨.hbm, 142, rfl⟩
abbrev main_v76 : Ref sig .tc := ⟨.hbm, 143, rfl⟩
abbrev main_v77 : Ref sig .tc := ⟨.hbm, 144, rfl⟩
abbrev main_c_26 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_c_27 : Ref sig .tc := ⟨.hbm, 151, rfl⟩
abbrev main_v83 : Ref sig .tc := ⟨.hbm, 152, rfl⟩
abbrev main_v84 : Ref sig .tc := ⟨.hbm, 153, rfl⟩
abbrev main_c_28 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_c_29 : Ref sig .tc := ⟨.hbm, 160, rfl⟩
abbrev main_v90 : Ref sig .tc := ⟨.hbm, 161, rfl⟩
abbrev main_v91 : Ref sig .tc := ⟨.hbm, 162, rfl⟩
abbrev main_c_30 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_31 : Ref sig .tc := ⟨.hbm, 169, rfl⟩
abbrev main_v97 : Ref sig .tc := ⟨.hbm, 170, rfl⟩
abbrev main_c_32 : Ref sig .tc := ⟨.hbm, 171, rfl⟩
abbrev main_v98 : Ref sig .tc := ⟨.hbm, 172, rfl⟩
abbrev main_v99 : Ref sig .tc := ⟨.hbm, 173, rfl⟩
abbrev main_c_33 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_c_34 : Ref sig .tc := ⟨.hbm, 180, rfl⟩
abbrev main_v105 : Ref sig .tc := ⟨.hbm, 181, rfl⟩
abbrev main_c_35 : Ref sig .tc := ⟨.hbm, 182, rfl⟩
abbrev main_v106 : Ref sig .tc := ⟨.hbm, 183, rfl⟩
abbrev main_v107 : Ref sig .tc := ⟨.hbm, 184, rfl⟩
abbrev main_c_36 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_c_37 : Ref sig .tc := ⟨.hbm, 191, rfl⟩
abbrev main_v113 : Ref sig .tc := ⟨.hbm, 192, rfl⟩
abbrev main_c_38 : Ref sig .tc := ⟨.hbm, 193, rfl⟩
abbrev main_v114 : Ref sig .tc := ⟨.hbm, 194, rfl⟩
abbrev main_v115 : Ref sig .tc := ⟨.hbm, 195, rfl⟩
abbrev main_c_39 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_c_40 : Ref sig .tc := ⟨.hbm, 203, rfl⟩
abbrev main_v122 : Ref sig .tc := ⟨.hbm, 204, rfl⟩
abbrev main_v123 : Ref sig .tc := ⟨.hbm, 205, rfl⟩
abbrev main_c_41 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_c_42 : Ref sig .tc := ⟨.hbm, 213, rfl⟩
abbrev main_v130 : Ref sig .tc := ⟨.hbm, 214, rfl⟩
abbrev main_v131 : Ref sig .tc := ⟨.hbm, 215, rfl⟩
abbrev main_c_43 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_c_44 : Ref sig .tc := ⟨.hbm, 222, rfl⟩
abbrev main_v137 : Ref sig .tc := ⟨.hbm, 223, rfl⟩
abbrev main_c_45 : Ref sig .tc := ⟨.hbm, 224, rfl⟩
abbrev main_v138 : Ref sig .tc := ⟨.hbm, 225, rfl⟩
abbrev main_v139 : Ref sig .tc := ⟨.hbm, 226, rfl⟩
abbrev main_c_46 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_c_47 : Ref sig .tc := ⟨.hbm, 237, rfl⟩
abbrev main_v149 : Ref sig .tc := ⟨.hbm, 238, rfl⟩
abbrev main_v150 : Ref sig .tc := ⟨.hbm, 239, rfl⟩
abbrev main_c_48 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v75 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![73], ![false]⟩

abbrev pre0 : Pipeline.Prefetch sig := ⟨1, ![main_v75.idx], fun | 0 => main_v75.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v5 : Index := Scalar.indexCast v1
  let c0_1 : Index := 0#32
  let c0_2 : Index := 0#32
  ![v5.toNat, 0, 0]

def k0_off3 (v1 : BitVec 32) : Fin 2 → Nat :=
  let v8 : Index := Scalar.indexCast v1
  let c0_3 : Index := 0#32
  ![v8.toNat, 0]
def k0_off4 (v1 : BitVec 32) : Fin 3 → Nat :=
  let v11 : Index := Scalar.indexCast v1
  let c0_4 : Index := 0#32
  let c0_5 : Index := 0#32
  ![v11.toNat, 0, 0]

def k0_chk1 (v1 : BitVec 32) : Prop :=
  (∀ a, (k0_off2 v1) a + S1x4x512.size a ≤ S9x4x512.size a) ∧
  (∀ a, (k0_off3 v1) a + S1x512.size a ≤ S9x512.size a) ∧
  (∀ a, (k0_off4 v1) a + S1x512x512.size a ≤ S9x512x512.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x4x512.size a ≤ S9x4x512.size a := fun v1 k0_hw1 => k0_hw1.1
theorem k0_off3_inb : ∀ (v1 : BitVec 32) (k0_hw1 : k0_chk1 v1), ∀ a, (k0_off3 v1) a + S1x512.size a ≤ S9x512.size a := fun v1 k0_hw1 => k0_hw1.2.1
theorem k0_off4_inb : ∀ (v1 : BitVec 32) (k0_hw1 : k0_chk1 v1), ∀ a, (k0_off4 v1) a + S1x512x512.size a ≤ S9x512x512.size a := fun v1 k0_hw1 => k0_hw1.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S9 : S_.BroadcastsInDim S9 (![] : Fin 0 → Fin S9.rank)
  bcast_S_S1 : S_.BroadcastsInDim S1 (![] : Fin 0 → Fin S1.rank)
  bcast_S_S_ : S_.BroadcastsInDim S_ (![] : Fin 0 → Fin S_.rank)
  reduceWindows_S9_S9_w9s1p8_0 : S9.ReduceWindows (![9] : Fin 1 → Nat) ![1] ![8] ![0] S9
  h_S_ : 0 < S_.numel
  slices_S9_S8_0 : S9.Slices ![0] S8
  concatenates_S1_S8_S9_d0 : Shape.Concatenates [S1, S8] S9 0
  bcast_S9_S9x1_0 : S9.BroadcastsInDim S9x1 (![0] : Fin 1 → Fin S9x1.rank)
  bcast_S73_S1x73_1 : S73.BroadcastsInDim S1x73 (![1] : Fin 1 → Fin S1x73.rank)
  bcast_S9x1_S9x73_0_1 : S9x1.BroadcastsInDim S9x73 (![0, 1] : Fin 2 → Fin S9x73.rank)
  bcast_S1x73_S9x73_0_1 : S1x73.BroadcastsInDim S9x73 (![0, 1] : Fin 2 → Fin S9x73.rank)
  natLt_1_32 : 1 < 32
  reducesTo_S9x73_S73_d0 : S9x73.ReducesTo [0] S73
  bcast_S_S73 : S_.BroadcastsInDim S73 (![] : Fin 0 → Fin S73.rank)
  bcast_S_S74752x4 : S_.BroadcastsInDim S74752x4 (![] : Fin 0 → Fin S74752x4.rank)
  bcast_S_S74752 : S_.BroadcastsInDim S74752 (![] : Fin 0 → Fin S74752.rank)
  bitsLt_bf16_f32 : FTy.bits .bf16 < FTy.bits .f32
  bcast_S74752_S74752x1_0 : S74752.BroadcastsInDim S74752x1 (![0] : Fin 1 → Fin S74752x1.rank)
  numel1_S1 : S1.numel = 1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  h_S1x4x512 : 0 < S1x4x512.numel
  shapeCasts_S1x4x512_S4x512 : S1x4x512.ShapeCasts S4x512
  h_S1x512 : 0 < S1x512.numel
  shapeCasts_S1x512_S512 : S1x512.ShapeCasts S512
  h_S1x512x512 : 0 < S1x512x512.numel
  shapeCasts_S1x512x512_S512x512 : S1x512x512.ShapeCasts S512x512
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1536x512_S512x512_0_0 : ∀ a, (![0, 0] : Fin 2 → Nat) a + S512x512.size a ≤ S1536x512.size a
  h_S512x512 : 0 < S512x512.numel
  shapeCasts_S512x512_S512x512 : S512x512.ShapeCasts S512x512
  inb_S1536x512_S512x512_512_0 : ∀ a, (![512, 0] : Fin 2 → Nat) a + S512x512.size a ≤ S1536x512.size a
  inb_S1536x512_S512x512_1024_0 : ∀ a, (![1024, 0] : Fin 2 → Nat) a + S512x512.size a ≤ S1536x512.size a
  inb_S512_S512_0 : ∀ a, (![0] : Fin 1 → Nat) a + S512.size a ≤ S512.size a
  h_S512 : 0 < S512.numel
  gather_S14_S65536x1_S65536_n_0_n_n_0_1_1_wf : GatherDims.WF S14 S65536x1 S65536 [] [0] [] [0] [] 1 ![1]
  gather_S9x4_S65536x1_S65536x4_1_0_n_n_0_1_14_wf : GatherDims.WF S9x4 S65536x1 S65536x4 [1] [0] [] [0] [] 1 ![1, 4]
  gather_S65536_S65536x1_S65536_n_0_n_n_0_1_1_wf : GatherDims.WF S65536 S65536x1 S65536 [] [0] [] [0] [] 1 ![1]
  scatter_S9_S65536x1_S65536_n_0_0_1_wf : ScatterDims.WF S9 S65536x1 S65536 [] [0] [0] 1
  gather_S9_S65536x1_S65536_n_0_n_n_0_1_1_wf : GatherDims.WF S9 S65536x1 S65536 [] [0] [] [0] [] 1 ![1]
  gather_S65536x4_S65536x1_S65536x4_1_0_n_n_0_1_14_wf : GatherDims.WF S65536x4 S65536x1 S65536x4 [1] [0] [] [0] [] 1 ![1, 4]
  scatter_S74752x4_S65536x1_S65536x4_1_0_0_1_wf : ScatterDims.WF S74752x4 S65536x1 S65536x4 [1] [0] [0] 1
  scatter_S74752_S65536x1_S65536_n_0_0_1_wf : ScatterDims.WF S74752 S65536x1 S65536 [] [0] [0] 1
  gather_S14x512_S74752x1_S74752x512_1_0_n_n_0_1_1512_wf : GatherDims.WF S14x512 S74752x1 S74752x512 [1] [0] [] [0] [] 1 ![1, 512]
  gather_S4x512_S74752x1_S74752x512_1_0_n_n_0_1_1512_wf : GatherDims.WF S4x512 S74752x1 S74752x512 [1] [0] [] [0] [] 1 ![1, 512]
  scatter_S65536_S65536x1_S65536_n_0_0_1_wf : ScatterDims.WF S65536 S65536x1 S65536 [] [0] [0] 1
  dot_S1024x4_S4x512_S1024x512_1_0_0_1_n_n_wf : DotDims.WF S1024x4 S4x512 S1024x512 [1] [0] [0] [1] [] []
  dot_S1024x512_S512x512_S1024x512_1_0_0_1_n_n_wf : DotDims.WF S1024x512 S512x512 S1024x512 [1] [0] [0] [1] [] []
  gather_S74752x512_S65536x1_S65536x512_1_0_n_n_0_1_1512_wf : GatherDims.WF S74752x512 S65536x1 S65536x512 [1] [0] [] [0] [] 1 ![1, 512]
  hrank0 : 0 < grid0.rank
  k0_off1_inb : ∀ i : grid0.Coords, ∀ a, (k0_off1 i) a + S1.size a ≤ S73.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S74752x4.size a
  hwx0_0 : ∀ i : grid0.Coords, EltTy.bits .f32 = 32 ∨ (Rect.block (s := S74752x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S74752x512.size a
  hwx0_1 : ∀ i : grid0.Coords, EltTy.bits .bf16 = 32 ∨ (Rect.block (s := S74752x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S74752x512.size a
  hwx0_2 : ∀ i : grid0.Coords, EltTy.bits .bf16 = 32 ∨ (Rect.block (s := S74752x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x4x512.size a ≤ S9x4x512.size a
  hwx0_3 : ∀ i : grid0.Coords, EltTy.bits .bf16 = 32 ∨ (Rect.block (s := S9x4x512) S9x4x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x512.size a ≤ S9x512.size a
  hwx0_4 : ∀ i : grid0.Coords, EltTy.bits .f32 = 32 ∨ (Rect.block (s := S9x512) S9x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x512x512.size a ≤ S9x512x512.size a
  hwx0_5 : ∀ i : grid0.Coords, EltTy.bits .bf16 = 32 ∨ (Rect.block (s := S9x512x512) S9x512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x512.size a ≤ S9x512.size a
  hwx0_6 : ∀ i : grid0.Coords, EltTy.bits .f32 = 32 ∨ (Rect.block (s := S9x512) S9x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x512.size a ≤ S1536x512.size a
  hwx0_7 : ∀ i : grid0.Coords, EltTy.bits .bf16 = 32 ∨ (Rect.block (s := S1536x512) S1536x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S74752x512.size a
  hwx0_9 : ∀ i : grid0.Coords, EltTy.bits .f32 = 32 ∨ (Rect.block (s := S74752x512) S1024x512.size (cc0_transform_9 i) (hinb0_9 i)).WholeWords (EltTy.packing .f32)

variable [Facts₀]

def gather_S14_S65536x1_S65536_n_0_n_n_0_1_1 : GatherDims S14 S65536x1 S65536 where
  offsetDims := []
  collapsedSliceDims := [0]
  operandBatchingDims := []
  startIndicesBatchingDims := []
  startIndexMap := [0]
  indexVectorDim := 1
  sliceSizes := ![1]
  wf := gather_S14_S65536x1_S65536_n_0_n_n_0_1_1_wf
def gather_S9x4_S65536x1_S65536x4_1_0_n_n_0_1_14 : GatherDims S9x4 S65536x1 S65536x4 where
  offsetDims := [1]
  collapsedSliceDims := [0]
  operandBatchingDims := []
  startIndicesBatchingDims := []
  startIndexMap := [0]
  indexVectorDim := 1
  sliceSizes := ![1, 4]
  wf := gather_S9x4_S65536x1_S65536x4_1_0_n_n_0_1_14_wf
def comparator_i32_i32_d0 : BitVec 32 × BitVec 32 → BitVec 32 × BitVec 32 → BitVec 1 :=
  fun l r =>
    let v2 := IntOp.cmpi .slt l.1 r.1
    v2
def gather_S65536_S65536x1_S65536_n_0_n_n_0_1_1 : GatherDims S65536 S65536x1 S65536 where
  offsetDims := []
  collapsedSliceDims := [0]
  operandBatchingDims := []
  startIndicesBatchingDims := []
  startIndexMap := [0]
  indexVectorDim := 1
  sliceSizes := ![1]
  wf := gather_S65536_S65536x1_S65536_n_0_n_n_0_1_1_wf
def scatter_S9_S65536x1_S65536_n_0_0_1 : ScatterDims S9 S65536x1 S65536 where
  updateWindowDims := []
  insertedWindowDims := [0]
  scatterDimsToOperandDims := [0]
  indexVectorDim := 1
  wf := scatter_S9_S65536x1_S65536_n_0_0_1_wf
def gather_S9_S65536x1_S65536_n_0_n_n_0_1_1 : GatherDims S9 S65536x1 S65536 where
  offsetDims := []
  collapsedSliceDims := [0]
  operandBatchingDims := []
  startIndicesBatchingDims := []
  startIndexMap := [0]
  indexVectorDim := 1
  sliceSizes := ![1]
  wf := gather_S9_S65536x1_S65536_n_0_n_n_0_1_1_wf
def gather_S65536x4_S65536x1_S65536x4_1_0_n_n_0_1_14 : GatherDims S65536x4 S65536x1 S65536x4 where
  offsetDims := [1]
  collapsedSliceDims := [0]
  operandBatchingDims := []
  startIndicesBatchingDims := []
  startIndexMap := [0]
  indexVectorDim := 1
  sliceSizes := ![1, 4]
  wf := gather_S65536x4_S65536x1_S65536x4_1_0_n_n_0_1_14_wf
def scatter_S74752x4_S65536x1_S65536x4_1_0_0_1 : ScatterDims S74752x4 S65536x1 S65536x4 where
  updateWindowDims := [1]
  insertedWindowDims := [0]
  scatterDimsToOperandDims := [0]
  indexVectorDim := 1
  wf := scatter_S74752x4_S65536x1_S65536x4_1_0_0_1_wf
def scatter_S74752_S65536x1_S65536_n_0_0_1 : ScatterDims S74752 S65536x1 S65536 where
  updateWindowDims := []
  insertedWindowDims := [0]
  scatterDimsToOperandDims := [0]
  indexVectorDim := 1
  wf := scatter_S74752_S65536x1_S65536_n_0_0_1_wf
def gather_S14x512_S74752x1_S74752x512_1_0_n_n_0_1_1512 : GatherDims S14x512 S74752x1 S74752x512 where
  offsetDims := [1]
  collapsedSliceDims := [0]
  operandBatchingDims := []
  startIndicesBatchingDims := []
  startIndexMap := [0]
  indexVectorDim := 1
  sliceSizes := ![1, 512]
  wf := gather_S14x512_S74752x1_S74752x512_1_0_n_n_0_1_1512_wf
def gather_S4x512_S74752x1_S74752x512_1_0_n_n_0_1_1512 : GatherDims S4x512 S74752x1 S74752x512 where
  offsetDims := [1]
  collapsedSliceDims := [0]
  operandBatchingDims := []
  startIndicesBatchingDims := []
  startIndexMap := [0]
  indexVectorDim := 1
  sliceSizes := ![1, 512]
  wf := gather_S4x512_S74752x1_S74752x512_1_0_n_n_0_1_1512_wf
def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def dot_S1024x4_S4x512_S1024x512_1_0_0_1_n_n : DotDims S1024x4 S4x512 S1024x512 where
  lhsContracting := [1]
  rhsContracting := [0]
  lhsNonContracting := [0]
  rhsNonContracting := [1]
  lhsBatch := []
  rhsBatch := []
  wf := dot_S1024x4_S4x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S74752x512_S65536x1_S65536x512_1_0_n_n_0_1_1512 : GatherDims S74752x512 S65536x1 S65536x512 where
  offsetDims := [1]
  collapsedSliceDims := [0]
  operandBatchingDims := []
  startIndicesBatchingDims := []
  startIndexMap := [0]
  indexVectorDim := 1
  sliceSizes := ![1, 512]
  wf := gather_S74752x512_S65536x1_S65536x512_1_0_n_n_0_1_1512_wf

abbrev spec0_0 : Pipeline.WinSpec sig grid0.rank :=
  Pipeline.WinSpec.ofSpec (Memref.whole main_v104) S1024x4.size reads0_0 false false 2 stage0_0 sem0_0 nbuf0_0 hstage0_0

abbrev spec0_1 : Pipeline.WinSpec sig grid0.rank :=
  Pipeline.WinSpec.ofSpec (Memref.whole main_v128) S1024x512.size reads0_1 false false 2 stage0_1 sem0_1 nbuf0_1 hstage0_1

abbrev spec0_2 : Pipeline.WinSpec sig grid0.rank :=
  Pipeline.WinSpec.ofSpec (Memref.whole main_v136) S1024x512.size reads0_2 false false 2 stage0_2 sem0_2 nbuf0_2 hstage0_2

abbrev spec0_3 : Pipeline.WinSpec sig grid0.rank :=
  Pipeline.WinSpec.ofSpec (Memref.whole main_v145) S9x4x512.size reads0_3 false true 1 stage0_3 sem0_3 nbuf0_3 hstage0_3

abbrev spec0_4 : Pipeline.WinSpec sig grid0.rank :=
  Pipeline.WinSpec.ofSpec (Memref.whole main_arg6) S9x512.size reads0_4 false true 1 stage0_4 sem0_4 nbuf0_4 hstage0_4

abbrev spec0_5 : Pipeline.WinSpec sig grid0.rank :=
  Pipeline.WinSpec.ofSpec (Memref.whole main_v146) S9x512x512.size reads0_5 false true 1 stage0_5 sem0_5 nbuf0_5 hstage0_5

abbrev spec0_6 : Pipeline.WinSpec sig grid0.rank :=
  Pipeline.WinSpec.ofSpec (Memref.whole main_arg8) S9x512.size reads0_6 false true 1 stage0_6 sem0_6 nbuf0_6 hstage0_6

abbrev spec0_7 : Pipeline.WinSpec sig grid0.rank :=
  Pipeline.WinSpec.ofSpec (Memref.whole main_v147) S1536x512.size reads0_7 false true 1 stage0_7 sem0_7 nbuf0_7 hstage0_7

abbrev spec0_8 : Pipeline.WinSpec sig grid0.rank :=
  Pipeline.WinSpec.ofSpec (Memref.whole main_arg10) S512.size reads0_8 false true 1 stage0_8 sem0_8 nbuf0_8 hstage0_8

abbrev spec0_9 : Pipeline.WinSpec sig grid0.rank :=
  Pipeline.WinSpec.ofSpec (Memref.whole main_v148) S1024x512.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S65536 : Shape := ⟨1, ![65536]⟩
abbrev S65536x4 : Shape := ⟨2, ![65536, 4]⟩
abbrev S14x512 : Shape := ⟨2, ![14, 512]⟩
abbrev S4x512 : Shape := ⟨2, ![4, 512]⟩
abbrev S9x4x512 : Shape := ⟨3, ![9, 4, 512]⟩
abbrev S9x512 : Shape := ⟨2, ![9, 512]⟩
abbrev S9x512x512 : Shape := ⟨3, ![9, 512, 512]⟩
abbrev S1536x512 : Shape := ⟨2, ![1536, 512]⟩
abbrev S512 : Shape := ⟨1, ![512]⟩
abbrev S14 : Shape := ⟨1, ![14]⟩
abbrev S9x4 : Shape := ⟨2, ![9, 4]⟩
abbrev S_ : Shape := ⟨0, ![]⟩
abbrev S65536x1 : Shape := ⟨2, ![65536, 1]⟩
abbrev S65536x512 : Shape := ⟨2, ![65536, 512]⟩
abbrev S1x4x512 : Shape := ⟨3, ![1, 4, 512]⟩
abbrev S1x512 : Shape := ⟨2, ![1, 512]⟩
abbrev S1x512x512 : Shape := ⟨3, ![1, 512, 512]⟩
abbrev S512x512 : Shape := ⟨2, ![512, 512]⟩
abbrev S65536x1536 : Shape := ⟨2, ![65536, 1536]⟩

abbrev nBuf : Space → Nat
  | .hbm => 285
  | .vmem => 0
  | .smem => 0
  | _ => 0

abbrev hbmTy0_0 (i : Nat) : BufTy := match i % 128 with
  | 0 => ⟨S65536, .i32⟩
  | 1 => ⟨S65536, .i32⟩
  | 2 => ⟨S65536x4, .f32⟩
  | 3 => ⟨S14x512, .f32⟩
  | 4 => ⟨S4x512, .f32⟩
  | 5 => ⟨S9x4x512, .f32⟩
  | 6 => ⟨S9x512, .f32⟩
  | 7 => ⟨S9x512x512, .f32⟩
  | 8 => ⟨S9x512, .f32⟩
  | 9 => ⟨S1536x512, .f32⟩
  | 10 => ⟨S512, .f32⟩
  | 11 => ⟨S14, .i32⟩
  | 12 => ⟨S9x4, .f32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S65536x1, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536x4, .f32⟩
  | 31 => ⟨S65536x4, .f32⟩
  | 32 => ⟨S_, .f32⟩
  | 33 => ⟨S65536x512, .f32⟩
  | 34 => ⟨S1x4x512, .f32⟩
  | 35 => ⟨S4x512, .f32⟩
  | 36 => ⟨S65536x512, .f32⟩
  | 37 => ⟨S1x512, .f32⟩
  | 38 => ⟨S512, .f32⟩
  | 39 => ⟨S1x512, .f32⟩
  | 40 => ⟨S65536x512, .f32⟩
  | 41 => ⟨S65536x512, .f32⟩
  | 42 => ⟨S_, .f32⟩
  | 43 => ⟨S65536x512, .f32⟩
  | 44 => ⟨S65536x512, .f32⟩
  | 45 => ⟨S1x512x512, .f32⟩
  | 46 => ⟨S512x512, .f32⟩
  | 47 => ⟨S65536x512, .f32⟩
  | 48 => ⟨S1x512, .f32⟩
  | 49 => ⟨S512, .f32⟩
  | 50 => ⟨S1x512, .f32⟩
  | 51 => ⟨S65536x512, .f32⟩
  | 52 => ⟨S65536x512, .f32⟩
  | 53 => ⟨S_, .i32⟩
  | 54 => ⟨S65536, .i32⟩
  | 55 => ⟨S65536, .i1⟩
  | 56 => ⟨S65536x1, .i1⟩
  | 57 => ⟨S65536x512, .i1⟩
  | 58 => ⟨S65536x512, .f32⟩
  | 59 => ⟨S1x4x512, .f32⟩
  | 60 => ⟨S4x512, .f32⟩
  | 61 => ⟨S65536x512, .f32⟩
  | 62 => ⟨S1x512, .f32⟩
  | 63 => ⟨S512, .f32⟩
  | 64 => ⟨S1x512, .f32⟩
  | 65 => ⟨S65536x512, .f32⟩
  | 66 => ⟨S65536x512, .f32⟩
  | 67 => ⟨S_, .f32⟩
  | 68 => ⟨S65536x512, .f32⟩
  | 69 => ⟨S65536x512, .f32⟩
  | 70 => ⟨S1x512x512, .f32⟩
  | 71 => ⟨S512x512, .f32⟩
  | 72 => ⟨S65536x512, .f32⟩
  | 73 => ⟨S1x512, .f32⟩
  | 74 => ⟨S512, .f32⟩
  | 75 => ⟨S1x512, .f32⟩
  | 76 => ⟨S65536x512, .f32⟩
  | 77 => ⟨S65536x512, .f32⟩
  | 78 => ⟨S_, .i32⟩
  | 79 => ⟨S65536, .i32⟩
  | 80 => ⟨S65536, .i1⟩
  | 81 => ⟨S65536x1, .i1⟩
  | 82 => ⟨S65536x512, .i1⟩
  | 83 => ⟨S65536x512, .f32⟩
  | 84 => ⟨S1x4x512, .f32⟩
  | 85 => ⟨S4x512, .f32⟩
  | 86 => ⟨S65536x512, .f32⟩
  | 87 => ⟨S1x512, .f32⟩
  | 88 => ⟨S512, .f32⟩
  | 89 => ⟨S1x512, .f32⟩
  | 90 => ⟨S65536x512, .f32⟩
  | 91 => ⟨S65536x512, .f32⟩
  | 92 => ⟨S_, .f32⟩
  | 93 => ⟨S65536x512, .f32⟩
  | 94 => ⟨S65536x512, .f32⟩
  | 95 => ⟨S1x512x512, .f32⟩
  | 96 => ⟨S512x512, .f32⟩
  | 97 => ⟨S65536x512, .f32⟩
  | 98 => ⟨S1x512, .f32⟩
  | 99 => ⟨S512, .f32⟩
  | 100 => ⟨S1x512, .f32⟩
  | 101 => ⟨S65536x512, .f32⟩
  | 102 => ⟨S65536x512, .f32⟩
  | 103 => ⟨S_, .i32⟩
  | 104 => ⟨S65536, .i32⟩
  | 105 => ⟨S65536, .i1⟩
  | 106 => ⟨S65536x1, .i1⟩
  | 107 => ⟨S65536x512, .i1⟩
  | 108 => ⟨S65536x512, .f32⟩
  | 109 => ⟨S1x4x512, .f32⟩
  | 110 => ⟨S4x512, .f32⟩
  | 111 => ⟨S65536x512, .f32⟩
  | 112 => ⟨S1x512, .f32⟩
  | 113 => ⟨S512, .f32⟩
  | 114 => ⟨S1x512, .f32⟩
  | 115 => ⟨S65536x512, .f32⟩
  | 116 => ⟨S65536x512, .f32⟩
  | 117 => ⟨S_, .f32⟩
  | 118 => ⟨S65536x512, .f32⟩
  | 119 => ⟨S65536x512, .f32⟩
  | 120 => ⟨S1x512x512, .f32⟩
  | 121 => ⟨S512x512, .f32⟩
  | 122 => ⟨S65536x512, .f32⟩
  | 123 => ⟨S1x512, .f32⟩
  | 124 => ⟨S512, .f32⟩
  | 125 => ⟨S1x512, .f32⟩
  | 126 => ⟨S65536x512, .f32⟩
  | 127 => ⟨S65536x512, .f32⟩
  | _ => ⟨S65536, .i32⟩

abbrev hbmTy0_1 (i : Nat) : BufTy := match i % 128 with
  | 0 => ⟨S_, .i32⟩
  | 1 => ⟨S65536, .i32⟩
  | 2 => ⟨S65536, .i1⟩
  | 3 => ⟨S65536x1, .i1⟩
  | 4 => ⟨S65536x512, .i1⟩
  | 5 => ⟨S65536x512, .f32⟩
  | 6 => ⟨S1x4x512, .f32⟩
  | 7 => ⟨S4x512, .f32⟩
  | 8 => ⟨S65536x512, .f32⟩
  | 9 => ⟨S1x512, .f32⟩
  | 10 => ⟨S512, .f32⟩
  | 11 => ⟨S1x512, .f32⟩
  | 12 => ⟨S65536x512, .f32⟩
  | 13 => ⟨S65536x512, .f32⟩
  | 14 => ⟨S_, .f32⟩
  | 15 => ⟨S65536x512, .f32⟩
  | 16 => ⟨S65536x512, .f32⟩
  | 17 => ⟨S1x512x512, .f32⟩
  | 18 => ⟨S512x512, .f32⟩
  | 19 => ⟨S65536x512, .f32⟩
  | 20 => ⟨S1x512, .f32⟩
  | 21 => ⟨S512, .f32⟩
  | 22 => ⟨S1x512, .f32⟩
  | 23 => ⟨S65536x512, .f32⟩
  | 24 => ⟨S65536x512, .f32⟩
  | 25 => ⟨S_, .i32⟩
  | 26 => ⟨S65536, .i32⟩
  | 27 => ⟨S65536, .i1⟩
  | 28 => ⟨S65536x1, .i1⟩
  | 29 => ⟨S65536x512, .i1⟩
  | 30 => ⟨S65536x512, .f32⟩
  | 31 => ⟨S1x4x512, .f32⟩
  | 32 => ⟨S4x512, .f32⟩
  | 33 => ⟨S65536x512, .f32⟩
  | 34 => ⟨S1x512, .f32⟩
  | 35 => ⟨S512, .f32⟩
  | 36 => ⟨S1x512, .f32⟩
  | 37 => ⟨S65536x512, .f32⟩
  | 38 => ⟨S65536x512, .f32⟩
  | 39 => ⟨S_, .f32⟩
  | 40 => ⟨S65536x512, .f32⟩
  | 41 => ⟨S65536x512, .f32⟩
  | 42 => ⟨S1x512x512, .f32⟩
  | 43 => ⟨S512x512, .f32⟩
  | 44 => ⟨S65536x512, .f32⟩
  | 45 => ⟨S1x512, .f32⟩
  | 46 => ⟨S512, .f32⟩
  | 47 => ⟨S1x512, .f32⟩
  | 48 => ⟨S65536x512, .f32⟩
  | 49 => ⟨S65536x512, .f32⟩
  | 50 => ⟨S_, .i32⟩
  | 51 => ⟨S65536, .i32⟩
  | 52 => ⟨S65536, .i1⟩
  | 53 => ⟨S65536x1, .i1⟩
  | 54 => ⟨S65536x512, .i1⟩
  | 55 => ⟨S65536x512, .f32⟩
  | 56 => ⟨S1x4x512, .f32⟩
  | 57 => ⟨S4x512, .f32⟩
  | 58 => ⟨S65536x512, .f32⟩
  | 59 => ⟨S1x512, .f32⟩
  | 60 => ⟨S512, .f32⟩
  | 61 => ⟨S1x512, .f32⟩
  | 62 => ⟨S65536x512, .f32⟩
  | 63 => ⟨S65536x512, .f32⟩
  | 64 => ⟨S_, .f32⟩
  | 65 => ⟨S65536x512, .f32⟩
  | 66 => ⟨S65536x512, .f32⟩
  | 67 => ⟨S1x512x512, .f32⟩
  | 68 => ⟨S512x512, .f32⟩
  | 69 => ⟨S65536x512, .f32⟩
  | 70 => ⟨S1x512, .f32⟩
  | 71 => ⟨S512, .f32⟩
  | 72 => ⟨S1x512, .f32⟩
  | 73 => ⟨S65536x512, .f32⟩
  | 74 => ⟨S65536x512, .f32⟩
  | 75 => ⟨S_, .i32⟩
  | 76 => ⟨S65536, .i32⟩
  | 77 => ⟨S65536, .i1⟩
  | 78 => ⟨S65536x1, .i1⟩
  | 79 => ⟨S65536x512, .i1⟩
  | 80 => ⟨S65536x512, .f32⟩
  | 81 => ⟨S1x4x512, .f32⟩
  | 82 => ⟨S4x512, .f32⟩
  | 83 => ⟨S65536x512, .f32⟩
  | 84 => ⟨S1x512, .f32⟩
  | 85 => ⟨S512, .f32⟩
  | 86 => ⟨S1x512, .f32⟩
  | 87 => ⟨S65536x512, .f32⟩
  | 88 => ⟨S65536x512, .f32⟩
  | 89 => ⟨S_, .f32⟩
  | 90 => ⟨S65536x512, .f32⟩
  | 91 => ⟨S65536x512, .f32⟩
  | 92 => ⟨S1x512x512, .f32⟩
  | 93 => ⟨S512x512, .f32⟩
  | 94 => ⟨S65536x512, .f32⟩
  | 95 => ⟨S1x512, .f32⟩
  | 96 => ⟨S512, .f32⟩
  | 97 => ⟨S1x512, .f32⟩
  | 98 => ⟨S65536x512, .f32⟩
  | 99 => ⟨S65536x512, .f32⟩
  | 100 => ⟨S_, .i32⟩
  | 101 => ⟨S65536, .i32⟩
  | 102 => ⟨S65536, .i1⟩
  | 103 => ⟨S65536x1, .i1⟩
  | 104 => ⟨S65536x512, .i1⟩
  | 105 => ⟨S65536x512, .f32⟩
  | 106 => ⟨S1x4x512, .f32⟩
  | 107 => ⟨S4x512, .f32⟩
  | 108 => ⟨S65536x512, .f32⟩
  | 109 => ⟨S1x512, .f32⟩
  | 110 => ⟨S512, .f32⟩
  | 111 => ⟨S1x512, .f32⟩
  | 112 => ⟨S65536x512, .f32⟩
  | 113 => ⟨S65536x512, .f32⟩
  | 114 => ⟨S_, .f32⟩
  | 115 => ⟨S65536x512, .f32⟩
  | 116 => ⟨S65536x512, .f32⟩
  | 117 => ⟨S1x512x512, .f32⟩
  | 118 => ⟨S512x512, .f32⟩
  | 119 => ⟨S65536x512, .f32⟩
  | 120 => ⟨S1x512, .f32⟩
  | 121 => ⟨S512, .f32⟩
  | 122 => ⟨S1x512, .f32⟩
  | 123 => ⟨S65536x512, .f32⟩
  | 124 => ⟨S65536x512, .f32⟩
  | 125 => ⟨S_, .i32⟩
  | 126 => ⟨S65536, .i32⟩
  | 127 => ⟨S65536, .i1⟩
  | _ => ⟨S65536, .i32⟩

abbrev hbmTy0_2 (i : Nat) : BufTy := match i % 128 with
  | 0 => ⟨S65536x1, .i1⟩
  | 1 => ⟨S65536x512, .i1⟩
  | 2 => ⟨S65536x512, .f32⟩
  | 3 => ⟨S_, .i32⟩
  | 4 => ⟨S65536, .i32⟩
  | 5 => ⟨S65536, .i1⟩
  | 6 => ⟨S_, .i32⟩
  | 7 => ⟨S65536, .i32⟩
  | 8 => ⟨S65536, .i32⟩
  | 9 => ⟨S65536, .i32⟩
  | 10 => ⟨S65536x1, .i32⟩
  | 11 => ⟨S65536x512, .f32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x512, .f32⟩
  | 21 => ⟨S65536x1536, .f32⟩
  | 22 => ⟨S65536x512, .f32⟩
  | 23 => ⟨S1x512, .f32⟩
  | 24 => ⟨S65536x512, .f32⟩
  | 25 => ⟨S65536x512, .f32⟩
  | 26 => ⟨S_, .f32⟩
  | 27 => ⟨S65536x512, .f32⟩
  | 28 => ⟨S65536x512, .f32⟩
  | _ => ⟨S65536, .i32⟩

abbrev hbmTy (i : Nat) : BufTy := match i / 128 with
  | 0 => hbmTy0_0 i
  | 1 => hbmTy0_1 i
  | 2 => hbmTy0_2 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call3_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call4_cst : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_7 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call5_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call6_cst : Ref sig .tc := ⟨.hbm, 117, rfl⟩
abbrev main_call6_v0 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_8 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call7_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call8_cst : Ref sig .tc := ⟨.hbm, 142, rfl⟩
abbrev main_call8_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_9 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_call9_v0 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_call10_cst : Ref sig .tc := ⟨.hbm, 167, rfl⟩
abbrev main_call10_v0 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_10 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_call11_v0 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_call12_cst : Ref sig .tc := ⟨.hbm, 192, rfl⟩
abbrev main_call12_v0 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_c_11 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_call13_v0 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_call14_cst : Ref sig .tc := ⟨.hbm, 217, rfl⟩
abbrev main_call14_v0 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_c_12 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_call15_v0 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_call16_cst : Ref sig .tc := ⟨.hbm, 242, rfl⟩
abbrev main_call16_v0 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_c_13 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_call17_v0 : Ref sig .tc := ⟨.hbm, 257, rfl⟩
abbrev main_v204 : Ref sig .tc := ⟨.hbm, 258, rfl⟩
abbrev main_c_14 : Ref sig .tc := ⟨.hbm, 259, rfl⟩
abbrev main_v205 : Ref sig .tc := ⟨.hbm, 260, rfl⟩
abbrev main_v206 : Ref sig .tc := ⟨.hbm, 261, rfl⟩
abbrev main_c_15 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_c_16 : Ref sig .tc := ⟨.hbm, 268, rfl⟩
abbrev main_v212 : Ref sig .tc := ⟨.hbm, 269, rfl⟩
abbrev main_v213 : Ref sig .tc := ⟨.hbm, 270, rfl⟩
abbrev main_c_17 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_call18_cst : Ref sig .tc := ⟨.hbm, 282, rfl⟩
abbrev main_call18_v0 : Ref sig .tc := ⟨.hbm, 283, rfl⟩
abbrev main_v224 : Ref sig .tc := ⟨.hbm, 284, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x512 : S_.BroadcastsInDim S65536x512 (![] : Fin 0 → Fin S65536x512.rank)
  slices_S9x4x512_S1x4x512_0_0_0 : S9x4x512.Slices ![0, 0, 0] S1x4x512
  shapeCasts_S1x4x512_S4x512 : S1x4x512.ShapeCasts S4x512
  slices_S9x512_S1x512_0_0 : S9x512.Slices ![0, 0] S1x512
  shapeCasts_S1x512_S512 : S1x512.ShapeCasts S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S9x512x512_S1x512x512_0_0_0 : S9x512x512.Slices ![0, 0, 0] S1x512x512
  shapeCasts_S1x512x512_S512x512 : S1x512x512.ShapeCasts S512x512
  bcast_S65536x1_S65536x512_0_1 : S65536x1.BroadcastsInDim S65536x512 (![0, 1] : Fin 2 → Fin S65536x512.rank)
  slices_S9x4x512_S1x4x512_1_0_0 : S9x4x512.Slices ![1, 0, 0] S1x4x512
  slices_S9x512_S1x512_1_0 : S9x512.Slices ![1, 0] S1x512
  slices_S9x512x512_S1x512x512_1_0_0 : S9x512x512.Slices ![1, 0, 0] S1x512x512
  slices_S9x4x512_S1x4x512_2_0_0 : S9x4x512.Slices ![2, 0, 0] S1x4x512
  slices_S9x512_S1x512_2_0 : S9x512.Slices ![2, 0] S1x512
  slices_S9x512x512_S1x512x512_2_0_0 : S9x512x512.Slices ![2, 0, 0] S1x512x512
  slices_S9x4x512_S1x4x512_3_0_0 : S9x4x512.Slices ![3, 0, 0] S1x4x512
  slices_S9x512_S1x512_3_0 : S9x512.Slices ![3, 0] S1x512
  slices_S9x512x512_S1x512x512_3_0_0 : S9x512x512.Slices ![3, 0, 0] S1x512x512
  slices_S9x4x512_S1x4x512_4_0_0 : S9x4x512.Slices ![4, 0, 0] S1x4x512
  slices_S9x512_S1x512_4_0 : S9x512.Slices ![4, 0] S1x512
  slices_S9x512x512_S1x512x512_4_0_0 : S9x512x512.Slices ![4, 0, 0] S1x512x512
  slices_S9x4x512_S1x4x512_5_0_0 : S9x4x512.Slices ![5, 0, 0] S1x4x512
  slices_S9x512_S1x512_5_0 : S9x512.Slices ![5, 0] S1x512
  slices_S9x512x512_S1x512x512_5_0_0 : S9x512x512.Slices ![5, 0, 0] S1x512x512
  slices_S9x4x512_S1x4x512_6_0_0 : S9x4x512.Slices ![6, 0, 0] S1x4x512
  slices_S9x512_S1x512_6_0 : S9x512.Slices ![6, 0] S1x512
  slices_S9x512x512_S1x512x512_6_0_0 : S9x512x512.Slices ![6, 0, 0] S1x512x512
  slices_S9x4x512_S1x4x512_7_0_0 : S9x4x512.Slices ![7, 0, 0] S1x4x512
  slices_S9x512_S1x512_7_0 : S9x512.Slices ![7, 0] S1x512
  slices_S9x512x512_S1x512x512_7_0_0 : S9x512x512.Slices ![7, 0, 0] S1x512x512
  slices_S9x4x512_S1x4x512_8_0_0 : S9x4x512.Slices ![8, 0, 0] S1x4x512
  slices_S9x512_S1x512_8_0 : S9x512.Slices ![8, 0] S1x512
  slices_S9x512x512_S1x512x512_8_0_0 : S9x512x512.Slices ![8, 0, 0] S1x512x512
  concatenates_S65536x512_S65536x512_S65536x512_S65536x1536_d1 : Shape.Concatenates [S65536x512, S65536x512, S65536x512] S65536x1536 1
  gather_S14_S65536x1_S65536_n_0_n_n_0_1_1_wf : GatherDims.WF S14 S65536x1 S65536 [] [0] [] [0] [] 1 ![1]
  gather_S9x4_S65536x1_S65536x4_1_0_n_n_0_1_14_wf : GatherDims.WF S9x4 S65536x1 S65536x4 [1] [0] [] [0] [] 1 ![1, 4]
  dot_S65536x4_S4x512_S65536x512_1_0_0_1_n_n_wf : DotDims.WF S65536x4 S4x512 S65536x512 [1] [0] [0] [1] [] []
  dot_S65536x512_S512x512_S65536x512_1_0_0_1_n_n_wf : DotDims.WF S65536x512 S512x512 S65536x512 [1] [0] [0] [1] [] []
  gather_S14x512_S65536x1_S65536x512_1_0_n_n_0_1_1512_wf : GatherDims.WF S14x512 S65536x1 S65536x512 [1] [0] [] [0] [] 1 ![1, 512]
  gather_S4x512_S65536x1_S65536x512_1_0_n_n_0_1_1512_wf : GatherDims.WF S4x512 S65536x1 S65536x512 [1] [0] [] [0] [] 1 ![1, 512]
  dot_S65536x1536_S1536x512_S65536x512_1_0_0_1_n_n_wf : DotDims.WF S65536x1536 S1536x512 S65536x512 [1] [0] [0] [1] [] []

variable [Facts₀]

def gather_S14_S65536x1_S65536_n_0_n_n_0_1_1 : GatherDims S14 S65536x1 S65536 where
  offsetDims := []
  collapsedSliceDims := [0]
  operandBatchingDims := []
  startIndicesBatchingDims := []
  startIndexMap := [0]
  indexVectorDim := 1
  sliceSizes := ![1]
  wf := gather_S14_S65536x1_S65536_n_0_n_n_0_1_1_wf
def gather_S9x4_S65536x1_S65536x4_1_0_n_n_0_1_14 : GatherDims S9x4 S65536x1 S65536x4 where
  offsetDims := [1]
  collapsedSliceDims := [0]
  operandBatchingDims := []
  startIndicesBatchingDims := []
  startIndexMap := [0]
  indexVectorDim := 1
  sliceSizes := ![1, 4]
  wf := gather_S9x4_S65536x1_S65536x4_1_0_n_n_0_1_14_wf
def dot_S65536x4_S4x512_S65536x512_1_0_0_1_n_n : DotDims S65536x4 S4x512 S65536x512 where
  lhsContracting := [1]
  rhsContracting := [0]
  lhsNonContracting := [0]
  rhsNonContracting := [1]
  lhsBatch := []
  rhsBatch := []
  wf := dot_S65536x4_S4x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def gather_S14x512_S65536x1_S65536x512_1_0_n_n_0_1_1512 : GatherDims S14x512 S65536x1 S65536x512 where
  offsetDims := [1]
  collapsedSliceDims := [0]
  operandBatchingDims := []
  startIndicesBatchingDims := []
  startIndexMap := [0]
  indexVectorDim := 1
  sliceSizes := ![1, 512]
  wf := gather_S14x512_S65536x1_S65536x512_1_0_n_n_0_1_1512_wf
def gather_S4x512_S65536x1_S65536x512_1_0_n_n_0_1_1512 : GatherDims S4x512 S65536x1 S65536x512 where
  offsetDims := [1]
  collapsedSliceDims := [0]
  operandBatchingDims := []
  startIndicesBatchingDims := []
  startIndexMap := [0]
  indexVectorDim := 1
  sliceSizes := ![1, 512]
  wf := gather_S4x512_S65536x1_S65536x512_1_0_n_n_0_1_1512_wf
def dot_S65536x1536_S1536x512_S65536x512_1_0_0_1_n_n : DotDims S65536x1536 S1536x512 S65536x512 where
  lhsContracting := [1]
  rhsContracting := [0]
  lhsNonContracting := [0]
  rhsNonContracting := [1]
  lhsBatch := []
  rhsBatch := []
  wf := dot_S65536x1536_S1536x512_S65536x512_1_0_0_1_n_n_wf

class Facts : Prop extends Facts₀ where

variable [Facts]
-- ==== Proof.Stages.lean ====
import proofs.«132156_j59742995087902_2_alg».proof.KernelIdeal

/-!
# The host prefix as pure stage functions

The program applies, before and after its one kernel region, a fixed sequence of array operations
to its argument arrays.  This file names the intermediate arrays that matter as pure functions of
the arrays they are computed from; every definition is the composition of the program's own
operations, in the program's order, with the program's own records and side conditions, so that an
array read off the program's operation list equals the corresponding function here by unfolding.

* `norm65536 N z`, `norm74752 N z`: the index idiom — an index `z` that is negative as a signed
  integer is replaced by `z + N` —, the result laid out as a column of start indices.
* `base a0`: the group key of every item, looked up in a table of 14 entries at `a0`.
* `xs a2 b`: the rows of `a2` divided by the row of a `9 × 4` table of scales selected by `b`.
* `order b`: the stable argsort of `b` (the permutation that a signed comparison sort of the pairs
  `(b i, i)` produces); `sortedBase b ord`: `b` read along `ord`.
* `counts b`: the number of items per group (ones scatter-added into nine zeros).
* `tiles cnt`: `⌊(cnt + 1024 - 1) / 1024⌋` per group, by the floor-division idiom.
* `cumsum9`, `exclusive9`: inclusive running sum over nine entries, and its shift by one entry with
  a leading zero; `tileStarts` and `groupStart` are the exclusive sums of `tiles cnt` and `cnt`.
* `dest ts gs sb`: the slot `ts[g] * 1024 + (k - gs[g])` of sorted position `k` of group `g = sb k`.
* `gid ts`: per tile `t < 73`, the number of groups `g` with `ts g ≤ t`, minus one, clipped to
  `[0, 8]`.
* `xPadded`, `idPadded`: rows, resp. entries, read along `ord` and written to the slots `dst` of a
  zero array with `74752` rows; `tePadded`, `sePadded`: rows of a table (rounded to the narrow
  float format) selected by a padded index array.
* `destOrig ord dst`: the slot of every item in its original position; `result out dorig`: the rows
  of `out` at those slots.
-/

noncomputable section

namespace Cert.KernelIdeal.Stages

open Idealize.ShloMosaic Cert.KernelIdeal
open Cert.KernelIdeal.Facts₀

variable {F : FTy → Type} [FloatOps F] [Facts₀]

/-! ## The index idiom -/

/-- `z` with every entry that is negative as a signed integer replaced by `z + N`, as a column. -/
def norm65536 (N : BitVec 32) (z : IVec S65536 32) : IVec S65536x1 32 :=
  broadcastInDim S65536x1 ![0] bcast_S65536_S65536x1_0
    (select (cmpi .slt z (broadcastInDim S65536 ![] bcast_S_S65536 (constantI S_ 32 0#32)))
      (addi z (broadcastInDim S65536 ![] bcast_S_S65536 (constantI S_ 32 N))) z)

/-- The same over `74752` entries. -/
def norm74752 (N : BitVec 32) (z : IVec S74752 32) : IVec S74752x1 32 :=
  broadcastInDim S74752x1 ![0] bcast_S74752_S74752x1_0
    (select (cmpi .slt z (broadcastInDim S74752 ![] bcast_S_S74752 (constantI S_ 32 0#32)))
      (addi z (broadcastInDim S74752 ![] bcast_S_S74752 (constantI S_ 32 N))) z)

/-! ## Group keys, scaled rows, the sort -/

/-- The group key of every item: the table of 14 keys read at `a0`. -/
def base (a0 : IVec S65536 32) : IVec S65536 32 :=
  Host.gather gather_S14_S65536x1_S65536_n_0_n_n_0_1_1 (fun i => lit0 (S14.rowMajor i))
    (norm65536 14#32 a0)

/-- The rows of `a2`, each divided entrywise by the row of the `9 × 4` table that `b` selects. -/
def xs (a2 : FVec F S65536x4 .f32) (b : IVec S65536 32) : FVec F S65536x4 .f32 :=
  Host.divf a2
    (Host.gather gather_S9x4_S65536x1_S65536x4_1_0_n_n_0_1_14
      (fun i => FloatOps.ofBits .f32 (lit1 (S9x4.rowMajor i))) (norm65536 9#32 b))

/-- The stable argsort of `b`: the second component of the pairs `(b i, i)` sorted by the signed
order of their first components. -/
def order (b : IVec S65536 32) : IVec S65536 32 :=
  (Host.sort2 S65536 0 comparator_i32_i32_d0 b (iotaInDim S65536 32 0)).2

/-- `b` read along `ord`. -/
def sortedBase (b ord : IVec S65536 32) : IVec S65536 32 :=
  Host.gather gather_S65536_S65536x1_S65536_n_0_n_n_0_1_1 b (norm65536 65536#32 ord)

/-! ## Counts, tiles, running sums -/

/-- The number of items of every group: a one added, for every item, at the item's key (the key
first raised to at least `0`). -/
def counts (b : IVec S65536 32) : IVec S9 32 :=
  Host.scatter scatter_S9_S65536x1_S65536_n_0_0_1 IntOp.addi
    (broadcastInDim S9 ![] bcast_S_S9 (constantI S_ 32 0#32))
    (norm65536 9#32
      (maxsi (broadcastInDim S65536 ![] bcast_S_S65536 (id (constantI S_ 32 0#32))) b))
    (broadcastInDim S65536 ![] bcast_S_S65536 (constantI S_ 32 1#32))

/-- Floor division of nine signed entries by a scalar: the truncated quotient, lowered by one
where the signs differ and the remainder is not zero. -/
def floorDiv9 (x : IVec S9 32) (d : IVec S_ 32) : IVec S9 32 :=
  select
    (andi
      (cmpi .ne (signi x) (broadcastInDim S9 ![] bcast_S_S9 (signi (id d))))
      (cmpi .ne (Host.remsi x (broadcastInDim S9 ![] bcast_S_S9 (id d)))
        (broadcastInDim S9 ![] bcast_S_S9 (constantI S_ 32 0#32))))
    (subi (Host.divsi x (broadcastInDim S9 ![] bcast_S_S9 (id d)))
      (broadcastInDim S9 ![] bcast_S_S9 (constantI S_ 32 1#32)))
    (Host.divsi x (broadcastInDim S9 ![] bcast_S_S9 (id d)))

/-- The number of tiles of `1024` slots every group needs: `⌊(cnt + 1024 - 1) / 1024⌋`. -/
def tiles (cnt : IVec S9 32) : IVec S9 32 :=
  floorDiv9
    (subi (addi cnt (broadcastInDim S9 ![] bcast_S_S9 (constantI S_ 32 1024#32)))
      (broadcastInDim S9 ![] bcast_S_S9 (constantI S_ 32 1#32)))
    (constantI S_ 32 1024#32)

/-- The inclusive running sum of nine entries: a window of nine entries ending at each position,
the positions before the first padded with the initial value `0`. -/
def cumsum9 (v : IVec S9 32) : IVec S9 32 :=
  Host.reduceWindow IntOp.addi ![9] ![1] ![8] ![0] v
    (broadcastInDim S_ ![] bcast_S_S_ (constantI S_ 32 0#32)) reduceWindows_S9_S9_w9s1p8_0 h_S_

/-- A zero followed by the first eight entries of `cs`. -/
def exclusive9 (cs : IVec S9 32) : IVec S9 32 :=
  concatenate S9 0
    [⟨S1, broadcastInDim S1 ![] bcast_S_S1 (constantI S_ 32 0#32)⟩,
      ⟨S8, extractStridedSlice S8 ![0] cs slices_S9_S8_0⟩] concatenates_S1_S8_S9_d0

/-- The number of tiles of the groups before each group. -/
def tileStarts (cnt : IVec S9 32) : IVec S9 32 := exclusive9 (cumsum9 (tiles cnt))

/-- The number of items of the groups before each group. -/
def groupStart (cnt : IVec S9 32) : IVec S9 32 := exclusive9 (cumsum9 cnt)

/-! ## Slots and the tile table -/

/-- The slot of sorted position `k`, whose group is `g = sb k`: `ts g * 1024 + (k - gs g)`. -/
def dest (ts gs : IVec S9 32) (sb : IVec S65536 32) : IVec S65536 32 :=
  addi
    (Host.gather gather_S9_S65536x1_S65536_n_0_n_n_0_1_1
      (muli ts (broadcastInDim S9 ![] bcast_S_S9 (constantI S_ 32 1024#32))) (norm65536 9#32 sb))
    (subi (iotaInDim S65536 32 0)
      (Host.gather gather_S9_S65536x1_S65536_n_0_n_n_0_1_1 gs (norm65536 9#32 sb)))

/-- The group of every tile `t < 73`: the number of groups `g` with `ts g ≤ t`, minus one, clipped
into `[0, 8]`. -/
def gid (ts : IVec S9 32) : IVec S73 32 :=
  minsi (broadcastInDim S73 ![] bcast_S_S73 (id (constantI S_ 32 8#32)))
    (maxsi (broadcastInDim S73 ![] bcast_S_S73 (id (constantI S_ 32 0#32)))
      (subi
        (Host.reduce IntOp.addi
          (extui 32
            (cmpi .sle
              (broadcastInDim S9x73 ![0, 1] bcast_S9x1_S9x73_0_1
                (broadcastInDim S9x1 ![0] bcast_S9_S9x1_0 ts))
              (broadcastInDim S9x73 ![0, 1] bcast_S1x73_S9x73_0_1
                (broadcastInDim S1x73 ![1] bcast_S73_S1x73_1 (iotaInDim S73 32 0))))
            natLt_1_32)
          (constantI S_ 32 0#32) reducesTo_S9x73_S73_d0 h_S_)
        (broadcastInDim S73 ![] bcast_S_S73 (constantI S_ 32 1#32))))

/-! ## The padded arrays -/

/-- The rows of `x` read along `ord`, written at the slots `dst` of a zero array of `74752` rows. -/
def xPadded (x : FVec F S65536x4 .f32) (ord dst : IVec S65536 32) : FVec F S74752x4 .f32 :=
  Host.scatter scatter_S74752x4_S65536x1_S65536x4_1_0_0_1 (fun _ b => b)
    (broadcastInDim S74752x4 ![] bcast_S_S74752x4 (constant S_ .f32 0x00000000#32))
    (norm65536 74752#32 dst)
    (Host.gather gather_S65536x4_S65536x1_S65536x4_1_0_n_n_0_1_14 x (norm65536 65536#32 ord))

/-- The entries of `ids` read along `ord`, written at the slots `dst` of a zero array of `74752`
entries. -/
def idPadded (ids ord dst : IVec S65536 32) : IVec S74752 32 :=
  Host.scatter scatter_S74752_S65536x1_S65536_n_0_0_1 (fun _ b => b)
    (broadcastInDim S74752 ![] bcast_S_S74752 (constantI S_ 32 0#32))
    (norm65536 74752#32 dst)
    (Host.gather gather_S65536_S65536x1_S65536_n_0_n_n_0_1_1 ids (norm65536 65536#32 ord))

/-- The rows of the `14 × 512` table `a3`, rounded to the narrow format, selected by `tp`. -/
def tePadded (a3 : FVec F S14x512 .f32) (tp : IVec S74752 32) : FVec F S74752x512 .bf16 :=
  Host.gather gather_S14x512_S74752x1_S74752x512_1_0_n_n_0_1_1512 (truncf .bf16 a3 bitsLt_bf16_f32)
    (norm74752 14#32 tp)

/-- The rows of the `4 × 512` table `a4`, rounded to the narrow format, selected by `sp`. -/
def sePadded (a4 : FVec F S4x512 .f32) (sp : IVec S74752 32) : FVec F S74752x512 .bf16 :=
  Host.gather gather_S4x512_S74752x1_S74752x512_1_0_n_n_0_1_1512 (truncf .bf16 a4 bitsLt_bf16_f32)
    (norm74752 4#32 sp)

/-- The slot of every item in its original position: `dst k` written at position `ord k`. -/
def destOrig (ord dst : IVec S65536 32) : IVec S65536 32 :=
  Host.scatter scatter_S65536_S65536x1_S65536_n_0_0_1 (fun _ b => b)
    (broadcastInDim S65536 ![] bcast_S_S65536 (constantI S_ 32 0#32))
    (norm65536 65536#32 ord) dst

/-- The rows of `outArr` at the slots `dorig`. -/
def result (outArr : FVec F S74752x512 .f32) (dorig : IVec S65536 32) : FVec F S65536x512 .f32 :=
  Host.gather gather_S74752x512_S65536x1_S65536x512_1_0_n_n_0_1_1512 outArr
    (norm65536 74752#32 dorig)

/-! ## The composites, as functions of the argument arrays -/

/-- The sort permutation of the items' group keys. -/
def orderOf (a0 : IVec S65536 32) : IVec S65536 32 := order (base a0)

/-- The slot of every sorted position. -/
def destOf (a0 : IVec S65536 32) : IVec S65536 32 :=
  dest (tileStarts (counts (base a0))) (groupStart (counts (base a0)))
    (sortedBase (base a0) (order (base a0)))

/-- The group of every tile. -/
def gidOf (a0 : IVec S65536 32) : IVec S73 32 := gid (tileStarts (counts (base a0)))

/-- The scaled rows in the padded layout. -/
def xPaddedOf (a0 : IVec S65536 32) (a2 : FVec F S65536x4 .f32) : FVec F S74752x4 .f32 :=
  xPadded (xs a2 (base a0)) (order (base a0))
    (dest (tileStarts (counts (base a0))) (groupStart (counts (base a0)))
      (sortedBase (base a0) (order (base a0))))

/-- The rows of the first table in the padded layout. -/
def tePaddedOf (a0 : IVec S65536 32) (a3 : FVec F S14x512 .f32) : FVec F S74752x512 .bf16 :=
  tePadded a3
    (idPadded a0 (order (base a0))
      (dest (tileStarts (counts (base a0))) (groupStart (counts (base a0)))
        (sortedBase (base a0) (order (base a0)))))

/-- The rows of the second table in the padded layout. -/
def sePaddedOf (a0 a1 : IVec S65536 32) (a4 : FVec F S4x512 .f32) : FVec F S74752x512 .bf16 :=
  sePadded a4
    (idPadded a1 (order (base a0))
      (dest (tileStarts (counts (base a0))) (groupStart (counts (base a0)))
        (sortedBase (base a0) (order (base a0)))))

/-- The slot of every item in its original position. -/
def destOrigOf (a0 : IVec S65536 32) : IVec S65536 32 :=
  destOrig (order (base a0))
    (dest (tileStarts (counts (base a0))) (groupStart (counts (base a0)))
      (sortedBase (base a0) (order (base a0))))

end Cert.KernelIdeal.Stages

end
-- ==== Proof.FrameHyps.lean ====
/-
  THE FRAME'S HYPOTHESES HOLD OF EVERY TABLE. The kernel body assumes, of the word it reads from the prefetched table at
  its grid point, that the one-group slices of the per-group parameters at that word lie inside their arrays: the word,
  read unsigned, is at most 8. The table is the host's group-of-tile array, whose last two operations clip every entry
  into [0, 8] as a signed integer; so every word of it is in range whatever the inputs, and the assumption holds at
  every grid point with no precondition.
-/
import proofs.«132156_j59742995087902_2_alg».proof.Proof.Gen.KernelIdeal.Frame
import proofs.«132156_j59742995087902_2_alg».proof.Proof.Stages
import Idealize.ShloMosaic.Lib.WordArith
import Idealize.ShloMosaic.Lib.ValueIdx

set_option maxRecDepth 16384

noncomputable section

namespace Cert.KernelIdeal.FrameHyps

open Idealize.ShloMosaic Idealize.ShloMosaic.TcCoe Idealize.ShloMosaic.ValueIdx
open Idealize.SL.Sem
open Cert.KernelIdeal Cert.KernelIdeal.Gen

variable {F : FTy → Type} [FloatOps F]

/-! ## The side condition is a bound on the word -/

/-- A word that is at most 8 satisfies the body's side condition: each one-group slice at it lies inside its array. -/
theorem chk_of_le {w : BitVec 32} (h : w.toNat ≤ 8) : k0_chk1 w := by
  refine ⟨fun a => ?_, fun a => ?_, fun a => ?_⟩
  · match a with
    | ⟨0, _⟩ => show w.toNat + 1 ≤ 9; omega
    | ⟨1, _⟩ => show 0 + 4 ≤ 4; omega
    | ⟨2, _⟩ => show 0 + 512 ≤ 512; omega
  · match a with
    | ⟨0, _⟩ => show w.toNat + 1 ≤ 9; omega
    | ⟨1, _⟩ => show 0 + 512 ≤ 512; omega
  · match a with
    | ⟨0, _⟩ => show w.toNat + 1 ≤ 9; omega
    | ⟨1, _⟩ => show 0 + 512 ≤ 512; omega
    | ⟨2, _⟩ => show 0 + 512 ≤ 512; omega

/-! ## Every entry of the group-of-tile array is at most 8 -/

/-- A word clipped below at 0 and above at 8, both as signed integers, is at most 8 read unsigned: the lower clip
    clears the sign bit, so the upper clip compares natural values. -/
theorem clip_le (y : BitVec 32) : (IntOp.minsi 8#32 (IntOp.maxsi 0#32 y)).toNat ≤ 8 := by
  have hm : (IntOp.maxsi 0#32 y).toNat < 2 ^ 31 := by
    have := WordArith.two_mul_toNat_maxsi_zero_lt y
    have e : (Scalar.maxsi 0#32 y) = IntOp.maxsi 0#32 y := rfl
    rw [e] at this
    omega
  rw [WordArith.toNat_minsi_of_lt 8#32 _ (by decide) hm]
  exact Nat.min_le_left _ _

/-- Every entry of the group-of-tile array is at most 8, whatever the tile starts. -/
theorem gid_le (ts : IVec S9 32) (i : S73.Idx) : (Stages.gid ts i).toNat ≤ 8 := by
  unfold Stages.gid
  exact clip_le _

/-! ## The word the body reads at a grid point -/

/-- The table word read through the one-entry rectangle at offset vector `o`. -/
def wordAt (xt : tbM0_0.view.ty.Contents (Elt F)) (o : Fin 1 → Nat) (h : ∀ a, o a + S1.size a ≤ S73.size a) : BitVec 32 :=
  tbM0_0.view.readAt (Elt F) (Rect.unit (s := S73) o S1.size h).toLoadRect xt
    (Shape.Idx.first (numel1_S1.symm ▸ Nat.one_pos))

/-- It depends on the offset vector alone, not on how the vector is spelt or shown in bounds. -/
theorem wordAt_congr (xt : tbM0_0.view.ty.Contents (Elt F)) :
    ∀ (o : Fin 1 → Nat) (h : ∀ a, o a + S1.size a ≤ S73.size a) (o' : Fin 1 → Nat)
      (h' : ∀ a, o' a + S1.size a ≤ S73.size a), o = o' → wordAt xt o h = wordAt xt o' h' := by
  rintro _ _ _ _ rfl; rfl

/-- At a literal offset it is the table's entry there: the table memref is its whole buffer, read at offset plus the
    rectangle's one coordinate, 0. -/
theorem wordAt_lit (xt : tbM0_0.view.ty.Contents (Elt F)) (n : Fin 73) (h : ∀ a, (![n.val] : Fin 1 → Nat) a + S1.size a ≤ S73.size a) :
    wordAt xt ![n.val] h = (xt : IVec S73 32) (ix1 n) := by
  show (xt : IVec S73 32) ((Rect.unit (s := S73) ![n.val] S1.size h).toLoadRect.idx
    (Shape.Idx.first (numel1_S1.symm ▸ Nat.one_pos))) = _
  refine congrArg (xt : IVec S73 32) (funext fun a => Fin.ext ?_)
  match a with
  | ⟨0, _⟩ => show n.val + 1 * 0 = n.val; omega

/-- The offset the body computes at grid point `t` is `t`. -/
theorem off1_at : ∀ t : Fin grid0.N, k0_off1 (grid0.coords t) = ![t.val] := by decide +kernel

/-- THE WORD THE BODY READS AT GRID POINT `t`, of ANY contents of the table, is the contents' entry `t`. -/
theorem word_eq (xt : tbM0_0.view.ty.Contents (Elt F)) (t : Fin grid0.N) :
    tbM0_0.view.readAt (Elt F) (Rect.unit (s := S73) (k0_off1 (grid0.coords t)) S1.size (k0_off1_inb (grid0.coords t))).toLoadRect xt
        (Shape.Idx.first (numel1_S1.symm ▸ Nat.one_pos))
      = (xt : IVec S73 32) (ix1 ⟨t.val, Nat.lt_of_lt_of_eq t.isLt N_0⟩) :=
  (wordAt_congr xt (k0_off1 (grid0.coords t)) (k0_off1_inb (grid0.coords t)) ![t.val]
      (fun a => by
        have ht : t.val < 73 := Nat.lt_of_lt_of_eq t.isLt N_0
        match a with
        | ⟨0, _⟩ => show t.val + 1 ≤ 73; omega)
      (off1_at t)).trans
    (wordAt_lit xt ⟨t.val, Nat.lt_of_lt_of_eq t.isLt N_0⟩ _)

variable (m : (ℓ : Loc nD τ sig) → Buf (Elt F) ℓ)

/-- The same at the table as the region finds it. -/
theorem tblword (hO : Ok m) (t : Fin (cfgM m hO).N) :
    tbM0_0.view.readAt (Elt F) (Rect.unit (s := S73) (k0_off1 (grid0.coords t)) S1.size (k0_off1_inb (grid0.coords t))).toLoadRect (tbl m 0)
        (Shape.Idx.first (numel1_S1.symm ▸ Nat.one_pos))
      = (tbl m 0 : IVec S73 32) (ix1 ⟨t.val, Nat.lt_of_lt_of_eq (show t.val < grid0.N from t.isLt) N_0⟩) :=
  word_eq (tbl m 0) t

/-! ## The frame's hypothesis -/

/-- If the table the region finds is the group-of-tile array of some tile starts, the side condition the body assumes
    holds at every grid point. -/
theorem hyps_of_tbl (hO : Ok m) (h : ∃ ts : IVec S9 32, (tbl m 0 : IVec S73 32) = Stages.gid ts) : Hyps m hO :=
  Hyps.of fun c t => by
    obtain ⟨ts, hts⟩ := h
    exact chk_of_le (le_of_eq_of_le
      (congrArg BitVec.toNat ((tblword m hO t).trans (congrFun hts _))) (gid_le ts _))

end Cert.KernelIdeal.FrameHyps

end
-- ==== Proof.StagesK.lean ====
import proofs.«132156_j59742995087902_2_alg».proof.Kernel

/-!
# The host prefix as pure stage functions

The program applies, before and after its one kernel region, a fixed sequence of array operations
to its argument arrays.  This file names the intermediate arrays that matter as pure functions of
the arrays they are computed from; every definition is the composition of the program's own
operations, in the program's order, with the program's own records and side conditions, so that an
array read off the program's operation list equals the corresponding function here by unfolding.

* `norm65536 N z`, `norm74752 N z`: the index idiom — an index `z` that is negative as a signed
  integer is replaced by `z + N` —, the result laid out as a column of start indices.
* `base a0`: the group key of every item, looked up in a table of 14 entries at `a0`.
* `xs a2 b`: the rows of `a2` divided by the row of a `9 × 4` table of scales selected by `b`.
* `order b`: the stable argsort of `b` (the permutation that a signed comparison sort of the pairs
  `(b i, i)` produces); `sortedBase b ord`: `b` read along `ord`.
* `counts b`: the number of items per group (ones scatter-added into nine zeros).
* `tiles cnt`: `⌊(cnt + 1024 - 1) / 1024⌋` per group, by the floor-division idiom.
* `cumsum9`, `exclusive9`: inclusive running sum over nine entries, and its shift by one entry with
  a leading zero; `tileStarts` and `groupStart` are the exclusive sums of `tiles cnt` and `cnt`.
* `dest ts gs sb`: the slot `ts[g] * 1024 + (k - gs[g])` of sorted position `k` of group `g = sb k`.
* `gid ts`: per tile `t < 73`, the number of groups `g` with `ts g ≤ t`, minus one, clipped to
  `[0, 8]`.
* `xPadded`, `idPadded`: rows, resp. entries, read along `ord` and written to the slots `dst` of a
  zero array with `74752` rows; `tePadded`, `sePadded`: rows of a table (rounded to the narrow
  float format) selected by a padded index array.
* `destOrig ord dst`: the slot of every item in its original position; `result out dorig`: the rows
  of `out` at those slots.
-/

noncomputable section

namespace Cert.Kernel.Stages

open Idealize.ShloMosaic Cert.Kernel
open Cert.Kernel.Facts₀

variable {F : FTy → Type} [FloatOps F] [Facts₀]

/-! ## The index idiom -/

/-- `z` with every entry that is negative as a signed integer replaced by `z + N`, as a column. -/
def norm65536 (N : BitVec 32) (z : IVec S65536 32) : IVec S65536x1 32 :=
  broadcastInDim S65536x1 ![0] bcast_S65536_S65536x1_0
    (select (cmpi .slt z (broadcastInDim S65536 ![] bcast_S_S65536 (constantI S_ 32 0#32)))
      (addi z (broadcastInDim S65536 ![] bcast_S_S65536 (constantI S_ 32 N))) z)

/-- The same over `74752` entries. -/
def norm74752 (N : BitVec 32) (z : IVec S74752 32) : IVec S74752x1 32 :=
  broadcastInDim S74752x1 ![0] bcast_S74752_S74752x1_0
    (select (cmpi .slt z (broadcastInDim S74752 ![] bcast_S_S74752 (constantI S_ 32 0#32)))
      (addi z (broadcastInDim S74752 ![] bcast_S_S74752 (constantI S_ 32 N))) z)

/-! ## Group keys, scaled rows, the sort -/

/-- The group key of every item: the table of 14 keys read at `a0`. -/
def base (a0 : IVec S65536 32) : IVec S65536 32 :=
  Host.gather gather_S14_S65536x1_S65536_n_0_n_n_0_1_1 (fun i => lit0 (S14.rowMajor i))
    (norm65536 14#32 a0)

/-- The rows of `a2`, each divided entrywise by the row of the `9 × 4` table that `b` selects. -/
def xs (a2 : FVec F S65536x4 .f32) (b : IVec S65536 32) : FVec F S65536x4 .f32 :=
  Host.divf a2
    (Host.gather gather_S9x4_S65536x1_S65536x4_1_0_n_n_0_1_14
      (fun i => FloatOps.ofBits .f32 (lit1 (S9x4.rowMajor i))) (norm65536 9#32 b))

/-- The stable argsort of `b`: the second component of the pairs `(b i, i)` sorted by the signed
order of their first components. -/
def order (b : IVec S65536 32) : IVec S65536 32 :=
  (Host.sort2 S65536 0 comparator_i32_i32_d0 b (iotaInDim S65536 32 0)).2

/-- `b` read along `ord`. -/
def sortedBase (b ord : IVec S65536 32) : IVec S65536 32 :=
  Host.gather gather_S65536_S65536x1_S65536_n_0_n_n_0_1_1 b (norm65536 65536#32 ord)

/-! ## Counts, tiles, running sums -/

/-- The number of items of every group: a one added, for every item, at the item's key (the key
first raised to at least `0`). -/
def counts (b : IVec S65536 32) : IVec S9 32 :=
  Host.scatter scatter_S9_S65536x1_S65536_n_0_0_1 IntOp.addi
    (broadcastInDim S9 ![] bcast_S_S9 (constantI S_ 32 0#32))
    (norm65536 9#32
      (maxsi (broadcastInDim S65536 ![] bcast_S_S65536 (id (constantI S_ 32 0#32))) b))
    (broadcastInDim S65536 ![] bcast_S_S65536 (constantI S_ 32 1#32))

/-- Floor division of nine signed entries by a scalar: the truncated quotient, lowered by one
where the signs differ and the remainder is not zero. -/
def floorDiv9 (x : IVec S9 32) (d : IVec S_ 32) : IVec S9 32 :=
  select
    (andi
      (cmpi .ne (signi x) (broadcastInDim S9 ![] bcast_S_S9 (signi (id d))))
      (cmpi .ne (Host.remsi x (broadcastInDim S9 ![] bcast_S_S9 (id d)))
        (broadcastInDim S9 ![] bcast_S_S9 (constantI S_ 32 0#32))))
    (subi (Host.divsi x (broadcastInDim S9 ![] bcast_S_S9 (id d)))
      (broadcastInDim S9 ![] bcast_S_S9 (constantI S_ 32 1#32)))
    (Host.divsi x (broadcastInDim S9 ![] bcast_S_S9 (id d)))

/-- The number of tiles of `1024` slots every group needs: `⌊(cnt + 1024 - 1) / 1024⌋`. -/
def tiles (cnt : IVec S9 32) : IVec S9 32 :=
  floorDiv9
    (subi (addi cnt (broadcastInDim S9 ![] bcast_S_S9 (constantI S_ 32 1024#32)))
      (broadcastInDim S9 ![] bcast_S_S9 (constantI S_ 32 1#32)))
    (constantI S_ 32 1024#32)

/-- The inclusive running sum of nine entries: a window of nine entries ending at each position,
the positions before the first padded with the initial value `0`. -/
def cumsum9 (v : IVec S9 32) : IVec S9 32 :=
  Host.reduceWindow IntOp.addi ![9] ![1] ![8] ![0] v
    (broadcastInDim S_ ![] bcast_S_S_ (constantI S_ 32 0#32)) reduceWindows_S9_S9_w9s1p8_0 h_S_

/-- A zero followed by the first eight entries of `cs`. -/
def exclusive9 (cs : IVec S9 32) : IVec S9 32 :=
  concatenate S9 0
    [⟨S1, broadcastInDim S1 ![] bcast_S_S1 (constantI S_ 32 0#32)⟩,
      ⟨S8, extractStridedSlice S8 ![0] cs slices_S9_S8_0⟩] concatenates_S1_S8_S9_d0

/-- The number of tiles of the groups before each group. -/
def tileStarts (cnt : IVec S9 32) : IVec S9 32 := exclusive9 (cumsum9 (tiles cnt))

/-- The number of items of the groups before each group. -/
def groupStart (cnt : IVec S9 32) : IVec S9 32 := exclusive9 (cumsum9 cnt)

/-! ## Slots and the tile table -/

/-- The slot of sorted position `k`, whose group is `g = sb k`: `ts g * 1024 + (k - gs g)`. -/
def dest (ts gs : IVec S9 32) (sb : IVec S65536 32) : IVec S65536 32 :=
  addi
    (Host.gather gather_S9_S65536x1_S65536_n_0_n_n_0_1_1
      (muli ts (broadcastInDim S9 ![] bcast_S_S9 (constantI S_ 32 1024#32))) (norm65536 9#32 sb))
    (subi (iotaInDim S65536 32 0)
      (Host.gather gather_S9_S65536x1_S65536_n_0_n_n_0_1_1 gs (norm65536 9#32 sb)))

/-- The group of every tile `t < 73`: the number of groups `g` with `ts g ≤ t`, minus one, clipped
into `[0, 8]`. -/
def gid (ts : IVec S9 32) : IVec S73 32 :=
  minsi (broadcastInDim S73 ![] bcast_S_S73 (id (constantI S_ 32 8#32)))
    (maxsi (broadcastInDim S73 ![] bcast_S_S73 (id (constantI S_ 32 0#32)))
      (subi
        (Host.reduce IntOp.addi
          (extui 32
            (cmpi .sle
              (broadcastInDim S9x73 ![0, 1] bcast_S9x1_S9x73_0_1
                (broadcastInDim S9x1 ![0] bcast_S9_S9x1_0 ts))
              (broadcastInDim S9x73 ![0, 1] bcast_S1x73_S9x73_0_1
                (broadcastInDim S1x73 ![1] bcast_S73_S1x73_1 (iotaInDim S73 32 0))))
            natLt_1_32)
          (constantI S_ 32 0#32) reducesTo_S9x73_S73_d0 h_S_)
        (broadcastInDim S73 ![] bcast_S_S73 (constantI S_ 32 1#32))))

/-! ## The padded arrays -/

/-- The rows of `x` read along `ord`, written at the slots `dst` of a zero array of `74752` rows. -/
def xPadded (x : FVec F S65536x4 .f32) (ord dst : IVec S65536 32) : FVec F S74752x4 .f32 :=
  Host.scatter scatter_S74752x4_S65536x1_S65536x4_1_0_0_1 (fun _ b => b)
    (broadcastInDim S74752x4 ![] bcast_S_S74752x4 (constant S_ .f32 0x00000000#32))
    (norm65536 74752#32 dst)
    (Host.gather gather_S65536x4_S65536x1_S65536x4_1_0_n_n_0_1_14 x (norm65536 65536#32 ord))

/-- The entries of `ids` read along `ord`, written at the slots `dst` of a zero array of `74752`
entries. -/
def idPadded (ids ord dst : IVec S65536 32) : IVec S74752 32 :=
  Host.scatter scatter_S74752_S65536x1_S65536_n_0_0_1 (fun _ b => b)
    (broadcastInDim S74752 ![] bcast_S_S74752 (constantI S_ 32 0#32))
    (norm65536 74752#32 dst)
    (Host.gather gather_S65536_S65536x1_S65536_n_0_n_n_0_1_1 ids (norm65536 65536#32 ord))

/-- The rows of the `14 × 512` table `a3`, rounded to the narrow format, selected by `tp`. -/
def tePadded (a3 : FVec F S14x512 .f32) (tp : IVec S74752 32) : FVec F S74752x512 .bf16 :=
  Host.gather gather_S14x512_S74752x1_S74752x512_1_0_n_n_0_1_1512 (truncf .bf16 a3 bitsLt_bf16_f32)
    (norm74752 14#32 tp)

/-- The rows of the `4 × 512` table `a4`, rounded to the narrow format, selected by `sp`. -/
def sePadded (a4 : FVec F S4x512 .f32) (sp : IVec S74752 32) : FVec F S74752x512 .bf16 :=
  Host.gather gather_S4x512_S74752x1_S74752x512_1_0_n_n_0_1_1512 (truncf .bf16 a4 bitsLt_bf16_f32)
    (norm74752 4#32 sp)

/-- The slot of every item in its original position: `dst k` written at position `ord k`. -/
def destOrig (ord dst : IVec S65536 32) : IVec S65536 32 :=
  Host.scatter scatter_S65536_S65536x1_S65536_n_0_0_1 (fun _ b => b)
    (broadcastInDim S65536 ![] bcast_S_S65536 (constantI S_ 32 0#32))
    (norm65536 65536#32 ord) dst

/-- The rows of `outArr` at the slots `dorig`. -/
def result (outArr : FVec F S74752x512 .f32) (dorig : IVec S65536 32) : FVec F S65536x512 .f32 :=
  Host.gather gather_S74752x512_S65536x1_S65536x512_1_0_n_n_0_1_1512 outArr
    (norm65536 74752#32 dorig)

/-! ## The composites, as functions of the argument arrays -/

/-- The sort permutation of the items' group keys. -/
def orderOf (a0 : IVec S65536 32) : IVec S65536 32 := order (base a0)

/-- The slot of every sorted position. -/
def destOf (a0 : IVec S65536 32) : IVec S65536 32 :=
  dest (tileStarts (counts (base a0))) (groupStart (counts (base a0)))
    (sortedBase (base a0) (order (base a0)))

/-- The group of every tile. -/
def gidOf (a0 : IVec S65536 32) : IVec S73 32 := gid (tileStarts (counts (base a0)))

/-- The scaled rows in the padded layout. -/
def xPaddedOf (a0 : IVec S65536 32) (a2 : FVec F S65536x4 .f32) : FVec F S74752x4 .f32 :=
  xPadded (xs a2 (base a0)) (order (base a0))
    (dest (tileStarts (counts (base a0))) (groupStart (counts (base a0)))
      (sortedBase (base a0) (order (base a0))))

/-- The rows of the first table in the padded layout. -/
def tePaddedOf (a0 : IVec S65536 32) (a3 : FVec F S14x512 .f32) : FVec F S74752x512 .bf16 :=
  tePadded a3
    (idPadded a0 (order (base a0))
      (dest (tileStarts (counts (base a0))) (groupStart (counts (base a0)))
        (sortedBase (base a0) (order (base a0)))))

/-- The rows of the second table in the padded layout. -/
def sePaddedOf (a0 a1 : IVec S65536 32) (a4 : FVec F S4x512 .f32) : FVec F S74752x512 .bf16 :=
  sePadded a4
    (idPadded a1 (order (base a0))
      (dest (tileStarts (counts (base a0))) (groupStart (counts (base a0)))
        (sortedBase (base a0) (order (base a0)))))

/-- The slot of every item in its original position. -/
def destOrigOf (a0 : IVec S65536 32) : IVec S65536 32 :=
  destOrig (order (base a0))
    (dest (tileStarts (counts (base a0))) (groupStart (counts (base a0)))
      (sortedBase (base a0) (order (base a0))))

end Cert.Kernel.Stages

end
-- ==== Proof.FrameHypsK.lean ====
/-
  THE FRAME'S HYPOTHESES HOLD OF EVERY TABLE. The kernel body assumes, of the word it reads from the prefetched table at
  its grid point, that the one-group slices of the per-group parameters at that word lie inside their arrays: the word,
  read unsigned, is at most 8. The table is the host's group-of-tile array, whose last two operations clip every entry
  into [0, 8] as a signed integer; so every word of it is in range whatever the inputs, and the assumption holds at
  every grid point with no precondition.
-/
import proofs.«132156_j59742995087902_2_alg».proof.Proof.Gen.Kernel.Frame
import proofs.«132156_j59742995087902_2_alg».proof.Proof.StagesK
import Idealize.ShloMosaic.Lib.WordArith
import Idealize.ShloMosaic.Lib.ValueIdx

set_option maxRecDepth 16384

noncomputable section

namespace Cert.Kernel.FrameHyps

open Idealize.ShloMosaic Idealize.ShloMosaic.TcCoe Idealize.ShloMosaic.ValueIdx
open Idealize.SL.Sem
open Cert.Kernel Cert.Kernel.Gen

variable {F : FTy → Type} [FloatOps F]

/-! ## The side condition is a bound on the word -/

/-- A word that is at most 8 satisfies the body's side condition: each one-group slice at it lies inside its array. -/
theorem chk_of_le {w : BitVec 32} (h : w.toNat ≤ 8) : k0_chk1 w := by
  refine ⟨fun a => ?_, fun a => ?_, fun a => ?_⟩
  · match a with
    | ⟨0, _⟩ => show w.toNat + 1 ≤ 9; omega
    | ⟨1, _⟩ => show 0 + 4 ≤ 4; omega
    | ⟨2, _⟩ => show 0 + 512 ≤ 512; omega
  · match a with
    | ⟨0, _⟩ => show w.toNat + 1 ≤ 9; omega
    | ⟨1, _⟩ => show 0 + 512 ≤ 512; omega
  · match a with
    | ⟨0, _⟩ => show w.toNat + 1 ≤ 9; omega
    | ⟨1, _⟩ => show 0 + 512 ≤ 512; omega
    | ⟨2, _⟩ => show 0 + 512 ≤ 512; omega

/-! ## Every entry of the group-of-tile array is at most 8 -/

/-- A word clipped below at 0 and above at 8, both as signed integers, is at most 8 read unsigned: the lower clip
    clears the sign bit, so the upper clip compares natural values. -/
theorem clip_le (y : BitVec 32) : (IntOp.minsi 8#32 (IntOp.maxsi 0#32 y)).toNat ≤ 8 := by
  have hm : (IntOp.maxsi 0#32 y).toNat < 2 ^ 31 := by
    have := WordArith.two_mul_toNat_maxsi_zero_lt y
    have e : (Scalar.maxsi 0#32 y) = IntOp.maxsi 0#32 y := rfl
    rw [e] at this
    omega
  rw [WordArith.toNat_minsi_of_lt 8#32 _ (by decide) hm]
  exact Nat.min_le_left _ _

/-- Every entry of the group-of-tile array is at most 8, whatever the tile starts. -/
theorem gid_le (ts : IVec S9 32) (i : S73.Idx) : (Stages.gid ts i).toNat ≤ 8 := by
  unfold Stages.gid
  exact clip_le _

/-! ## The word the body reads at a grid point -/

/-- The table word read through the one-entry rectangle at offset vector `o`. -/
def wordAt (xt : tbM0_0.view.ty.Contents (Elt F)) (o : Fin 1 → Nat) (h : ∀ a, o a + S1.size a ≤ S73.size a) : BitVec 32 :=
  tbM0_0.view.readAt (Elt F) (Rect.unit (s := S73) o S1.size h).toLoadRect xt
    (Shape.Idx.first (numel1_S1.symm ▸ Nat.one_pos))

/-- It depends on the offset vector alone, not on how the vector is spelt or shown in bounds. -/
theorem wordAt_congr (xt : tbM0_0.view.ty.Contents (Elt F)) :
    ∀ (o : Fin 1 → Nat) (h : ∀ a, o a + S1.size a ≤ S73.size a) (o' : Fin 1 → Nat)
      (h' : ∀ a, o' a + S1.size a ≤ S73.size a), o = o' → wordAt xt o h = wordAt xt o' h' := by
  rintro _ _ _ _ rfl; rfl

/-- At a literal offset it is the table's entry there: the table memref is its whole buffer, read at offset plus the
    rectangle's one coordinate, 0. -/
theorem wordAt_lit (xt : tbM0_0.view.ty.Contents (Elt F)) (n : Fin 73) (h : ∀ a, (![n.val] : Fin 1 → Nat) a + S1.size a ≤ S73.size a) :
    wordAt xt ![n.val] h = (xt : IVec S73 32) (ix1 n) := by
  show (xt : IVec S73 32) ((Rect.unit (s := S73) ![n.val] S1.size h).toLoadRect.idx
    (Shape.Idx.first (numel1_S1.symm ▸ Nat.one_pos))) = _
  refine congrArg (xt : IVec S73 32) (funext fun a => Fin.ext ?_)
  match a with
  | ⟨0, _⟩ => show n.val + 1 * 0 = n.val; omega

/-- The offset the body computes at grid point `t` is `t`. -/
theorem off1_at : ∀ t : Fin grid0.N, k0_off1 (grid0.coords t) = ![t.val] := by decide +kernel

/-- THE WORD THE BODY READS AT GRID POINT `t`, of ANY contents of the table, is the contents' entry `t`. -/
theorem word_eq (xt : tbM0_0.view.ty.Contents (Elt F)) (t : Fin grid0.N) :
    tbM0_0.view.readAt (Elt F) (Rect.unit (s := S73) (k0_off1 (grid0.coords t)) S1.size (k0_off1_inb (grid0.coords t))).toLoadRect xt
        (Shape.Idx.first (numel1_S1.symm ▸ Nat.one_pos))
      = (xt : IVec S73 32) (ix1 ⟨t.val, Nat.lt_of_lt_of_eq t.isLt N_0⟩) :=
  (wordAt_congr xt (k0_off1 (grid0.coords t)) (k0_off1_inb (grid0.coords t)) ![t.val]
      (fun a => by
        have ht : t.val < 73 := Nat.lt_of_lt_of_eq t.isLt N_0
        match a with
        | ⟨0, _⟩ => show t.val + 1 ≤ 73; omega)
      (off1_at t)).trans
    (wordAt_lit xt ⟨t.val, Nat.lt_of_lt_of_eq t.isLt N_0⟩ _)

variable (m : (ℓ : Loc nD τ sig) → Buf (Elt F) ℓ)

/-- The same at the table as the region finds it. -/
theorem tblword (hO : Ok m) (t : Fin (cfgM m hO).N) :
    tbM0_0.view.readAt (Elt F) (Rect.unit (s := S73) (k0_off1 (grid0.coords t)) S1.size (k0_off1_inb (grid0.coords t))).toLoadRect (tbl m 0)
        (Shape.Idx.first (numel1_S1.symm ▸ Nat.one_pos))
      = (tbl m 0 : IVec S73 32) (ix1 ⟨t.val, Nat.lt_of_lt_of_eq (show t.val < grid0.N from t.isLt) N_0⟩) :=
  word_eq (tbl m 0) t

/-! ## The frame's hypothesis -/

/-- If the table the region finds is the group-of-tile array of some tile starts, the side condition the body assumes
    holds at every grid point. -/
theorem hyps_of_tbl (hO : Ok m) (h : ∃ ts : IVec S9 32, (tbl m 0 : IVec S73 32) = Stages.gid ts) : Hyps m hO :=
  Hyps.of fun c t => by
    obtain ⟨ts, hts⟩ := h
    exact chk_of_le (le_of_eq_of_le
      (congrArg BitVec.toNat ((tblword m hO t).trans (congrFun hts _))) (gid_le ts _))

end Cert.Kernel.FrameHyps

end
-- ==== Proof.Prefix1.lean ====
import proofs.«132156_j59742995087902_2_alg».proof.Proof.Stages
import proofs.«132156_j59742995087902_2_alg».proof.Proof.Gen.KernelIdeal.Frame

/-!
# The arrays at the entry of the kernel region, as stage functions of the arguments

The contents of the buffers when the kernel region is entered are given by the program as a fold
over the list of its operations.  This file evaluates that fold at the buffers the region reads and
identifies each with the corresponding pure function of the argument arrays (`Stages`): the fold
is unfolded operation by operation — every buffer is written exactly once, so reading a buffer
after the list is reading the value of the one operation that writes it, at the values of its
operands —, and the resulting composition of operations is the stage function by unfolding.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- A one-entry array followed by an eight-entry array, as a function of the two arrays. -/
private def concat18 {α : Type} (a : S1.Idx → α) (b : S8.Idx → α) : S9.Idx → α :=
  concatenate S9 0 [⟨S1, a⟩, ⟨S8, b⟩] Facts₀.concatenates_S1_S8_S9_d0

/-- The concatenation of a one-entry and an eight-entry array is `concat18` of the two, whatever
proof of the shape condition it carries. -/
private theorem concat18_eq {α : Type} (a : S1.Idx → α) (b : S8.Idx → α)
    (h : Shape.Concatenates (([⟨S1, a⟩, ⟨S8, b⟩] : List ((s : Shape) × (s.Idx → α))).map (·.1)) S9 0) :
    concatenate S9 0 [⟨S1, a⟩, ⟨S8, b⟩] h = concat18 a b := rfl

/-- Evaluates a fold over a literal list of operations at a literal buffer: the value of the
operation that writes the buffer, at its operands' values, recursively; a concatenation is first
turned into `concat18` so that its two operands are evaluated as well. -/
local macro "fold_results" : tactic =>
  `(tactic| (simp (disch := decide) only [after_cons, after_nil,
      nullary_result', unary_result', binary_result', ternary_result',
      nullary_result_ne', unary_result_ne', binary_result_ne', ternary_result_ne', concat18_eq]))

variable (m : (ℓ : Loc nD τ sig) → Buf (Elt F) ℓ)

set_option maxHeartbeats 4000000 in
/-- The table of tile groups the region reads is `gidOf` of the first argument. -/
theorem V_v75 (c : Dev nD) :
    (Gen.V m c main_v75 : IVec S73 32) = Stages.gidOf (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  fold_results
  simp only [TRef.toBuf, TRef.ofBuf, cast_eq, concat18]
  simp only [Stages.gidOf, Stages.xPaddedOf, Stages.tePaddedOf, Stages.sePaddedOf, Stages.destOrigOf, Stages.orderOf, Stages.destOf, Stages.gid, Stages.dest, Stages.tileStarts, Stages.groupStart, Stages.exclusive9, Stages.cumsum9, Stages.tiles, Stages.floorDiv9, Stages.counts, Stages.sortedBase, Stages.order, Stages.xs, Stages.base, Stages.norm65536, Stages.norm74752, Stages.xPadded, Stages.idPadded, Stages.tePadded, Stages.sePadded, Stages.destOrig, Stages.result]
  rfl

end Cert.KernelIdeal.Prefix

end
-- ==== Proof.Prefix1K.lean ====
import proofs.«132156_j59742995087902_2_alg».proof.Proof.StagesK
import proofs.«132156_j59742995087902_2_alg».proof.Proof.Gen.Kernel.Frame

/-!
# The arrays at the entry of the kernel region, as stage functions of the arguments

The contents of the buffers when the kernel region is entered are given by the program as a fold
over the list of its operations.  This file evaluates that fold at the buffers the region reads and
identifies each with the corresponding pure function of the argument arrays (`Stages`): the fold
is unfolded operation by operation — every buffer is written exactly once, so reading a buffer
after the list is reading the value of the one operation that writes it, at the values of its
operands —, and the resulting composition of operations is the stage function by unfolding.
-/

set_option maxRecDepth 16384

noncomputable section

namespace Cert.Kernel.Prefix

open Idealize.ShloMosaic Idealize.ShloMosaic.TcCoe Cert.Kernel
open Idealize.ShloMosaic.StableHlo

variable {F : FTy → Type} [FloatOps F]

/-- A one-entry array followed by an eight-entry array, as a function of the two arrays. -/
private def concat18 {α : Type} (a : S1.Idx → α) (b : S8.Idx → α) : S9.Idx → α :=
  concatenate S9 0 [⟨S1, a⟩, ⟨S8, b⟩] Facts₀.concatenates_S1_S8_S9_d0

/-- The concatenation of a one-entry and an eight-entry array is `concat18` of the two, whatever
proof of the shape condition it carries. -/
private theorem concat18_eq {α : Type} (a : S1.Idx → α) (b : S8.Idx → α)
    (h : Shape.Concatenates (([⟨S1, a⟩, ⟨S8, b⟩] : List ((s : Shape) × (s.Idx → α))).map (·.1)) S9 0) :
    concatenate S9 0 [⟨S1, a⟩, ⟨S8, b⟩] h = concat18 a b := rfl

/-- Evaluates a fold over a literal list of operations at a literal buffer: the value of the
operation that writes the buffer, at its operands' values, recursively; a concatenation is first
turned into `concat18` so that its two operands are evaluated as well. -/
local macro "fold_results" : tactic =>
  `(tactic| (simp (disch := decide) only [after_cons, after_nil,
      nullary_result', unary_result', binary_result', ternary_result',
      nullary_result_ne', unary_result_ne', binary_result_ne', ternary_result_ne', concat18_eq]))

variable (m : (ℓ : Loc nD τ sig) → Buf (Elt F) ℓ)

set_option maxHeartbeats 4000000 in
/-- The table of tile groups the region reads is `gidOf` of the first argument. -/
theorem V_v75 (c : Dev nD) :
    (Gen.V m c main_v75 : IVec S73 32) = Stages.gidOf (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  fold_results
  simp only [TRef.toBuf, TRef.ofBuf, cast_eq, concat18]
  simp only [Stages.gidOf, Stages.xPaddedOf, Stages.tePaddedOf, Stages.sePaddedOf, Stages.destOrigOf, Stages.orderOf, Stages.destOf, Stages.gid, Stages.dest, Stages.tileStarts, Stages.groupStart, Stages.exclusive9, Stages.cumsum9, Stages.tiles, Stages.floorDiv9, Stages.counts, Stages.sortedBase, Stages.order, Stages.xs, Stages.base, Stages.norm65536, Stages.norm74752, Stages.xPadded, Stages.idPadded, Stages.tePadded, Stages.sePadded, Stages.destOrig, Stages.result]
  rfl

end Cert.Kernel.Prefix

end
-- ==== Proof.Frames.lean ====
/-
  THE TWO KERNEL PROGRAMS RUN AND LEAVE THEIR ARGUMENTS UNCHANGED. The generated frame of each holds under the side
  condition the body assumes of the word it reads from the prefetched table at every grid point. That table is the
  host's group-of-tile array of the first argument, every entry of which is clipped into [0, 8]; so the side condition
  holds whatever the arguments, and the frame needs nothing of the precondition.
-/
import proofs.«132156_j59742995087902_2_alg».proof.Defs
import proofs.«132156_j59742995087902_2_alg».proof.Proof.Gen.Kernel.Frame
import proofs.«132156_j59742995087902_2_alg».proof.Proof.Gen.KernelIdeal.Frame
import proofs.«132156_j59742995087902_2_alg».proof.Proof.Gen.Pre_finite_inputs
import proofs.«132156_j59742995087902_2_alg».proof.Proof.FrameHyps
import proofs.«132156_j59742995087902_2_alg».proof.Proof.FrameHypsK
import proofs.«132156_j59742995087902_2_alg».proof.Proof.Prefix1
import proofs.«132156_j59742995087902_2_alg».proof.Proof.Prefix1K

noncomputable section

namespace Cert.Proof.Frames

open Idealize.ShloMosaic Idealize.SL.Sem

/-- The word-level program runs and its argument arrays end unchanged: the table the region finds is the group-of-tile
    array of the first argument (the host prefix, evaluated), so the body's side condition holds at every grid point. -/
theorem frame_Kernel : @Cert.frame_Kernel Cert.Kernel.Gen.facts Cert.Pre_finite_inputs.Gen.facts := fun m ρ _ =>
  Cert.Kernel.Gen.frame m ρ trivial
    (Cert.Kernel.FrameHyps.hyps_of_tbl m trivial ⟨_, Cert.Kernel.Prefix.V_v75 m 0⟩)

/-- The ideal program runs and its argument arrays end unchanged, for the same reason. -/
theorem frame_KernelIdeal : @Cert.frame_KernelIdeal Cert.KernelIdeal.Gen.facts Cert.Pre_finite_inputs.Gen.facts := fun m ρ _ =>
  Cert.KernelIdeal.Gen.frame m ρ trivial
    (Cert.KernelIdeal.FrameHyps.hyps_of_tbl m trivial ⟨_, Cert.KernelIdeal.Prefix.V_v75 m 0⟩)

end Cert.Proof.Frames

end
-- ==== Proof.RefRun.lean ====
/-
  THE REFERENCE PROGRAM'S RUN.

  The reference program is a straight line of 274 array operations (its two outlined functions, a rectifier and a
  select, written out at each of their calls). This module lists them, shows that the program is that list run in
  order, and reads the list's result back: from any memory, every fair execution terminates with the result buffer
  holding \`out\` of the eleven argument arrays, and with the arguments unchanged.

  \`out\` is built from named stages, for any float instance \`F\`:
  * \`wrapIdx n z\`: an index word made non-negative the way array indexing does (\`z + n\` where \`z < 0\`), as a column;
  * \`base a0\`: each edge's base group, read from the fixed table of fourteen entries at its wrapped type word;
  * \`scaled a0 a2\`: the parameters divided, entry by entry, by the scale row of the edge's base group;
  * \`iter t … pv\`: one round of the dispatch — the two-layer perceptron with the weights of group \`t\` applied to every
    edge, kept at the edges whose base group is \`t\` and replaced by \`pv\` at the others; \`pv0 … pv8\` are the nine rounds
    in order, starting from zeros;
  * \`tail\`: the two embedding rows gathered at the wrapped type and source words, concatenated with the dispatch's
    result, contracted with the output weights, biased and rectified.

  The list is read window by window (the prelude, the nine rounds, the gathers of the tail, its concatenation, its contraction): after each window the
  buffers still needed hold their stage's value, and every buffer the window does not write keeps its contents.
-/
import proofs.«132156_j59742995087902_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- An index word made non-negative the way array indexing does — \`z + n\` where \`z\` is negative —, as a column of
    start indices. -/
def wrapIdx (n : BitVec 32) (z : IVec S65536 32) : IVec S65536x1 32 :=
  broadcastInDim S65536x1 ![0] bcast_S65536_S65536x1_0 (select (cmpi .slt z (broadcastInDim S65536 ![] bcast_S_S65536 (constantI S_ 32 0#32))) (addi z (broadcastInDim S65536 ![] bcast_S_S65536 (constantI S_ 32 n))) z)

/-- Each edge's base group: the table of fourteen entries read at the edge's wrapped type word. -/
def base (a0 : IVec S65536 32) : IVec S65536 32 :=
  Host.gather gather_S14_S65536x1_S65536_n_0_n_n_0_1_1 (fun i => lit0 (S14.rowMajor i)) (wrapIdx 14#32 a0)

/-- The parameters, each divided by the entry of its base group's scale row. -/
def scaled (a0 : IVec S65536 32) (a2 : FVec F S65536x4 .f32) : FVec F S65536x4 .f32 :=
  Host.divf a2 (Host.gather gather_S9x4_S65536x1_S65536x4_1_0_n_n_0_1_14 (fun i => FloatOps.ofBits .f32 (lit1 (S9x4.rowMajor i))) (wrapIdx 9#32 (base a0)))

/-- The array of zeros. -/
def zeros : FVec F S65536x512 .f32 :=
  broadcastInDim S65536x512 ![] bcast_S_S65536x512 (constant S_ .f32 0x00000000#32)

/-- The rectifier: the maximum with zero, entry by entry. -/
def relu (y : FVec F S65536x512 .f32) : FVec F S65536x512 .f32 := maximumf y zeros

/-- A bias row repeated on every edge. -/
def rowBias (b : FVec F S512 .f32) : FVec F S65536x512 .f32 :=
  broadcastInDim S65536x512 ![0, 1] bcast_S1x512_S65536x512_0_1 (broadcastInDim S1x512 ![1] bcast_S512_S1x512_1 b)

/-- One round of the dispatch: the perceptron of group \`t\` on every edge, kept where the edge's base group is \`t\`,
    \`pv\` elsewhere. -/
def iter (t : ℕ) (h5 : S9x4x512.Slices ![t, 0, 0] S1x4x512) (h6 : S9x512.Slices ![t, 0] S1x512)
    (h7 : S9x512x512.Slices ![t, 0, 0] S1x512x512) (x : FVec F S65536x4 .f32) (b : IVec S65536 32)
    (a5 : FVec F S9x4x512 .f32) (a6 : FVec F S9x512 .f32) (a7 : FVec F S9x512x512 .f32) (a8 : FVec F S9x512 .f32)
    (pv : FVec F S65536x512 .f32) : FVec F S65536x512 .f32 :=
  select (broadcastInDim S65536x512 ![0, 1] bcast_S65536x1_S65536x512_0_1 (broadcastInDim S65536x1 ![0] bcast_S65536_S65536x1_0 (cmpi .eq b (broadcastInDim S65536 ![] bcast_S_S65536 (constantI S_ 32 (BitVec.ofNat 32 t))))))
    (addf (Host.dotGeneral dot_S65536x512_S512x512_S65536x512_1_0_0_1_n_n none
        (relu (addf (Host.dotGeneral dot_S65536x4_S4x512_S65536x512_1_0_0_1_n_n none x (shapeCast S4x512 (extractStridedSlice S1x4x512 ![t, 0, 0] a5 h5) shapeCasts_S1x4x512_S4x512))
          (rowBias (shapeCast S512 (extractStridedSlice S1x512 ![t, 0] a6 h6) shapeCasts_S1x512_S512))))
        (shapeCast S512x512 (extractStridedSlice S1x512x512 ![t, 0, 0] a7 h7) shapeCasts_S1x512x512_S512x512))
      (rowBias (shapeCast S512 (extractStridedSlice S1x512 ![t, 0] a8 h6) shapeCasts_S1x512_S512)))
    pv

/-- The dispatch after round 0. -/
def pv0 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 0 slices_S9x4x512_S1x4x512_0_0_0 slices_S9x512_S1x512_0_0 slices_S9x512x512_S1x512x512_0_0_0 (scaled a0 a2) (base a0) a5 a6 a7 a8 zeros

/-- The dispatch after rounds 0 … 1. -/
def pv1 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 1 slices_S9x4x512_S1x4x512_1_0_0 slices_S9x512_S1x512_1_0 slices_S9x512x512_S1x512x512_1_0_0 (scaled a0 a2) (base a0) a5 a6 a7 a8 (pv0 a0 a2 a5 a6 a7 a8)

/-- The dispatch after rounds 0 … 2. -/
def pv2 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 2 slices_S9x4x512_S1x4x512_2_0_0 slices_S9x512_S1x512_2_0 slices_S9x512x512_S1x512x512_2_0_0 (scaled a0 a2) (base a0) a5 a6 a7 a8 (pv1 a0 a2 a5 a6 a7 a8)

/-- The dispatch after rounds 0 … 3. -/
def pv3 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 3 slices_S9x4x512_S1x4x512_3_0_0 slices_S9x512_S1x512_3_0 slices_S9x512x512_S1x512x512_3_0_0 (scaled a0 a2) (base a0) a5 a6 a7 a8 (pv2 a0 a2 a5 a6 a7 a8)

/-- The dispatch after rounds 0 … 4. -/
def pv4 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 4 slices_S9x4x512_S1x4x512_4_0_0 slices_S9x512_S1x512_4_0 slices_S9x512x512_S1x512x512_4_0_0 (scaled a0 a2) (base a0) a5 a6 a7 a8 (pv3 a0 a2 a5 a6 a7 a8)

/-- The dispatch after rounds 0 … 5. -/
def pv5 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 5 slices_S9x4x512_S1x4x512_5_0_0 slices_S9x512_S1x512_5_0 slices_S9x512x512_S1x512x512_5_0_0 (scaled a0 a2) (base a0) a5 a6 a7 a8 (pv4 a0 a2 a5 a6 a7 a8)

/-- The dispatch after rounds 0 … 6. -/
def pv6 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 6 slices_S9x4x512_S1x4x512_6_0_0 slices_S9x512_S1x512_6_0 slices_S9x512x512_S1x512x512_6_0_0 (scaled a0 a2) (base a0) a5 a6 a7 a8 (pv5 a0 a2 a5 a6 a7 a8)

/-- The dispatch after rounds 0 … 7. -/
def pv7 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 7 slices_S9x4x512_S1x4x512_7_0_0 slices_S9x512_S1x512_7_0 slices_S9x512x512_S1x512x512_7_0_0 (scaled a0 a2) (base a0) a5 a6 a7 a8 (pv6 a0 a2 a5 a6 a7 a8)

/-- The dispatch after rounds 0 … 8. -/
def pv8 (a0 : IVec S65536 32) (a2 : FVec F S65536x4 .f32) (a5 : FVec F S9x4x512 .f32) (a6 : FVec F S9x512 .f32) (a7 : FVec F S9x512x512 .f32) (a8 : FVec F S9x512 .f32) : FVec F S65536x512 .f32 :=
  iter 8 slices_S9x4x512_S1x4x512_8_0_0 slices_S9x512_S1x512_8_0 slices_S9x512x512_S1x512x512_8_0_0 (scaled a0 a2) (base a0) a5 a6 a7 a8 (pv7 a0 a2 a5 a6 a7 a8)

/-- The type-embedding rows, gathered at the wrapped type words. -/
def teRows (a0 : IVec S65536 32) (a3 : FVec F S14x512 .f32) : FVec F S65536x512 .f32 :=
  Host.gather gather_S14x512_S65536x1_S65536x512_1_0_n_n_0_1_1512 a3 (wrapIdx 14#32 a0)

/-- The source-embedding rows, gathered at the wrapped source words. -/
def seRows (a1 : IVec S65536 32) (a4 : FVec F S4x512 .f32) : FVec F S65536x512 .f32 :=
  Host.gather gather_S4x512_S65536x1_S65536x512_1_0_n_n_0_1_1512 a4 (wrapIdx 4#32 a1)

/-- The last stage: the three row blocks side by side, contracted with the output weights, biased, rectified. -/
def tail (te se pv : FVec F S65536x512 .f32) (a9 : FVec F S1536x512 .f32) (a10 : FVec F S512 .f32) :
    FVec F S65536x512 .f32 :=
  relu (addf (Host.dotGeneral dot_S65536x1536_S1536x512_S65536x512_1_0_0_1_n_n none (concatenate S65536x1536 1 [⟨S65536x512, te⟩, ⟨S65536x512, se⟩, ⟨S65536x512, pv⟩] concatenates_S65536x512_S65536x512_S65536x512_S65536x1536_d1) a9) (rowBias a10))

/-- The result array as a function of the eleven argument arrays. -/
def out (a0 a1 : IVec S65536 32) (a2 : FVec F S65536x4 .f32) (a3 : FVec F S14x512 .f32) (a4 : FVec F S4x512 .f32)
    (a5 : FVec F S9x4x512 .f32) (a6 : FVec F S9x512 .f32) (a7 : FVec F S9x512x512 .f32) (a8 : FVec F S9x512 .f32)
    (a9 : FVec F S1536x512 .f32) (a10 : FVec F S512 .f32) : FVec F S65536x512 .f32 :=
  tail (teRows a0 a3) (seRows a1 a4) (pv8 a0 a2 a5 a6 a7 a8) a9 a10

/-! ## The list, window by window -/

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-! ### Window 1 -/

/-- The operations of window 1, in order. -/
abbrev opsW1 : List (HloOp τ sig (Elt F)) :=
  [ StableHlo.nullary main_c (fun i => lit0 (S14.rowMajor i)),
    StableHlo.nullary main_cst (fun i => FloatOps.ofBits .f32 (lit1 (S9x4.rowMajor i))),
    StableHlo.nullary main_c_0 (constantI S_ 32 0#32),
    StableHlo.unary main_c_0 main_v0 (broadcastInDim S65536 ![] bcast_S_S65536 : (⟨S_, .i32⟩ : BufTy).Contents (Elt F) → (⟨S65536, .i32⟩ : BufTy).Contents (Elt F)),
    StableHlo.binary main_arg0 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_1 (constantI S_ 32 14#32),
    StableHlo.unary main_c_1 main_v2 (broadcastInDim S65536 ![] bcast_S_S65536 : (⟨S_, .i32⟩ : BufTy).Contents (Elt F) → (⟨S65536, .i32⟩ : BufTy).Contents (Elt F)),
    StableHlo.binary main_arg0 main_v2 main_v3 (addi : (⟨S65536, .i32⟩ : BufTy).Contents (Elt F) → (⟨S65536, .i32⟩ : BufTy).Contents (Elt F) → (⟨S65536, .i32⟩ : BufTy).Contents (Elt F)),
    StableHlo.ternary main_v1 main_v3 main_arg0 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v4 main_v5 (broadcastInDim S65536x1 ![0] bcast_S65536_S65536x1_0 : (⟨S65536, .i32⟩ : BufTy).Contents (Elt F) → (⟨S65536x1, .i32⟩ : BufTy).Contents (Elt F)),
    StableHlo.binary main_c main_v5 main_v6 ((fun x i => Host.gather gather_S14_S65536x1_S65536_n_0_n_n_0_1_1 x i) : (⟨S14, .i32⟩ : BufTy).Contents (Elt F) → (⟨S65536x1, .i32⟩ : BufTy).Contents (Elt F) → (⟨S65536, .i32⟩ : BufTy).Contents (Elt F)),
    StableHlo.nullary main_c_2 (constantI S_ 32 0#32),
    StableHlo.unary main_c_2 main_v7 (broadcastInDim S65536 ![] bcast_S_S65536 : (⟨S_, .i32⟩ : BufTy).Contents (Elt F) → (⟨S65536, .i32⟩ : BufTy).Contents (Elt F)),
    StableHlo.binary main_v6 main_v7 main_v8 (cmpi .slt : (⟨S65536, .i32⟩ : BufTy).Contents (Elt F) → (⟨S65536, .i32⟩ : BufTy).Contents (Elt F) → (⟨S65536, .i1⟩ : BufTy).Contents (Elt F)),
    StableHlo.nullary main_c_3 (constantI S_ 32 9#32),
    StableHlo.unary main_c_3 main_v9 (broadcastInDim S65536 ![] bcast_S_S65536 : (⟨S_, .i32⟩ : BufTy).Contents (Elt F) → (⟨S65536, .i32⟩ : BufTy).Contents (Elt F)),
    StableHlo.binary main_v6 main_v9 main_v10 (addi : (⟨S65536, .i32⟩ : BufTy).Contents (Elt F) → (⟨S65536, .i32⟩ : BufTy).Contents (Elt F) → (⟨S65536, .i32⟩ : BufTy).Contents (Elt F)),
    StableHlo.ternary main_v8 main_v10 main_v6 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v11 main_v12 (broadcastInDim S65536x1 ![0] bcast_S65536_S65536x1_0 : (⟨S65536, .i32⟩ : BufTy).Contents (Elt F) → (⟨S65536x1, .i32⟩ : BufTy).Contents (Elt F)),
    StableHlo.binary main_cst main_v12 main_v13 ((fun x i => Host.gather gather_S9x4_S65536x1_S65536x4_1_0_n_n_0_1_14 x i) : (⟨S9x4, .f32⟩ : BufTy).Contents (Elt F) → (⟨S65536x1, .i32⟩ : BufTy).Contents (Elt F) → (⟨S65536x4, .f32⟩ : BufTy).Contents (Elt F)),
    StableHlo.binary main_arg2 main_v13 main_v14 (Host.divf : (⟨S65536x4, .f32⟩ : BufTy).Contents (Elt F) → (⟨S65536x4, .f32⟩ : BufTy).Contents (Elt F) → (⟨S65536x4, .f32⟩ : BufTy).Contents (Elt F)),
    StableHlo.nullary main_cst_4 (constant S_ .f32 0x00000000#32),
    StableHlo.unary main_cst_4 main_v15 (broadcastInDim S65536x512 ![] bcast_S_S65536x512 : (⟨S_, .f32⟩ : BufTy).Contents (Elt F) → (⟨S65536x512, .f32⟩ : BufTy).Contents (Elt F)) ]

theorem opsW1_sub : (opsW1 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩

theorem opsW1_fresh : (opsW1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The device's buffer contents after the first 1 window. -/
def val1 (V0 : Valuation τ sig (Elt F)) : Valuation τ sig (Elt F) := after opsW1 (val0 V0)
/-- The buffers window 1 writes. -/
abbrev opsW1_W : List (Ref sig .tc) := [main_c, main_cst, main_c_0, main_v0, main_v1, main_c_1, main_v2, main_v3, main_v4, main_v5, main_v6, main_c_2, main_v7, main_v8, main_c_3, main_v9, main_v10, main_v11, main_v12, main_v13, main_v14, main_cst_4, main_v15]
set_option maxRecDepth 8192 in
theorem opsW1_writes : (opsW1 : List (HloOp τ sig (Elt F))).Forall fun op => op.writes ⊆ (opsW1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 1 does not write keeps its contents through it. -/
theorem val1_keep (V0 : Valuation τ sig (Elt F)) (r : Ref sig .tc) (h : r ∉ opsW1_W) :
    val1 V0 (Proc.devRef .tc r) = val0 V0 (Proc.devRef .tc r) :=
  after_of_writes_sub opsW1 _ opsW1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
set_option maxRecDepth 8192 in
set_option maxHeartbeats 2500000 in
theorem val1_main_v6 (V0 : Valuation τ sig (Elt F)) : val1 V0 (no_index (Proc.devRef .tc main_v6)) = base (V0 (Proc.devRef .tc main_arg0)) := by
  unfold val1
  simp only [opsW1]
  after_results_simp
  try simp only [val0_main_arg0, val0_main_arg1, val0_main_arg2, val0_main_arg3, val0_main_arg4, val0_main_arg5, val0_main_arg6, val0_main_arg7, val0_main_arg8, val0_main_arg9, val0_main_arg10]
  all_goals rfl
set_option maxRecDepth 8192 in
set_option maxHeartbeats 2500000 in
theorem val1_main_v14 (V0 : Valuation τ sig (Elt F)) : val1 V0 (no_index (Proc.devRef .tc main_v14)) = scaled (V0 (Proc.devRef .tc main_arg0)) (V0 (Proc.devRef .tc main_arg2)) := by
  unfold val1
  simp only [opsW1]
  after_results_simp
  try simp only [val0_main_arg0, val0_main_arg1, val0_main_arg2, val0_main_arg3, val0_main_arg4, val0_main_arg5, val0_main_arg6, val0_main_arg7, val0_main_arg8, val0_main_arg9, val0_main_arg10]
  all_goals rfl
set_option maxRecDepth 8192 in
set_option maxHeartbeats 2500000 in
theorem val1_main_v15 (V0 : Valuation τ sig (Elt F)) : val1 V0 (no_index (Proc.devRef .tc main_v15)) = (zeros : FVec F S65536x512 .f32) := by
  unfold val1
  simp only [opsW1]
  after_results_simp
  try simp only [val0_main_arg0, val0_main_arg1, val0_main_arg2, val0_main_arg3, val0_main_arg4, val0_main_arg5, val0_main_arg6, val0_main_arg7, val0_main_arg8, val0_main_arg9, val0_main_arg10]
  all_goals rfl

/-! ### Window 2 -/

/-- The operations of window 2, in order. -/
abbrev opsW2 : List (HloOp τ sig (Elt F)) :=
  [ StableHlo.unary main_arg5 main_v16 ((extractStridedSlice S1x4x512 ![0, 0, 0] · slices_S9x4x512_S1x4x512_0_0_0) : (⟨S9x4x512, .f32⟩ : BufTy).Contents (Elt F) → (⟨S1x4x512, .f32⟩ : BufTy).Contents (Elt F)),
    StableHlo.reshape main_v16 main_v17 rfl shapeCasts_S1x4x512_S4x512,
    StableHlo.binary main_v14 main_v17 main_v18 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v19 ((extractStridedSlice S1x512 ![0, 0] · slices_S9x512_S1x512_0_0) : (⟨S9x512, .f32⟩ : BufTy).Contents (Elt F) → (⟨S1x512, .f32⟩ : BufTy).Contents (Elt F)),
    StableHlo.reshape main_v19 main_v20 rfl shapeCasts_S1x512_S512,
    StableHlo.unary main_v20 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S65536x512 ![0, 1] bcast_S1x512_S65536x512_0_1 : (⟨S1x512, .f32⟩ : BufTy).Contents (Elt F) → (⟨S65536x512, .f32⟩ : BufTy).Contents (Elt F)),
    StableHlo.binary main_v18 main_v22 main_v23 (addf : (⟨S65536x512, .f32⟩ : BufTy).Contents (Elt F) → (⟨S65536x512, .f32⟩ : BufTy).Contents (Elt F) → (⟨S65536x512, .f32⟩ : BufTy).Contents (Elt F)),
    StableHlo.nullary main_call0_cst (constant S_ .f32 0x00000000#32),
    StableHlo.unary main_call0_cst main_call0_v0 (broadcastInDim S65536x512 ![] bcast_S_S65536x512 : (⟨S_, .f32⟩ : BufTy).Contents (Elt F) → (⟨S65536x512, .f32⟩ : BufTy).Contents (Elt F)),
    StableHlo.binary main_v23 main_call0_v0 main_v24 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v25 ((extractStridedSlice S1x512x512 ![0, 0, 0] · slices_S9x512x512_S1x512x512_0_0_0) : (⟨S9x512x512, .f32⟩ : BufTy).Contents (Elt F) → (⟨S1x512x512, .f32⟩ : BufTy).Contents (Elt F)),
    StableHlo.reshape main_v25 main_v26 rfl shapeCasts_S1x512x512_S512x512,
    StableHlo.binary main_v24 main_v26 main_v27 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v28 ((extractStridedSlice S1x512 ![0, 0] · slices_S9x512_S1x512_0_0) : (⟨S9x512, .f32⟩ : BufTy).Contents (Elt F) → (⟨S1x512, .f32⟩ : BufTy).Contents (Elt F)),
    StableHlo.reshape main_v28 main_v29 rfl shapeCasts_S1x512_S512,
    StableHlo.unary main_v29 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S65536x512 ![0, 1] bcast_S1x512_S65536x512_0_1 : (⟨S1x512, .f32⟩ : BufTy).Contents (Elt F) → (⟨S65536x512, .f32⟩ : BufTy).Contents (Elt F)),
    StableHlo.binary main_v27 main_v31 main_v32 (addf : (⟨S65536x512, .f32⟩ : BufTy).Contents (Elt F) → (⟨S65536x512, .f32⟩ : BufTy).Contents (Elt F) → (⟨S65536x512, .f32⟩ : BufTy).Contents (Elt F)),
    StableHlo.nullary main_c_5 (constantI S_ 32 0#32),
    StableHlo.unary main_c_5 main_v33 (broadcastInDim S65536 ![] bcast_S_S65536 : (⟨S_, .i32⟩ : BufTy).Contents (Elt F) → (⟨S65536, .i32⟩ : BufTy).Contents (Elt F)),
    StableHlo.binary main_v6 main_v33 main_v34 (cmpi .eq : (⟨S65536, .i32⟩ : BufTy).Contents (Elt F) → (⟨S65536, .i32⟩ : BufTy).Contents (Elt F) → (⟨S65536, .i1⟩ : BufTy).Contents (Elt F)),
    StableHlo.unary main_v34 main_v35 (broadcastInDim S65536x1 ![0] bcast_S65536_S65536x1_0 : (⟨S65536, .i1⟩ : BufTy).Contents (Elt F) → (⟨S65536x1, .i1⟩ : BufTy).Contents (Elt F)),
    StableHlo.unary main_v35 main_call1_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call1_v0 main_v32 main_v15 main_v36 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW2_sub : (opsW2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW2_fresh : (opsW2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 2 windows. -/
def val2 (V0 : Valuation τ sig (Elt F)) : Valuation τ sig (Elt F) := after opsW2 (val1 V0)
/-- The buffers window 2 writes. -/
abbrev opsW2_W : List (Ref sig .tc) := [main_v16, main_v17, main_v18, main_v19, main_v20, main_v21, main_v22, main_v23, main_call0_cst, main_call0_v0, main_v24, main_v25, main_v26, main_v27, main_v28, main_v29, main_v30, main_v31, main_v32, main_c_5, main_v33, main_v34, main_v35, main_call1_v0, main_v36]
set_option maxRecDepth 8192 in
theorem opsW2_writes : (opsW2 : List (HloOp τ sig (Elt F))).Forall fun op => op.writes ⊆ (opsW2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 2 does not write keeps its contents through it. -/
theorem val2_keep (V0 : Valuation τ sig (Elt F)) (r : Ref sig .tc) (h : r ∉ opsW2_W) :
    val2 V0 (Proc.devRef .tc r) = val1 V0 (Proc.devRef .tc r) :=
  after_of_writes_sub opsW2 _ opsW2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_v6 (V0 : Valuation τ sig (Elt F)) : val2 V0 (no_index (Proc.devRef .tc main_v6)) = base (V0 (Proc.devRef .tc main_arg0)) :=
  (val2_keep V0 main_v6 (by decide)).trans (val1_main_v6 V0)
theorem val2_main_v14 (V0 : Valuation τ sig (Elt F)) : val2 V0 (no_index (Proc.devRef .tc main_v14)) = scaled (V0 (Proc.devRef .tc main_arg0)) (V0 (Proc.devRef .tc main_arg2)) :=
  (val2_keep V0 main_v14 (by decide)).trans (val1_main_v14 V0)
set_option maxRecDepth 8192 in
set_option maxHeartbeats 2500000 in
theorem val2_main_v36 (V0 : Valuation τ sig (Elt F)) : val2 V0 (no_index (Proc.devRef .tc main_v36)) = pv0 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val2
  simp only [opsW2]
  after_results_simp
  try simp only [val1_main_arg0, val1_main_arg1, val1_main_arg2, val1_main_arg3, val1_main_arg4, val1_main_arg5, val1_main_arg6, val1_main_arg7, val1_main_arg8, val1_main_arg9, val1_main_arg10, val1_main_v6, val1_main_v14, val1_main_v15]
  all_goals rfl

/-! ### Window 3 -/

/-- The operations of window 3, in order. -/
abbrev opsW3 : List (HloOp τ sig (Elt F)) :=
  [ StableHlo.unary main_arg5 main_v37 ((extractStridedSlice S1x4x512 ![1, 0, 0] · slices_S9x4x512_S1x4x512_1_0_0) : (⟨S9x4x512, .f32⟩ : BufTy).Contents (Elt F) → (⟨S1x4x512, .f32⟩ : BufTy).Contents (Elt F)),
    StableHlo.reshape main_v37 main_v38 rfl shapeCasts_S1x4x512_S4x512,
    StableHlo.binary main_v14 main_v38 main_v39 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v40 ((extractStridedSlice S1x512 ![1, 0] · slices_S9x512_S1x512_1_0) : (⟨S9x512, .f32⟩ : BufTy).Contents (Elt F) → (⟨S1x512, .f32⟩ : BufTy).Contents (Elt F)),
    StableHlo.reshape main_v40 main_v41 rfl shapeCasts_S1x512_S512,
    StableHlo.unary main_v41 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S65536x512 ![0, 1] bcast_S1x512_S65536x512_0_1 : (⟨S1x512, .f32⟩ : BufTy).Contents (Elt F) → (⟨S65536x512, .f32⟩ : BufTy).Contents (Elt F)),
    StableHlo.binary main_v39 main_v43 main_v44 (addf : (⟨S65536x512, .f32⟩ : BufTy).Contents (Elt F) → (⟨S65536x512, .f32⟩ : BufTy).Contents (Elt F) → (⟨S65536x512, .f32⟩ : BufTy).Contents (Elt F)),
    StableHlo.nullary main_call2_cst (constant S_ .f32 0x00000000#32),
    StableHlo.unary main_call2_cst main_call2_v0 (broadcastInDim S65536x512 ![] bcast_S_S65536x512 : (⟨S_, .f32⟩ : BufTy).Contents (Elt F) → (⟨S65536x512, .f32⟩ : BufTy).Contents (Elt F)),
    StableHlo.binary main_v44 main_call2_v0 main_v45 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v46 ((extractStridedSlice S1x512x512 ![1, 0, 0] · slices_S9x512x512_S1x512x512_1_0_0) : (⟨S9x512x512, .f32⟩ : BufTy).Contents (Elt F) → (⟨S1x512x512, .f32⟩ : BufTy).Contents (Elt F)),
    StableHlo.reshape main_v46 main_v47 rfl shapeCasts_S1x512x512_S512x512,
    StableHlo.binary main_v45 main_v47 main_v48 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v49 ((extractStridedSlice S1x512 ![1, 0] · slices_S9x512_S1x512_1_0) : (⟨S9x512, .f32⟩ : BufTy).Contents (Elt F) → (⟨S1x512, .f32⟩ : BufTy).Contents (Elt F)),
    StableHlo.reshape main_v49 main_v50 rfl shapeCasts_S1x512_S512,
    StableHlo.unary main_v50 main_v51 (broadcastInDim S1x512 ![1] bcast_S512_S1x512_1 : (⟨S512, .f32⟩ : BufTy).Contents (Elt F) → (⟨S1x512, .f32⟩ : BufTy).Contents (Elt F)),
    StableHlo.unary main_v51 main_v52 (broadcastInDim S65536x512 ![0, 1] bcast_S1x512_S65536x512_0_1 : (⟨S1x512, .f32⟩ : BufTy).Contents (Elt F) → (⟨S65536x512, .f32⟩ : BufTy).Contents (Elt F)),
    StableHlo.binary main_v48 main_v52 main_v53 (addf : (⟨S65536x512, .f32⟩ : BufTy).Contents (Elt F) → (⟨S65536x512, .f32⟩ : BufTy).Contents (Elt F) → (⟨S65536x512, .f32⟩ : BufTy).Contents (Elt F)),
    StableHlo.nullary main_c_6 (constantI S_ 32 1#32),
    StableHlo.unary main_c_6 main_v54 (broadcastInDim S65536 ![] bcast_S_S65536 : (⟨S_, .i32⟩ : BufTy).Contents (Elt F) → (⟨S65536, .i32⟩ : BufTy).Contents (Elt F)),
    StableHlo.binary main_v6 main_v54 main_v55 (cmpi .eq : (⟨S65536, .i32⟩ : BufTy).Contents (Elt F) → (⟨S65536, .i32⟩ : BufTy).Contents (Elt F) → (⟨S65536, .i1⟩ : BufTy).Contents (Elt F)),
    StableHlo.unary main_v55 main_v56 (broadcastInDim S65536x1 ![0] bcast_S65536_S65536x1_0 : (⟨S65536, .i1⟩ : BufTy).Contents (Elt F) → (⟨S65536x1, .i1⟩ : BufTy).Contents (Elt F)),
    StableHlo.unary main_v56 main_call3_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call3_v0 main_v53 main_v36 main_v57 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW3_sub : (opsW3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 3 windows. -/
def val3 (V0 : Valuation τ sig (Elt F)) : Valuation τ sig (Elt F) := after opsW3 (val2 V0)
/-- The buffers window 3 writes. -/
abbrev opsW3_W : List (Ref sig .tc) := [main_v37, main_v38, main_v39, main_v40, main_v41, main_v42, main_v43, main_v44, main_call2_cst, main_call2_v0, main_v45, main_v46, main_v47, main_v48, main_v49, main_v50, main_v51, main_v52, main_v53, main_c_6, main_v54, main_v55, main_v56, main_call3_v0, main_v57]
set_option maxRecDepth 8192 in
theorem opsW3_writes : (opsW3 : List (HloOp τ sig (Elt F))).Forall fun op => op.writes ⊆ (opsW3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 3 does not write keeps its contents through it. -/
theorem val3_keep (V0 : Valuation τ sig (Elt F)) (r : Ref sig .tc) (h : r ∉ opsW3_W) :
    val3 V0 (Proc.devRef .tc r) = val2 V0 (Proc.devRef .tc r) :=
  after_of_writes_sub opsW3 _ opsW3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_v6 (V0 : Valuation τ sig (Elt F)) : val3 V0 (no_index (Proc.devRef .tc main_v6)) = base (V0 (Proc.devRef .tc main_arg0)) :=
  (val3_keep V0 main_v6 (by decide)).trans (val2_main_v6 V0)
theorem val3_main_v14 (V0 : Valuation τ sig (Elt F)) : val3 V0 (no_index (Proc.devRef .tc main_v14)) = scaled (V0 (Proc.devRef .tc main_arg0)) (V0 (Proc.devRef .tc main_arg2)) :=
  (val3_keep V0 main_v14 (by decide)).trans (val2_main_v14 V0)
set_option maxRecDepth 8192 in
set_option maxHeartbeats 2500000 in
theorem val3_main_v57 (V0 : Valuation τ sig (Elt F)) : val3 V0 (no_index (Proc.devRef .tc main_v57)) = pv1 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val3
  simp only [opsW3]
  after_results_simp
  try simp only [val2_main_arg0, val2_main_arg1, val2_main_arg2, val2_main_arg3, val2_main_arg4, val2_main_arg5, val2_main_arg6, val2_main_arg7, val2_main_arg8, val2_main_arg9, val2_main_arg10, val2_main_v6, val2_main_v14, val2_main_v36]
  all_goals rfl

/-! ### Window 4 -/

/-- The operations of window 4, in order. -/
abbrev opsW4 : List (HloOp τ sig (Elt F)) :=
  [ StableHlo.unary main_arg5 main_v58 ((extractStridedSlice S1x4x512 ![2, 0, 0] · slices_S9x4x512_S1x4x512_2_0_0) : (⟨S9x4x512, .f32⟩ : BufTy).Contents (Elt F) → (⟨S1x4x512, .f32⟩ : BufTy).Contents (Elt F)),
    StableHlo.reshape main_v58 main_v59 rfl shapeCasts_S1x4x512_S4x512,
    StableHlo.binary main_v14 main_v59 main_v60 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v61 ((extractStridedSlice S1x512 ![2, 0] · slices_S9x512_S1x512_2_0) : (⟨S9x512, .f32⟩ : BufTy).Contents (Elt F) → (⟨S1x512, .f32⟩ : BufTy).Contents (Elt F)),
    StableHlo.reshape main_v61 main_v62 rfl shapeCasts_S1x512_S512,
    StableHlo.unary main_v62 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S65536x512 ![0, 1] bcast_S1x512_S65536x512_0_1 : (⟨S1x512, .f32⟩ : BufTy).Contents (Elt F) → (⟨S65536x512, .f32⟩ : BufTy).Contents (Elt F)),
    StableHlo.binary main_v60 main_v64 main_v65 (addf : (⟨S65536x512, .f32⟩ : BufTy).Contents (Elt F) → (⟨S65536x512, .f32⟩ : BufTy).Contents (Elt F) → (⟨S65536x512, .f32⟩ : BufTy).Contents (Elt F)),
    StableHlo.nullary main_call4_cst (constant S_ .f32 0x00000000#32),
    StableHlo.unary main_call4_cst main_call4_v0 (broadcastInDim S65536x512 ![] bcast_S_S65536x512 : (⟨S_, .f32⟩ : BufTy).Contents (Elt F) → (⟨S65536x512, .f32⟩ : BufTy).Contents (Elt F)),
    StableHlo.binary main_v65 main_call4_v0 main_v66 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v67 ((extractStridedSlice S1x512x512 ![2, 0, 0] · slices_S9x512x512_S1x512x512_2_0_0) : (⟨S9x512x512, .f32⟩ : BufTy).Contents (Elt F) → (⟨S1x512x512, .f32⟩ : BufTy).Contents (Elt F)),
    StableHlo.reshape main_v67 main_v68 rfl shapeCasts_S1x512x512_S512x512,
    StableHlo.binary main_v66 main_v68 main_v69 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v70 ((extractStridedSlice S1x512 ![2, 0] · slices_S9x512_S1x512_2_0) : (⟨S9x512, .f32⟩ : BufTy).Contents (Elt F) → (⟨S1x512, .f32⟩ : BufTy).Contents (Elt F)),
    StableHlo.reshape main_v70 main_v71 rfl shapeCasts_S1x512_S512,
    StableHlo.unary main_v71 main_v72 (broadcastInDim S1x512 ![1] bcast_S512_S1x512_1 : (⟨S512, .f32⟩ : BufTy).Contents (Elt F) → (⟨S1x512, .f32⟩ : BufTy).Contents (Elt F)),
    StableHlo.unary main_v72 main_v73 (broadcastInDim S65536x512 ![0, 1] bcast_S1x512_S65536x512_0_1 : (⟨S1x512, .f32⟩ : BufTy).Contents (Elt F) → (⟨S65536x512, .f32⟩ : BufTy).Contents (Elt F)),
    StableHlo.binary main_v69 main_v73 main_v74 (addf : (⟨S65536x512, .f32⟩ : BufTy).Contents (Elt F) → (⟨S65536x512, .f32⟩ : BufTy).Contents (Elt F) → (⟨S65536x512, .f32⟩ : BufTy).Contents (Elt F)),
    StableHlo.nullary main_c_7 (constantI S_ 32 2#32),
    StableHlo.unary main_c_7 main_v75 (broadcastInDim S65536 ![] bcast_S_S65536 : (⟨S_, .i32⟩ : BufTy).Contents (Elt F) → (⟨S65536, .i32⟩ : BufTy).Contents (Elt F)),
    StableHlo.binary main_v6 main_v75 main_v76 (cmpi .eq : (⟨S65536, .i32⟩ : BufTy).Contents (Elt F) → (⟨S65536, .i32⟩ : BufTy).Contents (Elt F) → (⟨S65536, .i1⟩ : BufTy).Contents (Elt F)),
    StableHlo.unary main_v76 main_v77 (broadcastInDim S65536x1 ![0] bcast_S65536_S65536x1_0 : (⟨S65536, .i1⟩ : BufTy).Contents (Elt F) → (⟨S65536x1, .i1⟩ : BufTy).Contents (Elt F)),
    StableHlo.unary main_v77 main_call5_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call5_v0 main_v74 main_v57 main_v78 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW4_sub : (opsW4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW4_fresh : (opsW4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 4 windows. -/
def val4 (V0 : Valuation τ sig (Elt F)) : Valuation τ sig (Elt F) := after opsW4 (val3 V0)
/-- The buffers window 4 writes. -/
abbrev opsW4_W : List (Ref sig .tc) := [main_v58, main_v59, main_v60, main_v61, main_v62, main_v63, main_v64, main_v65, main_call4_cst, main_call4_v0, main_v66, main_v67, main_v68, main_v69, main_v70, main_v71, main_v72, main_v73, main_v74, main_c_7, main_v75, main_v76, main_v77, main_call5_v0, main_v78]
set_option maxRecDepth 8192 in
theorem opsW4_writes : (opsW4 : List (HloOp τ sig (Elt F))).Forall fun op => op.writes ⊆ (opsW4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 4 does not write keeps its contents through it. -/
theorem val4_keep (V0 : Valuation τ sig (Elt F)) (r : Ref sig .tc) (h : r ∉ opsW4_W) :
    val4 V0 (Proc.devRef .tc r) = val3 V0 (Proc.devRef .tc r) :=
  after_of_writes_sub opsW4 _ opsW4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_v6 (V0 : Valuation τ sig (Elt F)) : val4 V0 (no_index (Proc.devRef .tc main_v6)) = base (V0 (Proc.devRef .tc main_arg0)) :=
  (val4_keep V0 main_v6 (by decide)).trans (val3_main_v6 V0)
theorem val4_main_v14 (V0 : Valuation τ sig (Elt F)) : val4 V0 (no_index (Proc.devRef .tc main_v14)) = scaled (V0 (Proc.devRef .tc main_arg0)) (V0 (Proc.devRef .tc main_arg2)) :=
  (val4_keep V0 main_v14 (by decide)).trans (val3_main_v14 V0)
set_option maxRecDepth 8192 in
set_option maxHeartbeats 2500000 in
theorem val4_main_v78 (V0 : Valuation τ sig (Elt F)) : val4 V0 (no_index (Proc.devRef .tc main_v78)) = pv2 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val4
  simp only [opsW4]
  after_results_simp
  try simp only [val3_main_arg0, val3_main_arg1, val3_main_arg2, val3_main_arg3, val3_main_arg4, val3_main_arg5, val3_main_arg6, val3_main_arg7, val3_main_arg8, val3_main_arg9, val3_main_arg10, val3_main_v6, val3_main_v14, val3_main_v57]
  all_goals rfl

/-! ### Window 5 -/

/-- The operations of window 5, in order. -/
abbrev opsW5 : List (HloOp τ sig (Elt F)) :=
  [ StableHlo.unary main_arg5 main_v79 ((extractStridedSlice S1x4x512 ![3, 0, 0] · slices_S9x4x512_S1x4x512_3_0_0) : (⟨S9x4x512, .f32⟩ : BufTy).Contents (Elt F) → (⟨S1x4x512, .f32⟩ : BufTy).Contents (Elt F)),
    StableHlo.reshape main_v79 main_v80 rfl shapeCasts_S1x4x512_S4x512,
    StableHlo.binary main_v14 main_v80 main_v81 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v82 ((extractStridedSlice S1x512 ![3, 0] · slices_S9x512_S1x512_3_0) : (⟨S9x512, .f32⟩ : BufTy).Contents (Elt F) → (⟨S1x512, .f32⟩ : BufTy).Contents (Elt F)),
    StableHlo.reshape main_v82 main_v83 rfl shapeCasts_S1x512_S512,
    StableHlo.unary main_v83 main_v84 (broadcastInDim S1x512 ![1] bcast_S512_S1x512_1 : (⟨S512, .f32⟩ : BufTy).Contents (Elt F) → (⟨S1x512, .f32⟩ : BufTy).Contents (Elt F)),
    StableHlo.unary main_v84 main_v85 (broadcastInDim S65536x512 ![0, 1] bcast_S1x512_S65536x512_0_1 : (⟨S1x512, .f32⟩ : BufTy).Contents (Elt F) → (⟨S65536x512, .f32⟩ : BufTy).Contents (Elt F)),
    StableHlo.binary main_v81 main_v85 main_v86 (addf : (⟨S65536x512, .f32⟩ : BufTy).Contents (Elt F) → (⟨S65536x512, .f32⟩ : BufTy).Contents (Elt F) → (⟨S65536x512, .f32⟩ : BufTy).Contents (Elt F)),
    StableHlo.nullary main_call6_cst (constant S_ .f32 0x00000000#32),
    StableHlo.unary main_call6_cst main_call6_v0 (broadcastInDim S65536x512 ![] bcast_S_S65536x512 : (⟨S_, .f32⟩ : BufTy).Contents (Elt F) → (⟨S65536x512, .f32⟩ : BufTy).Contents (Elt F)),
    StableHlo.binary main_v86 main_call6_v0 main_v87 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v88 ((extractStridedSlice S1x512x512 ![3, 0, 0] · slices_S9x512x512_S1x512x512_3_0_0) : (⟨S9x512x512, .f32⟩ : BufTy).Contents (Elt F) → (⟨S1x512x512, .f32⟩ : BufTy).Contents (Elt F)),
    StableHlo.reshape main_v88 main_v89 rfl shapeCasts_S1x512x512_S512x512,
    StableHlo.binary main_v87 main_v89 main_v90 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v91 ((extractStridedSlice S1x512 ![3, 0] · slices_S9x512_S1x512_3_0) : (⟨S9x512, .f32⟩ : BufTy).Contents (Elt F) → (⟨S1x512, .f32⟩ : BufTy).Contents (Elt F)),
    StableHlo.reshape main_v91 main_v92 rfl shapeCasts_S1x512_S512,
    StableHlo.unary main_v92 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S65536x512 ![0, 1] bcast_S1x512_S65536x512_0_1 : (⟨S1x512, .f32⟩ : BufTy).Contents (Elt F) → (⟨S65536x512, .f32⟩ : BufTy).Contents (Elt F)),
    StableHlo.binary main_v90 main_v94 main_v95 (addf : (⟨S65536x512, .f32⟩ : BufTy).Contents (Elt F) → (⟨S65536x512, .f32⟩ : BufTy).Contents (Elt F) → (⟨S65536x512, .f32⟩ : BufTy).Contents (Elt F)),
    StableHlo.nullary main_c_8 (constantI S_ 32 3#32),
    StableHlo.unary main_c_8 main_v96 (broadcastInDim S65536 ![] bcast_S_S65536 : (⟨S_, .i32⟩ : BufTy).Contents (Elt F) → (⟨S65536, .i32⟩ : BufTy).Contents (Elt F)),
    StableHlo.binary main_v6 main_v96 main_v97 (cmpi .eq : (⟨S65536, .i32⟩ : BufTy).Contents (Elt F) → (⟨S65536, .i32⟩ : BufTy).Contents (Elt F) → (⟨S65536, .i1⟩ : BufTy).Contents (Elt F)),
    StableHlo.unary main_v97 main_v98 (broadcastInDim S65536x1 ![0] bcast_S65536_S65536x1_0 : (⟨S65536, .i1⟩ : BufTy).Contents (Elt F) → (⟨S65536x1, .i1⟩ : BufTy).Contents (Elt F)),
    StableHlo.unary main_v98 main_call7_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call7_v0 main_v95 main_v78 main_v99 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW5_sub : (opsW5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW5_fresh : (opsW5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 5 windows. -/
def val5 (V0 : Valuation τ sig (Elt F)) : Valuation τ sig (Elt F) := after opsW5 (val4 V0)
/-- The buffers window 5 writes. -/
abbrev opsW5_W : List (Ref sig .tc) := [main_v79, main_v80, main_v81, main_v82, main_v83, main_v84, main_v85, main_v86, main_call6_cst, main_call6_v0, main_v87, main_v88, main_v89, main_v90, main_v91, main_v92, main_v93, main_v94, main_v95, main_c_8, main_v96, main_v97, main_v98, main_call7_v0, main_v99]
set_option maxRecDepth 8192 in
theorem opsW5_writes : (opsW5 : List (HloOp τ sig (Elt F))).Forall fun op => op.writes ⊆ (opsW5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 5 does not write keeps its contents through it. -/
theorem val5_keep (V0 : Valuation τ sig (Elt F)) (r : Ref sig .tc) (h : r ∉ opsW5_W) :
    val5 V0 (Proc.devRef .tc r) = val4 V0 (Proc.devRef .tc r) :=
  after_of_writes_sub opsW5 _ opsW5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_v6 (V0 : Valuation τ sig (Elt F)) : val5 V0 (no_index (Proc.devRef .tc main_v6)) = base (V0 (Proc.devRef .tc main_arg0)) :=
  (val5_keep V0 main_v6 (by decide)).trans (val4_main_v6 V0)
theorem val5_main_v14 (V0 : Valuation τ sig (Elt F)) : val5 V0 (no_index (Proc.devRef .tc main_v14)) = scaled (V0 (Proc.devRef .tc main_arg0)) (V0 (Proc.devRef .tc main_arg2)) :=
  (val5_keep V0 main_v14 (by decide)).trans (val4_main_v14 V0)
set_option maxRecDepth 8192 in
set_option maxHeartbeats 2500000 in
theorem val5_main_v99 (V0 : Valuation τ sig (Elt F)) : val5 V0 (no_index (Proc.devRef .tc main_v99)) = pv3 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val5
  simp only [opsW5]
  after_results_simp
  try simp only [val4_main_arg0, val4_main_arg1, val4_main_arg2, val4_main_arg3, val4_main_arg4, val4_main_arg5, val4_main_arg6, val4_main_arg7, val4_main_arg8, val4_main_arg9, val4_main_arg10, val4_main_v6, val4_main_v14, val4_main_v78]
  all_goals rfl

/-! ### Window 6 -/

/-- The operations of window 6, in order. -/
abbrev opsW6 : List (HloOp τ sig (Elt F)) :=
  [ StableHlo.unary main_arg5 main_v100 ((extractStridedSlice S1x4x512 ![4, 0, 0] · slices_S9x4x512_S1x4x512_4_0_0) : (⟨S9x4x512, .f32⟩ : BufTy).Contents (Elt F) → (⟨S1x4x512, .f32⟩ : BufTy).Contents (Elt F)),
    StableHlo.reshape main_v100 main_v101 rfl shapeCasts_S1x4x512_S4x512,
    StableHlo.binary main_v14 main_v101 main_v102 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v103 ((extractStridedSlice S1x512 ![4, 0] · slices_S9x512_S1x512_4_0) : (⟨S9x512, .f32⟩ : BufTy).Contents (Elt F) → (⟨S1x512, .f32⟩ : BufTy).Contents (Elt F)),
    StableHlo.reshape main_v103 main_v104 rfl shapeCasts_S1x512_S512,
    StableHlo.unary main_v104 main_v105 (broadcastInDim S1x512 ![1] bcast_S512_S1x512_1 : (⟨S512, .f32⟩ : BufTy).Contents (Elt F) → (⟨S1x512, .f32⟩ : BufTy).Contents (Elt F)),
    StableHlo.unary main_v105 main_v106 (broadcastInDim S65536x512 ![0, 1] bcast_S1x512_S65536x512_0_1 : (⟨S1x512, .f32⟩ : BufTy).Contents (Elt F) → (⟨S65536x512, .f32⟩ : BufTy).Contents (Elt F)),
    StableHlo.binary main_v102 main_v106 main_v107 (addf : (⟨S65536x512, .f32⟩ : BufTy).Contents (Elt F) → (⟨S65536x512, .f32⟩ : BufTy).Contents (Elt F) → (⟨S65536x512, .f32⟩ : BufTy).Contents (Elt F)),
    StableHlo.nullary main_call8_cst (constant S_ .f32 0x00000000#32),
    StableHlo.unary main_call8_cst main_call8_v0 (broadcastInDim S65536x512 ![] bcast_S_S65536x512 : (⟨S_, .f32⟩ : BufTy).Contents (Elt F) → (⟨S65536x512, .f32⟩ : BufTy).Contents (Elt F)),
    StableHlo.binary main_v107 main_call8_v0 main_v108 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v109 ((extractStridedSlice S1x512x512 ![4, 0, 0] · slices_S9x512x512_S1x512x512_4_0_0) : (⟨S9x512x512, .f32⟩ : BufTy).Contents (Elt F) → (⟨S1x512x512, .f32⟩ : BufTy).Contents (Elt F)),
    StableHlo.reshape main_v109 main_v110 rfl shapeCasts_S1x512x512_S512x512,
    StableHlo.binary main_v108 main_v110 main_v111 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v112 ((extractStridedSlice S1x512 ![4, 0] · slices_S9x512_S1x512_4_0) : (⟨S9x512, .f32⟩ : BufTy).Contents (Elt F) → (⟨S1x512, .f32⟩ : BufTy).Contents (Elt F)),
    StableHlo.reshape main_v112 main_v113 rfl shapeCasts_S1x512_S512,
    StableHlo.unary main_v113 main_v114 (broadcastInDim S1x512 ![1] bcast_S512_S1x512_1 : (⟨S512, .f32⟩ : BufTy).Contents (Elt F) → (⟨S1x512, .f32⟩ : BufTy).Contents (Elt F)),
    StableHlo.unary main_v114 main_v115 (broadcastInDim S65536x512 ![0, 1] bcast_S1x512_S65536x512_0_1 : (⟨S1x512, .f32⟩ : BufTy).Contents (Elt F) → (⟨S65536x512, .f32⟩ : BufTy).Contents (Elt F)),
    StableHlo.binary main_v111 main_v115 main_v116 (addf : (⟨S65536x512, .f32⟩ : BufTy).Contents (Elt F) → (⟨S65536x512, .f32⟩ : BufTy).Contents (Elt F) → (⟨S65536x512, .f32⟩ : BufTy).Contents (Elt F)),
    StableHlo.nullary main_c_9 (constantI S_ 32 4#32),
    StableHlo.unary main_c_9 main_v117 (broadcastInDim S65536 ![] bcast_S_S65536 : (⟨S_, .i32⟩ : BufTy).Contents (Elt F) → (⟨S65536, .i32⟩ : BufTy).Contents (Elt F)),
    StableHlo.binary main_v6 main_v117 main_v118 (cmpi .eq : (⟨S65536, .i32⟩ : BufTy).Contents (Elt F) → (⟨S65536, .i32⟩ : BufTy).Contents (Elt F) → (⟨S65536, .i1⟩ : BufTy).Contents (Elt F)),
    StableHlo.unary main_v118 main_v119 (broadcastInDim S65536x1 ![0] bcast_S65536_S65536x1_0 : (⟨S65536, .i1⟩ : BufTy).Contents (Elt F) → (⟨S65536x1, .i1⟩ : BufTy).Contents (Elt F)),
    StableHlo.unary main_v119 main_call9_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call9_v0 main_v116 main_v99 main_v120 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW6_sub : (opsW6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW6_fresh : (opsW6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 6 windows. -/
def val6 (V0 : Valuation τ sig (Elt F)) : Valuation τ sig (Elt F) := after opsW6 (val5 V0)
/-- The buffers window 6 writes. -/
abbrev opsW6_W : List (Ref sig .tc) := [main_v100, main_v101, main_v102, main_v103, main_v104, main_v105, main_v106, main_v107, main_call8_cst, main_call8_v0, main_v108, main_v109, main_v110, main_v111, main_v112, main_v113, main_v114, main_v115, main_v116, main_c_9, main_v117, main_v118, main_v119, main_call9_v0, main_v120]
set_option maxRecDepth 8192 in
theorem opsW6_writes : (opsW6 : List (HloOp τ sig (Elt F))).Forall fun op => op.writes ⊆ (opsW6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 6 does not write keeps its contents through it. -/
theorem val6_keep (V0 : Valuation τ sig (Elt F)) (r : Ref sig .tc) (h : r ∉ opsW6_W) :
    val6 V0 (Proc.devRef .tc r) = val5 V0 (Proc.devRef .tc r) :=
  after_of_writes_sub opsW6 _ opsW6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_v6 (V0 : Valuation τ sig (Elt F)) : val6 V0 (no_index (Proc.devRef .tc main_v6)) = base (V0 (Proc.devRef .tc main_arg0)) :=
  (val6_keep V0 main_v6 (by decide)).trans (val5_main_v6 V0)
theorem val6_main_v14 (V0 : Valuation τ sig (Elt F)) : val6 V0 (no_index (Proc.devRef .tc main_v14)) = scaled (V0 (Proc.devRef .tc main_arg0)) (V0 (Proc.devRef .tc main_arg2)) :=
  (val6_keep V0 main_v14 (by decide)).trans (val5_main_v14 V0)
set_option maxRecDepth 8192 in
set_option maxHeartbeats 2500000 in
theorem val6_main_v120 (V0 : Valuation τ sig (Elt F)) : val6 V0 (no_index (Proc.devRef .tc main_v120)) = pv4 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val6
  simp only [opsW6]
  after_results_simp
  try simp only [val5_main_arg0, val5_main_arg1, val5_main_arg2, val5_main_arg3, val5_main_arg4, val5_main_arg5, val5_main_arg6, val5_main_arg7, val5_main_arg8, val5_main_arg9, val5_main_arg10, val5_main_v6, val5_main_v14, val5_main_v99]
  all_goals rfl

/-! ### Window 7 -/

/-- The operations of window 7, in order. -/
abbrev opsW7 : List (HloOp τ sig (Elt F)) :=
  [ StableHlo.unary main_arg5 main_v121 ((extractStridedSlice S1x4x512 ![5, 0, 0] · slices_S9x4x512_S1x4x512_5_0_0) : (⟨S9x4x512, .f32⟩ : BufTy).Contents (Elt F) → (⟨S1x4x512, .f32⟩ : BufTy).Contents (Elt F)),
    StableHlo.reshape main_v121 main_v122 rfl shapeCasts_S1x4x512_S4x512,
    StableHlo.binary main_v14 main_v122 main_v123 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v124 ((extractStridedSlice S1x512 ![5, 0] · slices_S9x512_S1x512_5_0) : (⟨S9x512, .f32⟩ : BufTy).Contents (Elt F) → (⟨S1x512, .f32⟩ : BufTy).Contents (Elt F)),
    StableHlo.reshape main_v124 main_v125 rfl shapeCasts_S1x512_S512,
    StableHlo.unary main_v125 main_v126 (broadcastInDim S1x512 ![1] bcast_S512_S1x512_1 : (⟨S512, .f32⟩ : BufTy).Contents (Elt F) → (⟨S1x512, .f32⟩ : BufTy).Contents (Elt F)),
    StableHlo.unary main_v126 main_v127 (broadcastInDim S65536x512 ![0, 1] bcast_S1x512_S65536x512_0_1 : (⟨S1x512, .f32⟩ : BufTy).Contents (Elt F) → (⟨S65536x512, .f32⟩ : BufTy).Contents (Elt F)),
    StableHlo.binary main_v123 main_v127 main_v128 (addf : (⟨S65536x512, .f32⟩ : BufTy).Contents (Elt F) → (⟨S65536x512, .f32⟩ : BufTy).Contents (Elt F) → (⟨S65536x512, .f32⟩ : BufTy).Contents (Elt F)),
    StableHlo.nullary main_call10_cst (constant S_ .f32 0x00000000#32),
    StableHlo.unary main_call10_cst main_call10_v0 (broadcastInDim S65536x512 ![] bcast_S_S65536x512 : (⟨S_, .f32⟩ : BufTy).Contents (Elt F) → (⟨S65536x512, .f32⟩ : BufTy).Contents (Elt F)),
    StableHlo.binary main_v128 main_call10_v0 main_v129 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v130 ((extractStridedSlice S1x512x512 ![5, 0, 0] · slices_S9x512x512_S1x512x512_5_0_0) : (⟨S9x512x512, .f32⟩ : BufTy).Contents (Elt F) → (⟨S1x512x512, .f32⟩ : BufTy).Contents (Elt F)),
    StableHlo.reshape main_v130 main_v131 rfl shapeCasts_S1x512x512_S512x512,
    StableHlo.binary main_v129 main_v131 main_v132 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v133 ((extractStridedSlice S1x512 ![5, 0] · slices_S9x512_S1x512_5_0) : (⟨S9x512, .f32⟩ : BufTy).Contents (Elt F) → (⟨S1x512, .f32⟩ : BufTy).Contents (Elt F)),
    StableHlo.reshape main_v133 main_v134 rfl shapeCasts_S1x512_S512,
    StableHlo.unary main_v134 main_v135 (broadcastInDim S1x512 ![1] bcast_S512_S1x512_1 : (⟨S512, .f32⟩ : BufTy).Contents (Elt F) → (⟨S1x512, .f32⟩ : BufTy).Contents (Elt F)),
    StableHlo.unary main_v135 main_v136 (broadcastInDim S65536x512 ![0, 1] bcast_S1x512_S65536x512_0_1 : (⟨S1x512, .f32⟩ : BufTy).Contents (Elt F) → (⟨S65536x512, .f32⟩ : BufTy).Contents (Elt F)),
    StableHlo.binary main_v132 main_v136 main_v137 (addf : (⟨S65536x512, .f32⟩ : BufTy).Contents (Elt F) → (⟨S65536x512, .f32⟩ : BufTy).Contents (Elt F) → (⟨S65536x512, .f32⟩ : BufTy).Contents (Elt F)),
    StableHlo.nullary main_c_10 (constantI S_ 32 5#32),
    StableHlo.unary main_c_10 main_v138 (broadcastInDim S65536 ![] bcast_S_S65536 : (⟨S_, .i32⟩ : BufTy).Contents (Elt F) → (⟨S65536, .i32⟩ : BufTy).Contents (Elt F)),
    StableHlo.binary main_v6 main_v138 main_v139 (cmpi .eq : (⟨S65536, .i32⟩ : BufTy).Contents (Elt F) → (⟨S65536, .i32⟩ : BufTy).Contents (Elt F) → (⟨S65536, .i1⟩ : BufTy).Contents (Elt F)),
    StableHlo.unary main_v139 main_v140 (broadcastInDim S65536x1 ![0] bcast_S65536_S65536x1_0 : (⟨S65536, .i1⟩ : BufTy).Contents (Elt F) → (⟨S65536x1, .i1⟩ : BufTy).Contents (Elt F)),
    StableHlo.unary main_v140 main_call11_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call11_v0 main_v137 main_v120 main_v141 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW7_sub : (opsW7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW7_fresh : (opsW7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 7 windows. -/
def val7 (V0 : Valuation τ sig (Elt F)) : Valuation τ sig (Elt F) := after opsW7 (val6 V0)
/-- The buffers window 7 writes. -/
abbrev opsW7_W : List (Ref sig .tc) := [main_v121, main_v122, main_v123, main_v124, main_v125, main_v126, main_v127, main_v128, main_call10_cst, main_call10_v0, main_v129, main_v130, main_v131, main_v132, main_v133, main_v134, main_v135, main_v136, main_v137, main_c_10, main_v138, main_v139, main_v140, main_call11_v0, main_v141]
set_option maxRecDepth 8192 in
theorem opsW7_writes : (opsW7 : List (HloOp τ sig (Elt F))).Forall fun op => op.writes ⊆ (opsW7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 7 does not write keeps its contents through it. -/
theorem val7_keep (V0 : Valuation τ sig (Elt F)) (r : Ref sig .tc) (h : r ∉ opsW7_W) :
    val7 V0 (Proc.devRef .tc r) = val6 V0 (Proc.devRef .tc r) :=
  after_of_writes_sub opsW7 _ opsW7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_v6 (V0 : Valuation τ sig (Elt F)) : val7 V0 (no_index (Proc.devRef .tc main_v6)) = base (V0 (Proc.devRef .tc main_arg0)) :=
  (val7_keep V0 main_v6 (by decide)).trans (val6_main_v6 V0)
theorem val7_main_v14 (V0 : Valuation τ sig (Elt F)) : val7 V0 (no_index (Proc.devRef .tc main_v14)) = scaled (V0 (Proc.devRef .tc main_arg0)) (V0 (Proc.devRef .tc main_arg2)) :=
  (val7_keep V0 main_v14 (by decide)).trans (val6_main_v14 V0)
set_option maxRecDepth 8192 in
set_option maxHeartbeats 2500000 in
theorem val7_main_v141 (V0 : Valuation τ sig (Elt F)) : val7 V0 (no_index (Proc.devRef .tc main_v141)) = pv5 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val7
  simp only [opsW7]
  after_results_simp
  try simp only [val6_main_arg0, val6_main_arg1, val6_main_arg2, val6_main_arg3, val6_main_arg4, val6_main_arg5, val6_main_arg6, val6_main_arg7, val6_main_arg8, val6_main_arg9, val6_main_arg10, val6_main_v6, val6_main_v14, val6_main_v120]
  all_goals rfl

/-! ### Window 8 -/

/-- The operations of window 8, in order. -/
abbrev opsW8 : List (HloOp τ sig (Elt F)) :=
  [ StableHlo.unary main_arg5 main_v142 ((extractStridedSlice S1x4x512 ![6, 0, 0] · slices_S9x4x512_S1x4x512_6_0_0) : (⟨S9x4x512, .f32⟩ : BufTy).Contents (Elt F) → (⟨S1x4x512, .f32⟩ : BufTy).Contents (Elt F)),
    StableHlo.reshape main_v142 main_v143 rfl shapeCasts_S1x4x512_S4x512,
    StableHlo.binary main_v14 main_v143 main_v144 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v145 ((extractStridedSlice S1x512 ![6, 0] · slices_S9x512_S1x512_6_0) : (⟨S9x512, .f32⟩ : BufTy).Contents (Elt F) → (⟨S1x512, .f32⟩ : BufTy).Contents (Elt F)),
    StableHlo.reshape main_v145 main_v146 rfl shapeCasts_S1x512_S512,
    StableHlo.unary main_v146 main_v147 (broadcastInDim S1x512 ![1] bcast_S512_S1x512_1 : (⟨S512, .f32⟩ : BufTy).Contents (Elt F) → (⟨S1x512, .f32⟩ : BufTy).Contents (Elt F)),
    StableHlo.unary main_v147 main_v148 (broadcastInDim S65536x512 ![0, 1] bcast_S1x512_S65536x512_0_1 : (⟨S1x512, .f32⟩ : BufTy).Contents (Elt F) → (⟨S65536x512, .f32⟩ : BufTy).Contents (Elt F)),
    StableHlo.binary main_v144 main_v148 main_v149 (addf : (⟨S65536x512, .f32⟩ : BufTy).Contents (Elt F) → (⟨S65536x512, .f32⟩ : BufTy).Contents (Elt F) → (⟨S65536x512, .f32⟩ : BufTy).Contents (Elt F)),
    StableHlo.nullary main_call12_cst (constant S_ .f32 0x00000000#32),
    StableHlo.unary main_call12_cst main_call12_v0 (broadcastInDim S65536x512 ![] bcast_S_S65536x512 : (⟨S_, .f32⟩ : BufTy).Contents (Elt F) → (⟨S65536x512, .f32⟩ : BufTy).Contents (Elt F)),
    StableHlo.binary main_v149 main_call12_v0 main_v150 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v151 ((extractStridedSlice S1x512x512 ![6, 0, 0] · slices_S9x512x512_S1x512x512_6_0_0) : (⟨S9x512x512, .f32⟩ : BufTy).Contents (Elt F) → (⟨S1x512x512, .f32⟩ : BufTy).Contents (Elt F)),
    StableHlo.reshape main_v151 main_v152 rfl shapeCasts_S1x512x512_S512x512,
    StableHlo.binary main_v150 main_v152 main_v153 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v154 ((extractStridedSlice S1x512 ![6, 0] · slices_S9x512_S1x512_6_0) : (⟨S9x512, .f32⟩ : BufTy).Contents (Elt F) → (⟨S1x512, .f32⟩ : BufTy).Contents (Elt F)),
    StableHlo.reshape main_v154 main_v155 rfl shapeCasts_S1x512_S512,
    StableHlo.unary main_v155 main_v156 (broadcastInDim S1x512 ![1] bcast_S512_S1x512_1 : (⟨S512, .f32⟩ : BufTy).Contents (Elt F) → (⟨S1x512, .f32⟩ : BufTy).Contents (Elt F)),
    StableHlo.unary main_v156 main_v157 (broadcastInDim S65536x512 ![0, 1] bcast_S1x512_S65536x512_0_1 : (⟨S1x512, .f32⟩ : BufTy).Contents (Elt F) → (⟨S65536x512, .f32⟩ : BufTy).Contents (Elt F)),
    StableHlo.binary main_v153 main_v157 main_v158 (addf : (⟨S65536x512, .f32⟩ : BufTy).Contents (Elt F) → (⟨S65536x512, .f32⟩ : BufTy).Contents (Elt F) → (⟨S65536x512, .f32⟩ : BufTy).Contents (Elt F)),
    StableHlo.nullary main_c_11 (constantI S_ 32 6#32),
    StableHlo.unary main_c_11 main_v159 (broadcastInDim S65536 ![] bcast_S_S65536 : (⟨S_, .i32⟩ : BufTy).Contents (Elt F) → (⟨S65536, .i32⟩ : BufTy).Contents (Elt F)),
    StableHlo.binary main_v6 main_v159 main_v160 (cmpi .eq : (⟨S65536, .i32⟩ : BufTy).Contents (Elt F) → (⟨S65536, .i32⟩ : BufTy).Contents (Elt F) → (⟨S65536, .i1⟩ : BufTy).Contents (Elt F)),
    StableHlo.unary main_v160 main_v161 (broadcastInDim S65536x1 ![0] bcast_S65536_S65536x1_0 : (⟨S65536, .i1⟩ : BufTy).Contents (Elt F) → (⟨S65536x1, .i1⟩ : BufTy).Contents (Elt F)),
    StableHlo.unary main_v161 main_call13_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call13_v0 main_v158 main_v141 main_v162 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW8_sub : (opsW8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW8_fresh : (opsW8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 8 windows. -/
def val8 (V0 : Valuation τ sig (Elt F)) : Valuation τ sig (Elt F) := after opsW8 (val7 V0)
/-- The buffers window 8 writes. -/
abbrev opsW8_W : List (Ref sig .tc) := [main_v142, main_v143, main_v144, main_v145, main_v146, main_v147, main_v148, main_v149, main_call12_cst, main_call12_v0, main_v150, main_v151, main_v152, main_v153, main_v154, main_v155, main_v156, main_v157, main_v158, main_c_11, main_v159, main_v160, main_v161, main_call13_v0, main_v162]
set_option maxRecDepth 8192 in
theorem opsW8_writes : (opsW8 : List (HloOp τ sig (Elt F))).Forall fun op => op.writes ⊆ (opsW8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 8 does not write keeps its contents through it. -/
theorem val8_keep (V0 : Valuation τ sig (Elt F)) (r : Ref sig .tc) (h : r ∉ opsW8_W) :
    val8 V0 (Proc.devRef .tc r) = val7 V0 (Proc.devRef .tc r) :=
  after_of_writes_sub opsW8 _ opsW8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_v6 (V0 : Valuation τ sig (Elt F)) : val8 V0 (no_index (Proc.devRef .tc main_v6)) = base (V0 (Proc.devRef .tc main_arg0)) :=
  (val8_keep V0 main_v6 (by decide)).trans (val7_main_v6 V0)
theorem val8_main_v14 (V0 : Valuation τ sig (Elt F)) : val8 V0 (no_index (Proc.devRef .tc main_v14)) = scaled (V0 (Proc.devRef .tc main_arg0)) (V0 (Proc.devRef .tc main_arg2)) :=
  (val8_keep V0 main_v14 (by decide)).trans (val7_main_v14 V0)
set_option maxRecDepth 8192 in
set_option maxHeartbeats 2500000 in
theorem val8_main_v162 (V0 : Valuation τ sig (Elt F)) : val8 V0 (no_index (Proc.devRef .tc main_v162)) = pv6 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val8
  simp only [opsW8]
  after_results_simp
  try simp only [val7_main_arg0, val7_main_arg1, val7_main_arg2, val7_main_arg3, val7_main_arg4, val7_main_arg5, val7_main_arg6, val7_main_arg7, val7_main_arg8, val7_main_arg9, val7_main_arg10, val7_main_v6, val7_main_v14, val7_main_v141]
  all_goals rfl

/-! ### Window 9 -/

/-- The operations of window 9, in order. -/
abbrev opsW9 : List (HloOp τ sig (Elt F)) :=
  [ StableHlo.unary main_arg5 main_v163 ((extractStridedSlice S1x4x512 ![7, 0, 0] · slices_S9x4x512_S1x4x512_7_0_0) : (⟨S9x4x512, .f32⟩ : BufTy).Contents (Elt F) → (⟨S1x4x512, .f32⟩ : BufTy).Contents (Elt F)),
    StableHlo.reshape main_v163 main_v164 rfl shapeCasts_S1x4x512_S4x512,
    StableHlo.binary main_v14 main_v164 main_v165 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v166 ((extractStridedSlice S1x512 ![7, 0] · slices_S9x512_S1x512_7_0) : (⟨S9x512, .f32⟩ : BufTy).Contents (Elt F) → (⟨S1x512, .f32⟩ : BufTy).Contents (Elt F)),
    StableHlo.reshape main_v166 main_v167 rfl shapeCasts_S1x512_S512,
    StableHlo.unary main_v167 main_v168 (broadcastInDim S1x512 ![1] bcast_S512_S1x512_1 : (⟨S512, .f32⟩ : BufTy).Contents (Elt F) → (⟨S1x512, .f32⟩ : BufTy).Contents (Elt F)),
    StableHlo.unary main_v168 main_v169 (broadcastInDim S65536x512 ![0, 1] bcast_S1x512_S65536x512_0_1 : (⟨S1x512, .f32⟩ : BufTy).Contents (Elt F) → (⟨S65536x512, .f32⟩ : BufTy).Contents (Elt F)),
    StableHlo.binary main_v165 main_v169 main_v170 (addf : (⟨S65536x512, .f32⟩ : BufTy).Contents (Elt F) → (⟨S65536x512, .f32⟩ : BufTy).Contents (Elt F) → (⟨S65536x512, .f32⟩ : BufTy).Contents (Elt F)),
    StableHlo.nullary main_call14_cst (constant S_ .f32 0x00000000#32),
    StableHlo.unary main_call14_cst main_call14_v0 (broadcastInDim S65536x512 ![] bcast_S_S65536x512 : (⟨S_, .f32⟩ : BufTy).Contents (Elt F) → (⟨S65536x512, .f32⟩ : BufTy).Contents (Elt F)),
    StableHlo.binary main_v170 main_call14_v0 main_v171 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v172 ((extractStridedSlice S1x512x512 ![7, 0, 0] · slices_S9x512x512_S1x512x512_7_0_0) : (⟨S9x512x512, .f32⟩ : BufTy).Contents (Elt F) → (⟨S1x512x512, .f32⟩ : BufTy).Contents (Elt F)),
    StableHlo.reshape main_v172 main_v173 rfl shapeCasts_S1x512x512_S512x512,
    StableHlo.binary main_v171 main_v173 main_v174 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v175 ((extractStridedSlice S1x512 ![7, 0] · slices_S9x512_S1x512_7_0) : (⟨S9x512, .f32⟩ : BufTy).Contents (Elt F) → (⟨S1x512, .f32⟩ : BufTy).Contents (Elt F)),
    StableHlo.reshape main_v175 main_v176 rfl shapeCasts_S1x512_S512,
    StableHlo.unary main_v176 main_v177 (broadcastInDim S1x512 ![1] bcast_S512_S1x512_1 : (⟨S512, .f32⟩ : BufTy).Contents (Elt F) → (⟨S1x512, .f32⟩ : BufTy).Contents (Elt F)),
    StableHlo.unary main_v177 main_v178 (broadcastInDim S65536x512 ![0, 1] bcast_S1x512_S65536x512_0_1 : (⟨S1x512, .f32⟩ : BufTy).Contents (Elt F) → (⟨S65536x512, .f32⟩ : BufTy).Contents (Elt F)),
    StableHlo.binary main_v174 main_v178 main_v179 (addf : (⟨S65536x512, .f32⟩ : BufTy).Contents (Elt F) → (⟨S65536x512, .f32⟩ : BufTy).Contents (Elt F) → (⟨S65536x512, .f32⟩ : BufTy).Contents (Elt F)),
    StableHlo.nullary main_c_12 (constantI S_ 32 7#32),
    StableHlo.unary main_c_12 main_v180 (broadcastInDim S65536 ![] bcast_S_S65536 : (⟨S_, .i32⟩ : BufTy).Contents (Elt F) → (⟨S65536, .i32⟩ : BufTy).Contents (Elt F)),
    StableHlo.binary main_v6 main_v180 main_v181 (cmpi .eq : (⟨S65536, .i32⟩ : BufTy).Contents (Elt F) → (⟨S65536, .i32⟩ : BufTy).Contents (Elt F) → (⟨S65536, .i1⟩ : BufTy).Contents (Elt F)),
    StableHlo.unary main_v181 main_v182 (broadcastInDim S65536x1 ![0] bcast_S65536_S65536x1_0 : (⟨S65536, .i1⟩ : BufTy).Contents (Elt F) → (⟨S65536x1, .i1⟩ : BufTy).Contents (Elt F)),
    StableHlo.unary main_v182 main_call15_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call15_v0 main_v179 main_v162 main_v183 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW9_sub : (opsW9 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW9_fresh : (opsW9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 9 windows. -/
def val9 (V0 : Valuation τ sig (Elt F)) : Valuation τ sig (Elt F) := after opsW9 (val8 V0)
/-- The buffers window 9 writes. -/
abbrev opsW9_W : List (Ref sig .tc) := [main_v163, main_v164, main_v165, main_v166, main_v167, main_v168, main_v169, main_v170, main_call14_cst, main_call14_v0, main_v171, main_v172, main_v173, main_v174, main_v175, main_v176, main_v177, main_v178, main_v179, main_c_12, main_v180, main_v181, main_v182, main_call15_v0, main_v183]
set_option maxRecDepth 8192 in
theorem opsW9_writes : (opsW9 : List (HloOp τ sig (Elt F))).Forall fun op => op.writes ⊆ (opsW9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 9 does not write keeps its contents through it. -/
theorem val9_keep (V0 : Valuation τ sig (Elt F)) (r : Ref sig .tc) (h : r ∉ opsW9_W) :
    val9 V0 (Proc.devRef .tc r) = val8 V0 (Proc.devRef .tc r) :=
  after_of_writes_sub opsW9 _ opsW9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_v6 (V0 : Valuation τ sig (Elt F)) : val9 V0 (no_index (Proc.devRef .tc main_v6)) = base (V0 (Proc.devRef .tc main_arg0)) :=
  (val9_keep V0 main_v6 (by decide)).trans (val8_main_v6 V0)
theorem val9_main_v14 (V0 : Valuation τ sig (Elt F)) : val9 V0 (no_index (Proc.devRef .tc main_v14)) = scaled (V0 (Proc.devRef .tc main_arg0)) (V0 (Proc.devRef .tc main_arg2)) :=
  (val9_keep V0 main_v14 (by decide)).trans (val8_main_v14 V0)
set_option maxRecDepth 8192 in
set_option maxHeartbeats 2500000 in
theorem val9_main_v183 (V0 : Valuation τ sig (Elt F)) : val9 V0 (no_index (Proc.devRef .tc main_v183)) = pv7 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val9
  simp only [opsW9]
  after_results_simp
  try simp only [val8_main_arg0, val8_main_arg1, val8_main_arg2, val8_main_arg3, val8_main_arg4, val8_main_arg5, val8_main_arg6, val8_main_arg7, val8_main_arg8, val8_main_arg9, val8_main_arg10, val8_main_v6, val8_main_v14, val8_main_v162]
  all_goals rfl

/-! ### Window 10 -/

/-- The operations of window 10, in order. -/
abbrev opsW10 : List (HloOp τ sig (Elt F)) :=
  [ StableHlo.unary main_arg5 main_v184 ((extractStridedSlice S1x4x512 ![8, 0, 0] · slices_S9x4x512_S1x4x512_8_0_0) : (⟨S9x4x512, .f32⟩ : BufTy).Contents (Elt F) → (⟨S1x4x512, .f32⟩ : BufTy).Contents (Elt F)),
    StableHlo.reshape main_v184 main_v185 rfl shapeCasts_S1x4x512_S4x512,
    StableHlo.binary main_v14 main_v185 main_v186 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v187 ((extractStridedSlice S1x512 ![8, 0] · slices_S9x512_S1x512_8_0) : (⟨S9x512, .f32⟩ : BufTy).Contents (Elt F) → (⟨S1x512, .f32⟩ : BufTy).Contents (Elt F)),
    StableHlo.reshape main_v187 main_v188 rfl shapeCasts_S1x512_S512,
    StableHlo.unary main_v188 main_v189 (broadcastInDim S1x512 ![1] bcast_S512_S1x512_1 : (⟨S512, .f32⟩ : BufTy).Contents (Elt F) → (⟨S1x512, .f32⟩ : BufTy).Contents (Elt F)),
    StableHlo.unary main_v189 main_v190 (broadcastInDim S65536x512 ![0, 1] bcast_S1x512_S65536x512_0_1 : (⟨S1x512, .f32⟩ : BufTy).Contents (Elt F) → (⟨S65536x512, .f32⟩ : BufTy).Contents (Elt F)),
    StableHlo.binary main_v186 main_v190 main_v191 (addf : (⟨S65536x512, .f32⟩ : BufTy).Contents (Elt F) → (⟨S65536x512, .f32⟩ : BufTy).Contents (Elt F) → (⟨S65536x512, .f32⟩ : BufTy).Contents (Elt F)),
    StableHlo.nullary main_call16_cst (constant S_ .f32 0x00000000#32),
    StableHlo.unary main_call16_cst main_call16_v0 (broadcastInDim S65536x512 ![] bcast_S_S65536x512 : (⟨S_, .f32⟩ : BufTy).Contents (Elt F) → (⟨S65536x512, .f32⟩ : BufTy).Contents (Elt F)),
    StableHlo.binary main_v191 main_call16_v0 main_v192 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v193 ((extractStridedSlice S1x512x512 ![8, 0, 0] · slices_S9x512x512_S1x512x512_8_0_0) : (⟨S9x512x512, .f32⟩ : BufTy).Contents (Elt F) → (⟨S1x512x512, .f32⟩ : BufTy).Contents (Elt F)),
    StableHlo.reshape main_v193 main_v194 rfl shapeCasts_S1x512x512_S512x512,
    StableHlo.binary main_v192 main_v194 main_v195 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v196 ((extractStridedSlice S1x512 ![8, 0] · slices_S9x512_S1x512_8_0) : (⟨S9x512, .f32⟩ : BufTy).Contents (Elt F) → (⟨S1x512, .f32⟩ : BufTy).Contents (Elt F)),
    StableHlo.reshape main_v196 main_v197 rfl shapeCasts_S1x512_S512,
    StableHlo.unary main_v197 main_v198 (broadcastInDim S1x512 ![1] bcast_S512_S1x512_1 : (⟨S512, .f32⟩ : BufTy).Contents (Elt F) → (⟨S1x512, .f32⟩ : BufTy).Contents (Elt F)),
    StableHlo.unary main_v198 main_v199 (broadcastInDim S65536x512 ![0, 1] bcast_S1x512_S65536x512_0_1 : (⟨S1x512, .f32⟩ : BufTy).Contents (Elt F) → (⟨S65536x512, .f32⟩ : BufTy).Contents (Elt F)),
    StableHlo.binary main_v195 main_v199 main_v200 (addf : (⟨S65536x512, .f32⟩ : BufTy).Contents (Elt F) → (⟨S65536x512, .f32⟩ : BufTy).Contents (Elt F) → (⟨S65536x512, .f32⟩ : BufTy).Contents (Elt F)),
    StableHlo.nullary main_c_13 (constantI S_ 32 8#32),
    StableHlo.unary main_c_13 main_v201 (broadcastInDim S65536 ![] bcast_S_S65536 : (⟨S_, .i32⟩ : BufTy).Contents (Elt F) → (⟨S65536, .i32⟩ : BufTy).Contents (Elt F)),
    StableHlo.binary main_v6 main_v201 main_v202 (cmpi .eq : (⟨S65536, .i32⟩ : BufTy).Contents (Elt F) → (⟨S65536, .i32⟩ : BufTy).Contents (Elt F) → (⟨S65536, .i1⟩ : BufTy).Contents (Elt F)),
    StableHlo.unary main_v202 main_v203 (broadcastInDim S65536x1 ![0] bcast_S65536_S65536x1_0 : (⟨S65536, .i1⟩ : BufTy).Contents (Elt F) → (⟨S65536x1, .i1⟩ : BufTy).Contents (Elt F)),
    StableHlo.unary main_v203 main_call17_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call17_v0 main_v200 main_v183 main_v204 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) ]

theorem opsW10_sub : (opsW10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem opsW10_fresh : (opsW10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The device's buffer contents after the first 10 windows. -/
def val10 (V0 : Valuation τ sig (Elt F)) : Valuation τ sig (Elt F) := after opsW10 (val9 V0)
/-- The buffers window 10 writes. -/
abbrev opsW10_W : List (Ref sig .tc) := [main_v184, main_v185, main_v186, main_v187, main_v188, main_v189, main_v190, main_v191, main_call16_cst, main_call16_v0, main_v192, main_v193, main_v194, main_v195, main_v196, main_v197, main_v198, main_v199, main_v200, main_c_13, main_v201, main_v202, main_v203, main_call17_v0, main_v204]
set_option maxRecDepth 8192 in
theorem opsW10_writes : (opsW10 : List (HloOp τ sig (Elt F))).Forall fun op => op.writes ⊆ (opsW10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 10 does not write keeps its contents through it. -/
theorem val10_keep (V0 : Valuation τ sig (Elt F)) (r : Ref sig .tc) (h : r ∉ opsW10_W) :
    val10 V0 (Proc.devRef .tc r) = val9 V0 (Proc.devRef .tc r) :=
  after_of_writes_sub opsW10 _ opsW10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_v6 (V0 : Valuation τ sig (Elt F)) : val10 V0 (no_index (Proc.devRef .tc main_v6)) = base (V0 (Proc.devRef .tc main_arg0)) :=
  (val10_keep V0 main_v6 (by decide)).trans (val9_main_v6 V0)
theorem val10_main_v14 (V0 : Valuation τ sig (Elt F)) : val10 V0 (no_index (Proc.devRef .tc main_v14)) = scaled (V0 (Proc.devRef .tc main_arg0)) (V0 (Proc.devRef .tc main_arg2)) :=
  (val10_keep V0 main_v14 (by decide)).trans (val9_main_v14 V0)
set_option maxRecDepth 8192 in
set_option maxHeartbeats 2500000 in
theorem val10_main_v204 (V0 : Valuation τ sig (Elt F)) : val10 V0 (no_index (Proc.devRef .tc main_v204)) = pv8 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) := by
  unfold val10
  simp only [opsW10]
  after_results_simp
  try simp only [val9_main_arg0, val9_main_arg1, val9_main_arg2, val9_main_arg3, val9_main_arg4, val9_main_arg5, val9_main_arg6, val9_main_arg7, val9_main_arg8, val9_main_arg9, val9_main_arg10, val9_main_v6, val9_main_v14, val9_main_v183]
  all_goals rfl

/-! ### Window 11 -/

/-- The operations of window 11, in order. -/
abbrev opsW11 : List (HloOp τ sig (Elt F)) :=
  [ StableHlo.nullary main_c_14 (constantI S_ 32 0#32),
    StableHlo.unary main_c_14 main_v205 (broadcastInDim S65536 ![] bcast_S_S65536 : (⟨S_, .i32⟩ : BufTy).Contents (Elt F) → (⟨S65536, .i32⟩ : BufTy).Contents (Elt F)),
    StableHlo.binary main_arg0 main_v205 main_v206 (cmpi .slt : (⟨S65536, .i32⟩ : BufTy).Contents (Elt F) → (⟨S65536, .i32⟩ : BufTy).Contents (Elt F) → (⟨S65536, .i1⟩ : BufTy).Contents (Elt F)),
    StableHlo.nullary main_c_15 (constantI S_ 32 14#32),
    StableHlo.unary main_c_15 main_v207 (broadcastInDim S65536 ![] bcast_S_S65536 : (⟨S_, .i32⟩ : BufTy).Contents (Elt F) → (⟨S65536, .i32⟩ : BufTy).Contents (Elt F)),
    StableHlo.binary main_arg0 main_v207 main_v208 (addi : (⟨S65536, .i32⟩ : BufTy).Contents (Elt F) → (⟨S65536, .i32⟩ : BufTy).Contents (Elt F) → (⟨S65536, .i32⟩ : BufTy).Contents (Elt F)),
    StableHlo.ternary main_v206 main_v208 main_arg0 main_v209 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v209 main_v210 (broadcastInDim S65536x1 ![0] bcast_S65536_S65536x1_0 : (⟨S65536, .i32⟩ : BufTy).Contents (Elt F) → (⟨S65536x1, .i32⟩ : BufTy).Contents (Elt F)),
    StableHlo.binary main_arg3 main_v210 main_v211 ((fun x i => Host.gather gather_S14x512_S65536x1_S65536x512_1_0_n_n_0_1_1512 x i) : (⟨S14x512, .f32⟩ : BufTy).Contents (Elt F) → (⟨S65536x1, .i32⟩ : BufTy).Contents (Elt F) → (⟨S65536x512, .f32⟩ : BufTy).Contents (Elt F)),
    StableHlo.nullary main_c_16 (constantI S_ 32 0#32),
    StableHlo.unary main_c_16 main_v212 (broadcastInDim S65536 ![] bcast_S_S65536 : (⟨S_, .i32⟩ : BufTy).Contents (Elt F) → (⟨S65536, .i32⟩ : BufTy).Contents (Elt F)),
    StableHlo.binary main_arg1 main_v212 main_v213 (cmpi .slt : (⟨S65536, .i32⟩ : BufTy).Contents (Elt F) → (⟨S65536, .i32⟩ : BufTy).Contents (Elt F) → (⟨S65536, .i1⟩ : BufTy).Contents (Elt F)),
    StableHlo.nullary main_c_17 (constantI S_ 32 4#32),
    StableHlo.unary main_c_17 main_v214 (broadcastInDim S65536 ![] bcast_S_S65536 : (⟨S_, .i32⟩ : BufTy).Contents (Elt F) → (⟨S65536, .i32⟩ : BufTy).Contents (Elt F)),
    StableHlo.binary main_arg1 main_v214 main_v215 (addi : (⟨S65536, .i32⟩ : BufTy).Contents (Elt F) → (⟨S65536, .i32⟩ : BufTy).Contents (Elt F) → (⟨S65536, .i32⟩ : BufTy).Contents (Elt F)),
    StableHlo.ternary main_v213 main_v215 main_arg1 main_v216 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v216 main_v217 (broadcastInDim S65536x1 ![0] bcast_S65536_S65536x1_0 : (⟨S65536, .i32⟩ : BufTy).Contents (Elt F) → (⟨S65536x1, .i32⟩ : BufTy).Contents (Elt F)),
    StableHlo.binary main_arg4 main_v217 main_v218 ((fun x i => Host.gather gather_S4x512_S65536x1_S65536x512_1_0_n_n_0_1_1512 x i) : (⟨S4x512, .f32⟩ : BufTy).Contents (Elt F) → (⟨S65536x1, .i32⟩ : BufTy).Contents (Elt F) → (⟨S65536x512, .f32⟩ : BufTy).Contents (Elt F)) ]

theorem opsW11_sub : (opsW11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsW11_fresh : (opsW11 : List (HloOp τ sig (Elt F))).Forall fun op => op.fresh = ∅ :=
  ⟨rfl, rfl, rfl, rfl, rfl, rfl, rfl, rfl, rfl, rfl, rfl, rfl, rfl, rfl, rfl, rfl, rfl, rfl⟩

/-- The device's buffer contents after the first 11 windows. -/
def val11 (V0 : Valuation τ sig (Elt F)) : Valuation τ sig (Elt F) := after opsW11 (val10 V0)
/-- The buffers window 11 writes. -/
abbrev opsW11_W : List (Ref sig .tc) := [main_c_14, main_v205, main_v206, main_c_15, main_v207, main_v208, main_v209, main_v210, main_v211, main_c_16, main_v212, main_v213, main_c_17, main_v214, main_v215, main_v216, main_v217, main_v218]
set_option maxRecDepth 8192 in
theorem opsW11_writes : (opsW11 : List (HloOp τ sig (Elt F))).Forall fun op => op.writes ⊆ (opsW11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 11 does not write keeps its contents through it. -/
theorem val11_keep (V0 : Valuation τ sig (Elt F)) (r : Ref sig .tc) (h : r ∉ opsW11_W) :
    val11 V0 (Proc.devRef .tc r) = val10 V0 (Proc.devRef .tc r) :=
  after_of_writes_sub opsW11 _ opsW11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_v204 (V0 : Valuation τ sig (Elt F)) : val11 V0 (no_index (Proc.devRef .tc main_v204)) = pv8 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8)) :=
  (val11_keep V0 main_v204 (by decide)).trans (val10_main_v204 V0)
set_option maxRecDepth 8192 in
set_option maxHeartbeats 2500000 in
theorem val11_main_v211 (V0 : Valuation τ sig (Elt F)) : val11 V0 (no_index (Proc.devRef .tc main_v211)) = teRows (V0 (Proc.devRef .tc main_arg0)) (V0 (Proc.devRef .tc main_arg3)) := by
  unfold val11
  simp only [opsW11]
  after_results_simp
  try simp only [val10_main_arg0, val10_main_arg1, val10_main_arg2, val10_main_arg3, val10_main_arg4, val10_main_arg5, val10_main_arg6, val10_main_arg7, val10_main_arg8, val10_main_arg9, val10_main_arg10, val10_main_v6, val10_main_v14, val10_main_v204]
  all_goals rfl
set_option maxRecDepth 8192 in
set_option maxHeartbeats 2500000 in
theorem val11_main_v218 (V0 : Valuation τ sig (Elt F)) : val11 V0 (no_index (Proc.devRef .tc main_v218)) = seRows (V0 (Proc.devRef .tc main_arg1)) (V0 (Proc.devRef .tc main_arg4)) := by
  unfold val11
  simp only [opsW11]
  after_results_simp
  try simp only [val10_main_arg0, val10_main_arg1, val10_main_arg2, val10_main_arg3, val10_main_arg4, val10_main_arg5, val10_main_arg6, val10_main_arg7, val10_main_arg8, val10_main_arg9, val10_main_arg10, val10_main_v6, val10_main_v14, val10_main_v204]
  all_goals rfl

/-! ### Window 12 -/

/-- The operations of window 12, in order. -/
abbrev opsW12 : List (HloOp τ sig (Elt F)) :=
  [ StableHlo.nary ![main_v211, main_v218, main_v204] main_v219 (fun u => concatenate S65536x1536 1 [⟨S65536x512, u 0⟩, ⟨S65536x512, u 1⟩, ⟨S65536x512, u 2⟩] concatenates_S65536x512_S65536x512_S65536x512_S65536x1536_d1) ]

theorem opsW12_sub : (opsW12 : List (HloOp τ sig (Elt F))).Forall fun op => op.bufs ⊆ tcRefs τ sig :=
  nary_bufs_sub ..

theorem opsW12_fresh : (opsW12 : List (HloOp τ sig (Elt F))).Forall fun op => op.fresh = ∅ :=
  rfl

/-- The device's buffer contents after the first 12 windows. -/
def val12 (V0 : Valuation τ sig (Elt F)) : Valuation τ sig (Elt F) := after opsW12 (val11 V0)
/-- The buffers window 12 writes. -/
abbrev opsW12_W : List (Ref sig .tc) := [main_v219]
set_option maxRecDepth 8192 in
theorem opsW12_writes : (opsW12 : List (HloOp τ sig (Elt F))).Forall fun op => op.writes ⊆ (opsW12_W.map (Proc.devRef (τ := τ) .tc)).toFinset := by
  simp only [List.Forall]; exact by simp only [nullary_writes, unary_writes, binary_writes, ternary_writes, quaternary_writes, reshape_writes, binaryIndexed_writes, nary_writes, unaryIndexed_writes, Finset.singleton_subset_iff, List.mem_toFinset]; exact List.mem_map_of_mem (by decide)
/-- A buffer window 12 does not write keeps its contents through it. -/
theorem val12_keep (V0 : Valuation τ sig (Elt F)) (r : Ref sig .tc) (h : r ∉ opsW12_W) :
    val12 V0 (Proc.devRef .tc r) = val11 V0 (Proc.devRef .tc r) :=
  after_of_writes_sub opsW12 _ opsW12_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_v219 (V0 : Valuation τ sig (Elt F)) : val12 V0 (no_index (Proc.devRef .tc main_v219)) = (concatenate S65536x1536 1 [⟨S65536x512, teRows (V0 (Proc.devRef .tc main_arg0)) (V0 (Proc.devRef .tc main_arg3))⟩, ⟨S65536x512, seRows (V0 (Proc.devRef .tc main_arg1)) (V0 (Proc.devRef .tc main_arg4))⟩, ⟨S65536x512, pv8 (V0 (Proc.devRef .tc main_arg0)) (V0 (Proc.devRef .tc main_arg2)) (V0 (Proc.devRef .tc main_arg5)) (V0 (Proc.devRef .tc main_arg6)) (V0 (Proc.devRef .tc main_arg7)) (V0 (Proc.devRef .tc main_arg8))⟩] concatenates_S65536x512_S65536x512_S65536x512_S65536x1536_d1 : FVec F S65536x1536 .f32) := by
  unfold val12
  simp only [opsW12, after_cons, after_nil]
  rw [nary_result]
  show concatenate S65536x1536 1 [⟨S65536x512, val11 V0 (Proc.devRef .tc main_v211)⟩, ⟨S65536x512, val11 V0 (Proc.devRef .tc main_v218)⟩, ⟨S65536x512, val11 V0 (Proc.devRef .tc main_v204)⟩] concatenates_S65536x512_S65536x512_S65536x512_S65536x1536_d1 = _
  rw [val11_main_v211, val11_main_v218, val11_main_v204]

/-! ### Window 13 -/

/-- The operations of window 13, in order. -/
abbrev opsW13 : List (HloOp τ sig (Elt F)) :=
  [ StableHlo.binary main_v219 main_arg9 main_v220 ((fun l r => Host.dotGeneral dot_S65536x1536_S1536x512_S65536x512_1_0_0_1_n_n none l r) : (⟨S65536x1536, .f32⟩ : BufTy).Contents (Elt F) → (⟨S1536x512, .f32⟩ : BufTy).Contents (Elt F) → (⟨S65536x512, .f32⟩ : BufTy).Contents (Elt F)),
    StableHlo.unary main_arg10 main_v221 (broadcastInDim S1x512 ![1] bcast_S512_S1x512_1 : (⟨S512, .f32⟩ : BufTy).Contents (Elt F) → (⟨S1x512, .f32⟩ : BufTy).Contents (Elt F)),
    StableHlo.unary main_v221 main_v222 (broadcastInDim S65536x512 ![0, 1] bcast_S1x512_S65536x512_0_1 : (⟨S1x512, .f32⟩ : BufTy).Contents (Elt F) → (⟨S65536x512, .f32⟩ : BufTy).Contents (Elt F)),
    StableHlo.binary main_v220 main_v222 main_v223 (addf : (⟨S65536x512, .f32⟩ : BufTy).Contents (Elt F) → (⟨S65536x512, .f32⟩ : BufTy).Contents (Elt F) → (⟨S65536x512, .f32⟩ : BufTy).Contents (Elt F)),
    StableHlo.nullary main_call18_cst (constant S_ .f32 0x00000000#32),
    StableHlo.unary main_call18_cst main_call18_v0 (broadcastInDim S65536x512 ![] bcast_S_S65536x512 : (⟨S_, .f32⟩ : BufTy).Contents (Elt F) → (⟨S65536x512, .f32⟩ : BufTy).Contents (Elt F)),
    StableHlo.binary main_v223 main_call18_v0 main_v224 (maximumf : (⟨S65536x512, .f32⟩ : BufTy).Contents (Elt F) → (⟨S65536x512, .f32⟩ : BufTy).Contents (Elt F) → (⟨S65536x512, .f32⟩ : BufTy).Contents (Elt F)) ]

theorem opsW13_sub : (opsW13 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem opsW13_fresh : (opsW13 : List (HloOp τ sig (Elt F))).Forall fun op => op.fresh = ∅ :=
  ⟨rfl, rfl, rfl, rfl, rfl, rfl, rfl⟩

/-- The device's buffer contents after the first 13 windows. -/
def val13 (V0 : Valuation τ sig (Elt F)) : Valuation τ sig (Elt F) := after opsW13 (val12 V0)
/-- The buffers window 13 writes. -/
abbrev opsW13_W : List (Ref sig .tc) := [main_v220, main_v221, main_v222, main_v223, main_call18_cst, main_call18_v0, main_v224]
set_option maxRecDepth 8192 in
theorem opsW13_writes : (opsW13 : List (HloOp τ sig (Elt F))).Forall fun op => op.writes ⊆ (opsW13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 13 does not write keeps its contents through it. -/
theorem val13_keep (V0 : Valuation τ sig (Elt F)) (r : Ref sig .tc) (h : r ∉ opsW13_W) :
    val13 V0 (Proc.devRef .tc r) = val12 V0 (Proc.devRef .tc r) :=
  after_of_writes_sub opsW13 _ opsW13_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
set_option maxRecDepth 8192 in
set_option maxHeartbeats 2500000 in
theorem val13_main_v224 (V0 : Valuation τ sig (Elt F)) : val13 V0 (no_index (Proc.devRef .tc main_v224)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val13
  simp only [opsW13]
  after_results_simp
  try simp only [val12_main_arg0, val12_main_arg1, val12_main_arg2, val12_main_arg3, val12_main_arg4, val12_main_arg5, val12_main_arg6, val12_main_arg7, val12_main_arg8, val12_main_arg9, val12_main_arg10, val12_main_v219]
  all_goals rfl

/-! ## The program is the list -/

/-- The operations of the program's window 0, in order, the outlined functions' operations at their calls. -/
abbrev part0 : List (HloOp τ sig (Elt F)) :=
  [ StableHlo.nullary main_c (fun i => lit0 (S14.rowMajor i)),
    StableHlo.nullary main_cst (fun i => FloatOps.ofBits .f32 (lit1 (S9x4.rowMajor i))),
    StableHlo.nullary main_c_0 (constantI S_ 32 0#32),
    StableHlo.unary main_c_0 main_v0 (broadcastInDim S65536 ![] bcast_S_S65536 : (⟨S_, .i32⟩ : BufTy).Contents (Elt F) → (⟨S65536, .i32⟩ : BufTy).Contents (Elt F)),
    StableHlo.binary main_arg0 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_1 (constantI S_ 32 14#32),
    StableHlo.unary main_c_1 main_v2 (broadcastInDim S65536 ![] bcast_S_S65536 : (⟨S_, .i32⟩ : BufTy).Contents (Elt F) → (⟨S65536, .i32⟩ : BufTy).Contents (Elt F)),
    StableHlo.binary main_arg0 main_v2 main_v3 (addi : (⟨S65536, .i32⟩ : BufTy).Contents (Elt F) → (⟨S65536, .i32⟩ : BufTy).Contents (Elt F) → (⟨S65536, .i32⟩ : BufTy).Contents (Elt F)),
    StableHlo.ternary main_v1 main_v3 main_arg0 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v4 main_v5 (broadcastInDim S65536x1 ![0] bcast_S65536_S65536x1_0 : (⟨S65536, .i32⟩ : BufTy).Contents (Elt F) → (⟨S65536x1, .i32⟩ : BufTy).Contents (Elt F)),
    StableHlo.binary main_c main_v5 main_v6 ((fun x i => Host.gather gather_S14_S65536x1_S65536_n_0_n_n_0_1_1 x i) : (⟨S14, .i32⟩ : BufTy).Contents (Elt F) → (⟨S65536x1, .i32⟩ : BufTy).Contents (Elt F) → (⟨S65536, .i32⟩ : BufTy).Contents (Elt F)),
    StableHlo.nullary main_c_2 (constantI S_ 32 0#32),
    StableHlo.unary main_c_2 main_v7 (broadcastInDim S65536 ![] bcast_S_S65536 : (⟨S_, .i32⟩ : BufTy).Contents (Elt F) → (⟨S65536, .i32⟩ : BufTy).Contents (Elt F)),
    StableHlo.binary main_v6 main_v7 main_v8 (cmpi .slt : (⟨S65536, .i32⟩ : BufTy).Contents (Elt F) → (⟨S65536, .i32⟩ : BufTy).Contents (Elt F) → (⟨S65536, .i1⟩ : BufTy).Contents (Elt F)),
    StableHlo.nullary main_c_3 (constantI S_ 32 9#32),
    StableHlo.unary main_c_3 main_v9 (broadcastInDim S65536 ![] bcast_S_S65536 : (⟨S_, .i32⟩ : BufTy).Contents (Elt F) → (⟨S65536, .i32⟩ : BufTy).Contents (Elt F)),
    StableHlo.binary main_v6 main_v9 main_v10 (addi : (⟨S65536, .i32⟩ : BufTy).Contents (Elt F) → (⟨S65536, .i32⟩ : BufTy).Contents (Elt F) → (⟨S65536, .i32⟩ : BufTy).Contents (Elt F)),
    StableHlo.ternary main_v8 main_v10 main_v6 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v11 main_v12 (broadcastInDim S65536x1 ![0] bcast_S65536_S65536x1_0 : (⟨S65536, .i32⟩ : BufTy).Contents (Elt F) → (⟨S65536x1, .i32⟩ : BufTy).Contents (Elt F)),
    StableHlo.binary main_cst main_v12 main_v13 ((fun x i => Host.gather gather_S9x4_S65536x1_S65536x4_1_0_n_n_0_1_14 x i) : (⟨S9x4, .f32⟩ : BufTy).Contents (Elt F) → (⟨S65536x1, .i32⟩ : BufTy).Contents (Elt F) → (⟨S65536x4, .f32⟩ : BufTy).Contents (Elt F)),
    StableHlo.binary main_arg2 main_v13 main_v14 (Host.divf : (⟨S65536x4, .f32⟩ : BufTy).Contents (Elt F) → (⟨S65536x4, .f32⟩ : BufTy).Contents (Elt F) → (⟨S65536x4, .f32⟩ : BufTy).Contents (Elt F)),
    StableHlo.nullary main_cst_4 (constant S_ .f32 0x00000000#32),
    StableHlo.unary main_cst_4 main_v15 (broadcastInDim S65536x512 ![] bcast_S_S65536x512 : (⟨S_, .f32⟩ : BufTy).Contents (Elt F) → (⟨S65536x512, .f32⟩ : BufTy).Contents (Elt F)),
    StableHlo.unary main_arg5 main_v16 ((extractStridedSlice S1x4x512 ![0, 0, 0] · slices_S9x4x512_S1x4x512_0_0_0) : (⟨S9x4x512, .f32⟩ : BufTy).Contents (Elt F) → (⟨S1x4x512, .f32⟩ : BufTy).Contents (Elt F)),
    StableHlo.reshape main_v16 main_v17 rfl shapeCasts_S1x4x512_S4x512,
    StableHlo.binary main_v14 main_v17 main_v18 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v19 ((extractStridedSlice S1x512 ![0, 0] · slices_S9x512_S1x512_0_0) : (⟨S9x512, .f32⟩ : BufTy).Contents (Elt F) → (⟨S1x512, .f32⟩ : BufTy).Contents (Elt F)),
    StableHlo.reshape main_v19 main_v20 rfl shapeCasts_S1x512_S512,
    StableHlo.unary main_v20 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S65536x512 ![0, 1] bcast_S1x512_S65536x512_0_1 : (⟨S1x512, .f32⟩ : BufTy).Contents (Elt F) → (⟨S65536x512, .f32⟩ : BufTy).Contents (Elt F)),
    StableHlo.binary main_v18 main_v22 main_v23 (addf : (⟨S65536x512, .f32⟩ : BufTy).Contents (Elt F) → (⟨S65536x512, .f32⟩ : BufTy).Contents (Elt F) → (⟨S65536x512, .f32⟩ : BufTy).Contents (Elt F)),
    StableHlo.nullary main_call0_cst (constant S_ .f32 0x00000000#32),
    StableHlo.unary main_call0_cst main_call0_v0 (broadcastInDim S65536x512 ![] bcast_S_S65536x512 : (⟨S_, .f32⟩ : BufTy).Contents (Elt F) → (⟨S65536x512, .f32⟩ : BufTy).Contents (Elt F)),
    StableHlo.binary main_v23 main_call0_v0 main_v24 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v25 ((extractStridedSlice S1x512x512 ![0, 0, 0] · slices_S9x512x512_S1x512x512_0_0_0) : (⟨S9x512x512, .f32⟩ : BufTy).Contents (Elt F) → (⟨S1x512x512, .f32⟩ : BufTy).Contents (Elt F)),
    StableHlo.reshape main_v25 main_v26 rfl shapeCasts_S1x512x512_S512x512,
    StableHlo.binary main_v24 main_v26 main_v27 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v28 ((extractStridedSlice S1x512 ![0, 0] · slices_S9x512_S1x512_0_0) : (⟨S9x512, .f32⟩ : BufTy).Contents (Elt F) → (⟨S1x512, .f32⟩ : BufTy).Contents (Elt F)),
    StableHlo.reshape main_v28 main_v29 rfl shapeCasts_S1x512_S512,
    StableHlo.unary main_v29 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S65536x512 ![0, 1] bcast_S1x512_S65536x512_0_1 : (⟨S1x512, .f32⟩ : BufTy).Contents (Elt F) → (⟨S65536x512, .f32⟩ : BufTy).Contents (Elt F)),
    StableHlo.binary main_v27 main_v31 main_v32 (addf : (⟨S65536x512, .f32⟩ : BufTy).Contents (Elt F) → (⟨S65536x512, .f32⟩ : BufTy).Contents (Elt F) → (⟨S65536x512, .f32⟩ : BufTy).Contents (Elt F)),
    StableHlo.nullary main_c_5 (constantI S_ 32 0#32),
    StableHlo.unary main_c_5 main_v33 (broadcastInDim S65536 ![] bcast_S_S65536 : (⟨S_, .i32⟩ : BufTy).Contents (Elt F) → (⟨S65536, .i32⟩ : BufTy).Contents (Elt F)),
    StableHlo.binary main_v6 main_v33 main_v34 (cmpi .eq : (⟨S65536, .i32⟩ : BufTy).Contents (Elt F) → (⟨S65536, .i32⟩ : BufTy).Contents (Elt F) → (⟨S65536, .i1⟩ : BufTy).Contents (Elt F)),
    StableHlo.unary main_v34 main_v35 (broadcastInDim S65536x1 ![0] bcast_S65536_S65536x1_0 : (⟨S65536, .i1⟩ : BufTy).Contents (Elt F) → (⟨S65536x1, .i1⟩ : BufTy).Contents (Elt F)),
    StableHlo.unary main_v35 main_call1_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call1_v0 main_v32 main_v15 main_v36 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v37 ((extractStridedSlice S1x4x512 ![1, 0, 0] · slices_S9x4x512_S1x4x512_1_0_0) : (⟨S9x4x512, .f32⟩ : BufTy).Contents (Elt F) → (⟨S1x4x512, .f32⟩ : BufTy).Contents (Elt F)),
    StableHlo.reshape main_v37 main_v38 rfl shapeCasts_S1x4x512_S4x512,
    StableHlo.binary main_v14 main_v38 main_v39 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v40 ((extractStridedSlice S1x512 ![1, 0] · slices_S9x512_S1x512_1_0) : (⟨S9x512, .f32⟩ : BufTy).Contents (Elt F) → (⟨S1x512, .f32⟩ : BufTy).Contents (Elt F)),
    StableHlo.reshape main_v40 main_v41 rfl shapeCasts_S1x512_S512,
    StableHlo.unary main_v41 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S65536x512 ![0, 1] bcast_S1x512_S65536x512_0_1 : (⟨S1x512, .f32⟩ : BufTy).Contents (Elt F) → (⟨S65536x512, .f32⟩ : BufTy).Contents (Elt F)),
    StableHlo.binary main_v39 main_v43 main_v44 (addf : (⟨S65536x512, .f32⟩ : BufTy).Contents (Elt F) → (⟨S65536x512, .f32⟩ : BufTy).Contents (Elt F) → (⟨S65536x512, .f32⟩ : BufTy).Contents (Elt F)),
    StableHlo.nullary main_call2_cst (constant S_ .f32 0x00000000#32),
    StableHlo.unary main_call2_cst main_call2_v0 (broadcastInDim S65536x512 ![] bcast_S_S65536x512 : (⟨S_, .f32⟩ : BufTy).Contents (Elt F) → (⟨S65536x512, .f32⟩ : BufTy).Contents (Elt F)),
    StableHlo.binary main_v44 main_call2_v0 main_v45 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v46 ((extractStridedSlice S1x512x512 ![1, 0, 0] · slices_S9x512x512_S1x512x512_1_0_0) : (⟨S9x512x512, .f32⟩ : BufTy).Contents (Elt F) → (⟨S1x512x512, .f32⟩ : BufTy).Contents (Elt F)),
    StableHlo.reshape main_v46 main_v47 rfl shapeCasts_S1x512x512_S512x512,
    StableHlo.binary main_v45 main_v47 main_v48 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v49 ((extractStridedSlice S1x512 ![1, 0] · slices_S9x512_S1x512_1_0) : (⟨S9x512, .f32⟩ : BufTy).Contents (Elt F) → (⟨S1x512, .f32⟩ : BufTy).Contents (Elt F)),
    StableHlo.reshape main_v49 main_v50 rfl shapeCasts_S1x512_S512,
    StableHlo.unary main_v50 main_v51 (broadcastInDim S1x512 ![1] bcast_S512_S1x512_1 : (⟨S512, .f32⟩ : BufTy).Contents (Elt F) → (⟨S1x512, .f32⟩ : BufTy).Contents (Elt F)) ]

set_option maxRecDepth 8192 in
set_option maxHeartbeats 4000000 in
theorem main_part0_eq (c : Dev nD) : main_part0 (F := F) c = seq part0 := by
  simp only [main_part0, fn_relu.body, fn_where.body, seq, bind_assoc, pure_bind]
  rfl

/-- The operations of the program's window 1, in order, the outlined functions' operations at their calls. -/
abbrev part1 : List (HloOp τ sig (Elt F)) :=
  [ StableHlo.unary main_v51 main_v52 (broadcastInDim S65536x512 ![0, 1] bcast_S1x512_S65536x512_0_1 : (⟨S1x512, .f32⟩ : BufTy).Contents (Elt F) → (⟨S65536x512, .f32⟩ : BufTy).Contents (Elt F)),
    StableHlo.binary main_v48 main_v52 main_v53 (addf : (⟨S65536x512, .f32⟩ : BufTy).Contents (Elt F) → (⟨S65536x512, .f32⟩ : BufTy).Contents (Elt F) → (⟨S65536x512, .f32⟩ : BufTy).Contents (Elt F)),
    StableHlo.nullary main_c_6 (constantI S_ 32 1#32),
    StableHlo.unary main_c_6 main_v54 (broadcastInDim S65536 ![] bcast_S_S65536 : (⟨S_, .i32⟩ : BufTy).Contents (Elt F) → (⟨S65536, .i32⟩ : BufTy).Contents (Elt F)),
    StableHlo.binary main_v6 main_v54 main_v55 (cmpi .eq : (⟨S65536, .i32⟩ : BufTy).Contents (Elt F) → (⟨S65536, .i32⟩ : BufTy).Contents (Elt F) → (⟨S65536, .i1⟩ : BufTy).Contents (Elt F)),
    StableHlo.unary main_v55 main_v56 (broadcastInDim S65536x1 ![0] bcast_S65536_S65536x1_0 : (⟨S65536, .i1⟩ : BufTy).Contents (Elt F) → (⟨S65536x1, .i1⟩ : BufTy).Contents (Elt F)),
    StableHlo.unary main_v56 main_call3_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call3_v0 main_v53 main_v36 main_v57 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v58 ((extractStridedSlice S1x4x512 ![2, 0, 0] · slices_S9x4x512_S1x4x512_2_0_0) : (⟨S9x4x512, .f32⟩ : BufTy).Contents (Elt F) → (⟨S1x4x512, .f32⟩ : BufTy).Contents (Elt F)),
    StableHlo.reshape main_v58 main_v59 rfl shapeCasts_S1x4x512_S4x512,
    StableHlo.binary main_v14 main_v59 main_v60 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v61 ((extractStridedSlice S1x512 ![2, 0] · slices_S9x512_S1x512_2_0) : (⟨S9x512, .f32⟩ : BufTy).Contents (Elt F) → (⟨S1x512, .f32⟩ : BufTy).Contents (Elt F)),
    StableHlo.reshape main_v61 main_v62 rfl shapeCasts_S1x512_S512,
    StableHlo.unary main_v62 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S65536x512 ![0, 1] bcast_S1x512_S65536x512_0_1 : (⟨S1x512, .f32⟩ : BufTy).Contents (Elt F) → (⟨S65536x512, .f32⟩ : BufTy).Contents (Elt F)),
    StableHlo.binary main_v60 main_v64 main_v65 (addf : (⟨S65536x512, .f32⟩ : BufTy).Contents (Elt F) → (⟨S65536x512, .f32⟩ : BufTy).Contents (Elt F) → (⟨S65536x512, .f32⟩ : BufTy).Contents (Elt F)),
    StableHlo.nullary main_call4_cst (constant S_ .f32 0x00000000#32),
    StableHlo.unary main_call4_cst main_call4_v0 (broadcastInDim S65536x512 ![] bcast_S_S65536x512 : (⟨S_, .f32⟩ : BufTy).Contents (Elt F) → (⟨S65536x512, .f32⟩ : BufTy).Contents (Elt F)),
    StableHlo.binary main_v65 main_call4_v0 main_v66 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v67 ((extractStridedSlice S1x512x512 ![2, 0, 0] · slices_S9x512x512_S1x512x512_2_0_0) : (⟨S9x512x512, .f32⟩ : BufTy).Contents (Elt F) → (⟨S1x512x512, .f32⟩ : BufTy).Contents (Elt F)),
    StableHlo.reshape main_v67 main_v68 rfl shapeCasts_S1x512x512_S512x512,
    StableHlo.binary main_v66 main_v68 main_v69 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v70 ((extractStridedSlice S1x512 ![2, 0] · slices_S9x512_S1x512_2_0) : (⟨S9x512, .f32⟩ : BufTy).Contents (Elt F) → (⟨S1x512, .f32⟩ : BufTy).Contents (Elt F)),
    StableHlo.reshape main_v70 main_v71 rfl shapeCasts_S1x512_S512,
    StableHlo.unary main_v71 main_v72 (broadcastInDim S1x512 ![1] bcast_S512_S1x512_1 : (⟨S512, .f32⟩ : BufTy).Contents (Elt F) → (⟨S1x512, .f32⟩ : BufTy).Contents (Elt F)),
    StableHlo.unary main_v72 main_v73 (broadcastInDim S65536x512 ![0, 1] bcast_S1x512_S65536x512_0_1 : (⟨S1x512, .f32⟩ : BufTy).Contents (Elt F) → (⟨S65536x512, .f32⟩ : BufTy).Contents (Elt F)),
    StableHlo.binary main_v69 main_v73 main_v74 (addf : (⟨S65536x512, .f32⟩ : BufTy).Contents (Elt F) → (⟨S65536x512, .f32⟩ : BufTy).Contents (Elt F) → (⟨S65536x512, .f32⟩ : BufTy).Contents (Elt F)),
    StableHlo.nullary main_c_7 (constantI S_ 32 2#32),
    StableHlo.unary main_c_7 main_v75 (broadcastInDim S65536 ![] bcast_S_S65536 : (⟨S_, .i32⟩ : BufTy).Contents (Elt F) → (⟨S65536, .i32⟩ : BufTy).Contents (Elt F)),
    StableHlo.binary main_v6 main_v75 main_v76 (cmpi .eq : (⟨S65536, .i32⟩ : BufTy).Contents (Elt F) → (⟨S65536, .i32⟩ : BufTy).Contents (Elt F) → (⟨S65536, .i1⟩ : BufTy).Contents (Elt F)),
    StableHlo.unary main_v76 main_v77 (broadcastInDim S65536x1 ![0] bcast_S65536_S65536x1_0 : (⟨S65536, .i1⟩ : BufTy).Contents (Elt F) → (⟨S65536x1, .i1⟩ : BufTy).Contents (Elt F)),
    StableHlo.unary main_v77 main_call5_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call5_v0 main_v74 main_v57 main_v78 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v79 ((extractStridedSlice S1x4x512 ![3, 0, 0] · slices_S9x4x512_S1x4x512_3_0_0) : (⟨S9x4x512, .f32⟩ : BufTy).Contents (Elt F) → (⟨S1x4x512, .f32⟩ : BufTy).Contents (Elt F)),
    StableHlo.reshape main_v79 main_v80 rfl shapeCasts_S1x4x512_S4x512,
    StableHlo.binary main_v14 main_v80 main_v81 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v82 ((extractStridedSlice S1x512 ![3, 0] · slices_S9x512_S1x512_3_0) : (⟨S9x512, .f32⟩ : BufTy).Contents (Elt F) → (⟨S1x512, .f32⟩ : BufTy).Contents (Elt F)),
    StableHlo.reshape main_v82 main_v83 rfl shapeCasts_S1x512_S512,
    StableHlo.unary main_v83 main_v84 (broadcastInDim S1x512 ![1] bcast_S512_S1x512_1 : (⟨S512, .f32⟩ : BufTy).Contents (Elt F) → (⟨S1x512, .f32⟩ : BufTy).Contents (Elt F)),
    StableHlo.unary main_v84 main_v85 (broadcastInDim S65536x512 ![0, 1] bcast_S1x512_S65536x512_0_1 : (⟨S1x512, .f32⟩ : BufTy).Contents (Elt F) → (⟨S65536x512, .f32⟩ : BufTy).Contents (Elt F)),
    StableHlo.binary main_v81 main_v85 main_v86 (addf : (⟨S65536x512, .f32⟩ : BufTy).Contents (Elt F) → (⟨S65536x512, .f32⟩ : BufTy).Contents (Elt F) → (⟨S65536x512, .f32⟩ : BufTy).Contents (Elt F)),
    StableHlo.nullary main_call6_cst (constant S_ .f32 0x00000000#32),
    StableHlo.unary main_call6_cst main_call6_v0 (broadcastInDim S65536x512 ![] bcast_S_S65536x512 : (⟨S_, .f32⟩ : BufTy).Contents (Elt F) → (⟨S65536x512, .f32⟩ : BufTy).Contents (Elt F)),
    StableHlo.binary main_v86 main_call6_v0 main_v87 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v88 ((extractStridedSlice S1x512x512 ![3, 0, 0] · slices_S9x512x512_S1x512x512_3_0_0) : (⟨S9x512x512, .f32⟩ : BufTy).Contents (Elt F) → (⟨S1x512x512, .f32⟩ : BufTy).Contents (Elt F)),
    StableHlo.reshape main_v88 main_v89 rfl shapeCasts_S1x512x512_S512x512,
    StableHlo.binary main_v87 main_v89 main_v90 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v91 ((extractStridedSlice S1x512 ![3, 0] · slices_S9x512_S1x512_3_0) : (⟨S9x512, .f32⟩ : BufTy).Contents (Elt F) → (⟨S1x512, .f32⟩ : BufTy).Contents (Elt F)),
    StableHlo.reshape main_v91 main_v92 rfl shapeCasts_S1x512_S512,
    StableHlo.unary main_v92 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S65536x512 ![0, 1] bcast_S1x512_S65536x512_0_1 : (⟨S1x512, .f32⟩ : BufTy).Contents (Elt F) → (⟨S65536x512, .f32⟩ : BufTy).Contents (Elt F)),
    StableHlo.binary main_v90 main_v94 main_v95 (addf : (⟨S65536x512, .f32⟩ : BufTy).Contents (Elt F) → (⟨S65536x512, .f32⟩ : BufTy).Contents (Elt F) → (⟨S65536x512, .f32⟩ : BufTy).Contents (Elt F)),
    StableHlo.nullary main_c_8 (constantI S_ 32 3#32),
    StableHlo.unary main_c_8 main_v96 (broadcastInDim S65536 ![] bcast_S_S65536 : (⟨S_, .i32⟩ : BufTy).Contents (Elt F) → (⟨S65536, .i32⟩ : BufTy).Contents (Elt F)),
    StableHlo.binary main_v6 main_v96 main_v97 (cmpi .eq : (⟨S65536, .i32⟩ : BufTy).Contents (Elt F) → (⟨S65536, .i32⟩ : BufTy).Contents (Elt F) → (⟨S65536, .i1⟩ : BufTy).Contents (Elt F)),
    StableHlo.unary main_v97 main_v98 (broadcastInDim S65536x1 ![0] bcast_S65536_S65536x1_0 : (⟨S65536, .i1⟩ : BufTy).Contents (Elt F) → (⟨S65536x1, .i1⟩ : BufTy).Contents (Elt F)),
    StableHlo.unary main_v98 main_call7_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call7_v0 main_v95 main_v78 main_v99 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v100 ((extractStridedSlice S1x4x512 ![4, 0, 0] · slices_S9x4x512_S1x4x512_4_0_0) : (⟨S9x4x512, .f32⟩ : BufTy).Contents (Elt F) → (⟨S1x4x512, .f32⟩ : BufTy).Contents (Elt F)),
    StableHlo.reshape main_v100 main_v101 rfl shapeCasts_S1x4x512_S4x512,
    StableHlo.binary main_v14 main_v101 main_v102 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v103 ((extractStridedSlice S1x512 ![4, 0] · slices_S9x512_S1x512_4_0) : (⟨S9x512, .f32⟩ : BufTy).Contents (Elt F) → (⟨S1x512, .f32⟩ : BufTy).Contents (Elt F)),
    StableHlo.reshape main_v103 main_v104 rfl shapeCasts_S1x512_S512,
    StableHlo.unary main_v104 main_v105 (broadcastInDim S1x512 ![1] bcast_S512_S1x512_1 : (⟨S512, .f32⟩ : BufTy).Contents (Elt F) → (⟨S1x512, .f32⟩ : BufTy).Contents (Elt F)),
    StableHlo.unary main_v105 main_v106 (broadcastInDim S65536x512 ![0, 1] bcast_S1x512_S65536x512_0_1 : (⟨S1x512, .f32⟩ : BufTy).Contents (Elt F) → (⟨S65536x512, .f32⟩ : BufTy).Contents (Elt F)),
    StableHlo.binary main_v102 main_v106 main_v107 (addf : (⟨S65536x512, .f32⟩ : BufTy).Contents (Elt F) → (⟨S65536x512, .f32⟩ : BufTy).Contents (Elt F) → (⟨S65536x512, .f32⟩ : BufTy).Contents (Elt F)),
    StableHlo.nullary main_call8_cst (constant S_ .f32 0x00000000#32),
    StableHlo.unary main_call8_cst main_call8_v0 (broadcastInDim S65536x512 ![] bcast_S_S65536x512 : (⟨S_, .f32⟩ : BufTy).Contents (Elt F) → (⟨S65536x512, .f32⟩ : BufTy).Contents (Elt F)),
    StableHlo.binary main_v107 main_call8_v0 main_v108 (maximumf : (⟨S65536x512, .f32⟩ : BufTy).Contents (Elt F) → (⟨S65536x512, .f32⟩ : BufTy).Contents (Elt F) → (⟨S65536x512, .f32⟩ : BufTy).Contents (Elt F)) ]

set_option maxRecDepth 8192 in
set_option maxHeartbeats 4000000 in
theorem main_part1_eq (c : Dev nD) : main_part1 (F := F) c = seq part1 := by
  simp only [main_part1, fn_relu.body, fn_where.body, seq, bind_assoc, pure_bind]
  rfl

/-- The operations of the program's window 2, in order, the outlined functions' operations at their calls. -/
abbrev part2 : List (HloOp τ sig (Elt F)) :=
  [ StableHlo.unary main_arg7 main_v109 ((extractStridedSlice S1x512x512 ![4, 0, 0] · slices_S9x512x512_S1x512x512_4_0_0) : (⟨S9x512x512, .f32⟩ : BufTy).Contents (Elt F) → (⟨S1x512x512, .f32⟩ : BufTy).Contents (Elt F)),
    StableHlo.reshape main_v109 main_v110 rfl shapeCasts_S1x512x512_S512x512,
    StableHlo.binary main_v108 main_v110 main_v111 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v112 ((extractStridedSlice S1x512 ![4, 0] · slices_S9x512_S1x512_4_0) : (⟨S9x512, .f32⟩ : BufTy).Contents (Elt F) → (⟨S1x512, .f32⟩ : BufTy).Contents (Elt F)),
    StableHlo.reshape main_v112 main_v113 rfl shapeCasts_S1x512_S512,
    StableHlo.unary main_v113 main_v114 (broadcastInDim S1x512 ![1] bcast_S512_S1x512_1 : (⟨S512, .f32⟩ : BufTy).Contents (Elt F) → (⟨S1x512, .f32⟩ : BufTy).Contents (Elt F)),
    StableHlo.unary main_v114 main_v115 (broadcastInDim S65536x512 ![0, 1] bcast_S1x512_S65536x512_0_1 : (⟨S1x512, .f32⟩ : BufTy).Contents (Elt F) → (⟨S65536x512, .f32⟩ : BufTy).Contents (Elt F)),
    StableHlo.binary main_v111 main_v115 main_v116 (addf : (⟨S65536x512, .f32⟩ : BufTy).Contents (Elt F) → (⟨S65536x512, .f32⟩ : BufTy).Contents (Elt F) → (⟨S65536x512, .f32⟩ : BufTy).Contents (Elt F)),
    StableHlo.nullary main_c_9 (constantI S_ 32 4#32),
    StableHlo.unary main_c_9 main_v117 (broadcastInDim S65536 ![] bcast_S_S65536 : (⟨S_, .i32⟩ : BufTy).Contents (Elt F) → (⟨S65536, .i32⟩ : BufTy).Contents (Elt F)),
    StableHlo.binary main_v6 main_v117 main_v118 (cmpi .eq : (⟨S65536, .i32⟩ : BufTy).Contents (Elt F) → (⟨S65536, .i32⟩ : BufTy).Contents (Elt F) → (⟨S65536, .i1⟩ : BufTy).Contents (Elt F)),
    StableHlo.unary main_v118 main_v119 (broadcastInDim S65536x1 ![0] bcast_S65536_S65536x1_0 : (⟨S65536, .i1⟩ : BufTy).Contents (Elt F) → (⟨S65536x1, .i1⟩ : BufTy).Contents (Elt F)),
    StableHlo.unary main_v119 main_call9_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call9_v0 main_v116 main_v99 main_v120 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v121 ((extractStridedSlice S1x4x512 ![5, 0, 0] · slices_S9x4x512_S1x4x512_5_0_0) : (⟨S9x4x512, .f32⟩ : BufTy).Contents (Elt F) → (⟨S1x4x512, .f32⟩ : BufTy).Contents (Elt F)),
    StableHlo.reshape main_v121 main_v122 rfl shapeCasts_S1x4x512_S4x512,
    StableHlo.binary main_v14 main_v122 main_v123 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v124 ((extractStridedSlice S1x512 ![5, 0] · slices_S9x512_S1x512_5_0) : (⟨S9x512, .f32⟩ : BufTy).Contents (Elt F) → (⟨S1x512, .f32⟩ : BufTy).Contents (Elt F)),
    StableHlo.reshape main_v124 main_v125 rfl shapeCasts_S1x512_S512,
    StableHlo.unary main_v125 main_v126 (broadcastInDim S1x512 ![1] bcast_S512_S1x512_1 : (⟨S512, .f32⟩ : BufTy).Contents (Elt F) → (⟨S1x512, .f32⟩ : BufTy).Contents (Elt F)),
    StableHlo.unary main_v126 main_v127 (broadcastInDim S65536x512 ![0, 1] bcast_S1x512_S65536x512_0_1 : (⟨S1x512, .f32⟩ : BufTy).Contents (Elt F) → (⟨S65536x512, .f32⟩ : BufTy).Contents (Elt F)),
    StableHlo.binary main_v123 main_v127 main_v128 (addf : (⟨S65536x512, .f32⟩ : BufTy).Contents (Elt F) → (⟨S65536x512, .f32⟩ : BufTy).Contents (Elt F) → (⟨S65536x512, .f32⟩ : BufTy).Contents (Elt F)),
    StableHlo.nullary main_call10_cst (constant S_ .f32 0x00000000#32),
    StableHlo.unary main_call10_cst main_call10_v0 (broadcastInDim S65536x512 ![] bcast_S_S65536x512 : (⟨S_, .f32⟩ : BufTy).Contents (Elt F) → (⟨S65536x512, .f32⟩ : BufTy).Contents (Elt F)),
    StableHlo.binary main_v128 main_call10_v0 main_v129 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v130 ((extractStridedSlice S1x512x512 ![5, 0, 0] · slices_S9x512x512_S1x512x512_5_0_0) : (⟨S9x512x512, .f32⟩ : BufTy).Contents (Elt F) → (⟨S1x512x512, .f32⟩ : BufTy).Contents (Elt F)),
    StableHlo.reshape main_v130 main_v131 rfl shapeCasts_S1x512x512_S512x512,
    StableHlo.binary main_v129 main_v131 main_v132 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v133 ((extractStridedSlice S1x512 ![5, 0] · slices_S9x512_S1x512_5_0) : (⟨S9x512, .f32⟩ : BufTy).Contents (Elt F) → (⟨S1x512, .f32⟩ : BufTy).Contents (Elt F)),
    StableHlo.reshape main_v133 main_v134 rfl shapeCasts_S1x512_S512,
    StableHlo.unary main_v134 main_v135 (broadcastInDim S1x512 ![1] bcast_S512_S1x512_1 : (⟨S512, .f32⟩ : BufTy).Contents (Elt F) → (⟨S1x512, .f32⟩ : BufTy).Contents (Elt F)),
    StableHlo.unary main_v135 main_v136 (broadcastInDim S65536x512 ![0, 1] bcast_S1x512_S65536x512_0_1 : (⟨S1x512, .f32⟩ : BufTy).Contents (Elt F) → (⟨S65536x512, .f32⟩ : BufTy).Contents (Elt F)),
    StableHlo.binary main_v132 main_v136 main_v137 (addf : (⟨S65536x512, .f32⟩ : BufTy).Contents (Elt F) → (⟨S65536x512, .f32⟩ : BufTy).Contents (Elt F) → (⟨S65536x512, .f32⟩ : BufTy).Contents (Elt F)),
    StableHlo.nullary main_c_10 (constantI S_ 32 5#32),
    StableHlo.unary main_c_10 main_v138 (broadcastInDim S65536 ![] bcast_S_S65536 : (⟨S_, .i32⟩ : BufTy).Contents (Elt F) → (⟨S65536, .i32⟩ : BufTy).Contents (Elt F)),
    StableHlo.binary main_v6 main_v138 main_v139 (cmpi .eq : (⟨S65536, .i32⟩ : BufTy).Contents (Elt F) → (⟨S65536, .i32⟩ : BufTy).Contents (Elt F) → (⟨S65536, .i1⟩ : BufTy).Contents (Elt F)),
    StableHlo.unary main_v139 main_v140 (broadcastInDim S65536x1 ![0] bcast_S65536_S65536x1_0 : (⟨S65536, .i1⟩ : BufTy).Contents (Elt F) → (⟨S65536x1, .i1⟩ : BufTy).Contents (Elt F)),
    StableHlo.unary main_v140 main_call11_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call11_v0 main_v137 main_v120 main_v141 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v142 ((extractStridedSlice S1x4x512 ![6, 0, 0] · slices_S9x4x512_S1x4x512_6_0_0) : (⟨S9x4x512, .f32⟩ : BufTy).Contents (Elt F) → (⟨S1x4x512, .f32⟩ : BufTy).Contents (Elt F)),
    StableHlo.reshape main_v142 main_v143 rfl shapeCasts_S1x4x512_S4x512,
    StableHlo.binary main_v14 main_v143 main_v144 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v145 ((extractStridedSlice S1x512 ![6, 0] · slices_S9x512_S1x512_6_0) : (⟨S9x512, .f32⟩ : BufTy).Contents (Elt F) → (⟨S1x512, .f32⟩ : BufTy).Contents (Elt F)),
    StableHlo.reshape main_v145 main_v146 rfl shapeCasts_S1x512_S512,
    StableHlo.unary main_v146 main_v147 (broadcastInDim S1x512 ![1] bcast_S512_S1x512_1 : (⟨S512, .f32⟩ : BufTy).Contents (Elt F) → (⟨S1x512, .f32⟩ : BufTy).Contents (Elt F)),
    StableHlo.unary main_v147 main_v148 (broadcastInDim S65536x512 ![0, 1] bcast_S1x512_S65536x512_0_1 : (⟨S1x512, .f32⟩ : BufTy).Contents (Elt F) → (⟨S65536x512, .f32⟩ : BufTy).Contents (Elt F)),
    StableHlo.binary main_v144 main_v148 main_v149 (addf : (⟨S65536x512, .f32⟩ : BufTy).Contents (Elt F) → (⟨S65536x512, .f32⟩ : BufTy).Contents (Elt F) → (⟨S65536x512, .f32⟩ : BufTy).Contents (Elt F)),
    StableHlo.nullary main_call12_cst (constant S_ .f32 0x00000000#32),
    StableHlo.unary main_call12_cst main_call12_v0 (broadcastInDim S65536x512 ![] bcast_S_S65536x512 : (⟨S_, .f32⟩ : BufTy).Contents (Elt F) → (⟨S65536x512, .f32⟩ : BufTy).Contents (Elt F)),
    StableHlo.binary main_v149 main_call12_v0 main_v150 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v151 ((extractStridedSlice S1x512x512 ![6, 0, 0] · slices_S9x512x512_S1x512x512_6_0_0) : (⟨S9x512x512, .f32⟩ : BufTy).Contents (Elt F) → (⟨S1x512x512, .f32⟩ : BufTy).Contents (Elt F)),
    StableHlo.reshape main_v151 main_v152 rfl shapeCasts_S1x512x512_S512x512,
    StableHlo.binary main_v150 main_v152 main_v153 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v154 ((extractStridedSlice S1x512 ![6, 0] · slices_S9x512_S1x512_6_0) : (⟨S9x512, .f32⟩ : BufTy).Contents (Elt F) → (⟨S1x512, .f32⟩ : BufTy).Contents (Elt F)),
    StableHlo.reshape main_v154 main_v155 rfl shapeCasts_S1x512_S512,
    StableHlo.unary main_v155 main_v156 (broadcastInDim S1x512 ![1] bcast_S512_S1x512_1 : (⟨S512, .f32⟩ : BufTy).Contents (Elt F) → (⟨S1x512, .f32⟩ : BufTy).Contents (Elt F)),
    StableHlo.unary main_v156 main_v157 (broadcastInDim S65536x512 ![0, 1] bcast_S1x512_S65536x512_0_1 : (⟨S1x512, .f32⟩ : BufTy).Contents (Elt F) → (⟨S65536x512, .f32⟩ : BufTy).Contents (Elt F)),
    StableHlo.binary main_v153 main_v157 main_v158 (addf : (⟨S65536x512, .f32⟩ : BufTy).Contents (Elt F) → (⟨S65536x512, .f32⟩ : BufTy).Contents (Elt F) → (⟨S65536x512, .f32⟩ : BufTy).Contents (Elt F)),
    StableHlo.nullary main_c_11 (constantI S_ 32 6#32),
    StableHlo.unary main_c_11 main_v159 (broadcastInDim S65536 ![] bcast_S_S65536 : (⟨S_, .i32⟩ : BufTy).Contents (Elt F) → (⟨S65536, .i32⟩ : BufTy).Contents (Elt F)),
    StableHlo.binary main_v6 main_v159 main_v160 (cmpi .eq : (⟨S65536, .i32⟩ : BufTy).Contents (Elt F) → (⟨S65536, .i32⟩ : BufTy).Contents (Elt F) → (⟨S65536, .i1⟩ : BufTy).Contents (Elt F)),
    StableHlo.unary main_v160 main_v161 (broadcastInDim S65536x1 ![0] bcast_S65536_S65536x1_0 : (⟨S65536, .i1⟩ : BufTy).Contents (Elt F) → (⟨S65536x1, .i1⟩ : BufTy).Contents (Elt F)),
    StableHlo.unary main_v161 main_call13_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call13_v0 main_v158 main_v141 main_v162 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v163 ((extractStridedSlice S1x4x512 ![7, 0, 0] · slices_S9x4x512_S1x4x512_7_0_0) : (⟨S9x4x512, .f32⟩ : BufTy).Contents (Elt F) → (⟨S1x4x512, .f32⟩ : BufTy).Contents (Elt F)),
    StableHlo.reshape main_v163 main_v164 rfl shapeCasts_S1x4x512_S4x512,
    StableHlo.binary main_v14 main_v164 main_v165 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)) ]

set_option maxRecDepth 8192 in
set_option maxHeartbeats 4000000 in
theorem main_part2_eq (c : Dev nD) : main_part2 (F := F) c = seq part2 := by
  simp only [main_part2, fn_relu.body, fn_where.body, seq, bind_assoc, pure_bind]
  rfl

/-- The operations of the program's window 3, in order, the outlined functions' operations at their calls. -/
abbrev part3 : List (HloOp τ sig (Elt F)) :=
  [ StableHlo.unary main_arg6 main_v166 ((extractStridedSlice S1x512 ![7, 0] · slices_S9x512_S1x512_7_0) : (⟨S9x512, .f32⟩ : BufTy).Contents (Elt F) → (⟨S1x512, .f32⟩ : BufTy).Contents (Elt F)),
    StableHlo.reshape main_v166 main_v167 rfl shapeCasts_S1x512_S512,
    StableHlo.unary main_v167 main_v168 (broadcastInDim S1x512 ![1] bcast_S512_S1x512_1 : (⟨S512, .f32⟩ : BufTy).Contents (Elt F) → (⟨S1x512, .f32⟩ : BufTy).Contents (Elt F)),
    StableHlo.unary main_v168 main_v169 (broadcastInDim S65536x512 ![0, 1] bcast_S1x512_S65536x512_0_1 : (⟨S1x512, .f32⟩ : BufTy).Contents (Elt F) → (⟨S65536x512, .f32⟩ : BufTy).Contents (Elt F)),
    StableHlo.binary main_v165 main_v169 main_v170 (addf : (⟨S65536x512, .f32⟩ : BufTy).Contents (Elt F) → (⟨S65536x512, .f32⟩ : BufTy).Contents (Elt F) → (⟨S65536x512, .f32⟩ : BufTy).Contents (Elt F)),
    StableHlo.nullary main_call14_cst (constant S_ .f32 0x00000000#32),
    StableHlo.unary main_call14_cst main_call14_v0 (broadcastInDim S65536x512 ![] bcast_S_S65536x512 : (⟨S_, .f32⟩ : BufTy).Contents (Elt F) → (⟨S65536x512, .f32⟩ : BufTy).Contents (Elt F)),
    StableHlo.binary main_v170 main_call14_v0 main_v171 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v172 ((extractStridedSlice S1x512x512 ![7, 0, 0] · slices_S9x512x512_S1x512x512_7_0_0) : (⟨S9x512x512, .f32⟩ : BufTy).Contents (Elt F) → (⟨S1x512x512, .f32⟩ : BufTy).Contents (Elt F)),
    StableHlo.reshape main_v172 main_v173 rfl shapeCasts_S1x512x512_S512x512,
    StableHlo.binary main_v171 main_v173 main_v174 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v175 ((extractStridedSlice S1x512 ![7, 0] · slices_S9x512_S1x512_7_0) : (⟨S9x512, .f32⟩ : BufTy).Contents (Elt F) → (⟨S1x512, .f32⟩ : BufTy).Contents (Elt F)),
    StableHlo.reshape main_v175 main_v176 rfl shapeCasts_S1x512_S512,
    StableHlo.unary main_v176 main_v177 (broadcastInDim S1x512 ![1] bcast_S512_S1x512_1 : (⟨S512, .f32⟩ : BufTy).Contents (Elt F) → (⟨S1x512, .f32⟩ : BufTy).Contents (Elt F)),
    StableHlo.unary main_v177 main_v178 (broadcastInDim S65536x512 ![0, 1] bcast_S1x512_S65536x512_0_1 : (⟨S1x512, .f32⟩ : BufTy).Contents (Elt F) → (⟨S65536x512, .f32⟩ : BufTy).Contents (Elt F)),
    StableHlo.binary main_v174 main_v178 main_v179 (addf : (⟨S65536x512, .f32⟩ : BufTy).Contents (Elt F) → (⟨S65536x512, .f32⟩ : BufTy).Contents (Elt F) → (⟨S65536x512, .f32⟩ : BufTy).Contents (Elt F)),
    StableHlo.nullary main_c_12 (constantI S_ 32 7#32),
    StableHlo.unary main_c_12 main_v180 (broadcastInDim S65536 ![] bcast_S_S65536 : (⟨S_, .i32⟩ : BufTy).Contents (Elt F) → (⟨S65536, .i32⟩ : BufTy).Contents (Elt F)),
    StableHlo.binary main_v6 main_v180 main_v181 (cmpi .eq : (⟨S65536, .i32⟩ : BufTy).Contents (Elt F) → (⟨S65536, .i32⟩ : BufTy).Contents (Elt F) → (⟨S65536, .i1⟩ : BufTy).Contents (Elt F)),
    StableHlo.unary main_v181 main_v182 (broadcastInDim S65536x1 ![0] bcast_S65536_S65536x1_0 : (⟨S65536, .i1⟩ : BufTy).Contents (Elt F) → (⟨S65536x1, .i1⟩ : BufTy).Contents (Elt F)),
    StableHlo.unary main_v182 main_call15_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call15_v0 main_v179 main_v162 main_v183 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.unary main_arg5 main_v184 ((extractStridedSlice S1x4x512 ![8, 0, 0] · slices_S9x4x512_S1x4x512_8_0_0) : (⟨S9x4x512, .f32⟩ : BufTy).Contents (Elt F) → (⟨S1x4x512, .f32⟩ : BufTy).Contents (Elt F)),
    StableHlo.reshape main_v184 main_v185 rfl shapeCasts_S1x4x512_S4x512,
    StableHlo.binary main_v14 main_v185 main_v186 ((fun l r => Host.dotGeneral dot_S65536x4_S4x512_S65536x512_1_0_0_1_n_n none l r) : (⟨S65536x4, .f32⟩ : BufTy).Contents (Elt F) → (⟨S4x512, .f32⟩ : BufTy).Contents (Elt F) → (⟨S65536x512, .f32⟩ : BufTy).Contents (Elt F)),
    StableHlo.unary main_arg6 main_v187 ((extractStridedSlice S1x512 ![8, 0] · slices_S9x512_S1x512_8_0) : (⟨S9x512, .f32⟩ : BufTy).Contents (Elt F) → (⟨S1x512, .f32⟩ : BufTy).Contents (Elt F)),
    StableHlo.reshape main_v187 main_v188 rfl shapeCasts_S1x512_S512,
    StableHlo.unary main_v188 main_v189 (broadcastInDim S1x512 ![1] bcast_S512_S1x512_1 : (⟨S512, .f32⟩ : BufTy).Contents (Elt F) → (⟨S1x512, .f32⟩ : BufTy).Contents (Elt F)),
    StableHlo.unary main_v189 main_v190 (broadcastInDim S65536x512 ![0, 1] bcast_S1x512_S65536x512_0_1 : (⟨S1x512, .f32⟩ : BufTy).Contents (Elt F) → (⟨S65536x512, .f32⟩ : BufTy).Contents (Elt F)),
    StableHlo.binary main_v186 main_v190 main_v191 (addf : (⟨S65536x512, .f32⟩ : BufTy).Contents (Elt F) → (⟨S65536x512, .f32⟩ : BufTy).Contents (Elt F) → (⟨S65536x512, .f32⟩ : BufTy).Contents (Elt F)),
    StableHlo.nullary main_call16_cst (constant S_ .f32 0x00000000#32),
    StableHlo.unary main_call16_cst main_call16_v0 (broadcastInDim S65536x512 ![] bcast_S_S65536x512 : (⟨S_, .f32⟩ : BufTy).Contents (Elt F) → (⟨S65536x512, .f32⟩ : BufTy).Contents (Elt F)),
    StableHlo.binary main_v191 main_call16_v0 main_v192 (maximumf : (⟨S65536x512, .f32⟩ : BufTy).Contents (Elt F) → (⟨S65536x512, .f32⟩ : BufTy).Contents (Elt F) → (⟨S65536x512, .f32⟩ : BufTy).Contents (Elt F)),
    StableHlo.unary main_arg7 main_v193 ((extractStridedSlice S1x512x512 ![8, 0, 0] · slices_S9x512x512_S1x512x512_8_0_0) : (⟨S9x512x512, .f32⟩ : BufTy).Contents (Elt F) → (⟨S1x512x512, .f32⟩ : BufTy).Contents (Elt F)),
    StableHlo.reshape main_v193 main_v194 rfl shapeCasts_S1x512x512_S512x512,
    StableHlo.binary main_v192 main_v194 main_v195 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg8 main_v196 ((extractStridedSlice S1x512 ![8, 0] · slices_S9x512_S1x512_8_0) : (⟨S9x512, .f32⟩ : BufTy).Contents (Elt F) → (⟨S1x512, .f32⟩ : BufTy).Contents (Elt F)),
    StableHlo.reshape main_v196 main_v197 rfl shapeCasts_S1x512_S512,
    StableHlo.unary main_v197 main_v198 (broadcastInDim S1x512 ![1] bcast_S512_S1x512_1 : (⟨S512, .f32⟩ : BufTy).Contents (Elt F) → (⟨S1x512, .f32⟩ : BufTy).Contents (Elt F)),
    StableHlo.unary main_v198 main_v199 (broadcastInDim S65536x512 ![0, 1] bcast_S1x512_S65536x512_0_1 : (⟨S1x512, .f32⟩ : BufTy).Contents (Elt F) → (⟨S65536x512, .f32⟩ : BufTy).Contents (Elt F)),
    StableHlo.binary main_v195 main_v199 main_v200 (addf : (⟨S65536x512, .f32⟩ : BufTy).Contents (Elt F) → (⟨S65536x512, .f32⟩ : BufTy).Contents (Elt F) → (⟨S65536x512, .f32⟩ : BufTy).Contents (Elt F)),
    StableHlo.nullary main_c_13 (constantI S_ 32 8#32),
    StableHlo.unary main_c_13 main_v201 (broadcastInDim S65536 ![] bcast_S_S65536 : (⟨S_, .i32⟩ : BufTy).Contents (Elt F) → (⟨S65536, .i32⟩ : BufTy).Contents (Elt F)),
    StableHlo.binary main_v6 main_v201 main_v202 (cmpi .eq : (⟨S65536, .i32⟩ : BufTy).Contents (Elt F) → (⟨S65536, .i32⟩ : BufTy).Contents (Elt F) → (⟨S65536, .i1⟩ : BufTy).Contents (Elt F)),
    StableHlo.unary main_v202 main_v203 (broadcastInDim S65536x1 ![0] bcast_S65536_S65536x1_0 : (⟨S65536, .i1⟩ : BufTy).Contents (Elt F) → (⟨S65536x1, .i1⟩ : BufTy).Contents (Elt F)),
    StableHlo.unary main_v203 main_call17_v0 (broadcastInDim S65536x512 ![0, 1] bcast_S65536x1_S65536x512_0_1 : (⟨S65536x1, .i1⟩ : BufTy).Contents (Elt F) → (⟨S65536x512, .i1⟩ : BufTy).Contents (Elt F)),
    StableHlo.ternary main_call17_v0 main_v200 main_v183 main_v204 (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)),
    StableHlo.nullary main_c_14 (constantI S_ 32 0#32),
    StableHlo.unary main_c_14 main_v205 (broadcastInDim S65536 ![] bcast_S_S65536 : (⟨S_, .i32⟩ : BufTy).Contents (Elt F) → (⟨S65536, .i32⟩ : BufTy).Contents (Elt F)),
    StableHlo.binary main_arg0 main_v205 main_v206 (cmpi .slt : (⟨S65536, .i32⟩ : BufTy).Contents (Elt F) → (⟨S65536, .i32⟩ : BufTy).Contents (Elt F) → (⟨S65536, .i1⟩ : BufTy).Contents (Elt F)),
    StableHlo.nullary main_c_15 (constantI S_ 32 14#32),
    StableHlo.unary main_c_15 main_v207 (broadcastInDim S65536 ![] bcast_S_S65536 : (⟨S_, .i32⟩ : BufTy).Contents (Elt F) → (⟨S65536, .i32⟩ : BufTy).Contents (Elt F)),
    StableHlo.binary main_arg0 main_v207 main_v208 (addi : (⟨S65536, .i32⟩ : BufTy).Contents (Elt F) → (⟨S65536, .i32⟩ : BufTy).Contents (Elt F) → (⟨S65536, .i32⟩ : BufTy).Contents (Elt F)),
    StableHlo.ternary main_v206 main_v208 main_arg0 main_v209 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v209 main_v210 (broadcastInDim S65536x1 ![0] bcast_S65536_S65536x1_0 : (⟨S65536, .i32⟩ : BufTy).Contents (Elt F) → (⟨S65536x1, .i32⟩ : BufTy).Contents (Elt F)),
    StableHlo.binary main_arg3 main_v210 main_v211 ((fun x i => Host.gather gather_S14x512_S65536x1_S65536x512_1_0_n_n_0_1_1512 x i) : (⟨S14x512, .f32⟩ : BufTy).Contents (Elt F) → (⟨S65536x1, .i32⟩ : BufTy).Contents (Elt F) → (⟨S65536x512, .f32⟩ : BufTy).Contents (Elt F)),
    StableHlo.nullary main_c_16 (constantI S_ 32 0#32),
    StableHlo.unary main_c_16 main_v212 (broadcastInDim S65536 ![] bcast_S_S65536 : (⟨S_, .i32⟩ : BufTy).Contents (Elt F) → (⟨S65536, .i32⟩ : BufTy).Contents (Elt F)),
    StableHlo.binary main_arg1 main_v212 main_v213 (cmpi .slt : (⟨S65536, .i32⟩ : BufTy).Contents (Elt F) → (⟨S65536, .i32⟩ : BufTy).Contents (Elt F) → (⟨S65536, .i1⟩ : BufTy).Contents (Elt F)),
    StableHlo.nullary main_c_17 (constantI S_ 32 4#32),
    StableHlo.unary main_c_17 main_v214 (broadcastInDim S65536 ![] bcast_S_S65536 : (⟨S_, .i32⟩ : BufTy).Contents (Elt F) → (⟨S65536, .i32⟩ : BufTy).Contents (Elt F)),
    StableHlo.binary main_arg1 main_v214 main_v215 (addi : (⟨S65536, .i32⟩ : BufTy).Contents (Elt F) → (⟨S65536, .i32⟩ : BufTy).Contents (Elt F) → (⟨S65536, .i32⟩ : BufTy).Contents (Elt F)),
    StableHlo.ternary main_v213 main_v215 main_arg1 main_v216 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v216 main_v217 (broadcastInDim S65536x1 ![0] bcast_S65536_S65536x1_0 : (⟨S65536, .i32⟩ : BufTy).Contents (Elt F) → (⟨S65536x1, .i32⟩ : BufTy).Contents (Elt F)),
    StableHlo.binary main_arg4 main_v217 main_v218 ((fun x i => Host.gather gather_S4x512_S65536x1_S65536x512_1_0_n_n_0_1_1512 x i) : (⟨S4x512, .f32⟩ : BufTy).Contents (Elt F) → (⟨S65536x1, .i32⟩ : BufTy).Contents (Elt F) → (⟨S65536x512, .f32⟩ : BufTy).Contents (Elt F)),
    StableHlo.nary ![main_v211, main_v218, main_v204] main_v219 (fun u => concatenate S65536x1536 1 [⟨S65536x512, u 0⟩, ⟨S65536x512, u 1⟩, ⟨S65536x512, u 2⟩] concatenates_S65536x512_S65536x512_S65536x512_S65536x1536_d1) ]

set_option maxRecDepth 8192 in
set_option maxHeartbeats 4000000 in
theorem main_part3_eq (c : Dev nD) : main_part3 (F := F) c = seq part3 := by
  simp only [main_part3, fn_relu.body, fn_where.body, seq, bind_assoc, pure_bind]
  rfl

/-- The operations of the program's window 4, in order, the outlined functions' operations at their calls. -/
abbrev part4 : List (HloOp τ sig (Elt F)) :=
  [ StableHlo.binary main_v219 main_arg9 main_v220 ((fun l r => Host.dotGeneral dot_S65536x1536_S1536x512_S65536x512_1_0_0_1_n_n none l r) : (⟨S65536x1536, .f32⟩ : BufTy).Contents (Elt F) → (⟨S1536x512, .f32⟩ : BufTy).Contents (Elt F) → (⟨S65536x512, .f32⟩ : BufTy).Contents (Elt F)),
    StableHlo.unary main_arg10 main_v221 (broadcastInDim S1x512 ![1] bcast_S512_S1x512_1 : (⟨S512, .f32⟩ : BufTy).Contents (Elt F) → (⟨S1x512, .f32⟩ : BufTy).Contents (Elt F)),
    StableHlo.unary main_v221 main_v222 (broadcastInDim S65536x512 ![0, 1] bcast_S1x512_S65536x512_0_1 : (⟨S1x512, .f32⟩ : BufTy).Contents (Elt F) → (⟨S65536x512, .f32⟩ : BufTy).Contents (Elt F)),
    StableHlo.binary main_v220 main_v222 main_v223 (addf : (⟨S65536x512, .f32⟩ : BufTy).Contents (Elt F) → (⟨S65536x512, .f32⟩ : BufTy).Contents (Elt F) → (⟨S65536x512, .f32⟩ : BufTy).Contents (Elt F)),
    StableHlo.nullary main_call18_cst (constant S_ .f32 0x00000000#32),
    StableHlo.unary main_call18_cst main_call18_v0 (broadcastInDim S65536x512 ![] bcast_S_S65536x512 : (⟨S_, .f32⟩ : BufTy).Contents (Elt F) → (⟨S65536x512, .f32⟩ : BufTy).Contents (Elt F)),
    StableHlo.binary main_v223 main_call18_v0 main_v224 (maximumf : (⟨S65536x512, .f32⟩ : BufTy).Contents (Elt F) → (⟨S65536x512, .f32⟩ : BufTy).Contents (Elt F) → (⟨S65536x512, .f32⟩ : BufTy).Contents (Elt F)) ]

set_option maxRecDepth 8192 in
set_option maxHeartbeats 4000000 in
theorem main_part4_eq (c : Dev nD) : main_part4 (F := F) c = seq part4 := by
  simp only [main_part4, fn_relu.body, fn_where.body, seq, bind_assoc, pure_bind]
  rfl

/-- The program's 274 operations, in order: the thirteen windows one after another. -/
abbrev ops : List (HloOp τ sig (Elt F)) :=
  opsW1 ++ (opsW2 ++ (opsW3 ++ (opsW4 ++ (opsW5 ++ (opsW6 ++ (opsW7 ++ (opsW8 ++ (opsW9 ++ (opsW10 ++ (opsW11 ++ (opsW12 ++ (opsW13))))))))))))

/-- The contents after two lines run one after the other. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

set_option maxRecDepth 8192 in
set_option maxHeartbeats 4000000 in
/-- The two cuttings of the list — by the program's windows and by the stages — are the same list. -/
theorem parts_eq : (part0 ++ part1 ++ part2 ++ part3 ++ part4 : List (HloOp τ sig (Elt F))) = ops := rfl

set_option maxRecDepth 8192 in
theorem main_eq (c : Dev nD) : main (F := F) c = seq ops := by
  rw [← parts_eq]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp opsW1_sub op h, List.forall_iff_forall_mem.mp opsW2_sub op h, List.forall_iff_forall_mem.mp opsW3_sub op h, List.forall_iff_forall_mem.mp opsW4_sub op h, List.forall_iff_forall_mem.mp opsW5_sub op h, List.forall_iff_forall_mem.mp opsW6_sub op h, List.forall_iff_forall_mem.mp opsW7_sub op h, List.forall_iff_forall_mem.mp opsW8_sub op h, List.forall_iff_forall_mem.mp opsW9_sub op h, List.forall_iff_forall_mem.mp opsW10_sub op h, List.forall_iff_forall_mem.mp opsW11_sub op h, List.forall_iff_forall_mem.mp opsW12_sub op h, List.forall_iff_forall_mem.mp opsW13_sub op h]

theorem ops_fresh : ∀ op ∈ (ops : List (HloOp τ sig (Elt F))), op.fresh = ∅ := fun op h => by
  simp only [ops, List.mem_append] at h
  rcases h with h | h | h | h | h | h | h | h | h | h | h | h | h
  exacts [List.forall_iff_forall_mem.mp opsW1_fresh op h, List.forall_iff_forall_mem.mp opsW2_fresh op h, List.forall_iff_forall_mem.mp opsW3_fresh op h, List.forall_iff_forall_mem.mp opsW4_fresh op h, List.forall_iff_forall_mem.mp opsW5_fresh op h, List.forall_iff_forall_mem.mp opsW6_fresh op h, List.forall_iff_forall_mem.mp opsW7_fresh op h, List.forall_iff_forall_mem.mp opsW8_fresh op h, List.forall_iff_forall_mem.mp opsW9_fresh op h, List.forall_iff_forall_mem.mp opsW10_fresh op h, List.forall_iff_forall_mem.mp opsW11_fresh op h, List.forall_iff_forall_mem.mp opsW12_fresh op h, List.forall_iff_forall_mem.mp opsW13_fresh op h]

theorem after_ops (V0 : Valuation τ sig (Elt F)) : after ops V0 = val13 V0 := by
  simp only [ops, after_append']
  rfl

/-! ## The run -/

/-- On every device, for any float values, from any memory with zero counters: every weakly fair execution of the
    program terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v224) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v224).trans (by simp only [after_ops]; exact val13_main_v224 (launchContents m c)),
      (h c main_arg0).trans (by simp only [after_ops]; exact val13_main_arg0 (launchContents m c)),
      (h c main_arg1).trans (by simp only [after_ops]; exact val13_main_arg1 (launchContents m c)),
      (h c main_arg2).trans (by simp only [after_ops]; exact val13_main_arg2 (launchContents m c)),
      (h c main_arg3).trans (by simp only [after_ops]; exact val13_main_arg3 (launchContents m c)),
      (h c main_arg4).trans (by simp only [after_ops]; exact val13_main_arg4 (launchContents m c)),
      (h c main_arg5).trans (by simp only [after_ops]; exact val13_main_arg5 (launchContents m c)),
      (h c main_arg6).trans (by simp only [after_ops]; exact val13_main_arg6 (launchContents m c)),
      (h c main_arg7).trans (by simp only [after_ops]; exact val13_main_arg7 (launchContents m c)),
      (h c main_arg8).trans (by simp only [after_ops]; exact val13_main_arg8 (launchContents m c)),
      (h c main_arg9).trans (by simp only [after_ops]; exact val13_main_arg9 (launchContents m c)),
      (h c main_arg10).trans (by simp only [after_ops]; exact val13_main_arg10 (launchContents m c))⟩)
    (run_seq scopedRefs_eq scopedSems_eq defs main (fun _ => ops) main_eq (fun _ => ops_sub) m ρ (fun _ => ops_fresh))

end Cert.ReferenceIdeal.RefRun

end
-- ==== Proof.Spec.lean ====
/-
  The function both programs compute, on the extended reals, edge by edge.

  An edge `e` has a group `grp e` (one of nine), a row `x e` of four scaled parameters and two embedding rows
  `te e`, `se e` of length 512. Its parameter vector is the two-layer perceptron of its OWN group,
      mlp g xrow d = (∑ k, max ((∑ p, xrow p * W1 g p k) + b1 g k) 0 * W2 g k d) + b2 g d,
  and its output row is
      max (((∑ k, te k * Wf k q + ∑ k, se k * Wf (512 + k) q) + ∑ k, mlp … k * Wf (1024 + k) q) + bf q) 0,
  the contraction of the concatenated row [te, se, mlp] of length 1536 with `Wf`, already split into its three
  stretches of 512 (addition of extended reals is commutative and associative, so the split costs nothing).
  Every product is written activation * weight, every bias is added after the sum.
-/
import Idealize.ShloMosaic.PureOps.Ideal
import Mathlib.Algebra.BigOperators.Fin

namespace Cert.Spec

/-- The two-layer perceptron with the parameters of group `g`, at output coordinate `d`. -/
noncomputable def mlp (W1 : Fin 9 → Fin 4 → Fin 512 → EReal) (b1 : Fin 9 → Fin 512 → EReal)
    (W2 : Fin 9 → Fin 512 → Fin 512 → EReal) (b2 : Fin 9 → Fin 512 → EReal)
    (g : Fin 9) (xrow : Fin 4 → EReal) (d : Fin 512) : EReal :=
  (∑ k : Fin 512, max ((∑ p : Fin 4, xrow p * W1 g p k) + b1 g k) 0 * W2 g k d) + b2 g d

/-- One output row from the row's own data: its group, its scaled parameters and its two embedding rows. -/
noncomputable def rowOut (W1 : Fin 9 → Fin 4 → Fin 512 → EReal) (b1 : Fin 9 → Fin 512 → EReal)
    (W2 : Fin 9 → Fin 512 → Fin 512 → EReal) (b2 : Fin 9 → Fin 512 → EReal)
    (Wf : Fin 1536 → Fin 512 → EReal) (bf : Fin 512 → EReal)
    (g : Fin 9) (xrow : Fin 4 → EReal) (terow serow : Fin 512 → EReal) (q : Fin 512) : EReal :=
  max ((((∑ k : Fin 512, terow k * Wf ⟨k.val, by omega⟩ q)
          + (∑ k : Fin 512, serow k * Wf ⟨512 + k.val, by omega⟩ q))
        + (∑ k : Fin 512, mlp W1 b1 W2 b2 g xrow k * Wf ⟨1024 + k.val, by omega⟩ q))
      + bf q) 0

/-- The result array: row `e` from edge `e`'s data. -/
noncomputable def G (W1 : Fin 9 → Fin 4 → Fin 512 → EReal) (b1 : Fin 9 → Fin 512 → EReal)
    (W2 : Fin 9 → Fin 512 → Fin 512 → EReal) (b2 : Fin 9 → Fin 512 → EReal)
    (Wf : Fin 1536 → Fin 512 → EReal) (bf : Fin 512 → EReal)
    (grp : Fin 65536 → Fin 9) (x : Fin 65536 → Fin 4 → EReal) (te se : Fin 65536 → Fin 512 → EReal)
    (e : Fin 65536) (q : Fin 512) : EReal :=
  rowOut W1 b1 W2 b2 Wf bf (grp e) (x e) (te e) (se e) q

end Cert.Spec
-- ==== Proof.Derived.lean ====
/-
  What both programs derive from the integer and float arguments before any matrix product, as functions of
  plain positions.

  An index word `z` used to select a row of a table with `N` rows selects position `pos N z`: a negative word
  counts from the end (`z + N`), and the result is clamped into `[0, N - 1]`. An edge's type word selects its base
  group in the fixed table `typeToBase` (values `0 … 8`); the base group selects a row of four scale words; the
  edge's four parameters are divided by those scales; its type and source words select its two embedding rows.
-/
import Idealize.ShloMosaic.PureOps.Ideal
import Mathlib.Data.Fin.VecNotation

namespace Cert.Derived

open Idealize.ShloMosaic

/-- The table position an index word selects among `N` rows. -/
def pos (N : ℕ) (z : BitVec 32) : ℕ :=
  min (if z.toInt < 0 then z + BitVec.ofNat 32 N else z).toInt.toNat (N - 1)

theorem pos_lt {N : ℕ} (hN : 0 < N) (z : BitVec 32) : pos N z < N := by
  unfold pos
  omega

/-- An in-range non-negative word selects itself. -/
theorem pos_of_inRange {N : ℕ} (z : BitVec 32) (h0 : 0 ≤ z.toInt) (hN : z.toInt < N) : pos N z = z.toInt.toNat := by
  unfold pos
  rw [if_neg (not_lt.mpr h0)]
  omega

/-- The base group of each of the fourteen types. -/
def typeToBase : Fin 14 → BitVec 32 :=
  ![0#32, 0#32, 0#32, 1#32, 1#32, 1#32, 2#32, 2#32, 3#32, 4#32, 5#32, 6#32, 7#32, 8#32]

theorem typeToBase_le (i : Fin 14) : (typeToBase i).toNat ≤ 8 := by
  revert i
  decide

/-- The four scale words of each of the nine base groups (binary32 patterns). -/
def scaleWord : Fin 9 → Fin 4 → BitVec 32
  | 0 => ![0x3F800000#32, 0x358637BD#32, 0x3F800000#32, 0x3F800000#32]
  | 1 => ![0x3F800000#32, 0x358637BD#32, 0x3F800000#32, 0x3F800000#32]
  | 2 => ![0x3F800000#32, 0x3F800000#32, 0x3F800000#32, 0x3F800000#32]
  | 3 => ![0x447A0000#32, 0x3F800000#32, 0x3F800000#32, 0x3F800000#32]
  | 4 => ![0x2B8CBCCC#32, 0x3F800000#32, 0x3F800000#32, 0x3F800000#32]
  | 5 => ![0x3089705F#32, 0x3F800000#32, 0x3F800000#32, 0x3F800000#32]
  | 6 => ![0x3F800000#32, 0x3F800000#32, 0x3F800000#32, 0x3F800000#32]
  | 7 => ![0x3A83126F#32, 0x3A83126F#32, 0x3F800000#32, 0x3F800000#32]
  | 8 => ![0x3F800000#32, 0x3F800000#32, 0x4E6E6B28#32, 0x3F800000#32]

/-- An edge's base group, as the word the programs carry. -/
def baseWord (tid : Fin 65536 → BitVec 32) (e : Fin 65536) : BitVec 32 :=
  typeToBase ⟨pos 14 (tid e), pos_lt (by decide) _⟩

theorem baseWord_le (tid : Fin 65536 → BitVec 32) (e : Fin 65536) : (baseWord tid e).toNat ≤ 8 :=
  typeToBase_le _

theorem baseWord_toInt (tid : Fin 65536 → BitVec 32) (e : Fin 65536) :
    (baseWord tid e).toInt = ((baseWord tid e).toNat : Int) := by
  have h := baseWord_le tid e
  rw [BitVec.toInt_eq_toNat_of_lt (by omega)]

/-- An edge's base group, as one of the nine. -/
def grp (tid : Fin 65536 → BitVec 32) (e : Fin 65536) : Fin 9 :=
  ⟨(baseWord tid e).toNat, by have := baseWord_le tid e; omega⟩

/-- A base-group word selects its own row of the scale table. -/
theorem pos_baseWord (tid : Fin 65536 → BitVec 32) (e : Fin 65536) : pos 9 (baseWord tid e) = (grp tid e).val := by
  have h := baseWord_le tid e
  have hi := baseWord_toInt tid e
  rw [pos_of_inRange _ (by omega) (by omega), hi]
  rfl

/-- An edge's scaled parameters: each divided by its base group's scale. -/
noncomputable def x (params : Fin 65536 → Fin 4 → EReal) (tid : Fin 65536 → BitVec 32) (e : Fin 65536) (p : Fin 4) : EReal :=
  Ideal.div (params e p) (Ideal.ofBits .f32 (scaleWord (grp tid e) p))

/-- An edge's type-embedding row. -/
def te (temb : Fin 14 → Fin 512 → EReal) (tid : Fin 65536 → BitVec 32) (e : Fin 65536) (k : Fin 512) : EReal :=
  temb ⟨pos 14 (tid e), pos_lt (by decide) _⟩ k

/-- An edge's source-embedding row. -/
def se (semb : Fin 4 → Fin 512 → EReal) (sid : Fin 65536 → BitVec 32) (e : Fin 65536) (k : Fin 512) : EReal :=
  semb ⟨pos 4 (sid e), pos_lt (by decide) _⟩ k

end Cert.Derived
-- ==== Proof.Target.lean ====
/-
  The result both programs are to produce, as ONE function of the eleven argument arrays: entry `(e, q)` is
  `Spec.G` of the weights read by coordinates and of the edge data `Derived` reads off the type words, the source
  words and the parameters.
-/
import proofs.«132156_j59742995087902_2_alg».proof.Proof.Spec
import proofs.«132156_j59742995087902_2_alg».proof.Proof.Derived
import Idealize.ShloMosaic.Lib.ValueIdx

namespace Cert.Target

open Idealize.ShloMosaic Idealize.ShloMosaic.ValueIdx

/-- Entry `(e, q)` of the result, from the argument arrays in the programs' order: type words, source words,
    parameters, type embedding, source embedding, first-layer weights and biases, second-layer weights and biases,
    the output weights and bias. -/
noncomputable def target
    (a0 a1 : (⟨1, ![65536]⟩ : Shape).Idx → BitVec 32)
    (a2 : (⟨2, ![65536, 4]⟩ : Shape).Idx → EReal)
    (a3 : (⟨2, ![14, 512]⟩ : Shape).Idx → EReal)
    (a4 : (⟨2, ![4, 512]⟩ : Shape).Idx → EReal)
    (a5 : (⟨3, ![9, 4, 512]⟩ : Shape).Idx → EReal)
    (a6 : (⟨2, ![9, 512]⟩ : Shape).Idx → EReal)
    (a7 : (⟨3, ![9, 512, 512]⟩ : Shape).Idx → EReal)
    (a8 : (⟨2, ![9, 512]⟩ : Shape).Idx → EReal)
    (a9 : (⟨2, ![1536, 512]⟩ : Shape).Idx → EReal)
    (a10 : (⟨1, ![512]⟩ : Shape).Idx → EReal)
    (e : Fin 65536) (q : Fin 512) : EReal :=
  Cert.Spec.G
    (fun g p k => a5 (ix3 g p k)) (fun g k => a6 (ix2 g k))
    (fun g k d => a7 (ix3 g k d)) (fun g d => a8 (ix2 g d))
    (fun k q => a9 (ix2 k q)) (fun q => a10 (ix1 q))
    (Cert.Derived.grp fun e => a0 (ix1 e))
    (Cert.Derived.x (fun e p => a2 (ix2 e p)) fun e => a0 (ix1 e))
    (Cert.Derived.te (fun i k => a3 (ix2 i k)) fun e => a0 (ix1 e))
    (Cert.Derived.se (fun i k => a4 (ix2 i k)) fun e => a1 (ix1 e))
    e q

end Cert.Target
-- ==== Proof.LibGatherAxis0.lean ====
import Idealize.ShloMosaic.Lib.ValueIdx

/-!
# A gather along axis 0, read at an index

Let `x` be an array with `N` rows and let `idx` be an `M × 1` array of integer words.  The gather
`Host.gather d x idx` whose dimension numbers `d` collapse axis `0` of the operand, map the single
component of a start index to axis `0`, and keep the index vector on axis `1` of `idx`, produces
an array with `M` rows: row `r` of the result is row `min idx[r, 0] (N - 1)` of `x`, the entry
`idx[r, 0]` being read as a signed integer and a negative value being read as `0`.

* `gather_row_apply`: operand `[N, C]`, result `[M, C]` (offset axis `1`, slice sizes `[1, C]`):
  result element `(r, q)` is the operand at `(min idx[r, 0] (N - 1), q)`.
* `gather_elem_apply`: operand `[N]`, result `[M]` (no offset axis, slice sizes `[1]`): result
  element `r` is the operand at `min idx[r, 0] (N - 1)`.
* An index `z` handed to such a gather is first normalised: a negative `z` is replaced by
  `z + N`.  For `0 ≤ z < N` neither the normalisation nor the clamp changes it
  (`norm_eq_of_inRange`, `norm_clamp_of_inRange`), and the clamped index is always below `N`
  (`norm_clamp_lt`); for `-N ≤ z < 0` the normalised index is `z + N` (`norm_toInt_of_neg`).
-/

namespace Cert.Lib.GatherAxis0

open Idealize.ShloMosaic Idealize.ShloMosaic.ValueIdx

/-! ## Rows of a rank-2 operand -/

section Rows
variable {α : Type}

/-- The dimension numbers of a gather of rows: operand `[N, C]`, start indices `[M, 1]`, result
`[M, C]`; the conditions `wf` are decided on literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at `(r, q)`: the operand at row `idx[r, 0]` (read signed and clamped into
`[0, N - 1]`) and column `q`. -/
theorem gather_row_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (q : Fin C) :
    Host.gather (rowDims N C M wf) x idx (ix2 r q)
      = x (ix2 ⟨min (idx (ix2 r ⟨0, Nat.one_pos⟩)).toInt.toNat (N - 1), by omega⟩ q) := by
  unfold Host.gather
  congr 1
  funext a
  refine Fin.ext ?_
  match a with
  | ⟨0, _⟩ =>
    -- axis 0 is collapsed and named by the start index map: the clamped start index alone
    show (rowDims N C M wf).start (ix2 r q) idx 0 + (rowDims N C M wf).batchCoord (ix2 r q) 0
      + (rowDims N C M wf).offCoord (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N C M wf).startIndexMap from
      List.mem_singleton.mpr rfl)]
    have hsi : (rowDims N C M wf).siIdx (ix2 r q)
        ⟨List.idxOf (0 : Fin 2) (rowDims N C M wf).startIndexMap,
          List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    -- axis 1 is the offset axis and is not named by the start index map: the column alone
    show (rowDims N C M wf).start (ix2 r q) idx 1 + (rowDims N C M wf).batchCoord (ix2 r q) 1
      + (rowDims N C M wf).offCoord (ix2 r q) 1 = _
    have h1 : (1 : Fin 2) ∉ (rowDims N C M wf).startIndexMap := by
      intro h
      exact absurd (List.mem_singleton.mp h) (by decide : ¬ (1 : Fin 2) = 0)
    have hk : (1 : Fin 2) ∈ (rowDims N C M wf).sKept :=
      (GatherDims.mem_sKept _ _).mpr
        ⟨fun h => absurd (List.mem_singleton.mp h) (by decide : ¬ (1 : Fin 2) = 0), List.not_mem_nil⟩
    have hstart : (rowDims N C M wf).start (ix2 r q) idx 1 = 0 := by
      unfold GatherDims.start
      rw [dif_neg h1]
    rw [GatherDims.batchCoord_eq_zero _ _ _ List.not_mem_nil, hstart]
    simp only [Nat.add_zero, Nat.zero_add]
    unfold GatherDims.offCoord
    rw [dif_pos hk]
    rfl

end Rows

/-! ## Elements of a rank-1 operand -/

section Elements
variable {α : Type}

/-- The dimension numbers of a gather of elements: operand `[N]`, start indices `[M, 1]`, result
`[M]`; the conditions `wf` are decided on literal shapes. -/
abbrev elemDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of elements read at `r`: the operand at `idx[r, 0]`, read signed and clamped into
`[0, N - 1]`. -/
theorem gather_elem_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (elemDims N M wf) x idx (ix1 r)
      = x (ix1 ⟨min (idx (ix2 r ⟨0, Nat.one_pos⟩)).toInt.toNat (N - 1), by omega⟩) := by
  unfold Host.gather
  congr 1
  funext a
  obtain rfl : a = 0 := Subsingleton.elim _ _
  refine Fin.ext ?_
  -- the one axis is collapsed and named by the start index map: the clamped start index alone
  show (elemDims N M wf).start (ix1 r) idx 0 + (elemDims N M wf).batchCoord (ix1 r) 0
    + (elemDims N M wf).offCoord (ix1 r) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (elemDims N M wf).startIndexMap from
    List.mem_singleton.mpr rfl)]
  have hsi : (elemDims N M wf).siIdx (ix1 r)
      ⟨List.idxOf (0 : Fin 1) (elemDims N M wf).startIndexMap,
        List.idxOf_lt_length_iff.2 (List.mem_singleton.mpr rfl)⟩ = ix2 r ⟨0, Nat.one_pos⟩ := by
    funext b; refine Fin.ext ?_
    match b with
    | ⟨0, _⟩ => rfl
    | ⟨1, _⟩ => rfl
  rw [hsi]
  rfl

end Elements

/-! ## The index in front of the gather: normalise a negative index, then clamp -/

section Norm
variable {N : Nat}

/-- An index already in `[0, N)` is not changed by the clamp into `[0, N - 1]`. -/
theorem norm_clamp_of_inRange (z : BitVec 32) (h0 : 0 ≤ z.toInt) (hN : z.toInt < N) :
    min z.toInt.toNat (N - 1) = z.toInt.toNat := by
  omega

/-- The clamped index is a valid row of an array with `N > 0` rows. -/
theorem norm_clamp_lt (z : BitVec 32) (hN : 0 < N) : min z.toInt.toNat (N - 1) < N := by
  omega

/-- An index already in `[0, N)` is not changed by the normalisation "add `N` when negative". -/
theorem norm_eq_of_inRange (z : BitVec 32) (h0 : 0 ≤ z.toInt) (_hN : z.toInt < N) :
    (if z.toInt < 0 then z + BitVec.ofNat 32 N else z) = z := by
  rw [if_neg (not_lt.mpr h0)]

/-- A negative index `z` with `-N ≤ z` is normalised to `z + N`, for `N < 2 ^ 31`: the sum of the
two words does not wrap as a signed integer, because it lies in `[0, N)`. -/
theorem norm_toInt_of_neg (z : BitVec 32) (hN31 : N < 2 ^ 31) (hneg : z.toInt < 0)
    (hlo : -(N : Int) ≤ z.toInt) :
    (if z.toInt < 0 then z + BitVec.ofNat 32 N else z).toInt = z.toInt + N := by
  rw [if_pos hneg]
  have hzlt : z.toNat < 2 ^ 32 := z.isLt
  have hz : z.toInt = if 2 * z.toNat < 2 ^ 32 then (z.toNat : Int) else (z.toNat : Int) - 2 ^ 32 :=
    BitVec.toInt_eq_toNat_cond z
  have hs : (z + BitVec.ofNat 32 N).toNat = (z.toNat + N % 2 ^ 32) % 2 ^ 32 := by
    rw [BitVec.toNat_add, BitVec.toNat_ofNat]
  have hst : (z + BitVec.ofNat 32 N).toInt
      = if 2 * (z + BitVec.ofNat 32 N).toNat < 2 ^ 32 then ((z + BitVec.ofNat 32 N).toNat : Int)
        else ((z + BitVec.ofNat 32 N).toNat : Int) - 2 ^ 32 :=
    BitVec.toInt_eq_toNat_cond _
  rw [hst, hs]
  rw [hz] at hneg hlo ⊢
  split_ifs at hneg hlo ⊢ <;> omega

end Norm

end Cert.Lib.GatherAxis0
-- ==== Proof.RefRead.lean ====
/-
  THE REFERENCE'S RESULT, ENTRY BY ENTRY.

  At the ideal instance, where a float is an extended real and every operation is the exact one, the reference
  program's result \`out\` of the eleven argument arrays is, at entry \`(e, q)\`, the common target \`Target.target\`:
  the rectified, biased contraction with the output weights of the row made of edge \`e\`'s two embedding rows and
  of the two-layer perceptron of the edge's OWN base group applied to its scaled parameters.

  The stages of \`out\` are read one by one at an index:
  * an index word wrapped, read signed and clamped selects the table position \`Derived.pos\`; so the gathered
    embedding rows are \`Derived.te\` / \`Derived.se\`, the gathered base group is \`Derived.baseWord\` (the printed
    table of fourteen entries is \`Derived.typeToBase\`) and the scaled parameters are \`Derived.x\` (the printed table
    of scales is \`Derived.scaleWord\`, and a base-group word selects its own row);
  * a slice of one group of a weight array followed by the reshape that drops the unit axis reads that group's
    entries; a repeated bias row reads the bias; a contraction with one contracted axis is the sum of the products;
  * one round of the dispatch is "the perceptron of group \`t\` where the base group is \`t\`, the earlier value
    elsewhere"; since a base group is one of \`0 … 8\`, after the round of its own value an edge holds its own
    perceptron and keeps it, so the nine rounds leave \`Spec.mlp\` of the edge's group;
  * the concatenation of three blocks of 512 columns reads each block on its own stretch, and the sum over the
    1536 contracted positions splits into the three stretches (addition of extended reals is commutative and
    associative; nothing else is used).
-/
import proofs.«132156_j59742995087902_2_alg».proof.Proof.RefRun
import proofs.«132156_j59742995087902_2_alg».proof.Proof.Target
import proofs.«132156_j59742995087902_2_alg».proof.Proof.LibGatherAxis0
import Idealize.ShloMosaic.PureOps.Ideal.Laws
import Idealize.ShloMosaic.Lib.ValueLayout
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Cert.Lib.GatherAxis0 (gather_row_apply gather_elem_apply)
open scoped BigOperators

/-! ## Index words -/

/-- "Add \`n\` where negative", on one word. -/
theorem select_slt_zero (x n : BitVec 32) :
    Scalar.select (IntOp.cmpi .slt x 0#32) (IntOp.addi x n) x = if x.toInt < 0 then x + n else x := by
  have h0 : (0#32 : BitVec 32).toInt = 0 := by decide
  by_cases h : x.toInt < 0
  · have hs : x.slt 0#32 = true := by unfold BitVec.slt; rw [h0]; exact decide_eq_true h
    rw [if_pos h]
    show (if BitVec.ofBool (x.slt 0#32) = 1 then x + n else x) = x + n
    rw [hs]; rfl
  · have hs : x.slt 0#32 = false := by unfold BitVec.slt; rw [h0]; exact decide_eq_false h
    rw [if_neg h]
    show (if BitVec.ofBool (x.slt 0#32) = 1 then x + n else x) = x
    rw [hs]; rfl

/-- The wrapped index column at row \`r\`. -/
theorem wrapIdx_apply (n : BitVec 32) (z : IVec S65536 32) (r : Fin 65536) :
    wrapIdx n z (ix2 r ⟨0, Nat.one_pos⟩) = if (z (ix1 r)).toInt < 0 then z (ix1 r) + n else z (ix1 r) := by
  unfold wrapIdx
  rw [broadcastInDim_apply (![0]) bcast_S65536_S65536x1_0 _ (ix2 r ⟨0, Nat.one_pos⟩) (ix1 r)
    (by intro a; obtain rfl : a = 0 := Subsingleton.elim _ _; rfl)]
  exact select_slt_zero (z (ix1 r)) n

/-- Wrapped, read signed and clamped, an index word selects \`Derived.pos\`. -/
theorem wrap_pos (N : ℕ) (z : IVec S65536 32) (r : Fin 65536) :
    min (wrapIdx (BitVec.ofNat 32 N) z (ix2 r ⟨0, Nat.one_pos⟩)).toInt.toNat (N - 1) = Cert.Derived.pos N (z (ix1 r)) := by
  rw [wrapIdx_apply]; rfl

/-! ## The gathers -/

section Gathers
variable {F : FTy → Type} [FloatOps F]

/-- A type-embedding row at \`(e, k)\`. -/
theorem teRows_apply (a0 : IVec S65536 32) (a3 : FVec F S14x512 .f32) (e : Fin 65536) (k : Fin 512) :
    teRows a0 a3 (ix2 e k) = a3 (ix2 ⟨Cert.Derived.pos 14 (a0 (ix1 e)), Cert.Derived.pos_lt (by decide) _⟩ k) := by
  unfold teRows
  refine (gather_row_apply (N := 14) (C := 512) (M := 65536) (by decide) gather_S14x512_S65536x1_S65536x512_1_0_n_n_0_1_1512_wf a3 (wrapIdx 14#32 a0) e k).trans ?_
  exact congrArg (fun i => a3 (ix2 i k)) (Fin.ext (wrap_pos 14 a0 e))

/-- A source-embedding row at \`(e, k)\`. -/
theorem seRows_apply (a1 : IVec S65536 32) (a4 : FVec F S4x512 .f32) (e : Fin 65536) (k : Fin 512) :
    seRows a1 a4 (ix2 e k) = a4 (ix2 ⟨Cert.Derived.pos 4 (a1 (ix1 e)), Cert.Derived.pos_lt (by decide) _⟩ k) := by
  unfold seRows
  refine (gather_row_apply (N := 4) (C := 512) (M := 65536) (by decide) gather_S4x512_S65536x1_S65536x512_1_0_n_n_0_1_1512_wf a4 (wrapIdx 4#32 a1) e k).trans ?_
  exact congrArg (fun i => a4 (ix2 i k)) (Fin.ext (wrap_pos 4 a1 e))

/-- The printed table of base groups is \`Derived.typeToBase\`. -/
theorem lit0_eq (i : Fin 14) : lit0 (S14.rowMajor (ix1 i)) = Cert.Derived.typeToBase i := by
  fin_cases i <;> rfl

/-- An edge's base group. -/
theorem base_apply (a0 : IVec S65536 32) (e : Fin 65536) :
    base a0 (ix1 e) = Cert.Derived.baseWord (fun e => a0 (ix1 e)) e := by
  unfold base
  refine (gather_elem_apply (N := 14) (M := 65536) (by decide) gather_S14_S65536x1_S65536_n_0_n_n_0_1_1_wf _ (wrapIdx 14#32 a0) e).trans ?_
  refine (lit0_eq _).trans ?_
  unfold Cert.Derived.baseWord
  exact congrArg Cert.Derived.typeToBase (Fin.ext (wrap_pos 14 a0 e))

/-- The printed table of scales is \`Derived.scaleWord\`. -/
theorem lit1_eq (g : Fin 9) (p : Fin 4) : lit1 (S9x4.rowMajor (ix2 g p)) = Cert.Derived.scaleWord g p := by
  fin_cases g <;> fin_cases p <;> rfl

/-- A bias row repeated on every edge, at \`(e, q)\`. -/
theorem rowBias_apply (b : FVec F S512 .f32) (e : Fin 65536) (q : Fin 512) : rowBias b (ix2 e q) = b (ix1 q) := by
  unfold rowBias
  rw [broadcastInDim_apply (![0, 1]) bcast_S1x512_S65536x512_0_1 _ (ix2 e q) (ix2 (⟨0, Nat.one_pos⟩ : Fin 1) q)
    (by intro a; match a with | ⟨0, _⟩ => rfl | ⟨1, _⟩ => rfl)]
  rw [broadcastInDim_apply (![1]) bcast_S512_S1x512_1 _ (ix2 (⟨0, Nat.one_pos⟩ : Fin 1) q) (ix1 q)
    (by intro a; obtain rfl : a = 0 := Subsingleton.elim _ _; rfl)]

/-- Group \`t\`'s first-layer weights at \`(p, k)\`. -/
theorem w1_apply (t : ℕ) (ht : t < 9) (h5 : S9x4x512.Slices ![t, 0, 0] S1x4x512) (a5 : FVec F S9x4x512 .f32)
    (p : Fin 4) (k : Fin 512) :
    shapeCast S4x512 (extractStridedSlice S1x4x512 ![t, 0, 0] a5 h5) shapeCasts_S1x4x512_S4x512 (ix2 p k)
      = a5 (ix3 (⟨t, ht⟩ : Fin 9) p k) := by
  refine (shapeCast_1ab_ab_apply _ _ p k).trans ?_
  exact extractStridedSlice_apply _ a5 h5 _ (ix3 (⟨t, ht⟩ : Fin 9) p k)
    (by intro a; match a with | ⟨0, _⟩ => rfl | ⟨1, _⟩ => exact (Nat.zero_add _).symm | ⟨2, _⟩ => exact (Nat.zero_add _).symm)

/-- Group \`t\`'s second-layer weights at \`(k, d)\`. -/
theorem w2_apply (t : ℕ) (ht : t < 9) (h7 : S9x512x512.Slices ![t, 0, 0] S1x512x512) (a7 : FVec F S9x512x512 .f32)
    (k d : Fin 512) :
    shapeCast S512x512 (extractStridedSlice S1x512x512 ![t, 0, 0] a7 h7) shapeCasts_S1x512x512_S512x512 (ix2 k d)
      = a7 (ix3 (⟨t, ht⟩ : Fin 9) k d) := by
  refine (shapeCast_1ab_ab_apply _ _ k d).trans ?_
  exact extractStridedSlice_apply _ a7 h7 _ (ix3 (⟨t, ht⟩ : Fin 9) k d)
    (by intro a; match a with | ⟨0, _⟩ => rfl | ⟨1, _⟩ => exact (Nat.zero_add _).symm | ⟨2, _⟩ => exact (Nat.zero_add _).symm)

/-- Group \`t\`'s bias row at \`k\`. -/
theorem brow_apply (t : ℕ) (ht : t < 9) (h6 : S9x512.Slices ![t, 0] S1x512) (a6 : FVec F S9x512 .f32) (k : Fin 512) :
    shapeCast S512 (extractStridedSlice S1x512 ![t, 0] a6 h6) shapeCasts_S1x512_S512 (ix1 k)
      = a6 (ix2 (⟨t, ht⟩ : Fin 9) k) := by
  refine (shapeCast_1a_a_apply _ _ k).trans ?_
  exact extractStridedSlice_apply _ a6 h6 _ (ix2 (⟨t, ht⟩ : Fin 9) k)
    (by intro a; match a with | ⟨0, _⟩ => rfl | ⟨1, _⟩ => exact (Nat.zero_add _).symm)

end Gathers

/-! ## At the ideal instance -/

/-- The zeros are zero. -/
theorem zeros_apply (i : S65536x512.Idx) : (zeros (F := Ideal)) i = 0 := Ideal.ofBits_zero_f32

/-- The rectifier at an index. -/
theorem relu_apply (y : FVec Ideal S65536x512 .f32) (i : S65536x512.Idx) : relu y i = max (y i) 0 := by
  unfold relu
  rw [maximumf_apply, zeros_apply]

/-- An edge's scaled parameters. -/
theorem scaled_apply (a0 : IVec S65536 32) (a2 : FVec Ideal S65536x4 .f32) (e : Fin 65536) (p : Fin 4) :
    scaled a0 a2 (ix2 e p) = Cert.Derived.x (fun e p => a2 (ix2 e p)) (fun e => a0 (ix1 e)) e p := by
  unfold scaled Cert.Derived.x
  refine congrArg (Ideal.div (a2 (ix2 e p))) ?_
  refine (gather_row_apply (N := 9) (C := 4) (M := 65536) (by decide) gather_S9x4_S65536x1_S65536x4_1_0_n_n_0_1_14_wf _ (wrapIdx 9#32 (base a0)) e p).trans ?_
  have hrow : (⟨min (wrapIdx 9#32 (base a0) (ix2 e ⟨0, Nat.one_pos⟩)).toInt.toNat (9 - 1), by omega⟩ : Fin 9)
      = Cert.Derived.grp (fun e => a0 (ix1 e)) e :=
    Fin.ext ((wrap_pos 9 (base a0) e).trans (by rw [base_apply]; exact Cert.Derived.pos_baseWord _ e))
  exact (congrArg (fun g => Ideal.ofBits .f32 (lit1 (S9x4.rowMajor (ix2 g p)))) hrow).trans (by rw [lit1_eq])

/-- A contraction of an \`65536 × 4\` array with a \`4 × 512\` one, at an index: the sum of the products. -/
theorem dot4_apply (l : FVec Ideal S65536x4 .f32) (r : FVec Ideal S4x512 .f32) (e : Fin 65536) (q : Fin 512) :
    Host.dotGeneral dot_S65536x4_S4x512_S65536x512_1_0_0_1_n_n none l r (ix2 e q) = ∑ p : Fin 4, l (ix2 e p) * r (ix2 p q) := by
  show FloatOps.dotGeneral dot_S65536x4_S4x512_S65536x512_1_0_0_1_n_n none .single l r (ix2 e q) = _
  rw [Ideal.dotGeneral_apply]
  refine (Equiv.sum_comp (contrEquiv1 dot_S65536x4_S4x512_S65536x512_1_0_0_1_n_n 4 rfl rfl).symm _).symm.trans ?_
  refine Finset.sum_congr rfl fun p _ => ?_
  have hL : (dot_S65536x4_S4x512_S65536x512_1_0_0_1_n_n).lhsIdx (ix2 e q) ((contrEquiv1 dot_S65536x4_S4x512_S65536x512_1_0_0_1_n_n 4 rfl rfl).symm p) = ix2 e p := by
    funext a; refine Fin.ext ?_
    match a with
    | ⟨0, _⟩ => rfl
    | ⟨1, _⟩ => exact contrEquiv1_symm_val dot_S65536x4_S4x512_S65536x512_1_0_0_1_n_n 4 rfl rfl p
  have hR : (dot_S65536x4_S4x512_S65536x512_1_0_0_1_n_n).rhsIdx (ix2 e q) ((contrEquiv1 dot_S65536x4_S4x512_S65536x512_1_0_0_1_n_n 4 rfl rfl).symm p) = ix2 p q := by
    funext a; refine Fin.ext ?_
    match a with
    | ⟨0, _⟩ => exact contrEquiv1_symm_val dot_S65536x4_S4x512_S65536x512_1_0_0_1_n_n 4 rfl rfl p
    | ⟨1, _⟩ => rfl
  rw [hL, hR]

/-- A contraction of an \`65536 × 512\` array with a \`512 × 512\` one, at an index: the sum of the products. -/
theorem dot512_apply (l : FVec Ideal S65536x512 .f32) (r : FVec Ideal S512x512 .f32) (e : Fin 65536) (q : Fin 512) :
    Host.dotGeneral dot_S65536x512_S512x512_S65536x512_1_0_0_1_n_n none l r (ix2 e q) = ∑ k : Fin 512, l (ix2 e k) * r (ix2 k q) := by
  show FloatOps.dotGeneral dot_S65536x512_S512x512_S65536x512_1_0_0_1_n_n none .single l r (ix2 e q) = _
  rw [Ideal.dotGeneral_apply]
  refine (Equiv.sum_comp (contrEquiv1 dot_S65536x512_S512x512_S65536x512_1_0_0_1_n_n 512 rfl rfl).symm _).symm.trans ?_
  refine Finset.sum_congr rfl fun k _ => ?_
  have hL : (dot_S65536x512_S512x512_S65536x512_1_0_0_1_n_n).lhsIdx (ix2 e q) ((contrEquiv1 dot_S65536x512_S512x512_S65536x512_1_0_0_1_n_n 512 rfl rfl).symm k) = ix2 e k := by
    funext a; refine Fin.ext ?_
    match a with
    | ⟨0, _⟩ => rfl
    | ⟨1, _⟩ => exact contrEquiv1_symm_val dot_S65536x512_S512x512_S65536x512_1_0_0_1_n_n 512 rfl rfl k
  have hR : (dot_S65536x512_S512x512_S65536x512_1_0_0_1_n_n).rhsIdx (ix2 e q) ((contrEquiv1 dot_S65536x512_S512x512_S65536x512_1_0_0_1_n_n 512 rfl rfl).symm k) = ix2 k q := by
    funext a; refine Fin.ext ?_
    match a with
    | ⟨0, _⟩ => exact contrEquiv1_symm_val dot_S65536x512_S512x512_S65536x512_1_0_0_1_n_n 512 rfl rfl k
    | ⟨1, _⟩ => rfl
  rw [hL, hR]

/-- A contraction of an \`65536 × 1536\` array with a \`1536 × 512\` one, at an index: the sum of the products. -/
theorem dot1536_apply (l : FVec Ideal S65536x1536 .f32) (r : FVec Ideal S1536x512 .f32) (e : Fin 65536) (q : Fin 512) :
    Host.dotGeneral dot_S65536x1536_S1536x512_S65536x512_1_0_0_1_n_n none l r (ix2 e q) = ∑ k : Fin 1536, l (ix2 e k) * r (ix2 k q) := by
  show FloatOps.dotGeneral dot_S65536x1536_S1536x512_S65536x512_1_0_0_1_n_n none .single l r (ix2 e q) = _
  rw [Ideal.dotGeneral_apply]
  refine (Equiv.sum_comp (contrEquiv1 dot_S65536x1536_S1536x512_S65536x512_1_0_0_1_n_n 1536 rfl rfl).symm _).symm.trans ?_
  refine Finset.sum_congr rfl fun k _ => ?_
  have hL : (dot_S65536x1536_S1536x512_S65536x512_1_0_0_1_n_n).lhsIdx (ix2 e q) ((contrEquiv1 dot_S65536x1536_S1536x512_S65536x512_1_0_0_1_n_n 1536 rfl rfl).symm k) = ix2 e k := by
    funext a; refine Fin.ext ?_
    match a with
    | ⟨0, _⟩ => rfl
    | ⟨1, _⟩ => exact contrEquiv1_symm_val dot_S65536x1536_S1536x512_S65536x512_1_0_0_1_n_n 1536 rfl rfl k
  have hR : (dot_S65536x1536_S1536x512_S65536x512_1_0_0_1_n_n).rhsIdx (ix2 e q) ((contrEquiv1 dot_S65536x1536_S1536x512_S65536x512_1_0_0_1_n_n 1536 rfl rfl).symm k) = ix2 k q := by
    funext a; refine Fin.ext ?_
    match a with
    | ⟨0, _⟩ => exact contrEquiv1_symm_val dot_S65536x1536_S1536x512_S65536x512_1_0_0_1_n_n 1536 rfl rfl k
    | ⟨1, _⟩ => rfl
  rw [hL, hR]

/-! ## One round of the dispatch -/

/-- A select on "the words are equal". -/
theorem select_eq_word {α : Type} (x y : BitVec 32) (A B : α) :
    Scalar.select (IntOp.cmpi .eq x y) A B = if x = y then A else B := by
  by_cases h : x = y
  · rw [if_pos h]
    show (if BitVec.ofBool (x == y) = 1 then A else B) = A
    rw [show (x == y) = true from by simpa using h]; rfl
  · rw [if_neg h]
    show (if BitVec.ofBool (x == y) = 1 then A else B) = B
    rw [show (x == y) = false from by simpa using h]; rfl

/-- The round's mask at \`(e, d)\`: is edge \`e\`'s base group \`t\`. -/
theorem mask_apply (b : IVec S65536 32) (t : ℕ) (e : Fin 65536) (d : Fin 512) :
    broadcastInDim S65536x512 ![0, 1] bcast_S65536x1_S65536x512_0_1 (broadcastInDim S65536x1 ![0] bcast_S65536_S65536x1_0 (cmpi .eq b (broadcastInDim S65536 ![] bcast_S_S65536 (constantI S_ 32 (BitVec.ofNat 32 t))))) (ix2 e d)
      = IntOp.cmpi .eq (b (ix1 e)) (BitVec.ofNat 32 t) := by
  rw [broadcastInDim_apply (![0, 1]) bcast_S65536x1_S65536x512_0_1 _ (ix2 e d) (ix2 e (⟨0, Nat.one_pos⟩ : Fin 1))
    (by intro a; match a with | ⟨0, _⟩ => rfl | ⟨1, _⟩ => rfl)]
  rw [broadcastInDim_apply (![0]) bcast_S65536_S65536x1_0 _ (ix2 e ⟨0, Nat.one_pos⟩) (ix1 e)
    (by intro a; obtain rfl : a = 0 := Subsingleton.elim _ _; rfl)]
  rfl

/-- One round at \`(e, d)\`: the perceptron of group \`t\` where the edge's base group is \`t\`, the earlier value
    elsewhere. -/
theorem iter_apply (t : ℕ) (ht : t < 9) (h5 : S9x4x512.Slices ![t, 0, 0] S1x4x512) (h6 : S9x512.Slices ![t, 0] S1x512)
    (h7 : S9x512x512.Slices ![t, 0, 0] S1x512x512) (x : FVec Ideal S65536x4 .f32) (b : IVec S65536 32)
    (a5 : FVec Ideal S9x4x512 .f32) (a6 : FVec Ideal S9x512 .f32) (a7 : FVec Ideal S9x512x512 .f32)
    (a8 : FVec Ideal S9x512 .f32) (pv : FVec Ideal S65536x512 .f32) (e : Fin 65536) (d : Fin 512) :
    iter t h5 h6 h7 x b a5 a6 a7 a8 pv (ix2 e d)
      = if b (ix1 e) = BitVec.ofNat 32 t then
          Cert.Spec.mlp (fun g p k => a5 (ix3 g p k)) (fun g k => a6 (ix2 g k)) (fun g k d => a7 (ix3 g k d))
            (fun g d => a8 (ix2 g d)) (⟨t, ht⟩ : Fin 9) (fun p => x (ix2 e p)) d
        else pv (ix2 e d) := by
  unfold iter
  rw [select_apply, mask_apply, select_eq_word]
  refine if_congr Iff.rfl ?_ rfl
  unfold Cert.Spec.mlp
  rw [addf_apply, dot512_apply, rowBias_apply, brow_apply t ht]
  congr 1
  refine Finset.sum_congr rfl fun k _ => ?_
  rw [relu_apply, addf_apply, dot4_apply, rowBias_apply, brow_apply t ht, w2_apply t ht]
  congr 3
  refine Finset.sum_congr rfl fun p _ => ?_
  rw [w1_apply t ht]

/-! ## The nine rounds -/

section Chain
variable (w : BitVec 32) (A : Fin 9 → EReal)

theorem toNat_ofNat_small (T : ℕ) (hT : T < 9) : (BitVec.ofNat 32 T).toNat = T := by
  rw [BitVec.toNat_ofNat]; exact Nat.mod_eq_of_lt (by omega)

/-- Round 0 from zeros. -/
theorem chain_base (hw : w.toNat ≤ 8) :
    (if w = BitVec.ofNat 32 0 then A ⟨0, by omega⟩ else 0) = if w.toNat ≤ 0 then A ⟨w.toNat, by omega⟩ else 0 := by
  by_cases h : w = BitVec.ofNat 32 0
  · have ht : w.toNat = 0 := by rw [h]; exact toNat_ofNat_small 0 (by omega)
    rw [if_pos h, if_pos (by omega)]
    exact congrArg A (Fin.ext ht.symm)
  · have ht : w.toNat ≠ 0 := fun e => h (BitVec.eq_of_toNat_eq (by rw [e, toNat_ofNat_small 0 (by omega)]))
    rw [if_neg h, if_neg (by omega)]

/-- Round \`T + 1\` after the rounds up to \`T\`: a word below nine has met its own round by the round of its value. -/
theorem chain_step (hw : w.toNat ≤ 8) (T : ℕ) (hT : T + 1 < 9) (prev : EReal)
    (hprev : prev = if w.toNat ≤ T then A ⟨w.toNat, by omega⟩ else 0) :
    (if w = BitVec.ofNat 32 (T + 1) then A ⟨T + 1, hT⟩ else prev)
      = if w.toNat ≤ T + 1 then A ⟨w.toNat, by omega⟩ else 0 := by
  by_cases h : w = BitVec.ofNat 32 (T + 1)
  · have ht : w.toNat = T + 1 := by rw [h]; exact toNat_ofNat_small (T + 1) hT
    rw [if_pos h, if_pos (by omega)]
    exact congrArg A (Fin.ext ht.symm)
  · have ht : w.toNat ≠ T + 1 := fun e => h (BitVec.eq_of_toNat_eq (by rw [e, toNat_ofNat_small (T + 1) hT]))
    rw [if_neg h, hprev]
    by_cases h2 : w.toNat ≤ T
    · rw [if_pos h2, if_pos (by omega)]
    · rw [if_neg h2, if_neg (by omega)]

end Chain

section Rounds
variable (a0 : IVec S65536 32) (a2 : FVec Ideal S65536x4 .f32) (a5 : FVec Ideal S9x4x512 .f32)
  (a6 : FVec Ideal S9x512 .f32) (a7 : FVec Ideal S9x512x512 .f32) (a8 : FVec Ideal S9x512 .f32)

/-- Edge \`e\`'s perceptron value at \`d\` with the weights of group \`g\`. -/
abbrev mlpAt (e : Fin 65536) (d : Fin 512) (g : Fin 9) : EReal :=
  Cert.Spec.mlp (fun g p k => a5 (ix3 g p k)) (fun g k => a6 (ix2 g k)) (fun g k d => a7 (ix3 g k d))
    (fun g d => a8 (ix2 g d)) g (Cert.Derived.x (fun e p => a2 (ix2 e p)) (fun e => a0 (ix1 e)) e) d

/-- Edge \`e\`'s base-group word. -/
abbrev bw (e : Fin 65536) : BitVec 32 := Cert.Derived.baseWord (fun e => a0 (ix1 e)) e

/-- One round over the program's own scaled parameters and base groups. -/
theorem round_apply (t : ℕ) (ht : t < 9) (h5 : S9x4x512.Slices ![t, 0, 0] S1x4x512) (h6 : S9x512.Slices ![t, 0] S1x512)
    (h7 : S9x512x512.Slices ![t, 0, 0] S1x512x512) (pv : FVec Ideal S65536x512 .f32) (e : Fin 65536) (d : Fin 512) :
    iter t h5 h6 h7 (scaled a0 a2) (base a0) a5 a6 a7 a8 pv (ix2 e d)
      = if bw a0 e = BitVec.ofNat 32 t then mlpAt a0 a2 a5 a6 a7 a8 e d ⟨t, ht⟩ else pv (ix2 e d) := by
  rw [iter_apply t ht, base_apply]
  have hx : (fun p => scaled a0 a2 (ix2 e p)) = Cert.Derived.x (fun e p => a2 (ix2 e p)) (fun e => a0 (ix1 e)) e :=
    funext fun p => scaled_apply a0 a2 e p
  rw [hx]

theorem pv0_apply (e : Fin 65536) (d : Fin 512) :
    pv0 a0 a2 a5 a6 a7 a8 (ix2 e d)
      = if (bw a0 e).toNat ≤ 0 then mlpAt a0 a2 a5 a6 a7 a8 e d (Cert.Derived.grp (fun e => a0 (ix1 e)) e) else 0 := by
  unfold pv0
  rw [round_apply a0 a2 a5 a6 a7 a8 0 (by omega), zeros_apply]
  exact chain_base (bw a0 e) (mlpAt a0 a2 a5 a6 a7 a8 e d) (Cert.Derived.baseWord_le _ e)

theorem pv1_apply (e : Fin 65536) (d : Fin 512) :
    pv1 a0 a2 a5 a6 a7 a8 (ix2 e d)
      = if (bw a0 e).toNat ≤ 1 then mlpAt a0 a2 a5 a6 a7 a8 e d (Cert.Derived.grp (fun e => a0 (ix1 e)) e) else 0 := by
  unfold pv1
  rw [round_apply a0 a2 a5 a6 a7 a8 1 (by omega)]
  exact chain_step (bw a0 e) (mlpAt a0 a2 a5 a6 a7 a8 e d) (Cert.Derived.baseWord_le _ e) 0 (by omega) _ (pv0_apply a0 a2 a5 a6 a7 a8 e d)

theorem pv2_apply (e : Fin 65536) (d : Fin 512) :
    pv2 a0 a2 a5 a6 a7 a8 (ix2 e d)
      = if (bw a0 e).toNat ≤ 2 then mlpAt a0 a2 a5 a6 a7 a8 e d (Cert.Derived.grp (fun e => a0 (ix1 e)) e) else 0 := by
  unfold pv2
  rw [round_apply a0 a2 a5 a6 a7 a8 2 (by omega)]
  exact chain_step (bw a0 e) (mlpAt a0 a2 a5 a6 a7 a8 e d) (Cert.Derived.baseWord_le _ e) 1 (by omega) _ (pv1_apply a0 a2 a5 a6 a7 a8 e d)

theorem pv3_apply (e : Fin 65536) (d : Fin 512) :
    pv3 a0 a2 a5 a6 a7 a8 (ix2 e d)
      = if (bw a0 e).toNat ≤ 3 then mlpAt a0 a2 a5 a6 a7 a8 e d (Cert.Derived.grp (fun e => a0 (ix1 e)) e) else 0 := by
  unfold pv3
  rw [round_apply a0 a2 a5 a6 a7 a8 3 (by omega)]
  exact chain_step (bw a0 e) (mlpAt a0 a2 a5 a6 a7 a8 e d) (Cert.Derived.baseWord_le _ e) 2 (by omega) _ (pv2_apply a0 a2 a5 a6 a7 a8 e d)

theorem pv4_apply (e : Fin 65536) (d : Fin 512) :
    pv4 a0 a2 a5 a6 a7 a8 (ix2 e d)
      = if (bw a0 e).toNat ≤ 4 then mlpAt a0 a2 a5 a6 a7 a8 e d (Cert.Derived.grp (fun e => a0 (ix1 e)) e) else 0 := by
  unfold pv4
  rw [round_apply a0 a2 a5 a6 a7 a8 4 (by omega)]
  exact chain_step (bw a0 e) (mlpAt a0 a2 a5 a6 a7 a8 e d) (Cert.Derived.baseWord_le _ e) 3 (by omega) _ (pv3_apply a0 a2 a5 a6 a7 a8 e d)

theorem pv5_apply (e : Fin 65536) (d : Fin 512) :
    pv5 a0 a2 a5 a6 a7 a8 (ix2 e d)
      = if (bw a0 e).toNat ≤ 5 then mlpAt a0 a2 a5 a6 a7 a8 e d (Cert.Derived.grp (fun e => a0 (ix1 e)) e) else 0 := by
  unfold pv5
  rw [round_apply a0 a2 a5 a6 a7 a8 5 (by omega)]
  exact chain_step (bw a0 e) (mlpAt a0 a2 a5 a6 a7 a8 e d) (Cert.Derived.baseWord_le _ e) 4 (by omega) _ (pv4_apply a0 a2 a5 a6 a7 a8 e d)

theorem pv6_apply (e : Fin 65536) (d : Fin 512) :
    pv6 a0 a2 a5 a6 a7 a8 (ix2 e d)
      = if (bw a0 e).toNat ≤ 6 then mlpAt a0 a2 a5 a6 a7 a8 e d (Cert.Derived.grp (fun e => a0 (ix1 e)) e) else 0 := by
  unfold pv6
  rw [round_apply a0 a2 a5 a6 a7 a8 6 (by omega)]
  exact chain_step (bw a0 e) (mlpAt a0 a2 a5 a6 a7 a8 e d) (Cert.Derived.baseWord_le _ e) 5 (by omega) _ (pv5_apply a0 a2 a5 a6 a7 a8 e d)

theorem pv7_apply (e : Fin 65536) (d : Fin 512) :
    pv7 a0 a2 a5 a6 a7 a8 (ix2 e d)
      = if (bw a0 e).toNat ≤ 7 then mlpAt a0 a2 a5 a6 a7 a8 e d (Cert.Derived.grp (fun e => a0 (ix1 e)) e) else 0 := by
  unfold pv7
  rw [round_apply a0 a2 a5 a6 a7 a8 7 (by omega)]
  exact chain_step (bw a0 e) (mlpAt a0 a2 a5 a6 a7 a8 e d) (Cert.Derived.baseWord_le _ e) 6 (by omega) _ (pv6_apply a0 a2 a5 a6 a7 a8 e d)

theorem pv8_apply (e : Fin 65536) (d : Fin 512) :
    pv8 a0 a2 a5 a6 a7 a8 (ix2 e d)
      = if (bw a0 e).toNat ≤ 8 then mlpAt a0 a2 a5 a6 a7 a8 e d (Cert.Derived.grp (fun e => a0 (ix1 e)) e) else 0 := by
  unfold pv8
  rw [round_apply a0 a2 a5 a6 a7 a8 8 (by omega)]
  exact chain_step (bw a0 e) (mlpAt a0 a2 a5 a6 a7 a8 e d) (Cert.Derived.baseWord_le _ e) 7 (by omega) _ (pv7_apply a0 a2 a5 a6 a7 a8 e d)

/-- After the nine rounds every edge holds the perceptron of its own base group. -/
theorem pv8_final (e : Fin 65536) (d : Fin 512) :
    pv8 a0 a2 a5 a6 a7 a8 (ix2 e d) = mlpAt a0 a2 a5 a6 a7 a8 e d (Cert.Derived.grp (fun e => a0 (ix1 e)) e) :=
  (pv8_apply a0 a2 a5 a6 a7 a8 e d).trans (if_pos (Cert.Derived.baseWord_le _ e))

end Rounds

/-! ## The tail -/

section Tail
variable (te se pv : FVec Ideal S65536x512 .f32)

/-- The concatenated row's first stretch is the first block's row … -/
theorem cat_apply0 (e : Fin 65536) (i : Fin 512) :
    concatenate S65536x1536 1 [⟨S65536x512, te⟩, ⟨S65536x512, se⟩, ⟨S65536x512, pv⟩] concatenates_S65536x512_S65536x512_S65536x512_S65536x1536_d1 (ix2 e (⟨i.val, by omega⟩ : Fin 1536)) = te (ix2 e i) :=
  concatenate_apply_piece 1 [⟨S65536x512, te⟩, ⟨S65536x512, se⟩, ⟨S65536x512, pv⟩] concatenates_S65536x512_S65536x512_S65536x512_S65536x1536_d1 (ix2 e (⟨i.val, by omega⟩ : Fin 1536)) 0 (by simp) S65536x512 te rfl rfl 0 rfl (ix2 e i)
    (by intro b hb; match b with | ⟨0, _⟩ => rfl | ⟨1, _⟩ => exact absurd (Fin.ext rfl) hb) (Nat.zero_add _)

/-- … its second the second block's … -/
theorem cat_apply1 (e : Fin 65536) (i : Fin 512) :
    concatenate S65536x1536 1 [⟨S65536x512, te⟩, ⟨S65536x512, se⟩, ⟨S65536x512, pv⟩] concatenates_S65536x512_S65536x512_S65536x512_S65536x1536_d1 (ix2 e (⟨512 + i.val, by omega⟩ : Fin 1536)) = se (ix2 e i) :=
  concatenate_apply_piece 1 [⟨S65536x512, te⟩, ⟨S65536x512, se⟩, ⟨S65536x512, pv⟩] concatenates_S65536x512_S65536x512_S65536x512_S65536x1536_d1 (ix2 e (⟨512 + i.val, by omega⟩ : Fin 1536)) 1 (by simp) S65536x512 se rfl rfl 512 rfl (ix2 e i)
    (by intro b hb; match b with | ⟨0, _⟩ => rfl | ⟨1, _⟩ => exact absurd (Fin.ext rfl) hb) rfl

/-- … and its third the third block's. -/
theorem cat_apply2 (e : Fin 65536) (i : Fin 512) :
    concatenate S65536x1536 1 [⟨S65536x512, te⟩, ⟨S65536x512, se⟩, ⟨S65536x512, pv⟩] concatenates_S65536x512_S65536x512_S65536x512_S65536x1536_d1 (ix2 e (⟨1024 + i.val, by omega⟩ : Fin 1536)) = pv (ix2 e i) :=
  concatenate_apply_piece 1 [⟨S65536x512, te⟩, ⟨S65536x512, se⟩, ⟨S65536x512, pv⟩] concatenates_S65536x512_S65536x512_S65536x512_S65536x1536_d1 (ix2 e (⟨1024 + i.val, by omega⟩ : Fin 1536)) 2 (by simp) S65536x512 pv rfl rfl 1024 rfl (ix2 e i)
    (by intro b hb; match b with | ⟨0, _⟩ => rfl | ⟨1, _⟩ => exact absurd (Fin.ext rfl) hb) rfl

/-- A sum over \`1536 = 512 + 512 + 512\` positions, by stretches. -/
theorem sum_1536 (g : Fin 1536 → EReal) :
    ∑ k, g k = ((∑ i : Fin 512, g ⟨i.val, by omega⟩) + (∑ i : Fin 512, g ⟨512 + i.val, by omega⟩))
      + (∑ i : Fin 512, g ⟨1024 + i.val, by omega⟩) := by
  have h1 := Fin.sum_univ_add (a := 512 + 512) (b := 512) g
  have h2 := Fin.sum_univ_add (a := 512) (b := 512) (fun i : Fin (512 + 512) => g (Fin.castAdd 512 i))
  refine h1.trans ?_
  rw [h2]
  rfl

/-- The last stage at \`(e, q)\`. -/
theorem tail_apply (a9 : FVec Ideal S1536x512 .f32) (a10 : FVec Ideal S512 .f32) (e : Fin 65536) (q : Fin 512) :
    tail te se pv a9 a10 (ix2 e q)
      = max ((((∑ k : Fin 512, te (ix2 e k) * a9 (ix2 (⟨k.val, by omega⟩ : Fin 1536) q))
            + (∑ k : Fin 512, se (ix2 e k) * a9 (ix2 (⟨512 + k.val, by omega⟩ : Fin 1536) q)))
          + (∑ k : Fin 512, pv (ix2 e k) * a9 (ix2 (⟨1024 + k.val, by omega⟩ : Fin 1536) q)))
        + a10 (ix1 q)) 0 := by
  unfold tail
  rw [relu_apply, addf_apply, dot1536_apply, rowBias_apply, sum_1536]
  simp only [cat_apply0, cat_apply1, cat_apply2]

end Tail

/-! ## The result, entry by entry -/

/-- At the ideal instance the run's term is the common target, entry by entry. -/
theorem out_apply (a0 a1 : IVec S65536 32) (a2 : FVec Ideal S65536x4 .f32) (a3 : FVec Ideal S14x512 .f32)
    (a4 : FVec Ideal S4x512 .f32) (a5 : FVec Ideal S9x4x512 .f32) (a6 : FVec Ideal S9x512 .f32)
    (a7 : FVec Ideal S9x512x512 .f32) (a8 : FVec Ideal S9x512 .f32) (a9 : FVec Ideal S1536x512 .f32)
    (a10 : FVec Ideal S512 .f32) (e : Fin 65536) (q : Fin 512) :
    out (F := Ideal) a0 a1 a2 a3 a4 a5 a6 a7 a8 a9 a10 (ix2 e q)
      = Cert.Target.target a0 a1 a2 a3 a4 a5 a6 a7 a8 a9 a10 e q := by
  unfold out
  rw [tail_apply]
  simp only [teRows_apply, seRows_apply, pv8_final]
  rfl

end Cert.ReferenceIdeal.RefRead

end
-- ==== Proof.KBody.lean ====
/-
  THE VALUE OF THE KERNEL BODY. What the body's one store leaves in its output block, entry by entry, as a closed
  formula on the extended reals.

  With g the group word read from the prefetched table at the grid point, x the [1024,4] block, te and se the
  [1024,512] blocks and the weight arrays whole, the body computes
      h = max (x · W1[g] + b1[g]) 0,   o = h · W2[g] + b2[g],
      out = max (((te · Wf[0:512] + se · Wf[512:1024]) + o · Wf[1024:1536]) + bf) 0,
  every change of float format being the identity on extended reals. First the arithmetic alone, over the values
  the loads read (a matrix product into a zero accumulator is the sum over the contracted coordinate; a bias row
  laid along the rows reads its entry; a cast to the same shape or one dropping a leading unit axis re-indexes);
  then the run: the store covers the block, so the block holds the payload, and each load through a unit-stride
  rectangle reads the array at offset + coordinate — the per-group slices at row g, the three stretches of the last
  weight at rows 0, 512 and 1024.
-/
import proofs.«132156_j59742995087902_2_alg».proof.Proof.Gen.KernelIdeal.Frame
import proofs.«132156_j59742995087902_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.KBody

open Idealize.ShloMosaic Idealize.ShloMosaic.TcCoe Idealize.ShloMosaic.Tactic Idealize.ShloMosaic.ValueIdx
open Idealize.SL.Sem
open Cert.KernelIdeal Cert.KernelIdeal.Gen
open scoped BigOperators

theorem lhsA_0 (i : S1024x512.Idx) (k : dot_S1024x4_S4x512_S1024x512_1_0_0_1_n_n.contr.Idx) :
    (dot_S1024x4_S4x512_S1024x512_1_0_0_1_n_n.lhsIdx i k 0).val = (i 0).val := by
  unfold DotDims.lhsIdx
  rw [dif_neg (show ¬(0 : Fin S1024x4.rank) ∈ dot_S1024x4_S4x512_S1024x512_1_0_0_1_n_n.lhsBatch by decide),
    dif_pos (show (0 : Fin S1024x4.rank) ∈ dot_S1024x4_S4x512_S1024x512_1_0_0_1_n_n.lhsNonContracting by decide)]
  rfl
theorem lhsA_1 (i : S1024x512.Idx) (k : dot_S1024x4_S4x512_S1024x512_1_0_0_1_n_n.contr.Idx) :
    (dot_S1024x4_S4x512_S1024x512_1_0_0_1_n_n.lhsIdx i k 1).val = (k ⟨0, by decide⟩).val :=
  dot_S1024x4_S4x512_S1024x512_1_0_0_1_n_n.lhsIdx_val_of_single rfl i k
theorem rhsA_0 (i : S1024x512.Idx) (k : dot_S1024x4_S4x512_S1024x512_1_0_0_1_n_n.contr.Idx) :
    (dot_S1024x4_S4x512_S1024x512_1_0_0_1_n_n.rhsIdx i k 0).val = (k ⟨0, by decide⟩).val :=
  dot_S1024x4_S4x512_S1024x512_1_0_0_1_n_n.rhsIdx_val_of_single rfl i k
theorem rhsA_1 (i : S1024x512.Idx) (k : dot_S1024x4_S4x512_S1024x512_1_0_0_1_n_n.contr.Idx) :
    (dot_S1024x4_S4x512_S1024x512_1_0_0_1_n_n.rhsIdx i k 1).val = (i 1).val := by
  unfold DotDims.rhsIdx
  rw [dif_neg (show ¬(1 : Fin S4x512.rank) ∈ dot_S1024x4_S4x512_S1024x512_1_0_0_1_n_n.rhsBatch by decide),
    dif_pos (show (1 : Fin S4x512.rank) ∈ dot_S1024x4_S4x512_S1024x512_1_0_0_1_n_n.rhsNonContracting by decide)]
  rfl

/-- The [1024,4] by [4,512] product into a zero accumulator, read at (p, q): the sum over the four contracted
    coordinates of the products of the entries. -/
theorem mmA_apply (A : FVec Ideal S1024x4 .bf16) (B : FVec Ideal S4x512 .bf16) (p : Fin 1024) (q : Fin 512) :
    matmul dot_S1024x4_S4x512_S1024x512_1_0_0_1_n_n none A B (constant S1024x512 .f32 0x00000000#32) (ix2 p q)
      = ∑ k : Fin 4, A (ix2 p k) * B (ix2 k q) := by
  show FloatOps.matmul dot_S1024x4_S4x512_S1024x512_1_0_0_1_n_n none A B (constant S1024x512 .f32 0x00000000#32) (ix2 p q) = _
  rw [Ideal.matmul_constant_zero_apply,
    ← Equiv.sum_comp (contrEquiv1 dot_S1024x4_S4x512_S1024x512_1_0_0_1_n_n 4 rfl rfl).symm]
  refine Finset.sum_congr rfl fun c _ => ?_
  have hc := contrEquiv1_symm_val dot_S1024x4_S4x512_S1024x512_1_0_0_1_n_n 4 rfl rfl c
  have el : dot_S1024x4_S4x512_S1024x512_1_0_0_1_n_n.lhsIdx (ix2 p q) ((contrEquiv1 dot_S1024x4_S4x512_S1024x512_1_0_0_1_n_n 4 rfl rfl).symm c) = ix2 p c :=
    funext fun a => Fin.ext (by
      match a with
      | ⟨0, _⟩ => exact lhsA_0 _ _
      | ⟨1, _⟩ => exact (lhsA_1 _ _).trans hc)
  have er : dot_S1024x4_S4x512_S1024x512_1_0_0_1_n_n.rhsIdx (ix2 p q) ((contrEquiv1 dot_S1024x4_S4x512_S1024x512_1_0_0_1_n_n 4 rfl rfl).symm c) = ix2 c q :=
    funext fun a => Fin.ext (by
      match a with
      | ⟨0, _⟩ => exact (rhsA_0 _ _).trans hc
      | ⟨1, _⟩ => exact rhsA_1 _ _)
  rw [el, er]

theorem lhsB_0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem lhsB_1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem rhsB_0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem rhsB_1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The [1024,512] by [512,512] product into a zero accumulator, read at (p, q): the sum over the 512 contracted
    coordinates of the products of the entries. -/
theorem mmB_apply (A : FVec Ideal S1024x512 .bf16) (B : FVec Ideal S512x512 .bf16) (p : Fin 1024) (q : Fin 512) :
    matmul dot_S1024x512_S512x512_S1024x512_1_0_0_1_n_n none A B (constant S1024x512 .f32 0x00000000#32) (ix2 p q)
      = ∑ k : Fin 512, A (ix2 p k) * B (ix2 k q) := by
  show FloatOps.matmul dot_S1024x512_S512x512_S1024x512_1_0_0_1_n_n none A B (constant S1024x512 .f32 0x00000000#32) (ix2 p q) = _
  rw [Ideal.matmul_constant_zero_apply,
    ← Equiv.sum_comp (contrEquiv1 dot_S1024x512_S512x512_S1024x512_1_0_0_1_n_n 512 rfl rfl).symm]
  refine Finset.sum_congr rfl fun c _ => ?_
  have hc := contrEquiv1_symm_val dot_S1024x512_S512x512_S1024x512_1_0_0_1_n_n 512 rfl rfl c
  have el : dot_S1024x512_S512x512_S1024x512_1_0_0_1_n_n.lhsIdx (ix2 p q) ((contrEquiv1 dot_S1024x512_S512x512_S1024x512_1_0_0_1_n_n 512 rfl rfl).symm c) = ix2 p c :=
    funext fun a => Fin.ext (by
      match a with
      | ⟨0, _⟩ => exact lhsB_0 _ _
      | ⟨1, _⟩ => exact (lhsB_1 _ _).trans hc)
  have er : dot_S1024x512_S512x512_S1024x512_1_0_0_1_n_n.rhsIdx (ix2 p q) ((contrEquiv1 dot_S1024x512_S512x512_S1024x512_1_0_0_1_n_n 512 rfl rfl).symm c) = ix2 c q :=
    funext fun a => Fin.ext (by
      match a with
      | ⟨0, _⟩ => exact (rhsB_0 _ _).trans hc
      | ⟨1, _⟩ => exact rhsB_1 _ _)
  rw [el, er]

/-- A [512] vector cast to one row and laid along 1024 rows reads, at (p, q), its entry q. -/
theorem rowcast_apply (v : FVec Ideal S512 .f32) (h1 : S512.ShapeCasts S1x512) (hb : S1x512.Broadcasts S1024x512)
    (p : Fin 1024) (q : Fin 512) :
    broadcastTo S1024x512 (shapeCast S1x512 v h1) hb (ix2 p q) = v (ix1 q) :=
  (broadcastTo_1b_ab_apply _ hb p q).trans (shapeCast_a_1a_apply v h1 0 q)

/-- The splat of the word of +0.0 reads the extended real 0 everywhere. -/
theorem zsplat_apply (i : S1024x512.Idx) :
    (broadcast S1024x512 (Scalar.ofBits .f32 0x00000000#32 : Ideal .f32)) i = 0 := by
  show Ideal.ofBits .f32 0x00000000#32 = 0
  exact Ideal.ofBits_zero_f32

/-- The second payload is the [1024,512] by [512,512] product of its two operands. -/
theorem pay4_apply (v29 : Vec Ideal S1024x512 .bf16) (v33 : Vec Ideal S512x512 .bf16) (p : Fin 1024) (q : Fin 512) :
    Gen.k0_pay4 v29 v33 (ix2 p q) = ∑ k : Fin 512, v29 (ix2 p k) * v33 (ix2 k q) := by
  unfold Gen.k0_pay4
  simp only [shapeCast_self]
  exact mmB_apply v29 v33 p q

/-- A cast to the same shape changes nothing. -/
theorem pay3_eq (v31 : Vec Ideal S1024x512 .bf16) : Gen.k0_pay3 v31 = v31 := by
  unfold Gen.k0_pay3
  exact shapeCast_self _ _

/-- A cast to the same shape changes nothing. -/
theorem pay5_eq (v36 : Vec Ideal S512x512 .bf16) : Gen.k0_pay5 v36 = v36 := by
  unfold Gen.k0_pay5
  exact shapeCast_self _ _

/-- The two-layer perceptron of one group's parameters, read at (p, k): the hidden layer is the rectified affine image of
    row p, the output its affine image. -/
theorem pay2_apply (v2 : Vec Ideal S1024x4 .f32) (v6 : Vec Ideal S1x4x512 .bf16) (v9 : Vec Ideal S1x512 .f32)
    (v12 : Vec Ideal S1x512x512 .bf16) (v15 : Vec Ideal S1x512 .f32) (p : Fin 1024) (k : Fin 512) :
    Gen.k0_pay2 v2 v6 v9 v12 v15 (ix2 p k)
      = (∑ j : Fin 512, max ((∑ a : Fin 4, v2 (ix2 p a) * v6 (ix3 0 a j)) + v9 (ix2 0 j)) 0 * v12 (ix3 0 j k))
          + v15 (ix2 0 k) := by
  unfold Gen.k0_pay2
  simp only [shapeCast_self]
  refine (congrArg₂ (· + ·) (mmB_apply _ _ p k) (rowcast_apply _ _ _ p k)).trans ?_
  refine congrArg₂ (· + ·) (Finset.sum_congr rfl fun j _ => ?_) (shapeCast_1a_a_apply v15 _ k)
  refine congrArg₂ (· * ·) ?_ (shapeCast_1ab_ab_apply v12 _ j k)
  refine congrArg₂ max (congrArg₂ (· + ·) ((mmA_apply _ _ p j).trans (Finset.sum_congr rfl fun a _ => ?_))
    ((rowcast_apply _ _ _ p j).trans (shapeCast_1a_a_apply v9 _ j))) (zsplat_apply _)
  exact congrArg (v2 (ix2 p a) * ·) (shapeCast_1ab_ab_apply v6 _ a j)

/-- The last payload, read at (p, q): the three products summed left to right, the bias added, the result rectified. -/
theorem pay1_apply (v28 v32 : FVec Ideal S1024x512 .bf16) (v35 : FVec Ideal S1024x512 .f32)
    (v37 : FVec Ideal S512x512 .bf16) (v40 : Vec Ideal S512x512 .bf16) (v44 : Vec Ideal S512 .f32)
    (p : Fin 1024) (q : Fin 512) :
    Gen.k0_pay1 v28 v32 v35 v37 v40 v44 (ix2 p q)
      = max (((v35 (ix2 p q) + ∑ k : Fin 512, v32 (ix2 p k) * v37 (ix2 k q))
              + ∑ k : Fin 512, v28 (ix2 p k) * v40 (ix2 k q)) + v44 (ix1 q)) 0 := by
  unfold Gen.k0_pay1
  simp only [shapeCast_self]
  exact congrArg₂ max (congrArg₂ (· + ·) (congrArg₂ (· + ·) (congrArg (v35 (ix2 p q) + ·) (mmB_apply v32 v37 p q))
    (mmB_apply v28 v40 p q)) (rowcast_apply v44 _ _ p q)) (zsplat_apply _)

/-- THE BODY'S ARITHMETIC at (p, q), over the values its loads read: the first embedding row against the first stretch
    of the last weight, plus the second against the second stretch, plus the perceptron's output row against the third,
    plus the bias, rectified. -/
theorem pay_apply (v2 : Vec Ideal S1024x4 .f32) (v6 : Vec Ideal S1x4x512 .bf16) (v9 : Vec Ideal S1x512 .f32)
    (v12 : Vec Ideal S1x512x512 .bf16) (v15 : Vec Ideal S1x512 .f32) (v29 v31 : Vec Ideal S1024x512 .bf16)
    (v33 v36 v40 : Vec Ideal S512x512 .bf16) (v44 : Vec Ideal S512 .f32) (p : Fin 1024) (q : Fin 512) :
    Gen.k0_pay1 (Gen.k0_pay2 v2 v6 v9 v12 v15) (Gen.k0_pay3 v31) (Gen.k0_pay4 v29 v33) (Gen.k0_pay5 v36) v40 v44 (ix2 p q)
      = max ((((∑ k : Fin 512, v29 (ix2 p k) * v33 (ix2 k q)) + (∑ k : Fin 512, v31 (ix2 p k) * v36 (ix2 k q)))
              + (∑ k : Fin 512, ((∑ j : Fin 512, max ((∑ a : Fin 4, v2 (ix2 p a) * v6 (ix3 0 a j)) + v9 (ix2 0 j)) 0
                    * v12 (ix3 0 j k)) + v15 (ix2 0 k)) * v40 (ix2 k q)))
            + v44 (ix1 q)) 0 := by
  rw [pay1_apply, pay3_eq, pay5_eq, pay4_apply]
  exact congrArg (fun t => max (((∑ k : Fin 512, v29 (ix2 p k) * v33 (ix2 k q)) + (∑ k : Fin 512, v31 (ix2 p k) * v36 (ix2 k q)) + t)
    + v44 (ix1 q)) 0) (Finset.sum_congr rfl fun k _ => congrArg (· * v40 (ix2 k q)) (pay2_apply v2 v6 v9 v12 v15 p k))

/-! ## What the generated run leaves in the output block -/

theorem hz2 : (![0, 0] : Fin 2 → Nat) = fun _ => 0 := funext fun a => by fin_cases a <;> rfl
theorem hz1 : (![0] : Fin 1 → Nat) = fun _ => 0 := funext fun a => by fin_cases a <;> rfl

/-- The side condition bounds the group word: it is below nine (the slice of one group must lie inside the nine). -/
theorem toNat_lt_of_chk {w : BitVec 32} (h : k0_chk1 w) : w.toNat < 9 := by
  have h0 := h.1 0
  have e : k0_off2 w 0 = w.toNat := rfl
  have e1 : S1x4x512.size 0 = 1 := rfl
  have e9 : S9x4x512.size 0 = 9 := rfl
  rw [e, e1, e9] at h0
  omega

/-- The last payload of the values the body's loads read, over the table word `w`: the three whole blocks, the four
    one-group slices of the per-group parameters at `w`, the three stretches of the last weight and the bias. -/
def bodyVal (x0 : Vec Ideal S1024x4 .f32) (x1 x2 : Vec Ideal S1024x512 .bf16) (x3 : Vec Ideal S9x4x512 .bf16)
    (x4 : Vec Ideal S9x512 .f32) (x5 : Vec Ideal S9x512x512 .bf16) (x6 : Vec Ideal S9x512 .f32)
    (x7 : Vec Ideal S1536x512 .bf16) (x8 : Vec Ideal S512 .f32) (w : BitVec 32) (hw : k0_chk1 w) : Vec Ideal S1024x512 .f32 :=
  Gen.k0_pay1
    (Gen.k0_pay2 x0
      (View.ld x3 (Rect.unit (s := S9x4x512) (k0_off2 w) S1x4x512.size (k0_off2_inb w hw)))
      (View.ld x4 (Rect.unit (s := S9x512) (k0_off3 w) S1x512.size (k0_off3_inb w hw)))
      (View.ld x5 (Rect.unit (s := S9x512x512) (k0_off4 w) S1x512x512.size (k0_off4_inb w hw)))
      (View.ld x6 (Rect.unit (s := S9x512) (k0_off3 w) S1x512.size (k0_off3_inb w hw))))
    (Gen.k0_pay3 x2)
    (Gen.k0_pay4 x1 (View.ld x7 (Rect.unit (s := S1536x512) ![0, 0] S512x512.size inb_S1536x512_S512x512_0_0)))
    (Gen.k0_pay5 (View.ld x7 (Rect.unit (s := S1536x512) ![512, 0] S512x512.size inb_S1536x512_S512x512_512_0)))
    (View.ld x7 (Rect.unit (s := S1536x512) ![1024, 0] S512x512.size inb_S1536x512_S512x512_1024_0))
    x8

/-- The body's one store covers the output block, so the block ends holding its payload; each load reads its memref's
    contents through its rectangle. -/
theorem out0_payload (c : Dev nD) (i : grid0.Coords) (arg2 : Memref sig .tc .vmem S1024x4 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S9x4x512 .bf16) (harg5 : arg5.IsWhole) (arg6 : Memref sig .tc .vmem S9x512 .f32) (harg6 : arg6.IsWhole) (arg7 : Memref sig .tc .vmem S9x512x512 .bf16) (harg7 : arg7.IsWhole) (arg8 : Memref sig .tc .vmem S9x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S1024x512 .f32) (harg11 : arg11.IsWhole)
    (x0 : Vec Ideal S1024x4 .f32) (x1 : Vec Ideal S1024x512 .bf16) (x2 : Vec Ideal S1024x512 .bf16) (x3 : Vec Ideal S9x4x512 .bf16) (x4 : Vec Ideal S9x512 .f32) (x5 : Vec Ideal S9x512x512 .bf16) (x6 : Vec Ideal S9x512 .f32) (x7 : Vec Ideal S1536x512 .bf16) (x8 : Vec Ideal S512 .f32) (xt0 : TbBuf0 (F := Ideal) c tbM0_0) (k0_hw1 : k0_chk1 (tbM0_0.view.readAt (Elt Ideal) (Rect.unit (s := S73) (k0_off1 i) S1.size (k0_off1_inb i)).toLoadRect xt0 (Shape.Idx.first (numel1_S1.symm ▸ Nat.one_pos)))) :
    Gen.out0_A_9 c i arg2 harg2 arg3 harg3 arg4 harg4 arg5 harg5 arg6 harg6 arg7 harg7 arg8 harg8 arg9 harg9 arg10 harg10 arg11 harg11 x0 x1 x2 x3 x4 x5 x6 x7 x8 xt0 k0_hw1
      = bodyVal x0 x1 x2 x3 x4 x5 x6 x7 x8 (tbM0_0.view.readAt (Elt Ideal) (Rect.unit (s := S73) (k0_off1 i) S1.size (k0_off1_inb i)).toLoadRect xt0 (Shape.Idx.first (numel1_S1.symm ▸ Nat.one_pos))) k0_hw1 := by
  unfold bodyVal Gen.out0_A_9
  rw [View.read_writes_eq_canon _ _ _ (Gen.cover0_A_9 c i arg2 harg2 arg3 harg3 arg4 harg4 arg5 harg5 arg6 harg6 arg7 harg7 arg8 harg8 arg9 harg9 arg10 harg10 arg11 harg11 x0 x1 x2 x3 x4 x5 x6 x7 x8 xt0 k0_hw1)]
  unfold Gen.kernelRun0_A
  dsimp only
  sl_unfold_run_names
  rw [View.canon_unit_zero hz2]
  simp only [View.readAt_eq_ld, harg2.read_unread, harg3.read_unread, harg4.read_unread, harg5.read_unread,
    harg6.read_unread, harg7.read_unread, harg8.read_unread, harg9.read_unread, harg10.read_unread,
    View.ld_unit_zero (S := S1024x4) hz2, View.ld_unit_zero (S := S1024x512) hz2, View.ld_unit_zero (S := S512) hz1]

/-- That payload at (p, q) is the specification's output row of the row's own data: its group is the table word, its
    parameters row p of the x block, its embedding rows row p of the two embedding blocks. A load through a unit-stride
    rectangle reads the array at offset + coordinate: the one-group slices read group `w`, the three stretches of the
    last weight read rows k, 512 + k and 1024 + k. -/
theorem bodyVal_apply (x0 : Vec Ideal S1024x4 .f32) (x1 x2 : Vec Ideal S1024x512 .bf16) (x3 : Vec Ideal S9x4x512 .bf16)
    (x4 : Vec Ideal S9x512 .f32) (x5 : Vec Ideal S9x512x512 .bf16) (x6 : Vec Ideal S9x512 .f32)
    (x7 : Vec Ideal S1536x512 .bf16) (x8 : Vec Ideal S512 .f32) (w : BitVec 32) (hw : k0_chk1 w) (p : Fin 1024) (q : Fin 512) :
    bodyVal x0 x1 x2 x3 x4 x5 x6 x7 x8 w hw (ix2 p q)
      = Cert.Spec.rowOut (fun g a k => x3 (ix3 g a k)) (fun g k => x4 (ix2 g k)) (fun g k d => x5 (ix3 g k d))
          (fun g d => x6 (ix2 g d)) (fun k q => x7 (ix2 k q)) (fun q => x8 (ix1 q))
          ⟨w.toNat, toNat_lt_of_chk hw⟩ (fun a => x0 (ix2 p a)) (fun k => x1 (ix2 p k)) (fun k => x2 (ix2 p k)) q := by
  have e3 : ∀ (a : Fin 4) (j : Fin 512),
      View.ld x3 (Rect.unit (s := S9x4x512) (k0_off2 w) S1x4x512.size (k0_off2_inb w hw)) (ix3 (0 : Fin 1) a j)
        = x3 (ix3 ⟨w.toNat, toNat_lt_of_chk hw⟩ a j) := fun a j =>
    congrArg x3 (funext fun ax => Fin.ext (by
      match ax with
      | ⟨0, _⟩ => show w.toNat + 1 * 0 = w.toNat; omega
      | ⟨1, _⟩ => show 0 + 1 * a.val = a.val; omega
      | ⟨2, _⟩ => show 0 + 1 * j.val = j.val; omega))
  have e4 : ∀ (j : Fin 512),
      View.ld x4 (Rect.unit (s := S9x512) (k0_off3 w) S1x512.size (k0_off3_inb w hw)) (ix2 (0 : Fin 1) j)
        = x4 (ix2 ⟨w.toNat, toNat_lt_of_chk hw⟩ j) := fun j =>
    congrArg x4 (funext fun ax => Fin.ext (by
      match ax with
      | ⟨0, _⟩ => show w.toNat + 1 * 0 = w.toNat; omega
      | ⟨1, _⟩ => show 0 + 1 * j.val = j.val; omega))
  have e5 : ∀ (j k : Fin 512),
      View.ld x5 (Rect.unit (s := S9x512x512) (k0_off4 w) S1x512x512.size (k0_off4_inb w hw)) (ix3 (0 : Fin 1) j k)
        = x5 (ix3 ⟨w.toNat, toNat_lt_of_chk hw⟩ j k) := fun j k =>
    congrArg x5 (funext fun ax => Fin.ext (by
      match ax with
      | ⟨0, _⟩ => show w.toNat + 1 * 0 = w.toNat; omega
      | ⟨1, _⟩ => show 0 + 1 * j.val = j.val; omega
      | ⟨2, _⟩ => show 0 + 1 * k.val = k.val; omega))
  have e6 : ∀ (k : Fin 512),
      View.ld x6 (Rect.unit (s := S9x512) (k0_off3 w) S1x512.size (k0_off3_inb w hw)) (ix2 (0 : Fin 1) k)
        = x6 (ix2 ⟨w.toNat, toNat_lt_of_chk hw⟩ k) := fun k =>
    congrArg x6 (funext fun ax => Fin.ext (by
      match ax with
      | ⟨0, _⟩ => show w.toNat + 1 * 0 = w.toNat; omega
      | ⟨1, _⟩ => show 0 + 1 * k.val = k.val; omega))
  have e70 : ∀ (k q : Fin 512),
      View.ld x7 (Rect.unit (s := S1536x512) ![0, 0] S512x512.size inb_S1536x512_S512x512_0_0) (ix2 k q)
        = x7 (ix2 ⟨k.val, by omega⟩ q) := fun k q =>
    congrArg x7 (funext fun ax => Fin.ext (by
      match ax with
      | ⟨0, _⟩ => show 0 + 1 * k.val = k.val; omega
      | ⟨1, _⟩ => show 0 + 1 * q.val = q.val; omega))
  have e71 : ∀ (k q : Fin 512),
      View.ld x7 (Rect.unit (s := S1536x512) ![512, 0] S512x512.size inb_S1536x512_S512x512_512_0) (ix2 k q)
        = x7 (ix2 ⟨512 + k.val, by omega⟩ q) := fun k q =>
    congrArg x7 (funext fun ax => Fin.ext (by
      match ax with
      | ⟨0, _⟩ => show 512 + 1 * k.val = 512 + k.val; omega
      | ⟨1, _⟩ => show 0 + 1 * q.val = q.val; omega))
  have e72 : ∀ (k q : Fin 512),
      View.ld x7 (Rect.unit (s := S1536x512) ![1024, 0] S512x512.size inb_S1536x512_S512x512_1024_0) (ix2 k q)
        = x7 (ix2 ⟨1024 + k.val, by omega⟩ q) := fun k q =>
    congrArg x7 (funext fun ax => Fin.ext (by
      match ax with
      | ⟨0, _⟩ => show 1024 + 1 * k.val = 1024 + k.val; omega
      | ⟨1, _⟩ => show 0 + 1 * q.val = q.val; omega))
  unfold bodyVal
  rw [pay_apply]
  simp only [e3, e4, e5, e6, e70, e71, e72]
  rfl

/-- WHAT THE RUN LEAVES IN THE OUTPUT BLOCK at (p, q): the specification's output row of row p's own data, its group the
    word the table holds at the grid point. -/
theorem out0_apply (c : Dev nD) (i : grid0.Coords) (arg2 : Memref sig .tc .vmem S1024x4 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S9x4x512 .bf16) (harg5 : arg5.IsWhole) (arg6 : Memref sig .tc .vmem S9x512 .f32) (harg6 : arg6.IsWhole) (arg7 : Memref sig .tc .vmem S9x512x512 .bf16) (harg7 : arg7.IsWhole) (arg8 : Memref sig .tc .vmem S9x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S1024x512 .f32) (harg11 : arg11.IsWhole)
    (x0 : Vec Ideal S1024x4 .f32) (x1 : Vec Ideal S1024x512 .bf16) (x2 : Vec Ideal S1024x512 .bf16) (x3 : Vec Ideal S9x4x512 .bf16) (x4 : Vec Ideal S9x512 .f32) (x5 : Vec Ideal S9x512x512 .bf16) (x6 : Vec Ideal S9x512 .f32) (x7 : Vec Ideal S1536x512 .bf16) (x8 : Vec Ideal S512 .f32) (xt0 : TbBuf0 (F := Ideal) c tbM0_0) (k0_hw1 : k0_chk1 (tbM0_0.view.readAt (Elt Ideal) (Rect.unit (s := S73) (k0_off1 i) S1.size (k0_off1_inb i)).toLoadRect xt0 (Shape.Idx.first (numel1_S1.symm ▸ Nat.one_pos)))) (p : Fin 1024) (q : Fin 512) :
    Gen.out0_A_9 c i arg2 harg2 arg3 harg3 arg4 harg4 arg5 harg5 arg6 harg6 arg7 harg7 arg8 harg8 arg9 harg9 arg10 harg10 arg11 harg11 x0 x1 x2 x3 x4 x5 x6 x7 x8 xt0 k0_hw1 (ix2 p q)
      = Cert.Spec.rowOut (fun g a k => x3 (ix3 g a k)) (fun g k => x4 (ix2 g k)) (fun g k d => x5 (ix3 g k d))
          (fun g d => x6 (ix2 g d)) (fun k q => x7 (ix2 k q)) (fun q => x8 (ix1 q))
          ⟨(tbM0_0.view.readAt (Elt Ideal) (Rect.unit (s := S73) (k0_off1 i) S1.size (k0_off1_inb i)).toLoadRect xt0 (Shape.Idx.first (numel1_S1.symm ▸ Nat.one_pos))).toNat, toNat_lt_of_chk k0_hw1⟩
          (fun a => x0 (ix2 p a)) (fun k => x1 (ix2 p k)) (fun k => x2 (ix2 p k)) q :=
  (congrFun (out0_payload c i arg2 harg2 arg3 harg3 arg4 harg4 arg5 harg5 arg6 harg6 arg7 harg7 arg8 harg8 arg9 harg9 arg10 harg10 arg11 harg11 x0 x1 x2 x3 x4 x5 x6 x7 x8 xt0 k0_hw1) (ix2 p q)).trans
    (bodyVal_apply x0 x1 x2 x3 x4 x5 x6 x7 x8 _ k0_hw1 p q)

end Cert.KernelIdeal.KBody

end
-- ==== Proof.KValue.lean ====
/-
  The padded result array after the kernel region, as ONE function of what the region finds in its operand arrays.

  The region has 73 grid points; point `t` stages rows `1024 t … 1024 t + 1023` of the three row-blocked operands
  (scaled parameters, type embeddings, source embeddings), the whole weight arrays, and reads the group word
  `gid t` from the prefetched table; its body writes rows `1024 t …` of the result with `Spec.rowOut` of that row's
  data and the weights of group `gid t`. The 73 blocks tile the 74752 rows, so the array after the run is
  `Gpad`: row `r`, column `q` is `rowOut … (gid (r / 1024)) (row r of the operands) q`.
-/
import proofs.«132156_j59742995087902_2_alg».proof.Proof.Gen.KernelIdeal.Frame
import proofs.«132156_j59742995087902_2_alg».proof.Proof.Spec
import proofs.«132156_j59742995087902_2_alg».proof.Proof.KBody
import proofs.«132156_j59742995087902_2_alg».proof.Proof.FrameHyps
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat Cfg Window)

variable (m : (ℓ : Loc nD τ sig) → Buf (Elt Ideal) ℓ)

/-! ## The grid's index maps, decided once -/

theorem N_eq (a : (pcfg0 (F := Ideal)).Adm) : (cfg0 a).N = 73 := rfl

theorem tr_rows0 : ∀ t : Fin grid0.N, cc0_transform_0 (grid0.coords t) = ![t.val, 0] := by decide +kernel
theorem tr_rows1 : ∀ t : Fin grid0.N, cc0_transform_1 (grid0.coords t) = ![t.val, 0] := by decide +kernel
theorem tr_rows2 : ∀ t : Fin grid0.N, cc0_transform_2 (grid0.coords t) = ![t.val, 0] := by decide +kernel
theorem tr_rows9 : ∀ t : Fin grid0.N, cc0_transform_9 (grid0.coords t) = ![t.val, 0] := by decide +kernel
theorem tr_whole3 : ∀ t : Fin grid0.N, cc0_transform_3 (grid0.coords t) = ![0, 0, 0] := by decide +kernel
theorem tr_whole4 : ∀ t : Fin grid0.N, cc0_transform_4 (grid0.coords t) = ![0, 0] := by decide +kernel
theorem tr_whole5 : ∀ t : Fin grid0.N, cc0_transform_5 (grid0.coords t) = ![0, 0, 0] := by decide +kernel
theorem tr_whole6 : ∀ t : Fin grid0.N, cc0_transform_6 (grid0.coords t) = ![0, 0] := by decide +kernel
theorem tr_whole7 : ∀ t : Fin grid0.N, cc0_transform_7 (grid0.coords t) = ![0, 0] := by decide +kernel
theorem tr_whole8 : ∀ t : Fin grid0.N, cc0_transform_8 (grid0.coords t) = ![0] := by decide +kernel
theorem off_tbl : ∀ t : Fin grid0.N, k0_off1 (grid0.coords t) = ![t.val] := by decide +kernel

/-! ## The operand arrays as the region finds them, by coordinates -/

def W1v (c : Dev nD) : Fin 9 → Fin 4 → Fin 512 → EReal := fun g a k => (V m c main_v145 : FVec Ideal S9x4x512 .bf16) (ix3 g a k)
def b1v (c : Dev nD) : Fin 9 → Fin 512 → EReal := fun g k => (V m c main_arg6 : FVec Ideal S9x512 .f32) (ix2 g k)
def W2v (c : Dev nD) : Fin 9 → Fin 512 → Fin 512 → EReal := fun g k d => (V m c main_v146 : FVec Ideal S9x512x512 .bf16) (ix3 g k d)
def b2v (c : Dev nD) : Fin 9 → Fin 512 → EReal := fun g d => (V m c main_arg8 : FVec Ideal S9x512 .f32) (ix2 g d)
def Wfv (c : Dev nD) : Fin 1536 → Fin 512 → EReal := fun k q => (V m c main_v147 : FVec Ideal S1536x512 .bf16) (ix2 k q)
def bfv (c : Dev nD) : Fin 512 → EReal := fun q => (V m c main_arg10 : FVec Ideal S512 .f32) (ix1 q)
def xPv (c : Dev nD) (r : Fin 74752) : Fin 4 → EReal := fun a => (V m c main_v104 : FVec Ideal S74752x4 .f32) (ix2 r a)
def tePv (c : Dev nD) (r : Fin 74752) : Fin 512 → EReal := fun k => (V m c main_v128 : FVec Ideal S74752x512 .bf16) (ix2 r k)
def sePv (c : Dev nD) (r : Fin 74752) : Fin 512 → EReal := fun k => (V m c main_v136 : FVec Ideal S74752x512 .bf16) (ix2 r k)
/-- The group the prefetched table gives tile `t` (a word; read as a number and capped at 8). -/
def gidv (c : Dev nD) (t : Fin 73) : Fin 9 := ⟨min ((V m c main_v75 : IVec S73 32) (ix1 t)).toNat 8, by omega⟩

/-- The row, the column and the tile of an entry of the padded array. -/
def rowOf (i : S74752x512.Idx) : Fin 74752 := ⟨(i 0).val, (i 0).isLt⟩
def colOf (i : S74752x512.Idx) : Fin 512 := ⟨(i 1).val, (i 1).isLt⟩
def tileOf (r : Fin 74752) : Fin 73 := ⟨r.val / 1024, by have := r.isLt; omega⟩

/-- The padded result array. -/
def Gpad (c : Dev nD) : FVec Ideal S74752x512 .f32 := fun i =>
  Cert.Spec.rowOut (W1v m c) (b1v m c) (W2v m c) (b2v m c) (Wfv m c) (bfv m c)
    (gidv m c (tileOf (rowOf i))) (xPv m c (rowOf i)) (tePv m c (rowOf i)) (sePv m c (rowOf i)) (colOf i)

/-! ## Block reads: an element of a window's block is an element of its array -/

theorem blk0 (hO : Ok m) (c : Dev nD) (t : Fin (cfgM m hO).N) (p : Fin 1024) (a : Fin 4) :
    iblk m hO c 0 t (ix2 p a) = xPv m c ⟨t.val * 1024 + p.val, by have := t.isLt; have h : (cfgM m hO).N = 73 := rfl; omega⟩ a := by
  unfold iblk xPv
  show V m c main_v104 ((((cfgM m hO).win 0).blk t).view.emb (ix2 p a)) = _
  refine congrArg (V m c main_v104) (funext fun b => Fin.ext ?_)
  have e := tr_rows0 t
  match b with
  | ⟨0, _⟩ =>
    show ((cfgM m hO).win 0).index t (0 : Fin 2) * 1024 + 1 * p.val = t.val * 1024 + p.val
    have : ((cfgM m hO).win 0).index t (0 : Fin 2) = t.val := congrFun e 0
    omega
  | ⟨1, _⟩ =>
    show ((cfgM m hO).win 0).index t (1 : Fin 2) * 4 + 1 * a.val = a.val
    have : ((cfgM m hO).win 0).index t (1 : Fin 2) = 0 := congrFun e 1
    omega

theorem blk1 (hO : Ok m) (c : Dev nD) (t : Fin (cfgM m hO).N) (p : Fin 1024) (k : Fin 512) :
    iblk m hO c 1 t (ix2 p k) = tePv m c ⟨t.val * 1024 + p.val, by have := t.isLt; have h : (cfgM m hO).N = 73 := rfl; omega⟩ k := by
  unfold iblk tePv
  show V m c main_v128 ((((cfgM m hO).win 1).blk t).view.emb (ix2 p k)) = _
  refine congrArg (V m c main_v128) (funext fun b => Fin.ext ?_)
  have e := tr_rows1 t
  match b with
  | ⟨0, _⟩ =>
    show ((cfgM m hO).win 1).index t (0 : Fin 2) * 1024 + 1 * p.val = t.val * 1024 + p.val
    have : ((cfgM m hO).win 1).index t (0 : Fin 2) = t.val := congrFun e 0
    omega
  | ⟨1, _⟩ =>
    show ((cfgM m hO).win 1).index t (1 : Fin 2) * 512 + 1 * k.val = k.val
    have : ((cfgM m hO).win 1).index t (1 : Fin 2) = 0 := congrFun e 1
    omega

theorem blk2 (hO : Ok m) (c : Dev nD) (t : Fin (cfgM m hO).N) (p : Fin 1024) (k : Fin 512) :
    iblk m hO c 2 t (ix2 p k) = sePv m c ⟨t.val * 1024 + p.val, by have := t.isLt; have h : (cfgM m hO).N = 73 := rfl; omega⟩ k := by
  unfold iblk sePv
  show V m c main_v136 ((((cfgM m hO).win 2).blk t).view.emb (ix2 p k)) = _
  refine congrArg (V m c main_v136) (funext fun b => Fin.ext ?_)
  have e := tr_rows2 t
  match b with
  | ⟨0, _⟩ =>
    show ((cfgM m hO).win 2).index t (0 : Fin 2) * 1024 + 1 * p.val = t.val * 1024 + p.val
    have : ((cfgM m hO).win 2).index t (0 : Fin 2) = t.val := congrFun e 0
    omega
  | ⟨1, _⟩ =>
    show ((cfgM m hO).win 2).index t (1 : Fin 2) * 512 + 1 * k.val = k.val
    have : ((cfgM m hO).win 2).index t (1 : Fin 2) = 0 := congrFun e 1
    omega

theorem blk3 (hO : Ok m) (c : Dev nD) (t : Fin (cfgM m hO).N) (g : Fin 9) (a : Fin 4) (k : Fin 512) :
    iblk m hO c 3 t (ix3 g a k) = W1v m c g a k := by
  unfold iblk W1v
  show V m c main_v145 ((((cfgM m hO).win 3).blk t).view.emb (ix3 g a k)) = _
  refine congrArg (V m c main_v145) (funext fun b => Fin.ext ?_)
  have e := tr_whole3 t
  match b with
  | ⟨0, _⟩ =>
    show ((cfgM m hO).win 3).index t (0 : Fin 3) * 9 + 1 * g.val = g.val
    have : ((cfgM m hO).win 3).index t (0 : Fin 3) = 0 := congrFun e 0
    omega
  | ⟨1, _⟩ =>
    show ((cfgM m hO).win 3).index t (1 : Fin 3) * 4 + 1 * a.val = a.val
    have : ((cfgM m hO).win 3).index t (1 : Fin 3) = 0 := congrFun e 1
    omega
  | ⟨2, _⟩ =>
    show ((cfgM m hO).win 3).index t (2 : Fin 3) * 512 + 1 * k.val = k.val
    have : ((cfgM m hO).win 3).index t (2 : Fin 3) = 0 := congrFun e 2
    omega

theorem blk4 (hO : Ok m) (c : Dev nD) (t : Fin (cfgM m hO).N) (g : Fin 9) (k : Fin 512) :
    iblk m hO c 4 t (ix2 g k) = b1v m c g k := by
  unfold iblk b1v
  show V m c main_arg6 ((((cfgM m hO).win 4).blk t).view.emb (ix2 g k)) = _
  refine congrArg (V m c main_arg6) (funext fun b => Fin.ext ?_)
  have e := tr_whole4 t
  match b with
  | ⟨0, _⟩ =>
    show ((cfgM m hO).win 4).index t (0 : Fin 2) * 9 + 1 * g.val = g.val
    have : ((cfgM m hO).win 4).index t (0 : Fin 2) = 0 := congrFun e 0
    omega
  | ⟨1, _⟩ =>
    show ((cfgM m hO).win 4).index t (1 : Fin 2) * 512 + 1 * k.val = k.val
    have : ((cfgM m hO).win 4).index t (1 : Fin 2) = 0 := congrFun e 1
    omega

theorem blk5 (hO : Ok m) (c : Dev nD) (t : Fin (cfgM m hO).N) (g : Fin 9) (k d : Fin 512) :
    iblk m hO c 5 t (ix3 g k d) = W2v m c g k d := by
  unfold iblk W2v
  show V m c main_v146 ((((cfgM m hO).win 5).blk t).view.emb (ix3 g k d)) = _
  refine congrArg (V m c main_v146) (funext fun b => Fin.ext ?_)
  have e := tr_whole5 t
  match b with
  | ⟨0, _⟩ =>
    show ((cfgM m hO).win 5).index t (0 : Fin 3) * 9 + 1 * g.val = g.val
    have : ((cfgM m hO).win 5).index t (0 : Fin 3) = 0 := congrFun e 0
    omega
  | ⟨1, _⟩ =>
    show ((cfgM m hO).win 5).index t (1 : Fin 3) * 512 + 1 * k.val = k.val
    have : ((cfgM m hO).win 5).index t (1 : Fin 3) = 0 := congrFun e 1
    omega
  | ⟨2, _⟩ =>
    show ((cfgM m hO).win 5).index t (2 : Fin 3) * 512 + 1 * d.val = d.val
    have : ((cfgM m hO).win 5).index t (2 : Fin 3) = 0 := congrFun e 2
    omega

theorem blk6 (hO : Ok m) (c : Dev nD) (t : Fin (cfgM m hO).N) (g : Fin 9) (d : Fin 512) :
    iblk m hO c 6 t (ix2 g d) = b2v m c g d := by
  unfold iblk b2v
  show V m c main_arg8 ((((cfgM m hO).win 6).blk t).view.emb (ix2 g d)) = _
  refine congrArg (V m c main_arg8) (funext fun b => Fin.ext ?_)
  have e := tr_whole6 t
  match b with
  | ⟨0, _⟩ =>
    show ((cfgM m hO).win 6).index t (0 : Fin 2) * 9 + 1 * g.val = g.val
    have : ((cfgM m hO).win 6).index t (0 : Fin 2) = 0 := congrFun e 0
    omega
  | ⟨1, _⟩ =>
    show ((cfgM m hO).win 6).index t (1 : Fin 2) * 512 + 1 * d.val = d.val
    have : ((cfgM m hO).win 6).index t (1 : Fin 2) = 0 := congrFun e 1
    omega

theorem blk7 (hO : Ok m) (c : Dev nD) (t : Fin (cfgM m hO).N) (k : Fin 1536) (q : Fin 512) :
    iblk m hO c 7 t (ix2 k q) = Wfv m c k q := by
  unfold iblk Wfv
  show V m c main_v147 ((((cfgM m hO).win 7).blk t).view.emb (ix2 k q)) = _
  refine congrArg (V m c main_v147) (funext fun b => Fin.ext ?_)
  have e := tr_whole7 t
  match b with
  | ⟨0, _⟩ =>
    show ((cfgM m hO).win 7).index t (0 : Fin 2) * 1536 + 1 * k.val = k.val
    have : ((cfgM m hO).win 7).index t (0 : Fin 2) = 0 := congrFun e 0
    omega
  | ⟨1, _⟩ =>
    show ((cfgM m hO).win 7).index t (1 : Fin 2) * 512 + 1 * q.val = q.val
    have : ((cfgM m hO).win 7).index t (1 : Fin 2) = 0 := congrFun e 1
    omega

theorem blk8 (hO : Ok m) (c : Dev nD) (t : Fin (cfgM m hO).N) (q : Fin 512) :
    iblk m hO c 8 t (ix1 q) = bfv m c q := by
  unfold iblk bfv
  show V m c main_arg10 ((((cfgM m hO).win 8).blk t).view.emb (ix1 q)) = _
  refine congrArg (V m c main_arg10) (funext fun b => Fin.ext ?_)
  have e := tr_whole8 t
  match b with
  | ⟨0, _⟩ =>
    show ((cfgM m hO).win 8).index t (0 : Fin 1) * 512 + 1 * q.val = q.val
    have : ((cfgM m hO).win 8).index t (0 : Fin 1) = 0 := congrFun e 0
    omega

/-! ## What point `t` writes back -/

theorem tileOf_row (t p : ℕ) (hp : p < 1024) (h : t * 1024 + p < 74752) : tileOf ⟨t * 1024 + p, h⟩ = ⟨t, by omega⟩ :=
  Fin.ext (by show (t * 1024 + p) / 1024 = t; omega)

/-- Element `(p, q)` of block `t` of the result window sits at row `1024 t + p`, column `q`. -/
theorem emb9 (hO : Ok m) (t : Fin (cfgM m hO).N) (p : Fin 1024) (q : Fin 512)
    (I9 : S74752x512.Idx) (hI : I9 = (((cfgM m hO).win 9).blk t).view.emb (ix2 p q)) :
    rowOf I9 = ⟨t.val * 1024 + p.val, by have := t.isLt; have h : (cfgM m hO).N = 73 := rfl; omega⟩ ∧ colOf I9 = q := by
  subst hI
  have e9 := tr_rows9 t
  constructor
  · refine Fin.ext ?_
    show ((cfgM m hO).win 9).index t (0 : Fin 2) * 1024 + 1 * p.val = t.val * 1024 + p.val
    have : ((cfgM m hO).win 9).index t (0 : Fin 2) = t.val := congrFun e9 0
    omega
  · refine Fin.ext ?_
    show ((cfgM m hO).win 9).index t (1 : Fin 2) * 512 + 1 * q.val = q.val
    have : ((cfgM m hO).win 9).index t (1 : Fin 2) = 0 := congrFun e9 1
    omega

set_option maxHeartbeats 1000000 in
/-- WHAT POINT `t` WRITES BACK is block `t` of `Gpad`. -/
theorem flushed_eq (hO : Ok m) (hH : Hyps m hO) (c : Dev nD) (t : Fin (cfgM m hO).N) :
    (dats m hO hH 0 c).flushed 9 t = (((cfgM m hO).win 9).blk t).view.read (Elt Ideal) (Gpad m c) := by
  show ((cfgM m hO).win 9).cut ((cfgM m hO).grid.coords t) ((dats m hO hH 0 c).after 9 t) = _
  rw [after0_9]
  unfold outsAt0
  refine funext fun (j : S1024x512.Idx) => ?_
  obtain ⟨p, q, rfl⟩ : ∃ (p : Fin 1024) (q : Fin 512), j = ix2 p q := ⟨j 0, j 1, eq_ix2 j⟩
  have ht : t.val < 73 := t.isLt
  show out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t) (ix2 p q)
      = Gpad m c ((((cfgM m hO).win 9).blk t).view.emb (ix2 p q))
  refine (Cert.KernelIdeal.KBody.out0_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t) p q).trans ?_
  obtain ⟨hrow, hcol⟩ := emb9 m hO t p q _ rfl
  unfold Gpad
  rw [hrow, hcol, tileOf_row t.val p.val p.isLt]
  -- the operands, one by one
  have hW1 : (fun g a k => iblk m hO c 3 t (ix3 g a k)) = W1v m c := funext fun g => funext fun a => funext fun k => blk3 m hO c t g a k
  have hb1 : (fun g k => iblk m hO c 4 t (ix2 g k)) = b1v m c := funext fun g => funext fun k => blk4 m hO c t g k
  have hW2 : (fun g k d => iblk m hO c 5 t (ix3 g k d)) = W2v m c := funext fun g => funext fun k => funext fun d => blk5 m hO c t g k d
  have hb2 : (fun g d => iblk m hO c 6 t (ix2 g d)) = b2v m c := funext fun g => funext fun d => blk6 m hO c t g d
  have hWf : (fun k q => iblk m hO c 7 t (ix2 k q)) = Wfv m c := funext fun k => funext fun q => blk7 m hO c t k q
  have hbf : (fun q => iblk m hO c 8 t (ix1 q)) = bfv m c := funext fun q => blk8 m hO c t q
  have hx : (fun a => iblk m hO c 0 t (ix2 p a)) = xPv m c ⟨t.val * 1024 + p.val, by omega⟩ := funext fun a => blk0 m hO c t p a
  have hte : (fun k => iblk m hO c 1 t (ix2 p k)) = tePv m c ⟨t.val * 1024 + p.val, by omega⟩ := funext fun k => blk1 m hO c t p k
  have hse : (fun k => iblk m hO c 2 t (ix2 p k)) = sePv m c ⟨t.val * 1024 + p.val, by omega⟩ := funext fun k => blk2 m hO c t p k
  rw [hW1, hb1, hW2, hb2, hWf, hbf, hx, hte, hse]
  -- the group
  refine congrArg (fun g => Cert.Spec.rowOut (W1v m c) (b1v m c) (W2v m c) (b2v m c) (Wfv m c) (bfv m c) g _ _ _ q) (Fin.ext ?_)
  have hw := KBody.toNat_lt_of_chk (Hyps.c0 hH c t)
  rw [Cert.KernelIdeal.FrameHyps.tblword m hO t] at hw
  show (tbM0_0.view.readAt (Elt Ideal) (Rect.unit (s := S73) (k0_off1 (grid0.coords t)) S1.size (k0_off1_inb (grid0.coords t))).toLoadRect (tbl m 0) (Shape.Idx.first (numel1_S1.symm ▸ Nat.one_pos))).toNat
      = min ((V m c main_v75 : IVec S73 32) (ix1 ⟨t.val, by omega⟩)).toNat 8
  rw [Cert.KernelIdeal.FrameHyps.tblword m hO t]
  have hc : c = 0 := Subsingleton.elim _ _
  subst hc
  have hw' : ((V m 0 main_v75 : IVec S73 32) (ix1 ⟨t.val, by omega⟩)).toNat < 9 := hw
  show ((V m 0 main_v75 : IVec S73 32) (ix1 ⟨t.val, by omega⟩)).toNat = _
  omega

/-! ## The blocks tile the array -/

set_option backward.isDefEq.respectTransparency.types false in
theorem mem_blk9 (hO : Ok m) (t : Fin (cfgM m hO).N) (i : S74752x512.Idx) :
    i ∈ (((cfgM m hO).win 9).blk t).view.set ↔ ∀ a : Fin 2, ((cfgM m hO).win 9).index t a * S1024x512.size a ≤ (i a).val ∧ (i a).val < ((cfgM m hO).win 9).index t a * S1024x512.size a + S1024x512.size a := by
  show i ∈ ((View.whole main_v148).slice (((cfgM m hO).win 9).rect t)).set ↔ _
  rw [View.set_slice_whole]
  exact Rect.mem_set_unit

theorem cover9 (hO : Ok m) (i : S74752x512.Idx) :
    ∃ t : Fin (cfgM m hO).N, ((cfgM m hO).win 9).flush t = true ∧ i ∈ (((cfgM m hO).win 9).blk t).view.set := by
  have hi0 : (i 0).val < 74752 := (i 0).isLt
  have hi1 : (i 1).val < 512 := (i 1).isLt
  refine ⟨⟨(i 0).val / 1024, by show (i 0).val / 1024 < 73; omega⟩, flush0_9 _ _, ?_⟩
  rw [mem_blk9]
  have e9 := tr_rows9 ⟨(i 0).val / 1024, by show (i 0).val / 1024 < 73; omega⟩
  intro a
  match a with
  | ⟨0, _⟩ =>
    show ((cfgM m hO).win 9).index _ (0 : Fin 2) * 1024 ≤ (i 0).val ∧ (i 0).val < ((cfgM m hO).win 9).index _ (0 : Fin 2) * 1024 + 1024
    have : ((cfgM m hO).win 9).index ⟨(i 0).val / 1024, by show (i 0).val / 1024 < 73; omega⟩ (0 : Fin 2) = (i 0).val / 1024 := congrFun e9 0
    omega
  | ⟨1, _⟩ =>
    show ((cfgM m hO).win 9).index _ (1 : Fin 2) * 512 ≤ (i 1).val ∧ (i 1).val < ((cfgM m hO).win 9).index _ (1 : Fin 2) * 512 + 512
    have : ((cfgM m hO).win 9).index ⟨(i 0).val / 1024, by show (i 0).val / 1024 < 73; omega⟩ (1 : Fin 2) = 0 := congrFun e9 1
    omega

/-- THE ARRAY after the run. -/
theorem final9 (hO : Ok m) (hH : Hyps m hO) (c : Dev nD) : (dats m hO hH 0 c).arrAt 9 (cfgM m hO).N = Gpad m c :=
  (dats m hO hH 0 c).arrAt_eq_of_cover 9 (Gpad m c) (fun t _ => flushed_eq m hO hH c t) (cover9 m hO)

end Cert.KernelIdeal.KValue

end
-- ==== Proof.KRun.lean ====
/-
  THE KERNEL PROGRAM'S RUN WITH ITS RESULT NAMED, on the extended reals. After the region the program gathers, for
  every item, the row of the padded result array at the item's slot. The region leaves the padded array at the closed
  form of its 73 blocks, and every other buffer as it found it; the nine operations after it are the index idiom on
  the slots and one gather. So the result is the rows of the padded closed form at the slots, and the eleven argument
  arrays end as they began.
-/
import proofs.«132156_j59742995087902_2_alg».proof.Proof.KValue
import proofs.«132156_j59742995087902_2_alg».proof.Proof.Stages
import proofs.«132156_j59742995087902_2_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.SL.Sem Cert.KernelIdeal Cert.KernelIdeal.Gen
open Idealize.ShloMosaic.StableHlo
open Idealize.ShloMosaic.Pipeline (Dat)

/-! ## The operations after the region, from arbitrary contents -/

section Tail
variable {F : FTy → Type} [FloatOps F]

/-- Evaluates a fold over a literal list of operations at a literal buffer: the value of the operation that writes the
    buffer, at its operands' values, recursively, down to the contents the fold starts from. -/
local macro "fold_results" : tactic =>
  `(tactic| (simp (disch := decide) only [after_cons, after_nil,
      nullary_result', unary_result', binary_result', ternary_result',
      nullary_result_ne', unary_result_ne', binary_result_ne', ternary_result_ne']))

set_option maxHeartbeats 4000000 in
/-- For any contents `W` of the buffers, the nine operations after the region leave, in the result buffer, the rows
    of the padded array `W` holds at the slots `W` holds: the index idiom on the slots, then the gather. -/
theorem tail_v155 (W : Valuation τ sig (Elt F)) :
    ((after Gen.hostOps1 W) (Proc.devRef .tc main_v155) : FVec F S65536x512 .f32)
      = Stages.result (W (Proc.devRef .tc main_v148)) (W (Proc.devRef .tc main_v144)) := by
  simp only [Gen.hostOps1]
  fold_results
  try simp only [TRef.toBuf, TRef.ofBuf, cast_eq]
  simp only [Stages.result, Stages.norm65536]
  all_goals rfl

end Tail

/-! ## The run -/

variable (m : (ℓ : Loc nD τ sig) → Buf (Elt Ideal) ℓ) (ρ : Dev nD → PrngReg)

/-- What the result buffer holds after the operations that follow the region, given the closed form `G` of the padded
    array the region leaves: the rows of `G` at the slots the region found (no window stages the slots' buffer, so it
    is as the region found it; the padded array is the result window's). -/
theorem afterTail_v155 (hO : Ok m) (hH : Hyps m hO) (c : Dev nD) (G : FVec Ideal S74752x512 .f32)
    (hG : (dats m hO hH 0 c).arrAt 9 (cfgM m hO).N = G) :
    (Pipeline.afterTail pcfgs (fun _ => adm m hO) (dats m hO hH) 0 (V0 m) [hostOps1] c main_v155 : FVec Ideal S65536x512 .f32)
      = Stages.result G (V m c main_v144) := by
  unfold Pipeline.afterTail
  simp only [List.flatten_cons, List.flatten_nil, List.append_nil]
  refine (tail_v155 _).trans ?_
  rw [Pipeline.withArrays_of_ne _ c (V0 m c) _ main_v144 (by exact (by decide : ∀ w, Pipeline.arrRef spec0 w ≠ main_v144))]
  exact congrArg (fun X : FVec Ideal S74752x512 .f32 => Stages.result X (V m c main_v144))
    ((Pipeline.withArrays_arr spec0 (launch0 (F := Ideal)).win.arr_inj c _ _ 9).trans hG)

/-- THE RUN, over any closed form `G` of the padded array the region leaves: every weakly fair execution terminates
    with the result buffer at the rows of `G` at the slots, and the eleven argument arrays unchanged. -/
theorem run_of (hO : Ok m) (hH : Hyps m hO) (G : Dev nD → FVec Ideal S74752x512 .f32)
    (hG : ∀ c, (dats m hO hH 0 c).arrAt 9 (cfgM m hO).N = G c) :
    θ_run (defs (F := Ideal)) (onTc (τ := τ) (main (F := Ideal))) ⟨m, fun _ => 0, ρ⟩ (fun r => ∀ c : Dev nD,
        r.2.mem ((c.tc : Thread nD τ).loc main_v155) = Stages.result (G c) (V m c main_v144)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ h c => ⟨((h c).2 main_v155 (by decide : main_v155 ∈ Pipeline.restRefs sig spec0)).trans (afterTail_v155 m hO hH c (G c) (hG c)),
      (((h c).2 main_arg0 (by decide : main_arg0 ∈ Pipeline.restRefs sig spec0)).trans (W_main_arg0 m hO (dats m hO hH) c)),
      (((h c).2 main_arg1 (by decide : main_arg1 ∈ Pipeline.restRefs sig spec0)).trans (W_main_arg1 m hO (dats m hO hH) c)),
      (((h c).2 main_arg2 (by decide : main_arg2 ∈ Pipeline.restRefs sig spec0)).trans (W_main_arg2 m hO (dats m hO hH) c)),
      (((h c).2 main_arg3 (by decide : main_arg3 ∈ Pipeline.restRefs sig spec0)).trans (W_main_arg3 m hO (dats m hO hH) c)),
      (((h c).2 main_arg4 (by decide : main_arg4 ∈ Pipeline.restRefs sig spec0)).trans (W_main_arg4 m hO (dats m hO hH) c)),
      (((h c).2 main_arg5 (by decide : main_arg5 ∈ Pipeline.restRefs sig spec0)).trans (W_main_arg5 m hO (dats m hO hH) c)),
      ((h c).1 4).trans (((dats m hO hH 0 c).arrAt_in 4 rfl _).trans ((A_eq m hO hH c 4).trans (V_main_arg6 m c))),
      (((h c).2 main_arg7 (by decide : main_arg7 ∈ Pipeline.restRefs sig spec0)).trans (W_main_arg7 m hO (dats m hO hH) c)),
      ((h c).1 6).trans (((dats m hO hH 0 c).arrAt_in 6 rfl _).trans ((A_eq m hO hH c 6).trans (V_main_arg8 m c))),
      (((h c).2 main_arg9 (by decide : main_arg9 ∈ Pipeline.restRefs sig spec0)).trans (W_main_arg9 m hO (dats m hO hH) c)),
      ((h c).1 8).trans (((dats m hO hH 0 c).arrAt_in 8 rfl _).trans ((A_eq m hO hH c 8).trans (V_main_arg10 m c)))⟩)
    (run_main m ρ hO hH)

/-! ## The result named -/

/-- The kernel program's result: for every item, the row of the padded closed form at the item's slot. -/
def Kout (c : Dev nD) : FVec Ideal S65536x512 .f32 := Stages.result (KValue.Gpad m c) (V m c main_v144)

/-- THE RUN: every weakly fair execution terminates with the result buffer at `Kout` and the eleven argument arrays
    unchanged. -/
theorem run (hO : Ok m) (hH : Hyps m hO) :
    θ_run (defs (F := Ideal)) (onTc (τ := τ) (main (F := Ideal))) ⟨m, fun _ => 0, ρ⟩ (fun r => ∀ c : Dev nD,
        r.2.mem ((c.tc : Thread nD τ).loc main_v155) = Kout m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  run_of m ρ hO hH (KValue.Gpad m) (KValue.final9 m hO hH)

end Cert.KernelIdeal.KRun

end
-- ==== Proof.RoutingWords.lean ====
import proofs.«132156_j59742995087902_2_alg».proof.Proof.Stages
import proofs.«132156_j59742995087902_2_alg».proof.Proof.Derived
import proofs.«132156_j59742995087902_2_alg».proof.Proof.LibGatherAxis0
import Idealize.ShloMosaic.Lib.Affine

/-!
# The host prefix read at an index: the index idiom, the group key, the scaled rows

The index idiom in front of every table lookup replaces a word that is negative as a signed integer by the
word plus the table's length; the lookup then clamps the result into the table.  Together these select the
table position `Cert.Derived.pos N z`.  This file reads the idiom at one row, and from it the group key of
an item (the table of fourteen keys at the item's type word) and the item's scaled parameters (its
parameters divided by the row of scales its group key selects).
-/

noncomputable section

namespace Cert.KernelIdeal.Routing

open Idealize.ShloMosaic Idealize.ShloMosaic.ValueIdx Cert.KernelIdeal
open Cert.KernelIdeal.Facts₀

variable [Facts₀]

/-! ## Broadcasts read at an index -/

/-- A vector of `65536` entries laid out as a column: row `r` holds entry `r`. -/
theorem col65536_apply {α : Type} (x : S65536.Idx → α) (r : Fin 65536) (c : Fin 1) :
    broadcastInDim S65536x1 ![0] bcast_S65536_S65536x1_0 x (ix2 r c) = x (ix1 r) := by
  unfold broadcastInDim
  congr 1
  funext a
  match a with
  | ⟨0, _⟩ => rfl

/-- A vector of `74752` entries laid out as a column: row `r` holds entry `r`. -/
theorem col74752_apply {α : Type} (x : S74752.Idx → α) (r : Fin 74752) (c : Fin 1) :
    broadcastInDim S74752x1 ![0] bcast_S74752_S74752x1_0 x (ix2 r c) = x (ix1 r) := by
  unfold broadcastInDim
  congr 1
  funext a
  match a with
  | ⟨0, _⟩ => rfl

/-! ## The index idiom -/

/-- The idiom on one word: add `N` when negative. -/
def normWord (N z : BitVec 32) : BitVec 32 := if z.toInt < 0 then z + N else z

theorem select_slt_zero (N z : BitVec 32) :
    Scalar.select (IntOp.cmpi .slt z 0#32) (IntOp.addi z N) z = normWord N z := by
  unfold normWord Scalar.select
  have h0 : (0#32 : BitVec 32).toInt = 0 := by decide
  have hc : IntOp.cmpi .slt z 0#32 = 1#1 ↔ z.toInt < 0 := by rw [IntOp.cmpi_slt, h0]
  by_cases h : z.toInt < 0
  · rw [if_pos h]
    exact if_pos (hc.mpr h)
  · rw [if_neg h]
    exact if_neg (fun e => h (hc.mp e))

/-- The index idiom over `65536` entries, read at row `r`. -/
theorem norm65536_apply (N : BitVec 32) (z : IVec S65536 32) (r : Fin 65536) (c : Fin 1) :
    Stages.norm65536 N z (ix2 r c) = normWord N (z (ix1 r)) := by
  unfold Stages.norm65536
  rw [col65536_apply]
  exact select_slt_zero N (z (ix1 r))

/-- The index idiom over `74752` entries, read at row `r`. -/
theorem norm74752_apply (N : BitVec 32) (z : IVec S74752 32) (r : Fin 74752) (c : Fin 1) :
    Stages.norm74752 N z (ix2 r c) = normWord N (z (ix1 r)) := by
  unfold Stages.norm74752
  rw [col74752_apply]
  exact select_slt_zero N (z (ix1 r))

/-- The idiom followed by the clamp of a lookup in a table of `N` rows selects position `pos N z`. -/
theorem clamp_normWord (N : ℕ) (z : BitVec 32) :
    min (normWord (BitVec.ofNat 32 N) z).toInt.toNat (N - 1) = Cert.Derived.pos N z := rfl

/-- An in-range non-negative word is not changed by the idiom. -/
theorem normWord_of_nonneg (N z : BitVec 32) (h0 : 0 ≤ z.toInt) : normWord N z = z := by
  unfold normWord
  rw [if_neg (not_lt.mpr h0)]

/-! ## The group key -/

theorem lit0_eq (i : Fin 14) : lit0 i = Cert.Derived.typeToBase i := by
  revert i
  decide

/-- The group key of item `e` is its base word. -/
theorem base_apply (a0 : IVec S65536 32) (e : Fin 65536) :
    Stages.base a0 (ix1 e) = Cert.Derived.baseWord (fun e => a0 (ix1 e)) e := by
  unfold Stages.base
  have hd : gather_S14_S65536x1_S65536_n_0_n_n_0_1_1
      = Cert.Lib.GatherAxis0.elemDims 14 65536 gather_S14_S65536x1_S65536_n_0_n_n_0_1_1_wf := rfl
  rw [hd, Cert.Lib.GatherAxis0.gather_elem_apply (by decide)]
  unfold Cert.Derived.baseWord
  rw [← lit0_eq]
  congr 1
  refine Fin.ext ?_
  rw [Shape.rowMajor_val_one]
  show min _ (14 - 1) = _
  rw [norm65536_apply]
  exact clamp_normWord 14 (a0 (ix1 e))

/-! ## The scaled rows -/

/-- The row-major position of entry `(g, p)` of a `9 × 4` table. -/
def flat (g : Fin 9) (p : Fin 4) : Fin 36 := ⟨g.val * 4 + p.val, by have := g.isLt; have := p.isLt; omega⟩

theorem lit1_eq (g : Fin 9) (p : Fin 4) : lit1 (flat g p) = Cert.Derived.scaleWord g p := by
  fin_cases g <;> fin_cases p <;> rfl

/-- The scaled parameters of item `e`: its parameters divided by its group's scales. -/
theorem xs_apply (a0 : IVec S65536 32) (a2 : FVec Ideal S65536x4 .f32) (e : Fin 65536) (p : Fin 4) :
    Stages.xs (F := Ideal) a2 (Stages.base a0) (ix2 e p)
      = Cert.Derived.x (fun e p => a2 (ix2 e p)) (fun e => a0 (ix1 e)) e p := by
  unfold Stages.xs Host.divf
  have hd : gather_S9x4_S65536x1_S65536x4_1_0_n_n_0_1_14
      = Cert.Lib.GatherAxis0.rowDims 9 4 65536 gather_S9x4_S65536x1_S65536x4_1_0_n_n_0_1_14_wf := rfl
  rw [hd, Cert.Lib.GatherAxis0.gather_row_apply (by decide)]
  unfold Cert.Derived.x
  rw [Ideal.hostDivf_def, Ideal.ofBits_def]
  congr 2
  have hpos : min (normWord 9#32 (Cert.Derived.baseWord (fun e => a0 (ix1 e)) e)).toInt.toNat (9 - 1)
      = (Cert.Derived.grp (fun e => a0 (ix1 e)) e).val :=
    (clamp_normWord 9 _).trans (Cert.Derived.pos_baseWord _ e)
  rw [← lit1_eq (Cert.Derived.grp (fun e => a0 (ix1 e)) e) p]
  refine congrArg lit1 (Fin.ext ?_)
  rw [Shape.rowMajor_val_two]
  show min _ (9 - 1) * 4 + p.val = _
  rw [norm65536_apply, base_apply, hpos]
  rfl

end Cert.KernelIdeal.Routing

end
-- ==== Proof.RoutingArith.lean ====
import Idealize.ShloMosaic.Lib.Affine
import Idealize.ShloMosaic.Lib.ValueIdx
import Mathlib.Data.BitVec
import Mathlib.Algebra.BigOperators.Fin

/-!
# Words that hold small natural numbers

Every integer the host prefix computes is a natural number far below `2 ^ 31`, carried in a 32-bit word.  This
file collects what is needed to read such words: the word of a natural number read back signed and unsigned,
sums, products and differences of such words, the floor-division idiom on a non-negative dividend and the
divisor `1024`, and the clip of a small word into `[0, 8]`.
-/

namespace Cert.KernelIdeal.Routing

open Idealize.ShloMosaic

/-! ## Reading a word back -/

theorem toNat_ofNat_lt (n : ℕ) (h : n < 2 ^ 32) : (BitVec.ofNat 32 n).toNat = n := by
  rw [BitVec.toNat_ofNat]
  exact Nat.mod_eq_of_lt h

theorem toInt_ofNat_lt (n : ℕ) (h : n < 2 ^ 31) : (BitVec.ofNat 32 n).toInt = (n : Int) := by
  have h1 := toNat_ofNat_lt n (by omega)
  rw [BitVec.toInt_eq_toNat_of_lt (by rw [h1]; omega), h1]

theorem eq_ofNat_toNat (x : BitVec 32) : x = BitVec.ofNat 32 x.toNat := by
  apply BitVec.eq_of_toNat_eq
  rw [toNat_ofNat_lt _ x.isLt]

theorem toInt_of_small (x : BitVec 32) (h : x.toNat < 2 ^ 31) : x.toInt = (x.toNat : Int) :=
  BitVec.toInt_eq_toNat_of_lt (by omega)

/-! ## Arithmetic on words of natural numbers -/

theorem ofNat_sub_of_le (a b : ℕ) (hb : b ≤ a) (hb' : b < 2 ^ 32) :
    BitVec.ofNat 32 a - BitVec.ofNat 32 b = BitVec.ofNat 32 (a - b) :=
  BitVec.ofNat_sub_ofNat_of_le a b hb' hb

/-- A sum of words of natural numbers over the positions below `g` is the word of the sum. -/
theorem sum_ite_ofNat {G : ℕ} (f : Fin G → ℕ) (q : Fin G → Prop) [DecidablePred q] :
    (∑ i : Fin G, if q i then BitVec.ofNat 32 (f i) else 0)
      = BitVec.ofNat 32 (∑ i ∈ Finset.univ.filter q, f i) := by
  rw [Finset.sum_filter, ← BitVec.natCast_eq_ofNat, Nat.cast_sum]
  refine Finset.sum_congr rfl fun i _ => ?_
  by_cases h : q i
  · rw [if_pos h, if_pos h, BitVec.natCast_eq_ofNat]
  · rw [if_neg h, if_neg h, Nat.cast_zero]

/-! ## The floor-division idiom -/

/-- The sign word: `0`, `-1` or `1`. -/
def sgn (x : BitVec 32) : BitVec 32 := if x = 0 then 0 else if x.msb then -1 else 1

/-- Floor division as the host computes it: the truncated quotient, lowered by one where the signs differ and
the remainder is not zero. -/
def fdiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

theorem msb_ofNat_lt (n : ℕ) (hn : n < 2 ^ 31) : (BitVec.ofNat 32 n).msb = false := by
  rw [BitVec.msb_eq_false_iff_two_mul_lt, toNat_ofNat_lt n (by omega)]
  omega

/-- The truncated quotient of a non-negative word by `1024` is the quotient of the numbers. -/
theorem divsi_ofNat (u : ArithUnit) (n : ℕ) (hn : n < 2 ^ 31) :
    IntOp.divsi u (BitVec.ofNat 32 n) 1024#32 = BitVec.ofNat 32 (n / 1024) := by
  unfold IntOp.divsi
  rw [if_neg (IntOp.not_corner_of_pos (by decide))]
  have hkm : (1024#32 : BitVec 32).msb = false := by decide
  rw [BitVec.sdiv_eq, msb_ofNat_lt n hn, hkm]
  show BitVec.ofNat 32 n / 1024#32 = _
  apply BitVec.eq_of_toNat_eq
  have hq : n / 1024 ≤ n := Nat.div_le_self n 1024
  rw [BitVec.toNat_udiv, toNat_ofNat_lt n (by omega), toNat_ofNat_lt (n / 1024) (by omega)]
  rfl

/-- On a non-negative dividend and the divisor `1024` the idiom makes no correction: a positive dividend has
the divisor's sign, and the dividend zero has remainder zero. -/
theorem fdiv_ofNat (n : ℕ) (hn : n < 2 ^ 31) :
    fdiv (BitVec.ofNat 32 n) 1024#32 = BitVec.ofNat 32 (n / 1024) := by
  unfold fdiv Scalar.select
  rw [if_neg, divsi_ofNat .host n hn]
  intro h
  obtain ⟨h1, h2⟩ := IntOp.andi_eq_one.mp h
  have h1' := IntOp.cmpi_ne.mp h1
  have h2' := IntOp.cmpi_ne.mp h2
  by_cases h0 : n = 0
  · subst h0
    exact h2' (by decide)
  · apply h1'
    have hd : sgn 1024#32 = 1 := by decide
    have hne : BitVec.ofNat 32 n ≠ 0 := by
      intro e
      have := congrArg BitVec.toNat e
      rw [toNat_ofNat_lt n (by omega)] at this
      exact h0 this
    rw [hd]
    unfold sgn
    rw [if_neg hne, msb_ofNat_lt n hn]
    rfl

/-! ## Clips that change nothing -/

theorem maxsi_zero_left (x : BitVec 32) (h : x.toNat < 2 ^ 31) : IntOp.maxsi 0#32 x = x := by
  unfold IntOp.maxsi
  rw [if_neg]
  rw [BitVec.slt_iff_toInt_lt, toInt_of_small x h]
  have : (0#32 : BitVec 32).toInt = 0 := by decide
  omega

/-- The clip into `[0, 8]` of the word of a number at most `8`. -/
theorem clip_ofNat (n : ℕ) (hn : n ≤ 8) :
    IntOp.minsi 8#32 (IntOp.maxsi 0#32 (BitVec.ofNat 32 n)) = BitVec.ofNat 32 n := by
  rw [maxsi_zero_left _ (by rw [toNat_ofNat_lt n (by omega)]; omega)]
  unfold IntOp.minsi
  have h8 : (8#32 : BitVec 32).toInt = 8 := by decide
  by_cases h : n = 8
  · subst h
    decide
  · rw [if_neg]
    rw [BitVec.slt_iff_toInt_lt, h8, toInt_ofNat_lt n (by omega)]
    omega

end Cert.KernelIdeal.Routing
-- ==== Proof.LibArgsortSigned.lean ====
/-
  A stable sort of a rank-1 table of signed words along its one axis, carrying a second table (an argsort
  carries the identity table): both tables are read through ONE self-map `src` of the positions, `src k` being
  the position whose word the sort puts at `k`. That map is a bijection, and the words read along it are
  non-decreasing as signed integers. With the identity table carried, the carried result at `k` is the word `src k`.
-/
import Idealize.ShloMosaic.Lib.SortFacts
import Idealize.ShloMosaic.Lib.Affine

namespace Cert.Lib.Argsort

open Idealize.ShloMosaic

variable {n w : ℕ}

/-- "the word at position `a` is strictly below the word at position `b`", signed. -/
def below (x : IVec ⟨1, ![n]⟩ w) (a b : Fin n) : Bool :=
  IntOp.cmpi .slt (x (Shape.Idx.ofFin a)) (x (Shape.Idx.ofFin b)) == 1#1

/-- The position whose word a stable sort of `x` by signed `<` puts at `k`. -/
def src (x : IVec ⟨1, ![n]⟩ w) (k : Fin n) : Fin n := sortedFrom (below x) k

theorem below_iff (x : IVec ⟨1, ![n]⟩ w) (a b : Fin n) :
    below x a b = true ↔ (x (Shape.Idx.ofFin a)).toInt < (x (Shape.Idx.ofFin b)).toInt := by
  unfold below
  rw [beq_iff_eq, IntOp.cmpi_slt]

theorem below_eq_false_iff (x : IVec ⟨1, ![n]⟩ w) (a b : Fin n) :
    below x a b = false ↔ (x (Shape.Idx.ofFin b)).toInt ≤ (x (Shape.Idx.ofFin a)).toInt := by
  rw [← Bool.not_eq_true, below_iff, not_lt]

theorem src_injective (x : IVec ⟨1, ![n]⟩ w) : Function.Injective (src x) := sortedFrom_injective _

theorem src_surjective (x : IVec ⟨1, ![n]⟩ w) : Function.Surjective (src x) := sortedFrom_surjective _

theorem src_bijective (x : IVec ⟨1, ![n]⟩ w) : Function.Bijective (src x) := ⟨src_injective x, src_surjective x⟩

/-- The words read in sorted order do not decrease. -/
theorem src_sorted (x : IVec ⟨1, ![n]⟩ w) {i j : Fin n} (hij : i < j) :
    (x (Shape.Idx.ofFin (src x i))).toInt ≤ (x (Shape.Idx.ofFin (src x j))).toInt := by
  have h := sortedFrom_noInversion (below x) (below x)
    (fun a b hab => by
      rw [below_iff] at hab
      rw [below_eq_false_iff]
      exact le_of_lt hab)
    (fun _ _ h => h)
    (fun a b c hab hbc => by
      rw [below_eq_false_iff] at hab hbc ⊢
      exact le_trans hbc hab)
    i j hij
  exact (below_eq_false_iff x _ _).mp h

theorem src_sorted_le (x : IVec ⟨1, ![n]⟩ w) {i j : Fin n} (hij : i ≤ j) :
    (x (Shape.Idx.ofFin (src x i))).toInt ≤ (x (Shape.Idx.ofFin (src x j))).toInt := by
  rcases lt_or_eq_of_le hij with h | h
  · exact src_sorted x h
  · rw [h]

/-- A rank-1 sort of two tables by a comparator that looks at the first table's words only, signed `<`:
    both results are the operands read through `src` of the first. -/
theorem sort2_fst {β : Type} (x : IVec ⟨1, ![n]⟩ w) (y : (⟨1, ![n]⟩ : Shape).Idx → β) (j : (⟨1, ![n]⟩ : Shape).Idx) :
    (Host.sort2 ⟨1, ![n]⟩ 0 (fun l r : BitVec w × β => IntOp.cmpi .slt l.1 r.1) x y).1 j
      = x (Shape.Idx.ofFin (src x (j 0))) := by
  unfold Host.sort2
  simp [src]
  rfl

theorem sort2_snd {β : Type} (x : IVec ⟨1, ![n]⟩ w) (y : (⟨1, ![n]⟩ : Shape).Idx → β) (j : (⟨1, ![n]⟩ : Shape).Idx) :
    (Host.sort2 ⟨1, ![n]⟩ 0 (fun l r : BitVec w × β => IntOp.cmpi .slt l.1 r.1) x y).2 j
      = y (Shape.Idx.ofFin (src x (j 0))) := by
  unfold Host.sort2
  simp [src]
  rfl

/-- The argsort: the identity table carried through the sort holds, at `k`, the word `src k`. -/
theorem argsort_apply {v : ℕ} (x : IVec ⟨1, ![n]⟩ w) (j : (⟨1, ![n]⟩ : Shape).Idx) :
    (Host.sort2 ⟨1, ![n]⟩ 0 (fun l r : BitVec w × BitVec v => IntOp.cmpi .slt l.1 r.1) x (iotaInDim ⟨1, ![n]⟩ v 0)).2 j
      = BitVec.ofNat v (src x (j 0)).val := by
  rw [sort2_snd]
  simp [iotaInDim]

end Cert.Lib.Argsort
-- ==== Proof.LibScatterFold.lean ====
/-
  WHAT A SCATTER LEAVES AT AN INDEX.

  A scatter applies its updates one after another: update \`n\` combines its value, by a binary function \`f\`, into the
  element of the array at the index the update is aimed at, and is dropped when it is aimed outside the array. The
  result is therefore a left fold of one-element rewrites over the updates in order. This file reads that fold at one
  index \`i\`:

  * an index no update is aimed at keeps its old element (\`run_of_not_hit\`);
  * when \`f\` returns the update (a "set") and exactly one update is aimed at \`i\`, the result is that update's value
    (\`run_set_of_unique\`);
  * when \`f\` is the sum of a commutative ring of words, the result is the old element plus the sum of the values of all
    updates aimed at \`i\` (\`run_add\`), so all-ones updates into zeros count the updates aimed at \`i\`: a histogram
    (\`run_count\`).

  Part 2 identifies the array scatter \`Host.scatter\` with that fold and restates the three readings over update
  INDICES instead of their row-major positions. Part 3 computes where an update is aimed for two families of dimension
  numbers — a vector of scalars scattered by one index each, and a matrix scattered row by row — and gives the readings
  of a set at pairwise distinct rows and of a histogram in those terms.
-/
import Mathlib.Data.BitVec
import Mathlib.Algebra.BigOperators.Fin
import Idealize.ShloMosaic.PureOps.ShapeOps
import Idealize.ShloMosaic.Lib.ValueIdx

open Idealize.ShloMosaic
open scoped BigOperators

namespace Cert.Lib.ScatterFold

/-! ## Part 1 — the abstract fold -/

section Fold

variable {ι α : Type} [DecidableEq ι] {N : ℕ}

/-- The updates \`n = 0 … N-1\` applied in order: update \`n\` combines \`u n\` into the element at \`tgt n\`, when there is
    one. -/
def run (f : α → α → α) (tgt : Fin N → Option ι) (u : Fin N → α) (x : ι → α) : ι → α :=
  (List.finRange N).foldl (fun r n => match tgt n with
    | some i => fun i' => if i' = i then f (r i) (u n) else r i'
    | none => r) x

/-- One update: the array \`r\` after update \`n\`. -/
def step (f : α → α → α) (tgt : Fin N → Option ι) (u : Fin N → α) (r : ι → α) (n : Fin N) : ι → α :=
  match tgt n with
  | some i => fun i' => if i' = i then f (r i) (u n) else r i'
  | none => r

/-- The fold is the fold of \`step\`. -/
theorem run_eq_foldl (f : α → α → α) (tgt : Fin N → Option ι) (u : Fin N → α) (x : ι → α) :
    run f tgt u x = (List.finRange N).foldl (step f tgt u) x := rfl

/-- An update aimed elsewhere (or nowhere) leaves the element at \`i\`. -/
theorem step_of_ne (f : α → α → α) (tgt : Fin N → Option ι) (u : Fin N → α) (r : ι → α) (n : Fin N) (i : ι)
    (h : tgt n ≠ some i) : step f tgt u r n i = r i := by
  unfold step
  cases ht : tgt n with
  | none => rfl
  | some i0 =>
    have hne : i ≠ i0 := fun e => h (by rw [ht, e])
    simp only [if_neg hne]

/-- An update aimed at \`i\` combines its value into the element at \`i\`. -/
theorem step_of_eq (f : α → α → α) (tgt : Fin N → Option ι) (u : Fin N → α) (r : ι → α) (n : Fin N) (i : ι)
    (h : tgt n = some i) : step f tgt u r n i = f (r i) (u n) := by
  unfold step
  rw [h]
  simp only [if_true]

/-- Updates none of which is aimed at \`i\` leave the element at \`i\`. -/
theorem foldl_of_not_hit (f : α → α → α) (tgt : Fin N → Option ι) (u : Fin N → α) (i : ι) (L : List (Fin N))
    (h : ∀ n ∈ L, tgt n ≠ some i) (r : ι → α) : L.foldl (step f tgt u) r i = r i := by
  induction L generalizing r with
  | nil => rfl
  | cons m L ih =>
    rw [List.foldl_cons, ih (fun n hn => h n (List.mem_cons_of_mem _ hn)),
      step_of_ne f tgt u r m i (h m List.mem_cons_self)]

/-- An index no update is aimed at keeps its element. -/
theorem run_of_not_hit (f : α → α → α) (tgt : Fin N → Option ι) (u : Fin N → α) (x : ι → α) (i : ι)
    (h : ∀ n, tgt n ≠ some i) : run f tgt u x i = x i := by
  rw [run_eq_foldl]
  exact foldl_of_not_hit f tgt u i _ (fun n _ => h n) x

/-- A set whose only update aimed at \`i\` is \`n\`: after the updates of a list, the element at \`i\` is \`u n\` if \`n\` is in
    the list and the old one if not. -/
theorem foldl_set_of_unique (tgt : Fin N → Option ι) (u : Fin N → α) (n : Fin N) (i : ι)
    (h : tgt n = some i) (huniq : ∀ n', tgt n' = some i → n' = n) (L : List (Fin N)) (r : ι → α) :
    L.foldl (step (fun _ b => b) tgt u) r i = if n ∈ L then u n else r i := by
  induction L generalizing r with
  | nil => simp
  | cons m L ih =>
    rw [List.foldl_cons, ih]
    by_cases hL : n ∈ L
    · rw [if_pos hL, if_pos (List.mem_cons_of_mem _ hL)]
    · rw [if_neg hL]
      by_cases hm : m = n
      · subst hm
        rw [if_pos List.mem_cons_self, step_of_eq _ tgt u r m i h]
      · have hnm : n ∉ m :: L := by
          intro hmem
          rcases List.mem_cons.1 hmem with e | e
          · exact hm e.symm
          · exact hL e
        rw [if_neg hnm, step_of_ne _ tgt u r m i (fun e => hm (huniq m e))]

/-- A set at an index exactly one update is aimed at leaves that update's value. -/
theorem run_set_of_unique (tgt : Fin N → Option ι) (u : Fin N → α) (x : ι → α) (n : Fin N) (i : ι)
    (h : tgt n = some i) (huniq : ∀ n', tgt n' = some i → n' = n) : run (fun _ b => b) tgt u x i = u n := by
  rw [run_eq_foldl, foldl_set_of_unique tgt u n i h huniq, if_pos (List.mem_finRange n)]

/-- Sums of words: after the updates of a list, the element at \`i\` is the old one plus the values of the list's
    updates aimed at \`i\`. -/
theorem foldl_add {w : ℕ} (tgt : Fin N → Option ι) (u : Fin N → BitVec w) (i : ι) (L : List (Fin N))
    (r : ι → BitVec w) :
    L.foldl (step (fun a b => a + b) tgt u) r i = r i + (L.map fun n => if tgt n = some i then u n else 0).sum := by
  induction L generalizing r with
  | nil => simp
  | cons m L ih =>
    rw [List.foldl_cons, ih, List.map_cons, List.sum_cons, ← add_assoc]
    congr 1
    by_cases hm : tgt m = some i
    · rw [if_pos hm, step_of_eq _ tgt u r m i hm]
    · rw [if_neg hm, step_of_ne _ tgt u r m i hm, add_zero]

/-- A sum-scatter leaves the old element plus the sum of the values of the updates aimed at the index. -/
theorem run_add {w : ℕ} (tgt : Fin N → Option ι) (u : Fin N → BitVec w) (x : ι → BitVec w) (i : ι) :
    run (fun a b => a + b) tgt u x i = x i + ∑ n ∈ Finset.univ.filter (fun n => tgt n = some i), u n := by
  rw [run_eq_foldl, foldl_add, Finset.sum_filter, Fin.sum_univ_def]

/-- All-ones updates summed into zeros count the updates aimed at the index: a histogram. -/
theorem run_count {w : ℕ} (tgt : Fin N → Option ι) (i : ι) :
    run (fun a b => a + b) tgt (fun _ => (1 : BitVec w)) (fun _ => 0) i
      = BitVec.ofNat w (Finset.univ.filter (fun n => tgt n = some i)).card := by
  rw [run_add, zero_add, Finset.sum_const, nsmul_one, BitVec.natCast_eq_ofNat]

/-- The host's integer addition is the sum of words. -/
theorem addi_eq_add {w : ℕ} : (IntOp.addi : BitVec w → BitVec w → BitVec w) = fun a b => a + b := rfl

end Fold

/-! ## Part 2 — the array scatter is that fold -/

section Scatter

variable {s si u : Shape} {w : ℕ} {α : Type}

/-- The array scatter is the fold of its updates in row-major order, update \`n\` aimed at the result index of the
    \`n\`-th update index. -/
theorem scatter_eq_run (d : ScatterDims s si u) (f : α → α → α) (x : s.Idx → α) (idx : IVec si w) (upd : u.Idx → α) :
    Host.scatter d f x idx upd
      = run f (fun n => d.resultIdx? (u.rowMajor.symm n) idx) (fun n => upd (u.rowMajor.symm n)) x := by
  unfold Host.scatter run
  congr 1
  funext r n
  beta_reduce
  cases d.resultIdx? (u.rowMajor.symm n) idx <;> rfl

/-- An index no update is aimed at keeps its element. -/
theorem scatter_of_not_hit (d : ScatterDims s si u) (f : α → α → α) (x : s.Idx → α) (idx : IVec si w)
    (upd : u.Idx → α) (i : s.Idx) (h : ∀ j, d.resultIdx? j idx ≠ some i) : Host.scatter d f x idx upd i = x i := by
  rw [scatter_eq_run]
  exact run_of_not_hit f _ _ x i (fun n => h _)

/-- A set at an index exactly one update \`j\` is aimed at leaves that update's value. -/
theorem scatter_set_of_unique (d : ScatterDims s si u) (x : s.Idx → α) (idx : IVec si w) (upd : u.Idx → α)
    (j : u.Idx) (i : s.Idx) (h : d.resultIdx? j idx = some i)
    (huniq : ∀ j', d.resultIdx? j' idx = some i → j' = j) :
    Host.scatter d (fun _ b => b) x idx upd i = upd j := by
  rw [scatter_eq_run]
  have key := run_set_of_unique (fun n => d.resultIdx? (u.rowMajor.symm n) idx) (fun n => upd (u.rowMajor.symm n)) x
    (u.rowMajor j) i (by simpa using h) (fun n' hn' => (Equiv.symm_apply_eq _).1 (huniq _ hn'))
  simpa using key

/-- A sum-scatter of words leaves the old element plus the sum of the updates aimed at the index. -/
theorem scatter_add {v : ℕ} (d : ScatterDims s si u) (x : s.Idx → BitVec v) (idx : IVec si w)
    (upd : u.Idx → BitVec v) (i : s.Idx) :
    Host.scatter d (fun a b => a + b) x idx upd i
      = x i + ∑ j ∈ Finset.univ.filter (fun j => d.resultIdx? j idx = some i), upd j := by
  rw [scatter_eq_run, run_add]
  congr 1
  exact Finset.sum_equiv u.rowMajor.symm (by simp) (by simp)

/-- All-ones updates summed into zeros count the updates aimed at the index. -/
theorem scatter_count {v : ℕ} (d : ScatterDims s si u) (idx : IVec si w) (i : s.Idx) :
    Host.scatter d (fun a b => a + b) (fun _ => (0 : BitVec v)) idx (fun _ => 1) i
      = BitVec.ofNat v (Finset.univ.filter (fun j => d.resultIdx? j idx = some i)).card := by
  rw [scatter_add, zero_add, Finset.sum_const, nsmul_one, BitVec.natCast_eq_ofNat]

/-- Where an update lands: it is aimed at \`i\` exactly when on every axis its start plus its window coordinate is \`i\`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e' := Option.some.inj e
      have ha := congrArg (fun k : s.Idx => (k a).val) e'
      simp only at ha
      have := (h a).1
      omega
    · intro e
      congr 1
      funext a
      refine Fin.ext ?_
      have := e a
      simp only
      omega
  · rw [dif_neg h]
    constructor
    · intro e; exact absurd e (by simp)
    · intro e
      exfalso
      apply h
      intro a
      have := e a
      have := (i a).isLt
      omega

end Scatter

/-! ## Part 3 — where an update lands, for two families of dimension numbers

Both scatter by ONE index per row of the updates: the scatter indices are an \`M × 1\` array whose entry \`(r, 0)\`, read
as a signed integer, is the start of row \`r\` on the array's first axis, which is an inserted window axis. In the first
family the array is a vector and a row of the updates is one scalar; in the second the array is an \`N × C\` matrix and
a row of the updates is a whole row of it. -/

section Patterns

open Idealize.ShloMosaic.ValueIdx

variable {N C M w : ℕ} {α : Type}

/-- The start of row \`r\`: entry \`(r, 0)\` of the scatter indices, read as a signed integer. -/
abbrev rowStart (idx : IVec ⟨2, ![M, 1]⟩ w) (r : Fin M) : Int := (idx (ix2 r 0)).toInt

/-- The array's kept axes are the ones that are not inserted window axes. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ### Scalars into a vector -/

/-- The dimension numbers of a scatter of \`M\` scalars into a vector of length \`N\`, one index each. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window of update \`r\` starts at row \`r\`'s start index. -/
theorem vec_start (wf : ScatterDims.WF ⟨1, ![N]⟩ ⟨2, ![M, 1]⟩ ⟨1, ![M]⟩ [] [0] [0] 1) (idx : IVec ⟨2, ![M, 1]⟩ w)
    (r : Fin M) (a : Fin 1) : (vecDims N M wf).start (ix1 r) idx a = rowStart idx r := by
  obtain rfl : a = 0 := Subsingleton.elim _ _
  unfold ScatterDims.start
  rw [dif_pos (show (0 : Fin 1) ∈ (vecDims N M wf).scatterDimsToOperandDims from List.mem_singleton.mpr rfl)]
  have hsi : (vecDims N M wf).siIdx (ix1 r) ⟨List.idxOf (0 : Fin 1) (vecDims N M wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- The window is one element: its coordinate is zero. -/
theorem vec_window (wf : ScatterDims.WF ⟨1, ![N]⟩ ⟨2, ![M, 1]⟩ ⟨1, ![M]⟩ [] [0] [0] 1) (j : (⟨1, ![M]⟩ : Shape).Idx)
    (a : Fin 1) : (vecDims N M wf).window j a = 0 := by
  obtain rfl : a = 0 := Subsingleton.elim _ _
  unfold ScatterDims.window
  exact dif_neg (fun h => (mem_sKept _ _).1 h (List.mem_singleton.mpr rfl))

/-- Update \`r\` is aimed at \`g\` exactly when row \`r\`'s start index is \`g\`. -/
theorem vec_resultIdx?_eq_some_iff (wf : ScatterDims.WF ⟨1, ![N]⟩ ⟨2, ![M, 1]⟩ ⟨1, ![M]⟩ [] [0] [0] 1)
    (idx : IVec ⟨2, ![M, 1]⟩ w) (r : Fin M) (g : Fin N) :
    (vecDims N M wf).resultIdx? (ix1 r) idx = some (ix1 g) ↔ rowStart idx r = (g.val : Int) := by
  rw [resultIdx?_eq_some_iff]
  constructor
  · intro h
    have h0 := h 0
    rw [vec_start, vec_window, Nat.cast_zero, add_zero] at h0
    exact h0
  · intro h a
    rw [vec_start, vec_window, Nat.cast_zero, add_zero]
    obtain rfl : a = 0 := Subsingleton.elim _ _
    exact h

/-- Update \`j\` is aimed at \`i\` exactly when the start index of \`j\`'s row is \`i\`'s coordinate. -/
theorem vec_resultIdx?_eq_some_iff' (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (vecDims N M wf).resultIdx? j idx = some i ↔ rowStart idx (j 0) = ((i 0).val : Int) := by
  obtain ⟨r, rfl⟩ : ∃ r : Fin M, j = ix1 r := ⟨_, eq_ix1 j⟩
  obtain ⟨g, rfl⟩ : ∃ g : Fin N, i = ix1 g := ⟨_, eq_ix1 i⟩
  exact vec_resultIdx?_eq_some_iff wf idx r g

/-- Where update \`j\` lands: at its row's start index when that is inside the vector, nowhere when it is not. -/
theorem vec_resultIdx? (wf : ScatterDims.WF ⟨1, ![N]⟩ ⟨2, ![M, 1]⟩ ⟨1, ![M]⟩ [] [0] [0] 1)
    (idx : IVec ⟨2, ![M, 1]⟩ w) (j : (⟨1, ![M]⟩ : Shape).Idx) :
    (vecDims N M wf).resultIdx? j idx
      = if h : 0 ≤ rowStart idx (j 0) ∧ rowStart idx (j 0) < (N : Int) then
          some (ix1 ⟨(rowStart idx (j 0)).toNat, by omega⟩)
        else none := by
  by_cases h : 0 ≤ rowStart idx (j 0) ∧ rowStart idx (j 0) < (N : Int)
  · rw [dif_pos h]
    refine (vec_resultIdx?_eq_some_iff' wf idx j _).2 ?_
    show rowStart idx (j 0) = (((rowStart idx (j 0)).toNat : ℕ) : Int)
    omega
  · rw [dif_neg h]
    refine Option.eq_none_iff_forall_ne_some.2 ?_
    intro i hi
    have hz := (vec_resultIdx?_eq_some_iff' wf idx j i).1 hi
    have hlt : (i 0).val < N := (i 0).isLt
    exact h ⟨by omega, by omega⟩

/-! ### Rows into a matrix -/

/-- The dimension numbers of a scatter of \`M\` rows of length \`C\` into an \`N × C\` matrix, one row index each. -/
abbrev rowDims (N C M : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the row axis the window of update \`(r, q)\` starts at row \`r\`'s start index … -/
theorem row_start0 (wf : ScatterDims.WF ⟨2, ![N, C]⟩ ⟨2, ![M, 1]⟩ ⟨2, ![M, C]⟩ [1] [0] [0] 1)
    (idx : IVec ⟨2, ![M, 1]⟩ w) (r : Fin M) (q : Fin C) :
    (rowDims N C M wf).start (ix2 r q) idx 0 = rowStart idx r := by
  unfold ScatterDims.start
  rw [dif_pos (show (0 : Fin 2) ∈ (rowDims N C M wf).scatterDimsToOperandDims from List.mem_singleton.mpr rfl)]
  have hsi : (rowDims N C M wf).siIdx (ix2 r q) ⟨List.idxOf (0 : Fin 2) (rowDims N C M wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- … and on the column axis at zero. -/
theorem row_start1 (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowDims N C M wf).start j idx 1 = 0 := by
  unfold ScatterDims.start
  exact dif_neg (show (1 : Fin 2) ∉ [(0 : Fin 2)] by decide)

/-- The window is one row: its coordinate on the row axis is zero … -/
theorem row_window0 (wf : ScatterDims.WF ⟨2, ![N, C]⟩ ⟨2, ![M, 1]⟩ ⟨2, ![M, C]⟩ [1] [0] [0] 1)
    (j : (⟨2, ![M, C]⟩ : Shape).Idx) : (rowDims N C M wf).window j 0 = 0 := by
  unfold ScatterDims.window
  exact dif_neg (fun h => (mem_sKept _ _).1 h (List.mem_singleton.mpr rfl))

/-- … and on the column axis the update's column. -/
theorem row_window1 (wf : ScatterDims.WF ⟨2, ![N, C]⟩ ⟨2, ![M, 1]⟩ ⟨2, ![M, C]⟩ [1] [0] [0] 1)
    (r : Fin M) (q : Fin C) : (rowDims N C M wf).window (ix2 r q) 1 = q.val := by
  unfold ScatterDims.window
  rw [dif_pos ((mem_sKept (rowDims N C M wf) 1).2 (show (1 : Fin 2) ∉ [(0 : Fin 2)] by decide))]
  rfl

/-- Update \`(r, q)\` is aimed at \`(g, q')\` exactly when row \`r\`'s start index is \`g\` and the columns agree. -/
theorem row_resultIdx?_eq_some_iff (wf : ScatterDims.WF ⟨2, ![N, C]⟩ ⟨2, ![M, 1]⟩ ⟨2, ![M, C]⟩ [1] [0] [0] 1)
    (idx : IVec ⟨2, ![M, 1]⟩ w) (r : Fin M) (q : Fin C) (g : Fin N) (q' : Fin C) :
    (rowDims N C M wf).resultIdx? (ix2 r q) idx = some (ix2 g q') ↔ rowStart idx r = (g.val : Int) ∧ q = q' := by
  have key : (∀ a, (rowDims N C M wf).start (ix2 r q) idx a + ((rowDims N C M wf).window (ix2 r q) a : Int)
        = (((ix2 g q' : (⟨2, ![N, C]⟩ : Shape).Idx) a).val : Int)) ↔
      ((rowDims N C M wf).start (ix2 r q) idx 0 + ((rowDims N C M wf).window (ix2 r q) 0 : Int) = (g.val : Int)) ∧
      ((rowDims N C M wf).start (ix2 r q) idx 1 + ((rowDims N C M wf).window (ix2 r q) 1 : Int) = (q'.val : Int)) :=
    Fin.forall_fin_two
  rw [resultIdx?_eq_some_iff, key, row_start0, row_window0, row_start1, row_window1, Nat.cast_zero, add_zero, zero_add,
    Nat.cast_inj, Fin.val_inj]

/-- Update \`j\` is aimed at \`i\` exactly when the start index of \`j\`'s row is \`i\`'s row and the columns agree. -/
theorem row_resultIdx?_eq_some_iff' (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowDims N C M wf).resultIdx? j idx = some i
      ↔ rowStart idx (j 0) = ((i 0).val : Int) ∧ (j 1).val = (i 1).val := by
  obtain ⟨r, q, rfl⟩ : ∃ (r : Fin M) (q : Fin C), j = ix2 r q := ⟨_, _, eq_ix2 j⟩
  obtain ⟨g, q', rfl⟩ : ∃ (g : Fin N) (q' : Fin C), i = ix2 g q' := ⟨_, _, eq_ix2 i⟩
  refine (row_resultIdx?_eq_some_iff wf idx r q g q').trans ?_
  show _ ∧ q = q' ↔ _ ∧ q.val = q'.val
  rw [Fin.val_inj]
  exact Iff.rfl

/-- Where update \`j\` lands: in its own column of the row its row's start index names, when that row is inside the
    matrix; nowhere when it is not. -/
theorem row_resultIdx? (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowDims N C M wf).resultIdx? j idx
      = if h : 0 ≤ rowStart idx (j 0) ∧ rowStart idx (j 0) < (N : Int) then
          some (ix2 ⟨(rowStart idx (j 0)).toNat, by omega⟩ (j 1))
        else none := by
  by_cases h : 0 ≤ rowStart idx (j 0) ∧ rowStart idx (j 0) < (N : Int)
  · rw [dif_pos h]
    refine (row_resultIdx?_eq_some_iff' wf idx j _).2 ⟨?_, rfl⟩
    show rowStart idx (j 0) = (((rowStart idx (j 0)).toNat : ℕ) : Int)
    omega
  · rw [dif_neg h]
    refine Option.eq_none_iff_forall_ne_some.2 ?_
    intro i hi
    have hz := ((row_resultIdx?_eq_some_iff' wf idx j i).1 hi).1
    have hlt : (i 0).val < N := (i 0).isLt
    exact h ⟨by omega, by omega⟩

/-! ### Reading a set at pairwise distinct rows, and a histogram -/

/-- ROWS SET INTO A MATRIX: when row \`r\`'s start index is \`g\` and no other row's is, the result's row \`g\` is the
    updates' row \`r\`. -/
theorem row_set_apply (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (r : Fin M) (g : Fin N) (q : Fin C) (hr : rowStart idx r = (g.val : Int))
    (huniq : ∀ r' : Fin M, rowStart idx r' = (g.val : Int) → r' = r) :
    Host.scatter (rowDims N C M wf) (fun _ b => b) x idx upd (ix2 g q) = upd (ix2 r q) := by
  refine scatter_set_of_unique _ x idx upd (ix2 r q) (ix2 g q)
    ((row_resultIdx?_eq_some_iff wf idx r q g q).2 ⟨hr, rfl⟩) ?_
  intro j' hj'
  obtain ⟨r', q', rfl⟩ : ∃ (r' : Fin M) (q' : Fin C), j' = ix2 r' q' := ⟨_, _, eq_ix2 j'⟩
  obtain ⟨h1, rfl⟩ := (row_resultIdx?_eq_some_iff wf idx r' q' g q).1 hj'
  rw [huniq r' h1]

/-- The same for start indices that are in range and pairwise distinct: the result at \`(z r, q)\` is the update at
    \`(r, q)\`. -/
theorem row_set_apply_of_injective (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (hinj : Function.Injective (rowStart idx)) (r : Fin M) (q : Fin C)
    (h0 : 0 ≤ rowStart idx r) (hN : rowStart idx r < (N : Int)) :
    Host.scatter (rowDims N C M wf) (fun _ b => b) x idx upd (ix2 ⟨(rowStart idx r).toNat, by omega⟩ q)
      = upd (ix2 r q) := by
  have hr : rowStart idx r = (((⟨(rowStart idx r).toNat, by omega⟩ : Fin N).val : ℕ) : Int) := by
    show rowStart idx r = (((rowStart idx r).toNat : ℕ) : Int)
    omega
  exact row_set_apply wf x idx upd r _ q hr (fun r' h' => hinj (h'.trans hr.symm))

/-- A row of the matrix that no update row's start index names keeps its elements, whatever the combining
    function. -/
theorem row_scatter_of_not_hit (wf : ScatterDims.WF ⟨2, ![N, C]⟩ ⟨2, ![M, 1]⟩ ⟨2, ![M, C]⟩ [1] [0] [0] 1)
    (f : α → α → α) (x : (⟨2, ![N, C]⟩ : Shape).Idx → α) (idx : IVec ⟨2, ![M, 1]⟩ w)
    (upd : (⟨2, ![M, C]⟩ : Shape).Idx → α) (g : Fin N) (q : Fin C)
    (h : ∀ r : Fin M, rowStart idx r ≠ (g.val : Int)) :
    Host.scatter (rowDims N C M wf) f x idx upd (ix2 g q) = x (ix2 g q) := by
  refine scatter_of_not_hit _ f x idx upd _ ?_
  intro j hj
  obtain ⟨r', q', rfl⟩ : ∃ (r' : Fin M) (q' : Fin C), j = ix2 r' q' := ⟨_, _, eq_ix2 j⟩
  exact h r' ((row_resultIdx?_eq_some_iff wf idx r' q' g q).1 hj).1

/-- SCALARS SET INTO A VECTOR: when row \`r\`'s start index is \`g\` and no other row's is, the result at \`g\` is update
    \`r\`. -/
theorem vec_set_apply (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (r : Fin M) (g : Fin N) (hr : rowStart idx r = (g.val : Int))
    (huniq : ∀ r' : Fin M, rowStart idx r' = (g.val : Int) → r' = r) :
    Host.scatter (vecDims N M wf) (fun _ b => b) x idx upd (ix1 g) = upd (ix1 r) := by
  refine scatter_set_of_unique _ x idx upd (ix1 r) (ix1 g) ((vec_resultIdx?_eq_some_iff wf idx r g).2 hr) ?_
  intro j' hj'
  obtain ⟨r', rfl⟩ : ∃ r' : Fin M, j' = ix1 r' := ⟨_, eq_ix1 j'⟩
  rw [huniq r' ((vec_resultIdx?_eq_some_iff wf idx r' g).1 hj')]

/-- The same for start indices that are in range and pairwise distinct: the result at \`z r\` is update \`r\`. -/
theorem vec_set_apply_of_injective (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (hinj : Function.Injective (rowStart idx)) (r : Fin M)
    (h0 : 0 ≤ rowStart idx r) (hN : rowStart idx r < (N : Int)) :
    Host.scatter (vecDims N M wf) (fun _ b => b) x idx upd (ix1 ⟨(rowStart idx r).toNat, by omega⟩) = upd (ix1 r) := by
  have hr : rowStart idx r = (((⟨(rowStart idx r).toNat, by omega⟩ : Fin N).val : ℕ) : Int) := by
    show rowStart idx r = (((rowStart idx r).toNat : ℕ) : Int)
    omega
  exact vec_set_apply wf x idx upd r _ hr (fun r' h' => hinj (h'.trans hr.symm))

/-- An element of the vector that no update's start index names keeps its value, whatever the combining function. -/
theorem vec_scatter_of_not_hit (wf : ScatterDims.WF ⟨1, ![N]⟩ ⟨2, ![M, 1]⟩ ⟨1, ![M]⟩ [] [0] [0] 1)
    (f : α → α → α) (x : (⟨1, ![N]⟩ : Shape).Idx → α) (idx : IVec ⟨2, ![M, 1]⟩ w)
    (upd : (⟨1, ![M]⟩ : Shape).Idx → α) (g : Fin N) (h : ∀ r : Fin M, rowStart idx r ≠ (g.val : Int)) :
    Host.scatter (vecDims N M wf) f x idx upd (ix1 g) = x (ix1 g) := by
  refine scatter_of_not_hit _ f x idx upd _ ?_
  intro j hj
  obtain ⟨r', rfl⟩ : ∃ r' : Fin M, j = ix1 r' := ⟨_, eq_ix1 j⟩
  exact h r' ((vec_resultIdx?_eq_some_iff wf idx r' g).1 hj)

/-- The updates aimed at \`g\` are as many as the rows whose start index is \`g\`. -/
theorem vec_card_hits (wf : ScatterDims.WF ⟨1, ![N]⟩ ⟨2, ![M, 1]⟩ ⟨1, ![M]⟩ [] [0] [0] 1)
    (idx : IVec ⟨2, ![M, 1]⟩ w) (g : Fin N) :
    (Finset.univ.filter (fun j => (vecDims N M wf).resultIdx? j idx = some (ix1 g))).card
      = (Finset.univ.filter (fun r : Fin M => rowStart idx r = (g.val : Int))).card := by
  refine Finset.card_bij (fun j _ => (j 0 : Fin M)) ?_ ?_ ?_
  · intro j hj
    obtain ⟨r, rfl⟩ : ∃ r : Fin M, j = ix1 r := ⟨_, eq_ix1 j⟩
    have hj' := (Finset.mem_filter.1 hj).2
    exact Finset.mem_filter.2 ⟨Finset.mem_univ _, (vec_resultIdx?_eq_some_iff wf idx r g).1 hj'⟩
  · intro j1 _ j2 _ h
    obtain ⟨r1, rfl⟩ : ∃ r : Fin M, j1 = ix1 r := ⟨_, eq_ix1 j1⟩
    obtain ⟨r2, rfl⟩ : ∃ r : Fin M, j2 = ix1 r := ⟨_, eq_ix1 j2⟩
    have h' : r1 = r2 := h
    rw [h']
  · intro r hr
    have hr' := (Finset.mem_filter.1 hr).2
    exact ⟨ix1 r, Finset.mem_filter.2 ⟨Finset.mem_univ _, (vec_resultIdx?_eq_some_iff wf idx r g).2 hr'⟩, rfl⟩

/-- A HISTOGRAM: ones summed into a vector of zeros leave at \`g\` the number of rows whose start index is \`g\`, as a
    word. -/
theorem vec_count {v : ℕ} (wf : ScatterDims.WF ⟨1, ![N]⟩ ⟨2, ![M, 1]⟩ ⟨1, ![M]⟩ [] [0] [0] 1)
    (idx : IVec ⟨2, ![M, 1]⟩ w) (g : Fin N) :
    Host.scatter (vecDims N M wf) IntOp.addi (fun _ => (0 : BitVec v)) idx (fun _ => 1) (ix1 g)
      = BitVec.ofNat v (Finset.univ.filter (fun r : Fin M => rowStart idx r = (g.val : Int))).card := by
  rw [addi_eq_add, scatter_count, vec_card_hits]

/-- A sum-scatter of words into a vector leaves at \`g\` the old element plus the updates of the rows whose start index
    is \`g\`. -/
theorem vec_add {v : ℕ} (wf : ScatterDims.WF ⟨1, ![N]⟩ ⟨2, ![M, 1]⟩ ⟨1, ![M]⟩ [] [0] [0] 1)
    (x : (⟨1, ![N]⟩ : Shape).Idx → BitVec v) (idx : IVec ⟨2, ![M, 1]⟩ w) (upd : (⟨1, ![M]⟩ : Shape).Idx → BitVec v)
    (g : Fin N) :
    Host.scatter (vecDims N M wf) IntOp.addi x idx upd (ix1 g)
      = x (ix1 g) + ∑ r ∈ Finset.univ.filter (fun r : Fin M => rowStart idx r = (g.val : Int)), upd (ix1 r) := by
  rw [addi_eq_add, scatter_add]
  congr 1
  refine Finset.sum_bij (fun j _ => (j 0 : Fin M)) ?_ ?_ ?_ ?_
  · intro j hj
    obtain ⟨r, rfl⟩ : ∃ r : Fin M, j = ix1 r := ⟨_, eq_ix1 j⟩
    have hj' := (Finset.mem_filter.1 hj).2
    exact Finset.mem_filter.2 ⟨Finset.mem_univ _, (vec_resultIdx?_eq_some_iff wf idx r g).1 hj'⟩
  · intro j1 _ j2 _ h
    obtain ⟨r1, rfl⟩ : ∃ r : Fin M, j1 = ix1 r := ⟨_, eq_ix1 j1⟩
    obtain ⟨r2, rfl⟩ : ∃ r : Fin M, j2 = ix1 r := ⟨_, eq_ix1 j2⟩
    have h' : r1 = r2 := h
    rw [h']
  · intro r hr
    have hr' := (Finset.mem_filter.1 hr).2
    exact ⟨ix1 r, Finset.mem_filter.2 ⟨Finset.mem_univ _, (vec_resultIdx?_eq_some_iff wf idx r g).2 hr'⟩, rfl⟩
  · intro j _
    obtain ⟨r, rfl⟩ : ∃ r : Fin M, j = ix1 r := ⟨_, eq_ix1 j⟩
    rfl

end Patterns

end Cert.Lib.ScatterFold
-- ==== Proof.LibWindowCumsum.lean ====
/-
  A one-axis windowed sum whose window is as long as the table and whose low padding is the window's length minus
  one, with stride one and initial value zero, is the table's running sum: entry `j` is the sum of the entries
  at positions `≤ j`. (Window position `k` of result `j` reads table position `j + k - lo` when that is inside
  the table, and the initial value otherwise; the in-range window positions are in bijection with the table
  positions `≤ j`.) Stated for words of any width, addition wrapping.
-/
import Idealize.ShloMosaic.Lib.SortFacts
import Idealize.ShloMosaic.PureOps.Ideal.Laws
import Mathlib.Data.BitVec
import Mathlib.Algebra.BigOperators.Fin

namespace Cert.Lib.WindowCumsum

open Idealize.ShloMosaic

variable {w : ℕ}

/-- A left fold of wrapping addition over a list is the start plus the list's sum. -/
theorem foldl_add_list {ι : Type} (g : ι → BitVec w) (L : List ι) (v : BitVec w) :
    L.foldl (fun r m => IntOp.addi r (g m)) v = v + (L.map g).sum := by
  induction L generalizing v with
  | nil => simp
  | cons a L ih =>
    rw [List.foldl_cons, ih, List.map_cons, List.sum_cons]
    show v + g a + _ = _
    rw [add_assoc]

theorem foldl_add_finRange {N : ℕ} (g : Fin N → BitVec w) (v : BitVec w) :
    (List.finRange N).foldl (fun r m => IntOp.addi r (g m)) v = v + ∑ m, g m := by
  rw [foldl_add_list, Fin.sum_univ_def]

/-- The table as a function of a natural position, zero outside. -/
def ext {n : ℕ} (x : IVec ⟨1, ![n]⟩ w) (i : ℕ) : BitVec w := if h : i < n then x (Shape.Idx.ofFin ⟨i, h⟩) else 0

/-- The rank-1 indices are the positions. -/
def idxEquiv (n : ℕ) : (⟨1, ![n]⟩ : Shape).Idx ≃ Fin n where
  toFun i := ⟨(i 0).val, (i 0).isLt⟩
  invFun k := Shape.Idx.ofFin k
  left_inv i := (Shape.Idx.eq_ofFin i).symm
  right_inv k := Fin.ext rfl

/-- The combinatorial core: the window positions that land inside the table are the table positions up to `j`. -/
theorem sum_window_eq {n lo : ℕ} (hlo : lo + 1 = n) (X : ℕ → BitVec w) (j : ℕ) (hj : j < n) :
    (∑ k ∈ Finset.range n, if lo ≤ j + k then X (j + k - lo) else 0)
      = ∑ i ∈ Finset.range n, if i ≤ j then X i else 0 := by
  rw [← Finset.sum_filter, ← Finset.sum_filter]
  refine Finset.sum_nbij' (fun k => j + k - lo) (fun i => i + lo - j) ?_ ?_ ?_ ?_ ?_
  · intro k hk
    simp only [Finset.mem_filter, Finset.mem_range] at hk ⊢
    omega
  · intro i hi
    simp only [Finset.mem_filter, Finset.mem_range] at hi ⊢
    omega
  · intro k hk
    simp only [Finset.mem_filter, Finset.mem_range] at hk
    show j + k - lo + lo - j = k
    omega
  · intro i hi
    simp only [Finset.mem_filter, Finset.mem_range] at hi
    show j + (i + lo - j) - lo = i
    omega
  · intro k _
    rfl

/-- THE RUNNING SUM: result `j` of the windowed sum is the sum of the table's entries at positions `≤ j`. -/
theorem reduceWindow_cumsum {n lo : ℕ} (hlo : lo + 1 = n) (x : IVec ⟨1, ![n]⟩ w)
    (init : (⟨0, ![]⟩ : Shape).Idx → BitVec w)
    (h : (⟨1, ![n]⟩ : Shape).ReduceWindows ![n] ![1] ![lo] ![0] ⟨1, ![n]⟩) (hu : 0 < (⟨0, ![]⟩ : Shape).numel)
    (hinit : init (Shape.Idx.first hu) = 0) (j : (⟨1, ![n]⟩ : Shape).Idx) :
    Host.reduceWindow IntOp.addi ![n] ![1] ![lo] ![0] x init h hu j
      = ∑ i : Fin n, if i.val ≤ (j 0).val then x (Shape.Idx.ofFin i) else 0 := by
  have hj : (j 0).val < n := (j 0).isLt
  unfold Host.reduceWindow
  simp only []
  rw [hinit, foldl_add_finRange, zero_add]
  -- window positions by their one coordinate
  refine (Fintype.sum_equiv (((⟨1, ![n]⟩ : Shape).rowMajor.symm).trans (idxEquiv n)) _
    (fun k : Fin n => if lo ≤ (j 0).val + k.val then ext x ((j 0).val + k.val - lo) else 0) ?_).trans ?_
  rotate_left
  · rw [Fin.sum_univ_eq_sum_range (fun k => if lo ≤ (j 0).val + k then ext x ((j 0).val + k - lo) else 0) n,
      sum_window_eq hlo (ext x) (j 0).val hj,
      ← Fin.sum_univ_eq_sum_range (fun i => if i ≤ (j 0).val then ext x i else 0) n]
    refine Finset.sum_congr rfl fun i _ => ?_
    by_cases hi : i.val ≤ (j 0).val
    · rw [if_pos hi, if_pos hi]
      unfold ext
      rw [dif_pos i.isLt]
    · rw [if_neg hi, if_neg hi]
  · intro m
    show _ = if lo ≤ (j 0).val + ((⟨1, ![n]⟩ : Shape).rowMajor.symm m 0).val
      then ext x ((j 0).val + ((⟨1, ![n]⟩ : Shape).rowMajor.symm m 0).val - lo) else 0
    let p : (⟨1, ![n]⟩ : Shape).Idx := (⟨1, ![n]⟩ : Shape).rowMajor.symm m
    have hp : (p 0).val < n := (p 0).isLt
    show _ = if lo ≤ (j 0).val + (p 0).val then ext x ((j 0).val + (p 0).val - lo) else 0
    by_cases hc : lo ≤ (j 0).val + (p 0).val
    · rw [if_pos hc, dif_pos (by
        intro a
        obtain rfl : a = 0 := Subsingleton.elim _ _
        show lo ≤ (j 0).val * 1 + (p 0).val ∧ (j 0).val * 1 + (p 0).val - lo < n
        omega)]
      unfold ext
      rw [dif_pos (by omega)]
      refine congrArg x (funext fun a => ?_)
      obtain rfl : a = 0 := Subsingleton.elim _ _
      refine Fin.ext ?_
      show (j 0).val * 1 + (p 0).val - lo = (j 0).val + (p 0).val - lo
      omega
    · rw [if_neg hc, dif_neg (fun hall => hc (by
        have h0 := (hall 0).1
        have : lo ≤ (j 0).val * 1 + (p 0).val := h0
        omega))]

end Cert.Lib.WindowCumsum
-- ==== Proof.LibGroupedLayout.lean ====
import Mathlib

/-!
# Grouped, tile-padded layout of a sorted sequence

Let `s : Fin n → Fin G` assign a group key to each of `n` positions, and let `T` be a tile
size.  For a group `g` write

* `cnt s g`     for the number of positions with key `g`,
* `start s g`   for the number of positions whose key is smaller than `g`,
* `tiles T s g` for `⌈cnt s g / T⌉`, the number of tiles of `T` slots needed to hold group `g`,
* `tstart T s g` for the number of tiles used by the groups smaller than `g`.

When `s` is monotone (the positions are sorted by key) position `k` is sent to the slot
`dest T s k = tstart T s (s k) * T + (k - start s (s k))`: the groups are laid out one after
another, each one padded up to a whole number of tiles.

The file proves, for monotone `s` and `0 < T`:

* the counts of a sequence do not change under a permutation of the positions, and they add up
  to `n` (`cnt_comp_perm`, `sum_cnt`);
* position `k` lies in the block of its own group: `start s (s k) ≤ k < start s (s k) + cnt s (s k)`
  (`start_le`, `lt_start_add_cnt`);
* the tile ranges `[tstart g, tstart g + tiles g)` are increasing and pairwise disjoint
  (`tstart_mono`, `tstart_succ_le`);
* the tile `dest T s k / T` of the slot of `k` lies in the tile range of the group `s k`
  (`dest_div`);
* `dest T s` is injective (`dest_injective`) and bounded by `(n / T + G) * T` (`dest_lt`), the
  total number of tiles being at most `n / T + G` (`sum_tiles_le`);
* a tile `t` in the tile range of the group `g` recovers `g` by counting: exactly `g + 1` groups
  `g'` have `tstart g' ≤ t` (`card_tstart_le`).
-/

namespace Cert.Lib.GroupedLayout

open Finset

variable {n G : ℕ}

/-- number of positions whose key is g -/
def cnt (s : Fin n → Fin G) (g : Fin G) : ℕ := (Finset.univ.filter fun k => s k = g).card

/-- number of positions whose key is smaller than g -/
def start (s : Fin n → Fin G) (g : Fin G) : ℕ :=
  ∑ g' ∈ Finset.univ.filter (fun g' => g' < g), cnt s g'

/-- number of tiles of `T` slots needed to hold the positions whose key is g -/
def tiles (T : ℕ) (s : Fin n → Fin G) (g : Fin G) : ℕ := (cnt s g + T - 1) / T

/-- number of tiles used by the groups smaller than g -/
def tstart (T : ℕ) (s : Fin n → Fin G) (g : Fin G) : ℕ :=
  ∑ g' ∈ Finset.univ.filter (fun g' => g' < g), tiles T s g'

/-- slot of position k: the first slot of the first tile of its group, plus the rank of k inside
its group -/
def dest (T : ℕ) (s : Fin n → Fin G) (k : Fin n) : ℕ :=
  tstart T s (s k) * T + (k.val - start s (s k))

/-- Permuting the positions does not change how many of them carry the key g. -/
theorem cnt_comp_perm (key : Fin n → Fin G) (σ : Equiv.Perm (Fin n)) (g : Fin G) :
    cnt (key ∘ σ) g = cnt key g := by
  unfold cnt
  refine Finset.card_bij (fun a _ => σ a) ?_ ?_ ?_
  · intro a ha
    simpa using ha
  · intro a _ b _ h
    exact σ.injective h
  · intro b hb
    refine ⟨σ.symm b, ?_, by simp⟩
    simpa using hb

/-- Every position carries exactly one key, so the counts add up to n. -/
theorem sum_cnt (s : Fin n → Fin G) : ∑ g, cnt s g = n := by
  unfold cnt
  have h := Finset.card_eq_sum_card_fiberwise (s := (Finset.univ : Finset (Fin n)))
    (t := (Finset.univ : Finset (Fin G))) (f := s) (fun _ _ => by simp)
  rw [← h]
  simp

/-- `start s g` is the number of positions whose key is smaller than g. -/
theorem start_eq_card (s : Fin n → Fin G) (g : Fin G) :
    start s g = (Finset.univ.filter fun j => s j < g).card := by
  unfold start cnt
  rw [Finset.card_eq_sum_card_fiberwise (s := Finset.univ.filter fun j => s j < g)
    (t := Finset.univ.filter fun g' => g' < g) (f := s)]
  · apply Finset.sum_congr rfl
    intro b hb
    have hb' : b < g := by simpa using hb
    congr 1
    ext a
    simp only [Finset.mem_filter, Finset.mem_univ, true_and]
    constructor
    · intro h
      exact ⟨by rw [h]; exact hb', h⟩
    · intro h
      exact h.2
  · intro x hx
    simpa using hx

/-- `start s g + cnt s g` is the number of positions whose key is at most g. -/
theorem start_add_cnt_eq_card (s : Fin n → Fin G) (g : Fin G) :
    start s g + cnt s g = (Finset.univ.filter fun j => s j ≤ g).card := by
  rw [start_eq_card]
  unfold cnt
  rw [← Finset.card_union_of_disjoint]
  · congr 1
    ext a
    simp only [Finset.mem_union, Finset.mem_filter, Finset.mem_univ, true_and]
    exact le_iff_lt_or_eq.symm
  · rw [Finset.disjoint_filter]
    intro a _ h1 h2
    exact absurd h2 (ne_of_lt h1)

/-- In a sorted sequence the positions with a key smaller than that of k all come before k. -/
theorem start_le (s : Fin n → Fin G) (hs : Monotone s) (k : Fin n) : start s (s k) ≤ k.val := by
  rw [start_eq_card]
  have hsub : (Finset.univ.filter fun j => s j < s k) ⊆ Finset.Iio k := by
    intro j hj
    have hj' : s j < s k := by simpa using hj
    rw [Finset.mem_Iio]
    by_contra hjk
    exact absurd (hs (not_lt.mp hjk)) (not_le.mpr hj')
  calc (Finset.univ.filter fun j => s j < s k).card ≤ (Finset.Iio k).card :=
        Finset.card_le_card hsub
    _ = k.val := Fin.card_Iio k

/-- In a sorted sequence the positions up to and including k all have a key at most that of k. -/
theorem lt_start_add_cnt (s : Fin n → Fin G) (hs : Monotone s) (k : Fin n) :
    k.val < start s (s k) + cnt s (s k) := by
  rw [start_add_cnt_eq_card]
  have hsub : Finset.Iic k ⊆ (Finset.univ.filter fun j => s j ≤ s k) := by
    intro j hj
    rw [Finset.mem_Iic] at hj
    simp only [Finset.mem_filter, Finset.mem_univ, true_and]
    exact hs hj
  calc k.val < k.val + 1 := Nat.lt_succ_self _
    _ = (Finset.Iic k).card := (Fin.card_Iic k).symm
    _ ≤ (Finset.univ.filter fun j => s j ≤ s k).card := Finset.card_le_card hsub

/-- The tile offsets increase with the group. -/
theorem tstart_mono (T : ℕ) (s : Fin n → Fin G) : Monotone (tstart T s) := by
  intro g g' h
  unfold tstart
  apply Finset.sum_le_sum_of_subset
  intro a ha
  simp only [Finset.mem_filter, Finset.mem_univ, true_and] at ha ⊢
  exact lt_of_lt_of_le ha h

/-- The tile range of a group ends no later than the tile range of any larger group begins. -/
theorem tstart_succ_le (T : ℕ) (s : Fin n → Fin G) {g g' : Fin G} (h : g < g') :
    tstart T s g + tiles T s g ≤ tstart T s g' := by
  unfold tstart
  have hnot : g ∉ Finset.univ.filter (fun a => a < g) := by simp
  rw [add_comm, ← Finset.sum_insert hnot]
  apply Finset.sum_le_sum_of_subset
  intro a ha
  simp only [Finset.mem_insert, Finset.mem_filter, Finset.mem_univ, true_and] at ha ⊢
  rcases ha with rfl | ha
  · exact h
  · exact lt_trans ha h

/-- The tile range of every group ends within the total number of tiles. -/
theorem tstart_add_tiles_le_sum (T : ℕ) (s : Fin n → Fin G) (g : Fin G) :
    tstart T s g + tiles T s g ≤ ∑ g', tiles T s g' := by
  unfold tstart
  have hnot : g ∉ Finset.univ.filter (fun a => a < g) := by simp
  rw [add_comm, ← Finset.sum_insert hnot]
  exact Finset.sum_le_sum_of_subset (Finset.subset_univ _)

/-- The tile of the slot of k lies in the tile range of the group of k: the rank `o` of k inside
its group satisfies `o + 1 ≤ cnt`, hence `o / T + 1 = (o + T) / T ≤ (cnt + T - 1) / T`. -/
theorem dest_div (T : ℕ) (hT : 0 < T) (s : Fin n → Fin G) (hs : Monotone s) (k : Fin n) :
    tstart T s (s k) ≤ dest T s k / T ∧ dest T s k / T < tstart T s (s k) + tiles T s (s k) := by
  have h1 := start_le s hs k
  have h2 := lt_start_add_cnt s hs k
  have hdiv : dest T s k / T = tstart T s (s k) + (k.val - start s (s k)) / T := by
    unfold dest
    rw [add_comm, Nat.add_mul_div_right _ _ hT, add_comm]
  rw [hdiv]
  refine ⟨Nat.le_add_right _ _, ?_⟩
  apply Nat.add_lt_add_left
  unfold tiles
  have h3 : (k.val - start s (s k) + T) / T = (k.val - start s (s k)) / T + 1 :=
    Nat.add_div_right _ hT
  have h4 : (k.val - start s (s k) + T) / T ≤ (cnt s (s k) + T - 1) / T :=
    Nat.div_le_div_right (by omega)
  omega

/-- Distinct positions get distinct slots: positions of different groups fall in disjoint tile
ranges, and positions of one group keep their relative ranks. -/
theorem dest_injective (T : ℕ) (hT : 0 < T) (s : Fin n → Fin G) (hs : Monotone s) :
    Function.Injective (dest T s) := by
  intro k k' h
  have hk := dest_div T hT s hs k
  have hk' := dest_div T hT s hs k'
  rcases lt_trichotomy (s k) (s k') with hlt | heq | hgt
  · have := tstart_succ_le T s hlt
    rw [h] at hk
    omega
  · have h1 := start_le s hs k
    have h2 := start_le s hs k'
    unfold dest at h
    rw [heq] at h h1
    have h3 := Nat.add_left_cancel h
    exact Fin.ext (by omega)
  · have := tstart_succ_le T s hgt
    rw [h] at hk
    omega

/-- Rounding up costs at most one tile per group. -/
theorem tiles_le (T : ℕ) (hT : 0 < T) (s : Fin n → Fin G) (g : Fin G) :
    tiles T s g ≤ cnt s g / T + 1 := by
  unfold tiles
  calc (cnt s g + T - 1) / T ≤ (cnt s g + T) / T := Nat.div_le_div_right (by omega)
    _ = cnt s g / T + 1 := Nat.add_div_right _ hT

/-- A sum of rounded-down quotients is at most the rounded-down quotient of the sum. -/
theorem sum_div_le_div_sum (T : ℕ) (f : Fin G → ℕ) (S : Finset (Fin G)) :
    ∑ g ∈ S, f g / T ≤ (∑ g ∈ S, f g) / T := by
  induction S using Finset.induction_on with
  | empty => simp
  | insert a S ha ih =>
    rw [Finset.sum_insert ha, Finset.sum_insert ha]
    calc f a / T + ∑ g ∈ S, f g / T ≤ f a / T + (∑ g ∈ S, f g) / T := Nat.add_le_add_left ih _
      _ ≤ (f a + ∑ g ∈ S, f g) / T := Nat.div_add_div_le_add_div

/-- The padded layout uses at most `n / T + G` tiles. -/
theorem sum_tiles_le (T : ℕ) (hT : 0 < T) (s : Fin n → Fin G) :
    ∑ g, tiles T s g ≤ n / T + G := by
  calc ∑ g, tiles T s g ≤ ∑ g, (cnt s g / T + 1) :=
        Finset.sum_le_sum (fun g _ => tiles_le T hT s g)
    _ = ∑ g, cnt s g / T + G := by rw [Finset.sum_add_distrib]; simp
    _ ≤ (∑ g, cnt s g) / T + G := Nat.add_le_add_right (sum_div_le_div_sum T _ _) _
    _ = n / T + G := by rw [sum_cnt]

/-- Every slot lies inside the padded array of `n / T + G` tiles. -/
theorem dest_lt (T : ℕ) (hT : 0 < T) (s : Fin n → Fin G) (hs : Monotone s) (k : Fin n) :
    dest T s k < (n / T + G) * T := by
  rw [← Nat.div_lt_iff_lt_mul hT]
  calc dest T s k / T < tstart T s (s k) + tiles T s (s k) := (dest_div T hT s hs k).2
    _ ≤ ∑ g, tiles T s g := tstart_add_tiles_le_sum T s (s k)
    _ ≤ n / T + G := sum_tiles_le T hT s

/-- A tile in the tile range of the group g is preceded by the tile offsets of exactly the groups
up to and including g. -/
theorem card_tstart_le (T : ℕ) (s : Fin n → Fin G) (g : Fin G) (t : ℕ)
    (h1 : tstart T s g ≤ t) (h2 : t < tstart T s g + tiles T s g) :
    (Finset.univ.filter fun g' : Fin G => tstart T s g' ≤ t).card = g.val + 1 := by
  have heq : (Finset.univ.filter fun g' : Fin G => tstart T s g' ≤ t) = Finset.Iic g := by
    ext g'
    simp only [Finset.mem_filter, Finset.mem_univ, true_and, Finset.mem_Iic]
    constructor
    · intro h
      by_contra hgt
      have := tstart_succ_le T s (not_le.mp hgt)
      omega
    · intro h
      exact le_trans (tstart_mono T s h) h1
  rw [heq, Fin.card_Iic]

end Cert.Lib.GroupedLayout
-- ==== Proof.RoutingLayout.lean ====
import proofs.«132156_j59742995087902_2_alg».proof.Proof.RoutingWords
import proofs.«132156_j59742995087902_2_alg».proof.Proof.RoutingArith
import proofs.«132156_j59742995087902_2_alg».proof.Proof.LibArgsortSigned
import proofs.«132156_j59742995087902_2_alg».proof.Proof.LibScatterFold
import proofs.«132156_j59742995087902_2_alg».proof.Proof.LibWindowCumsum
import proofs.«132156_j59742995087902_2_alg».proof.Proof.LibGroupedLayout

/-!
# The grouped layout, word by word

Let `b` be a table of `65536` group keys, each one of `0 … 8`.  The host sorts the items by key (a stable
sort; `sig b k` is the item the sort puts at position `k`), counts the items of every group, rounds every count
up to whole tiles of `1024` slots, forms the exclusive running sums of the tile counts and of the counts, and
sends sorted position `k`, of group `g`, to the slot `tileStart g * 1024 + (k - groupStart g)`.

This file reads each of these arrays at an index and identifies the word found there with the word of the
corresponding natural number of the combinatorial layout `Cert.Lib.GroupedLayout` of the sorted key sequence
`skey`: no sum, product or difference wraps, because every number involved is below `74752`.
-/

noncomputable section

namespace Cert.KernelIdeal.Routing

open Idealize.ShloMosaic Idealize.ShloMosaic.ValueIdx Cert.KernelIdeal
open Cert.KernelIdeal.Facts₀
open Cert.Lib

variable [Facts₀]

theorem ofFin_eq_ix1 {n : ℕ} (a : Fin n) : Shape.Idx.ofFin a = ix1 a := by
  funext d
  match d with
  | ⟨0, _⟩ => rfl

/-! ## Lookups at in-range words -/

/-- The idiom and the clamp leave the word of a number below the table's length alone. -/
theorem read_ofNat (M : BitVec 32) (N n : ℕ) (hn : n < N) (hN : N < 2 ^ 31) :
    min (normWord M (BitVec.ofNat 32 n)).toInt.toNat (N - 1) = n := by
  have hi := toInt_ofNat_lt n (by omega)
  rw [normWord_of_nonneg _ _ (by rw [hi]; omega), hi]
  omega

/-- A lookup in a vector of `N` entries at a row whose index word is the word of `n < N`. -/
theorem gather_elem_norm {α : Type} {N : ℕ} (hN0 : 0 < N) (hN : N < 2 ^ 31)
    (wf : GatherDims.WF ⟨1, ![N]⟩ ⟨2, ![65536, 1]⟩ ⟨1, ![65536]⟩ [] [0] [] [0] [] 1 ![1])
    (x : (⟨1, ![N]⟩ : Shape).Idx → α) (M : BitVec 32) (z : IVec S65536 32) (r : Fin 65536) (n : Fin N)
    (hz : z (ix1 r) = BitVec.ofNat 32 n.val) :
    Host.gather (GatherAxis0.elemDims N 65536 wf) x (Stages.norm65536 M z) (ix1 r) = x (ix1 n) := by
  rw [GatherAxis0.gather_elem_apply hN0]
  refine congrArg (fun i => x (ix1 i)) (Fin.ext ?_)
  show min _ (N - 1) = _
  rw [norm65536_apply, hz]
  exact read_ofNat M N n.val n.isLt hN

/-- A lookup in a matrix of `N` rows at a row whose index word is the word of `n < N`. -/
theorem gather_row_norm {α : Type} {N C : ℕ} (hN0 : 0 < N) (hN : N < 2 ^ 31)
    (wf : GatherDims.WF ⟨2, ![N, C]⟩ ⟨2, ![65536, 1]⟩ ⟨2, ![65536, C]⟩ [1] [0] [] [0] [] 1 ![1, C])
    (x : (⟨2, ![N, C]⟩ : Shape).Idx → α) (M : BitVec 32) (z : IVec S65536 32) (r : Fin 65536) (q : Fin C)
    (n : Fin N) (hz : z (ix1 r) = BitVec.ofNat 32 n.val) :
    Host.gather (GatherAxis0.rowDims N C 65536 wf) x (Stages.norm65536 M z) (ix2 r q) = x (ix2 n q) := by
  rw [GatherAxis0.gather_row_apply hN0]
  refine congrArg (fun i => x (ix2 i q)) (Fin.ext ?_)
  show min _ (N - 1) = _
  rw [norm65536_apply, hz]
  exact read_ofNat M N n.val n.isLt hN

/-! ## Keys and the sort -/

/-- A table of group keys: every word is one of `0 … 8`. -/
def Keys (b : IVec S65536 32) : Prop := ∀ e : Fin 65536, (b (ix1 e)).toNat ≤ 8

/-- The item the sort puts at position `k`. -/
def sig (b : IVec S65536 32) : Fin 65536 → Fin 65536 := Argsort.src b

theorem sig_bijective (b : IVec S65536 32) : Function.Bijective (sig b) := Argsort.src_bijective b

/-- The sort as a permutation of the positions. -/
def sigPerm (b : IVec S65536 32) : Equiv.Perm (Fin 65536) := Equiv.ofBijective (sig b) (sig_bijective b)

variable {b : IVec S65536 32}

/-- The key of item `e`, as one of the nine groups. -/
def key (hb : Keys b) (e : Fin 65536) : Fin 9 := ⟨(b (ix1 e)).toNat, by have := hb e; omega⟩

/-- The key at sorted position `k`. -/
def skey (hb : Keys b) (k : Fin 65536) : Fin 9 := key hb (sig b k)

theorem key_word (hb : Keys b) (e : Fin 65536) : b (ix1 e) = BitVec.ofNat 32 (key hb e).val :=
  eq_ofNat_toNat _

theorem skey_mono (hb : Keys b) : Monotone (skey hb) := by
  intro i j hij
  have h := Argsort.src_sorted_le b hij
  rw [ofFin_eq_ix1, ofFin_eq_ix1, toInt_of_small _ (by have := hb (Argsort.src b i); omega),
    toInt_of_small _ (by have := hb (Argsort.src b j); omega)] at h
  show (b (ix1 (Argsort.src b i))).toNat ≤ (b (ix1 (Argsort.src b j))).toNat
  exact_mod_cast h

/-- The sort's carried position table: position `k` holds the word of `sig b k`. -/
theorem order_apply (b : IVec S65536 32) (k : Fin 65536) :
    Stages.order b (ix1 k) = BitVec.ofNat 32 (sig b k).val :=
  Argsort.argsort_apply (v := 32) b (ix1 k)

/-- The keys read along the sort. -/
theorem sortedBase_apply (b : IVec S65536 32) (k : Fin 65536) :
    Stages.sortedBase b (Stages.order b) (ix1 k) = b (ix1 (sig b k)) := by
  unfold Stages.sortedBase
  have hd : gather_S65536_S65536x1_S65536_n_0_n_n_0_1_1
      = GatherAxis0.elemDims 65536 65536 gather_S65536_S65536x1_S65536_n_0_n_n_0_1_1_wf := rfl
  rw [hd]
  exact gather_elem_norm (by decide) (by decide) _ b _ _ k (sig b k) (order_apply b k)

/-! ## Counts -/

theorem cnt_le (hb : Keys b) (g : Fin 9) : GroupedLayout.cnt (skey hb) g ≤ 65536 := by
  unfold GroupedLayout.cnt
  exact (Finset.card_filter_le _ _).trans (by simp)

/-- Entry `g` of the histogram is the word of the number of items of group `g`. -/
theorem counts_apply_key (hb : Keys b) (g : Fin 9) :
    Stages.counts b (ix1 g) = BitVec.ofNat 32 (GroupedLayout.cnt (key hb) g) := by
  unfold Stages.counts
  have hd : scatter_S9_S65536x1_S65536_n_0_0_1
      = ScatterFold.vecDims 9 65536 scatter_S9_S65536x1_S65536_n_0_0_1_wf := rfl
  rw [hd]
  refine (ScatterFold.vec_count (v := 32) _ _ g).trans ?_
  refine congrArg (fun n : ℕ => BitVec.ofNat 32 n) ?_
  unfold GroupedLayout.cnt
  refine congrArg Finset.card (Finset.filter_congr fun r _ => ?_)
  show (Stages.norm65536 9#32 _ (ix2 r 0)).toInt = (g.val : Int) ↔ key hb r = g
  rw [norm65536_apply]
  have hmax : (maxsi (broadcastInDim S65536 ![] bcast_S_S65536 (id (constantI S_ 32 0#32))) b) (ix1 r)
      = b (ix1 r) := maxsi_zero_left _ (by have := hb r; omega)
  have hsm := toInt_of_small (b (ix1 r)) (by have := hb r; omega)
  rw [hmax, normWord_of_nonneg _ _ (by rw [hsm]; omega), hsm, Fin.ext_iff]
  show ((b (ix1 r)).toNat : Int) = (g.val : Int) ↔ (b (ix1 r)).toNat = g.val
  omega

/-- The same count taken along the sort: a permutation of the items does not change it. -/
theorem counts_apply (hb : Keys b) (g : Fin 9) :
    Stages.counts b (ix1 g) = BitVec.ofNat 32 (GroupedLayout.cnt (skey hb) g) := by
  have h1 : GroupedLayout.cnt (key hb ∘ ⇑(sigPerm b)) g = GroupedLayout.cnt (key hb) g :=
    GroupedLayout.cnt_comp_perm (key hb) (sigPerm b) g
  have h2 : skey hb = key hb ∘ ⇑(sigPerm b) := by
    funext k
    show key hb (sig b k) = key hb ((sigPerm b) k)
    unfold sigPerm
    rw [Equiv.ofBijective_apply]
  rw [h2, h1]
  exact counts_apply_key hb g

/-! ## Tiles -/

/-- The tile count of a group, as the floor-division idiom computes it. -/
theorem tiles_eq (c : IVec S9 32) (g : Fin 9) :
    Stages.tiles c (ix1 g) = fdiv (c (ix1 g) + 1024#32 - 1#32) 1024#32 := rfl

theorem tiles_apply (hb : Keys b) (g : Fin 9) :
    Stages.tiles (Stages.counts b) (ix1 g) = BitVec.ofNat 32 (GroupedLayout.tiles 1024 (skey hb) g) := by
  have hc := cnt_le hb g
  rw [tiles_eq, counts_apply hb]
  have e : BitVec.ofNat 32 (GroupedLayout.cnt (skey hb) g) + 1024#32 - 1#32
      = BitVec.ofNat 32 (GroupedLayout.cnt (skey hb) g + 1024 - 1) := by
    rw [← ofNat_sub_of_le _ 1 (by omega) (by decide), BitVec.ofNat_add]
  rw [e, fdiv_ofNat _ (by omega)]
  rfl

/-! ## Running sums -/

/-- The inclusive running sum over nine entries. -/
theorem cumsum9_apply (v : IVec S9 32) (j : Fin 9) :
    Stages.cumsum9 v (ix1 j) = ∑ i : Fin 9, if i.val ≤ j.val then v (ix1 i) else 0 := by
  unfold Stages.cumsum9
  have h := WindowCumsum.reduceWindow_cumsum (n := 9) (lo := 8) rfl v
    (broadcastInDim S_ ![] bcast_S_S_ (constantI S_ 32 0#32)) reduceWindows_S9_S9_w9s1p8_0 h_S_ rfl (ix1 j)
  rw [h]
  refine Finset.sum_congr rfl fun i _ => ?_
  rw [ofFin_eq_ix1]

/-- The shift by one entry: a leading zero, then the first eight entries. -/
theorem exclusive9_apply (cs : IVec S9 32) (g : Fin 9) :
    Stages.exclusive9 cs (ix1 g) = if h : g.val = 0 then 0#32 else cs (ix1 ⟨g.val - 1, by omega⟩) := by
  fin_cases g
  · rfl
  all_goals
    refine congrArg cs (funext fun a => ?_)
    match a with
    | ⟨0, _⟩ => rfl

/-- The exclusive running sum: entry `g` is the sum of the entries before `g`. -/
theorem exclusive_cumsum (v : IVec S9 32) (g : Fin 9) :
    Stages.exclusive9 (Stages.cumsum9 v) (ix1 g) = ∑ i : Fin 9, if i.val < g.val then v (ix1 i) else 0 := by
  rw [exclusive9_apply]
  by_cases h : g.val = 0
  · rw [dif_pos h]
    symm
    refine Finset.sum_eq_zero fun i _ => ?_
    rw [if_neg (by omega)]
  · rw [dif_neg h, cumsum9_apply]
    refine Finset.sum_congr rfl fun i _ => ?_
    by_cases hi : i.val < g.val
    · rw [if_pos hi, if_pos (show i.val ≤ g.val - 1 by omega)]
    · rw [if_neg hi, if_neg (show ¬ i.val ≤ g.val - 1 by omega)]

/-- The first tile of group `g`. -/
theorem tileStarts_apply (hb : Keys b) (g : Fin 9) :
    Stages.tileStarts (Stages.counts b) (ix1 g)
      = BitVec.ofNat 32 (GroupedLayout.tstart 1024 (skey hb) g) := by
  unfold Stages.tileStarts
  rw [exclusive_cumsum]
  simp only [tiles_apply hb]
  exact sum_ite_ofNat (GroupedLayout.tiles 1024 (skey hb)) (fun i => i.val < g.val)

/-- The first sorted position of group `g`. -/
theorem groupStart_apply (hb : Keys b) (g : Fin 9) :
    Stages.groupStart (Stages.counts b) (ix1 g) = BitVec.ofNat 32 (GroupedLayout.start (skey hb) g) := by
  unfold Stages.groupStart
  rw [exclusive_cumsum]
  simp only [counts_apply hb]
  exact sum_ite_ofNat (GroupedLayout.cnt (skey hb)) (fun i => i.val < g.val)

/-! ## Slots -/

theorem dest_lt (hb : Keys b) (k : Fin 65536) : GroupedLayout.dest 1024 (skey hb) k < 74752 :=
  GroupedLayout.dest_lt 1024 (by decide) (skey hb) (skey_mono hb) k

theorem tstart_le (hb : Keys b) (g : Fin 9) : GroupedLayout.tstart 1024 (skey hb) g ≤ 73 :=
  (Nat.le_add_right _ _).trans ((GroupedLayout.tstart_add_tiles_le_sum 1024 (skey hb) g).trans
    (GroupedLayout.sum_tiles_le 1024 (by decide) (skey hb)))

/-- The slot of sorted position `k` is the word of its slot in the combinatorial layout. -/
theorem dest_apply (hb : Keys b) (k : Fin 65536) :
    Stages.dest (Stages.tileStarts (Stages.counts b)) (Stages.groupStart (Stages.counts b))
        (Stages.sortedBase b (Stages.order b)) (ix1 k)
      = BitVec.ofNat 32 (GroupedLayout.dest 1024 (skey hb) k) := by
  have hd : gather_S9_S65536x1_S65536_n_0_n_n_0_1_1
      = GatherAxis0.elemDims 9 65536 gather_S9_S65536x1_S65536_n_0_n_n_0_1_1_wf := rfl
  have hsb : Stages.sortedBase b (Stages.order b) (ix1 k) = BitVec.ofNat 32 (skey hb k).val := by
    rw [sortedBase_apply]
    exact key_word hb (sig b k)
  have e1 : Host.gather gather_S9_S65536x1_S65536_n_0_n_n_0_1_1
      (muli (Stages.tileStarts (Stages.counts b)) (broadcastInDim S9 ![] bcast_S_S9 (constantI S_ 32 1024#32)))
      (Stages.norm65536 9#32 (Stages.sortedBase b (Stages.order b))) (ix1 k)
      = BitVec.ofNat 32 (GroupedLayout.tstart 1024 (skey hb) (skey hb k)) * 1024#32 := by
    rw [hd, gather_elem_norm (by decide) (by decide) _ _ _ _ k (skey hb k) hsb]
    show Stages.tileStarts (Stages.counts b) (ix1 (skey hb k)) * 1024#32 = _
    rw [tileStarts_apply hb]
  have e2 : Host.gather gather_S9_S65536x1_S65536_n_0_n_n_0_1_1 (Stages.groupStart (Stages.counts b))
      (Stages.norm65536 9#32 (Stages.sortedBase b (Stages.order b))) (ix1 k)
      = BitVec.ofNat 32 (GroupedLayout.start (skey hb) (skey hb k)) := by
    rw [hd, gather_elem_norm (by decide) (by decide) _ _ _ _ k (skey hb k) hsb, groupStart_apply hb]
  have hle := GroupedLayout.start_le (skey hb) (skey_mono hb) k
  show Host.gather gather_S9_S65536x1_S65536_n_0_n_n_0_1_1 _ _ (ix1 k)
      + (BitVec.ofNat 32 k.val - Host.gather gather_S9_S65536x1_S65536_n_0_n_n_0_1_1 _ _ (ix1 k)) = _
  rw [e1, e2, ofNat_sub_of_le _ _ hle (by have := k.isLt; omega)]
  unfold GroupedLayout.dest
  rw [BitVec.ofNat_add, BitVec.ofNat_mul]

end Cert.KernelIdeal.Routing

end
-- ==== Proof.RoutingTiles.lean ====
import proofs.«132156_j59742995087902_2_alg».proof.Proof.RoutingLayout
import Idealize.ShloMosaic.PureOps.Reduce

/-!
# The group of a tile

For every tile `t < 73` the host compares the first tile of each of the nine groups with `t`, adds up the
nine comparison bits, subtracts one and clips the result into `[0, 8]`.  When `t` is the tile of the slot of
sorted position `k`, it lies in the tile range of the group of `k`; the groups whose first tile is at most `t`
are then exactly the groups up to that one, so the looked-up word is the key of `k`.
-/

noncomputable section

namespace Cert.KernelIdeal.Routing

open Idealize.ShloMosaic Idealize.ShloMosaic.ValueIdx Cert.KernelIdeal
open Cert.KernelIdeal.Facts₀
open Cert.Lib

variable [Facts₀]

/-- A fold of word addition from zero over a finite set is the sum over the set. -/
theorem fold_addi_eq_sum {ι : Type} [DecidableEq ι] (s : Finset ι) (f : ι → BitVec 32) :
    s.fold IntOp.addi 0#32 f = ∑ i ∈ s, f i := by
  induction s using Finset.induction_on with
  | empty =>
    rw [Finset.fold_empty, Finset.sum_empty]
    rfl
  | insert a s ha ih =>
    rw [Finset.fold_insert ha, Finset.sum_insert ha, ih]
    rfl

/-- A signed comparison bit, widened to a word. -/
theorem extui_sle (a c : BitVec 32) :
    (IntOp.cmpi .sle a c).setWidth 32 = if a.toInt ≤ c.toInt then 1#32 else 0#32 := by
  by_cases h : a.toInt ≤ c.toInt
  · rw [if_pos h, IntOp.cmpi_sle.mpr h]
    rfl
  · rw [if_neg h, eq_zero_of_ne_one (fun e => h (IntOp.cmpi_sle.mp e))]
    rfl

/-- The nine first tiles repeated along the `73` tiles. -/
theorem tsGrid_apply (ts : IVec S9 32) (g : Fin 9) (t : Fin 73) :
    broadcastInDim S9x73 ![0, 1] bcast_S9x1_S9x73_0_1 (broadcastInDim S9x1 ![0] bcast_S9_S9x1_0 ts) (ix2 g t)
      = ts (ix1 g) := by
  unfold broadcastInDim
  refine congrArg ts (funext fun a => ?_)
  match a with
  | ⟨0, _⟩ => rfl

/-- The `73` tile numbers repeated along the nine groups. -/
theorem tGrid_apply (g : Fin 9) (t : Fin 73) :
    broadcastInDim S9x73 ![0, 1] bcast_S1x73_S9x73_0_1
        (broadcastInDim S1x73 ![1] bcast_S73_S1x73_1 (iotaInDim S73 32 0)) (ix2 g t)
      = BitVec.ofNat 32 t.val := rfl

/-- The comparison grid: entry `(g, t)` is one when the first tile of group `g` is at most `t`. -/
def leGrid (ts : IVec S9 32) : IVec S9x73 32 :=
  extui 32
    (cmpi .sle
      (broadcastInDim S9x73 ![0, 1] bcast_S9x1_S9x73_0_1 (broadcastInDim S9x1 ![0] bcast_S9_S9x1_0 ts))
      (broadcastInDim S9x73 ![0, 1] bcast_S1x73_S9x73_0_1
        (broadcastInDim S1x73 ![1] bcast_S73_S1x73_1 (iotaInDim S73 32 0))))
    natLt_1_32

theorem leGrid_apply (ts : IVec S9 32) (g : Fin 9) (t : Fin 73) :
    leGrid ts (ix2 g t) = if (ts (ix1 g)).toInt ≤ (t.val : Int) then 1#32 else 0#32 := by
  have e : leGrid ts (ix2 g t)
      = (IntOp.cmpi .sle
          (broadcastInDim S9x73 ![0, 1] bcast_S9x1_S9x73_0_1 (broadcastInDim S9x1 ![0] bcast_S9_S9x1_0 ts)
            (ix2 g t))
          (broadcastInDim S9x73 ![0, 1] bcast_S1x73_S9x73_0_1
            (broadcastInDim S1x73 ![1] bcast_S73_S1x73_1 (iotaInDim S73 32 0)) (ix2 g t))).setWidth 32 := rfl
  rw [e, tsGrid_apply, tGrid_apply, extui_sle, toInt_ofNat_lt t.val (by have := t.isLt; omega)]

/-- The index of the grid over tile `t` in row `g`. -/
theorem lift_eq (h : S9x73.Reduces [0] S73) (t : Fin 73) (g : Fin 9) :
    h.lift (ix1 t) g = ix2 g t := by
  funext c
  match c with
  | ⟨0, _⟩ => exact Fin.ext rfl
  | ⟨1, _⟩ => exact Fin.ext rfl

/-- The column sums of the grid. -/
theorem colsum_apply (ts : IVec S9 32) (t : Fin 73) :
    Host.reduce IntOp.addi (leGrid ts) (constantI S_ 32 0#32) reducesTo_S9x73_S73_d0 h_S_ (ix1 t)
      = ∑ g : Fin 9, leGrid ts (ix2 g t) := by
  have hR : S9x73.Reduces [0] S73 := by decide
  rw [Host.reduce_eq_fold_single IntOp.addi (leGrid ts) (constantI S_ 32 0#32) reducesTo_S9x73_S73_d0 hR h_S_
    (ix1 t)]
  have hf : (leGrid ts ∘ hR.lift (ix1 t)) = fun g : Fin 9 => leGrid ts (ix2 g t) := by
    funext g
    exact congrArg (leGrid ts) (lift_eq hR t g)
  rw [hf]
  exact fold_addi_eq_sum (Finset.univ : Finset (Fin 9)) _

/-- The tile table, read at a tile. -/
theorem gid_eq (ts : IVec S9 32) (t : Fin 73) :
    Stages.gid ts (ix1 t)
      = IntOp.minsi 8#32 (IntOp.maxsi 0#32
          (Host.reduce IntOp.addi (leGrid ts) (constantI S_ 32 0#32) reducesTo_S9x73_S73_d0 h_S_ (ix1 t)
            - 1#32)) := rfl

variable {b : IVec S65536 32}

/-- The tile of the slot of sorted position `k` is one of the `73` tiles. -/
theorem tile_lt (hb : Keys b) (k : Fin 65536) : GroupedLayout.dest 1024 (skey hb) k / 1024 < 73 := by
  have := dest_lt hb k
  omega

/-- The group looked up for the tile of the slot of sorted position `k` is the key of the item there. -/
theorem gid_apply (hb : Keys b) (k : Fin 65536) :
    Stages.gid (Stages.tileStarts (Stages.counts b))
        (ix1 ⟨GroupedLayout.dest 1024 (skey hb) k / 1024, tile_lt hb k⟩)
      = b (ix1 (sig b k)) := by
  have hdiv := GroupedLayout.dest_div 1024 (by decide) (skey hb) (skey_mono hb) k
  have hcard := GroupedLayout.card_tstart_le 1024 (skey hb) (skey hb k) _ hdiv.1 hdiv.2
  have hcond : ∀ g : Fin 9,
      ((Stages.tileStarts (Stages.counts b) (ix1 g)).toInt
          ≤ (((⟨GroupedLayout.dest 1024 (skey hb) k / 1024, tile_lt hb k⟩ : Fin 73).val : ℕ) : Int))
        ↔ GroupedLayout.tstart 1024 (skey hb) g ≤ GroupedLayout.dest 1024 (skey hb) k / 1024 := by
    intro g
    rw [tileStarts_apply hb, toInt_ofNat_lt _ (by have := tstart_le hb g; omega)]
    exact Nat.cast_le
  have hsum : (∑ g : Fin 9, leGrid (Stages.tileStarts (Stages.counts b))
        (ix2 g ⟨GroupedLayout.dest 1024 (skey hb) k / 1024, tile_lt hb k⟩))
      = BitVec.ofNat 32 ((skey hb k).val + 1) := by
    have h1 := sum_ite_ofNat (fun _ : Fin 9 => 1)
      (fun g => GroupedLayout.tstart 1024 (skey hb) g ≤ GroupedLayout.dest 1024 (skey hb) k / 1024)
    simp only [Finset.sum_const, smul_eq_mul, mul_one] at h1
    rw [hcard] at h1
    rw [← h1]
    refine Finset.sum_congr rfl fun g _ => ?_
    rw [leGrid_apply]
    by_cases hg : GroupedLayout.tstart 1024 (skey hb) g ≤ GroupedLayout.dest 1024 (skey hb) k / 1024
    · rw [if_pos hg, if_pos ((hcond g).mpr hg)]
    · rw [if_neg hg, if_neg (fun e => hg ((hcond g).mp e))]
      rfl
  rw [gid_eq, colsum_apply, hsum]
  have hsub : BitVec.ofNat 32 ((skey hb k).val + 1) - 1#32 = BitVec.ofNat 32 (skey hb k).val :=
    ofNat_sub_of_le _ 1 (by omega) (by decide)
  rw [hsub, clip_ofNat _ (by have := (skey hb k).isLt; omega)]
  exact (key_word hb (sig b k)).symm

end Cert.KernelIdeal.Routing

end
-- ==== Proof.Routing.lean ====
import proofs.«132156_j59742995087902_2_alg».proof.Proof.RoutingLayout
import proofs.«132156_j59742995087902_2_alg».proof.Proof.RoutingTiles

/-!
# Where every item's data ends up

The host writes the data of the item at sorted position `k` to the slot `dest k` of the padded arrays, and
remembers, for the item itself, that slot.  Because the sort is a permutation and the slots are pairwise
distinct and inside the padded arrays, every write survives: the padded row an item remembers holds the
item's own scaled parameters and selects the item's own two embedding rows, and the group looked up for
the tile of that row is the item's own group.
-/

noncomputable section

namespace Cert.KernelIdeal.Routing

open Idealize.ShloMosaic Idealize.ShloMosaic.ValueIdx Cert.KernelIdeal
open Cert.KernelIdeal.Facts₀
open Cert.Lib

variable [Facts₀]

/-- The slots of the sorted positions, as the host computes them from the key table `b`. -/
abbrev dstOf (b : IVec S65536 32) : IVec S65536 32 :=
  Stages.dest (Stages.tileStarts (Stages.counts b)) (Stages.groupStart (Stages.counts b))
    (Stages.sortedBase b (Stages.order b))

variable {b : IVec S65536 32}

/-- The slot of sorted position `k`, as a row of the padded arrays. -/
def slot (hb : Keys b) (k : Fin 65536) : Fin 74752 := ⟨GroupedLayout.dest 1024 (skey hb) k, dest_lt hb k⟩

theorem slot_injective (hb : Keys b) : Function.Injective (slot hb) := by
  intro k k' h
  exact GroupedLayout.dest_injective 1024 (by decide) (skey hb) (skey_mono hb) (congrArg Fin.val h)

/-! ## The scatter indices, read signed -/

theorem rowStart_order (b : IVec S65536 32) (r : Fin 65536) :
    ScatterFold.rowStart (Stages.norm65536 65536#32 (Stages.order b)) r = ((sig b r).val : Int) := by
  show (Stages.norm65536 _ _ (ix2 r 0)).toInt = _
  have hi := toInt_ofNat_lt (sig b r).val (by have := (sig b r).isLt; omega)
  rw [norm65536_apply, order_apply, normWord_of_nonneg _ _ (by rw [hi]; omega), hi]

theorem rowStart_dst (hb : Keys b) (r : Fin 65536) :
    ScatterFold.rowStart (Stages.norm65536 74752#32 (dstOf b)) r = ((slot hb r).val : Int) := by
  show (Stages.norm65536 _ _ (ix2 r 0)).toInt = _
  have hi := toInt_ofNat_lt (slot hb r).val (by have := (slot hb r).isLt; omega)
  have hw : dstOf b (ix1 r) = BitVec.ofNat 32 (slot hb r).val := dest_apply hb r
  rw [norm65536_apply, hw, normWord_of_nonneg _ _ (by rw [hi]; omega)]
  exact hi

/-! ## What the three scatters leave -/

/-- The slot table in original order: item `sig b k` remembers the slot of position `k`. -/
theorem destOrig_apply (b : IVec S65536 32) (dst : IVec S65536 32) (k : Fin 65536) :
    Stages.destOrig (Stages.order b) dst (ix1 (sig b k)) = dst (ix1 k) := by
  unfold Stages.destOrig
  have hd : scatter_S65536_S65536x1_S65536_n_0_0_1
      = ScatterFold.vecDims 65536 65536 scatter_S65536_S65536x1_S65536_n_0_0_1_wf := rfl
  rw [hd]
  refine ScatterFold.vec_set_apply _ _ _ dst k (sig b k) (rowStart_order b k) (fun r' h' => ?_)
  rw [rowStart_order] at h'
  exact (sig_bijective b).1 (Fin.ext (by exact_mod_cast h'))

/-- The padded rows: slot `slot k` holds the row of item `sig b k`. -/
theorem xPadded_apply {F : FTy → Type} [FloatOps F] (hb : Keys b) (x : FVec F S65536x4 .f32)
    (k : Fin 65536) (p : Fin 4) :
    Stages.xPadded x (Stages.order b) (dstOf b) (ix2 (slot hb k) p) = x (ix2 (sig b k) p) := by
  unfold Stages.xPadded
  have hd : scatter_S74752x4_S65536x1_S65536x4_1_0_0_1
      = ScatterFold.rowDims 74752 4 65536 scatter_S74752x4_S65536x1_S65536x4_1_0_0_1_wf := rfl
  have hg : gather_S65536x4_S65536x1_S65536x4_1_0_n_n_0_1_14
      = GatherAxis0.rowDims 65536 4 65536 gather_S65536x4_S65536x1_S65536x4_1_0_n_n_0_1_14_wf := rfl
  rw [hd]
  refine (ScatterFold.row_set_apply _ _ _ _ k (slot hb k) p (rowStart_dst hb k) (fun r' h' => ?_)).trans ?_
  · rw [rowStart_dst hb] at h'
    exact slot_injective hb (Fin.ext (by exact_mod_cast h'))
  · rw [hg]
    exact gather_row_norm (by decide) (by decide) _ x _ _ k p (sig b k) (order_apply b k)

/-- The padded entries: slot `slot k` holds the entry of item `sig b k`. -/
theorem idPadded_apply (hb : Keys b) (ids : IVec S65536 32) (k : Fin 65536) :
    Stages.idPadded ids (Stages.order b) (dstOf b) (ix1 (slot hb k)) = ids (ix1 (sig b k)) := by
  unfold Stages.idPadded
  have hd : scatter_S74752_S65536x1_S65536_n_0_0_1
      = ScatterFold.vecDims 74752 65536 scatter_S74752_S65536x1_S65536_n_0_0_1_wf := rfl
  have hg : gather_S65536_S65536x1_S65536_n_0_n_n_0_1_1
      = GatherAxis0.elemDims 65536 65536 gather_S65536_S65536x1_S65536_n_0_n_n_0_1_1_wf := rfl
  rw [hd]
  refine (ScatterFold.vec_set_apply _ _ _ _ k (slot hb k) (rowStart_dst hb k) (fun r' h' => ?_)).trans ?_
  · rw [rowStart_dst hb] at h'
    exact slot_injective hb (Fin.ext (by exact_mod_cast h'))
  · rw [hg]
    exact gather_elem_norm (by decide) (by decide) _ ids _ _ k (sig b k) (order_apply b k)

/-! ## The table lookups behind the padded index arrays and the final read -/

/-- A row of the first table, selected by a padded index word. -/
theorem tePadded_apply (a3 : FVec Ideal S14x512 .f32) (tp : IVec S74752 32) (r : Fin 74752) (c : Fin 512) :
    Stages.tePadded (F := Ideal) a3 tp (ix2 r c)
      = a3 (ix2 ⟨Cert.Derived.pos 14 (tp (ix1 r)), Cert.Derived.pos_lt (by decide) _⟩ c) := by
  unfold Stages.tePadded
  have hd : gather_S14x512_S74752x1_S74752x512_1_0_n_n_0_1_1512
      = GatherAxis0.rowDims 14 512 74752 gather_S14x512_S74752x1_S74752x512_1_0_n_n_0_1_1512_wf := rfl
  rw [hd, GatherAxis0.gather_row_apply (by decide), truncf_apply]
  refine congrArg (fun i => a3 (ix2 i c)) (Fin.ext ?_)
  show min _ (14 - 1) = _
  rw [norm74752_apply]
  exact clamp_normWord 14 _

/-- A row of the second table, selected by a padded index word. -/
theorem sePadded_apply (a4 : FVec Ideal S4x512 .f32) (sp : IVec S74752 32) (r : Fin 74752) (c : Fin 512) :
    Stages.sePadded (F := Ideal) a4 sp (ix2 r c)
      = a4 (ix2 ⟨Cert.Derived.pos 4 (sp (ix1 r)), Cert.Derived.pos_lt (by decide) _⟩ c) := by
  unfold Stages.sePadded
  have hd : gather_S4x512_S74752x1_S74752x512_1_0_n_n_0_1_1512
      = GatherAxis0.rowDims 4 512 74752 gather_S4x512_S74752x1_S74752x512_1_0_n_n_0_1_1512_wf := rfl
  rw [hd, GatherAxis0.gather_row_apply (by decide), truncf_apply]
  refine congrArg (fun i => a4 (ix2 i c)) (Fin.ext ?_)
  show min _ (4 - 1) = _
  rw [norm74752_apply]
  exact clamp_normWord 4 _

/-- The final read: row `e` of the result is the row of the padded output that `e`'s slot word selects. -/
theorem result_apply (G : FVec Ideal S74752x512 .f32) (d : IVec S65536 32) (e : Fin 65536) (q : Fin 512) :
    Stages.result (F := Ideal) G d (ix2 e q)
      = G (ix2 ⟨Cert.Derived.pos 74752 (d (ix1 e)), Cert.Derived.pos_lt (by decide) _⟩ q) := by
  unfold Stages.result
  have hd : gather_S74752x512_S65536x1_S65536x512_1_0_n_n_0_1_1512
      = GatherAxis0.rowDims 74752 512 65536 gather_S74752x512_S65536x1_S65536x512_1_0_n_n_0_1_1512_wf := rfl
  rw [hd, GatherAxis0.gather_row_apply (by decide)]
  refine congrArg (fun i => G (ix2 i q)) (Fin.ext ?_)
  show min _ (74752 - 1) = _
  rw [norm65536_apply]
  exact clamp_normWord 74752 _

/-! ## The items' own rows -/

theorem keys_base (a0 : IVec S65536 32) : Keys (Stages.base a0) := by
  intro e
  rw [base_apply]
  exact Cert.Derived.baseWord_le _ e

/-- The padded row item `sig k` remembers is the slot of position `k`. -/
theorem row_sig (a0 : IVec S65536 32) (k : Fin 65536) :
    Cert.Derived.pos 74752 (Stages.destOrigOf a0 (ix1 (sig (Stages.base a0) k)))
      = (slot (keys_base a0) k).val := by
  have hi := toInt_ofNat_lt (slot (keys_base a0) k).val (by have := (slot (keys_base a0) k).isLt; omega)
  have hw : Stages.destOrigOf a0 (ix1 (sig (Stages.base a0) k))
      = BitVec.ofNat 32 (slot (keys_base a0) k).val :=
    (destOrig_apply (Stages.base a0) (dstOf (Stages.base a0)) k).trans (dest_apply (keys_base a0) k)
  rw [hw, Cert.Derived.pos_of_inRange _ (by rw [hi]; omega) (by rw [hi]; have := (slot (keys_base a0) k).isLt; omega), hi]
  omega

/-- The padded row of item `e` holds `e`'s scaled parameters. -/
theorem xPadded_row (a0 : IVec S65536 32) (a2 : FVec Ideal S65536x4 .f32) (e : Fin 65536) (p : Fin 4)
    (hrow : Cert.Derived.pos 74752 (Stages.destOrigOf a0 (ix1 e)) < 74752) :
    Stages.xPaddedOf (F := Ideal) a0 a2 (ix2 ⟨Cert.Derived.pos 74752 (Stages.destOrigOf a0 (ix1 e)), hrow⟩ p)
      = Cert.Derived.x (fun e p => a2 (ix2 e p)) (fun e => a0 (ix1 e)) e p := by
  obtain ⟨k, rfl⟩ := (sig_bijective (Stages.base a0)).2 e
  have hr : (⟨_, hrow⟩ : Fin 74752) = slot (keys_base a0) k := Fin.ext (row_sig a0 k)
  rw [hr]
  exact (xPadded_apply (keys_base a0) _ k p).trans (xs_apply a0 a2 _ p)

/-- The padded row of item `e` selects `e`'s row of the first table. -/
theorem tePadded_row (a0 : IVec S65536 32) (a3 : FVec Ideal S14x512 .f32) (e : Fin 65536) (c : Fin 512)
    (hrow : Cert.Derived.pos 74752 (Stages.destOrigOf a0 (ix1 e)) < 74752) :
    Stages.tePaddedOf (F := Ideal) a0 a3 (ix2 ⟨Cert.Derived.pos 74752 (Stages.destOrigOf a0 (ix1 e)), hrow⟩ c)
      = Cert.Derived.te (fun i k => a3 (ix2 i k)) (fun e => a0 (ix1 e)) e c := by
  obtain ⟨k, rfl⟩ := (sig_bijective (Stages.base a0)).2 e
  have hr : (⟨_, hrow⟩ : Fin 74752) = slot (keys_base a0) k := Fin.ext (row_sig a0 k)
  rw [hr]
  unfold Stages.tePaddedOf Cert.Derived.te
  rw [tePadded_apply]
  refine congrArg (fun i => a3 (ix2 i c)) (Fin.ext ?_)
  show Cert.Derived.pos 14 _ = Cert.Derived.pos 14 _
  rw [idPadded_apply (keys_base a0) a0 k]

/-- The padded row of item `e` selects `e`'s row of the second table. -/
theorem sePadded_row (a0 a1 : IVec S65536 32) (a4 : FVec Ideal S4x512 .f32) (e : Fin 65536) (c : Fin 512)
    (hrow : Cert.Derived.pos 74752 (Stages.destOrigOf a0 (ix1 e)) < 74752) :
    Stages.sePaddedOf (F := Ideal) a0 a1 a4 (ix2 ⟨Cert.Derived.pos 74752 (Stages.destOrigOf a0 (ix1 e)), hrow⟩ c)
      = Cert.Derived.se (fun i k => a4 (ix2 i k)) (fun e => a1 (ix1 e)) e c := by
  obtain ⟨k, rfl⟩ := (sig_bijective (Stages.base a0)).2 e
  have hr : (⟨_, hrow⟩ : Fin 74752) = slot (keys_base a0) k := Fin.ext (row_sig a0 k)
  rw [hr]
  unfold Stages.sePaddedOf Cert.Derived.se
  rw [sePadded_apply]
  refine congrArg (fun i => a4 (ix2 i c)) (Fin.ext ?_)
  show Cert.Derived.pos 4 _ = Cert.Derived.pos 4 _
  rw [idPadded_apply (keys_base a0) a1 k]

/-- The group looked up for the tile of item `e`'s padded row is `e`'s base word. -/
theorem gid_row (a0 : IVec S65536 32) (e : Fin 65536)
    (ht : Cert.Derived.pos 74752 (Stages.destOrigOf a0 (ix1 e)) / 1024 < 73) :
    Stages.gidOf a0 (ix1 ⟨Cert.Derived.pos 74752 (Stages.destOrigOf a0 (ix1 e)) / 1024, ht⟩)
      = Cert.Derived.baseWord (fun e => a0 (ix1 e)) e := by
  obtain ⟨k, rfl⟩ := (sig_bijective (Stages.base a0)).2 e
  have hr : (⟨_, ht⟩ : Fin 73)
      = ⟨GroupedLayout.dest 1024 (skey (keys_base a0)) k / 1024, tile_lt (keys_base a0) k⟩ :=
    Fin.ext (by
      show _ / 1024 = _ / 1024
      rw [row_sig a0 k]
      rfl)
  rw [hr]
  exact (gid_apply (keys_base a0) k).trans (base_apply a0 _)

end Cert.KernelIdeal.Routing

end
-- ==== Proof.PrefixA.lean ====
import proofs.«132156_j59742995087902_2_alg».proof.Proof.Stages
import proofs.«132156_j59742995087902_2_alg».proof.Proof.Gen.KernelIdeal.Launch

/-!
# The first operations (group keys, scaled rows, the sort), from arbitrary contents

For any contents `W` of the buffers, the arrays these operations leave are the stage functions of
the contents `W` holds at the argument buffers.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- Evaluates a fold over a literal list of operations at a literal buffer: the value of the
operation that writes the buffer, at its operands' values, recursively, down to the contents the
fold starts from. -/
local macro "fold_results" : tactic =>
  `(tactic| (simp (disch := decide) only [after_cons, after_nil,
      nullary_result', unary_result', binary_result', ternary_result',
      nullary_result_ne', unary_result_ne', binary_result_ne', ternary_result_ne']))

variable (W : Valuation τ sig (Elt F))

set_option maxHeartbeats 4000000 in
/-- The scaled rows. -/
theorem A_v14 :
    ((after Gen.hostOps0_3 (after Gen.hostOps0_2 (after Gen.hostOps0_1 (after Gen.hostOps0 W)))) (Proc.devRef .tc main_v14) : FVec F S65536x4 .f32)
      = Stages.xs (W (Proc.devRef .tc main_arg2)) (Stages.base (W (Proc.devRef .tc main_arg0))) := by
  simp only [Gen.hostOps0, Gen.hostOps0_1, Gen.hostOps0_2, Gen.hostOps0_3]
  fold_results
  try simp only [TRef.toBuf, TRef.ofBuf, cast_eq]
  simp only [Stages.xs, Stages.base, Stages.norm65536]
  all_goals rfl

set_option maxHeartbeats 4000000 in
/-- The sort permutation of the group keys. -/
theorem A_v15 :
    ((after Gen.hostOps0_3 (after Gen.hostOps0_2 (after Gen.hostOps0_1 (after Gen.hostOps0 W)))) (Proc.devRef .tc main_v15) : IVec S65536 32)
      = Stages.order (Stages.base (W (Proc.devRef .tc main_arg0))) := by
  simp only [Gen.hostOps0, Gen.hostOps0_1, Gen.hostOps0_2, Gen.hostOps0_3]
  fold_results
  try simp only [TRef.toBuf, TRef.ofBuf, cast_eq]
  simp only [Stages.order, Stages.base, Stages.norm65536]
  all_goals rfl

set_option maxHeartbeats 4000000 in
/-- The group keys in sorted order. -/
theorem A_v22 :
    ((after Gen.hostOps0_3 (after Gen.hostOps0_2 (after Gen.hostOps0_1 (after Gen.hostOps0 W)))) (Proc.devRef .tc main_v22) : IVec S65536 32)
      = Stages.sortedBase (Stages.base (W (Proc.devRef .tc main_arg0))) (Stages.order (Stages.base (W (Proc.devRef .tc main_arg0)))) := by
  simp only [Gen.hostOps0, Gen.hostOps0_1, Gen.hostOps0_2, Gen.hostOps0_3]
  fold_results
  try simp only [TRef.toBuf, TRef.ofBuf, cast_eq]
  simp only [Stages.sortedBase, Stages.order, Stages.base, Stages.norm65536]
  all_goals rfl

set_option maxHeartbeats 4000000 in
/-- Nine zeros. -/
theorem A_v23 :
    ((after Gen.hostOps0_3 (after Gen.hostOps0_2 (after Gen.hostOps0_1 (after Gen.hostOps0 W)))) (Proc.devRef .tc main_v23) : IVec S9 32)
      = broadcastInDim S9 ![] Facts₀.bcast_S_S9 (constantI S_ 32 0#32) := by
  simp only [Gen.hostOps0, Gen.hostOps0_1, Gen.hostOps0_2, Gen.hostOps0_3]
  fold_results
  try simp only [TRef.toBuf, TRef.ofBuf, cast_eq]
  all_goals rfl

set_option maxHeartbeats 4000000 in
/-- The group keys raised to at least zero. -/
theorem A_v24 :
    ((after Gen.hostOps0_3 (after Gen.hostOps0_2 (after Gen.hostOps0_1 (after Gen.hostOps0 W)))) (Proc.devRef .tc main_v24) : IVec S65536 32)
      = maxsi (broadcastInDim S65536 ![] Facts₀.bcast_S_S65536 (id (constantI S_ 32 0#32))) (Stages.base (W (Proc.devRef .tc main_arg0))) := by
  simp only [Gen.hostOps0, Gen.hostOps0_1, Gen.hostOps0_2, Gen.hostOps0_3]
  fold_results
  try simp only [TRef.toBuf, TRef.ofBuf, cast_eq]
  simp only [Stages.base, Stages.norm65536]
  all_goals rfl

set_option maxHeartbeats 4000000 in
/-- None of these operations writes this buffer: it keeps its contents. -/
theorem A_carry_arg0 :
    (after Gen.hostOps0_3 (after Gen.hostOps0_2 (after Gen.hostOps0_1 (after Gen.hostOps0 W)))) (Proc.devRef .tc main_arg0) = W (Proc.devRef .tc main_arg0) := by
  simp only [Gen.hostOps0, Gen.hostOps0_1, Gen.hostOps0_2, Gen.hostOps0_3]
  fold_results

set_option maxHeartbeats 4000000 in
/-- None of these operations writes this buffer: it keeps its contents. -/
theorem A_carry_arg1 :
    (after Gen.hostOps0_3 (after Gen.hostOps0_2 (after Gen.hostOps0_1 (after Gen.hostOps0 W)))) (Proc.devRef .tc main_arg1) = W (Proc.devRef .tc main_arg1) := by
  simp only [Gen.hostOps0, Gen.hostOps0_1, Gen.hostOps0_2, Gen.hostOps0_3]
  fold_results

set_option maxHeartbeats 4000000 in
/-- None of these operations writes this buffer: it keeps its contents. -/
theorem A_carry_arg3 :
    (after Gen.hostOps0_3 (after Gen.hostOps0_2 (after Gen.hostOps0_1 (after Gen.hostOps0 W)))) (Proc.devRef .tc main_arg3) = W (Proc.devRef .tc main_arg3) := by
  simp only [Gen.hostOps0, Gen.hostOps0_1, Gen.hostOps0_2, Gen.hostOps0_3]
  fold_results

set_option maxHeartbeats 4000000 in
/-- None of these operations writes this buffer: it keeps its contents. -/
theorem A_carry_arg4 :
    (after Gen.hostOps0_3 (after Gen.hostOps0_2 (after Gen.hostOps0_1 (after Gen.hostOps0 W)))) (Proc.devRef .tc main_arg4) = W (Proc.devRef .tc main_arg4) := by
  simp only [Gen.hostOps0, Gen.hostOps0_1, Gen.hostOps0_2, Gen.hostOps0_3]
  fold_results

end Cert.KernelIdeal.Prefix

end
-- ==== Proof.PrefixB.lean ====
import proofs.«132156_j59742995087902_2_alg».proof.Proof.Stages
import proofs.«132156_j59742995087902_2_alg».proof.Proof.Gen.KernelIdeal.Launch

/-!
# Counts, tiles and running sums, from arbitrary contents

For any contents `W` of the buffers, with `cnt` the ones scatter-added at the keys `W` holds into
the zeros `W` holds: the exclusive running sum of the tiles of `cnt`, a single zero, and the
inclusive running sum of `cnt`.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- A one-entry array followed by an eight-entry array, as a function of the two arrays. -/
private def concat18 {α : Type} (a : S1.Idx → α) (b : S8.Idx → α) : S9.Idx → α :=
  concatenate S9 0 [⟨S1, a⟩, ⟨S8, b⟩] Facts₀.concatenates_S1_S8_S9_d0

/-- The concatenation of a one-entry and an eight-entry array is `concat18` of the two, whatever
proof of the shape condition it carries. -/
private theorem concat18_eq {α : Type} (a : S1.Idx → α) (b : S8.Idx → α)
    (h : Shape.Concatenates (([⟨S1, a⟩, ⟨S8, b⟩] : List ((s : Shape) × (s.Idx → α))).map (·.1)) S9 0) :
    concatenate S9 0 [⟨S1, a⟩, ⟨S8, b⟩] h = concat18 a b := rfl

/-- Evaluates a fold over a literal list of operations at a literal buffer: the value of the
operation that writes the buffer, at its operands' values, recursively, down to the contents the
fold starts from. -/
local macro "fold_results" : tactic =>
  `(tactic| (simp (disch := decide) only [after_cons, after_nil,
      nullary_result', unary_result', binary_result', ternary_result',
      nullary_result_ne', unary_result_ne', binary_result_ne', ternary_result_ne', concat18_eq]))

variable (W : Valuation τ sig (Elt F))

set_option maxHeartbeats 4000000 in
/-- The exclusive running sum of the tiles per group. -/
theorem B_v41 :
    ((after Gen.hostOps0_9 (after Gen.hostOps0_8 (after Gen.hostOps0_7 (after Gen.hostOps0_6 (after Gen.hostOps0_5 (after Gen.hostOps0_4 W)))))) (Proc.devRef .tc main_v41) : IVec S9 32)
      = Stages.tileStarts (Host.scatter scatter_S9_S65536x1_S65536_n_0_0_1 IntOp.addi ((W (Proc.devRef .tc main_v23)) : IVec S9 32)
          (Stages.norm65536 9#32 (W (Proc.devRef .tc main_v24)))
          (broadcastInDim S65536 ![] Facts₀.bcast_S_S65536 (constantI S_ 32 1#32))) := by
  simp only [Gen.hostOps0_4, Gen.hostOps0_5, Gen.hostOps0_6, Gen.hostOps0_7, Gen.hostOps0_8, Gen.hostOps0_9]
  fold_results
  try simp only [TRef.toBuf, TRef.ofBuf, cast_eq]
  simp only [Stages.tileStarts, Stages.exclusive9, Stages.cumsum9, Stages.tiles, Stages.floorDiv9, Stages.norm65536, concat18]
  all_goals rfl

set_option maxHeartbeats 4000000 in
/-- A single zero. -/
theorem B_v42 :
    ((after Gen.hostOps0_9 (after Gen.hostOps0_8 (after Gen.hostOps0_7 (after Gen.hostOps0_6 (after Gen.hostOps0_5 (after Gen.hostOps0_4 W)))))) (Proc.devRef .tc main_v42) : IVec S1 32)
      = broadcastInDim S1 ![] Facts₀.bcast_S_S1 (constantI S_ 32 0#32) := by
  simp only [Gen.hostOps0_4, Gen.hostOps0_5, Gen.hostOps0_6, Gen.hostOps0_7, Gen.hostOps0_8, Gen.hostOps0_9]
  fold_results
  try simp only [TRef.toBuf, TRef.ofBuf, cast_eq]
  all_goals rfl

set_option maxHeartbeats 4000000 in
/-- The inclusive running sum of the counts. -/
theorem B_v43 :
    ((after Gen.hostOps0_9 (after Gen.hostOps0_8 (after Gen.hostOps0_7 (after Gen.hostOps0_6 (after Gen.hostOps0_5 (after Gen.hostOps0_4 W)))))) (Proc.devRef .tc main_v43) : IVec S9 32)
      = Stages.cumsum9 (Host.scatter scatter_S9_S65536x1_S65536_n_0_0_1 IntOp.addi ((W (Proc.devRef .tc main_v23)) : IVec S9 32)
          (Stages.norm65536 9#32 (W (Proc.devRef .tc main_v24)))
          (broadcastInDim S65536 ![] Facts₀.bcast_S_S65536 (constantI S_ 32 1#32))) := by
  simp only [Gen.hostOps0_4, Gen.hostOps0_5, Gen.hostOps0_6, Gen.hostOps0_7, Gen.hostOps0_8, Gen.hostOps0_9]
  fold_results
  try simp only [TRef.toBuf, TRef.ofBuf, cast_eq]
  simp only [Stages.cumsum9, Stages.norm65536]
  all_goals rfl

set_option maxHeartbeats 4000000 in
/-- None of these operations writes this buffer: it keeps its contents. -/
theorem B_carry_v14 :
    (after Gen.hostOps0_9 (after Gen.hostOps0_8 (after Gen.hostOps0_7 (after Gen.hostOps0_6 (after Gen.hostOps0_5 (after Gen.hostOps0_4 W)))))) (Proc.devRef .tc main_v14) = W (Proc.devRef .tc main_v14) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_v15 :
    (after Gen.hostOps0_9 (after Gen.hostOps0_8 (after Gen.hostOps0_7 (after Gen.hostOps0_6 (after Gen.hostOps0_5 (after Gen.hostOps0_4 W)))))) (Proc.devRef .tc main_v15) = W (Proc.devRef .tc main_v15) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_v22 :
    (after Gen.hostOps0_9 (after Gen.hostOps0_8 (after Gen.hostOps0_7 (after Gen.hostOps0_6 (after Gen.hostOps0_5 (after Gen.hostOps0_4 W)))))) (Proc.devRef .tc main_v22) = W (Proc.devRef .tc main_v22) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_arg0 :
    (after Gen.hostOps0_9 (after Gen.hostOps0_8 (after Gen.hostOps0_7 (after Gen.hostOps0_6 (after Gen.hostOps0_5 (after Gen.hostOps0_4 W)))))) (Proc.devRef .tc main_arg0) = W (Proc.devRef .tc main_arg0) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_arg1 :
    (after Gen.hostOps0_9 (after Gen.hostOps0_8 (after Gen.hostOps0_7 (after Gen.hostOps0_6 (after Gen.hostOps0_5 (after Gen.hostOps0_4 W)))))) (Proc.devRef .tc main_arg1) = W (Proc.devRef .tc main_arg1) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_arg3 :
    (after Gen.hostOps0_9 (after Gen.hostOps0_8 (after Gen.hostOps0_7 (after Gen.hostOps0_6 (after Gen.hostOps0_5 (after Gen.hostOps0_4 W)))))) (Proc.devRef .tc main_arg3) = W (Proc.devRef .tc main_arg3) := by
  simp only [Gen.hostOps0_4, Gen.hostOps0_5, Gen.hostOps0_6, Gen.hostOps0_7, Gen.hostOps0_8, Gen.hostOps0_9]
  fold_results

set_option maxHeartbeats 4000000 in
/-- None of these operations writes this buffer: it keeps its contents. -/
theorem B_carry_arg4 :
    (after Gen.hostOps0_9 (after Gen.hostOps0_8 (after Gen.hostOps0_7 (after Gen.hostOps0_6 (after Gen.hostOps0_5 (after Gen.hostOps0_4 W)))))) (Proc.devRef .tc main_arg4) = W (Proc.devRef .tc main_arg4) := by
  simp only [Gen.hostOps0_4, Gen.hostOps0_5, Gen.hostOps0_6, Gen.hostOps0_7, Gen.hostOps0_8, Gen.hostOps0_9]
  fold_results

end Cert.KernelIdeal.Prefix

end
-- ==== Proof.PrefixC.lean ====
import proofs.«132156_j59742995087902_2_alg».proof.Proof.Stages
import proofs.«132156_j59742995087902_2_alg».proof.Proof.Gen.KernelIdeal.Launch

/-!
# Slots and the tile table, from arbitrary contents

For any contents `W` of the buffers: the slot of every sorted position, as `dest` of the tile
starts, the group starts and the sorted keys `W` holds, and the group of every tile, as `gid` of
the tile starts `W` holds.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- A one-entry array followed by an eight-entry array, as a function of the two arrays. -/
private def concat18 {α : Type} (a : S1.Idx → α) (b : S8.Idx → α) : S9.Idx → α :=
  concatenate S9 0 [⟨S1, a⟩, ⟨S8, b⟩] Facts₀.concatenates_S1_S8_S9_d0

/-- The concatenation of a one-entry and an eight-entry array is `concat18` of the two, whatever
proof of the shape condition it carries. -/
private theorem concat18_eq {α : Type} (a : S1.Idx → α) (b : S8.Idx → α)
    (h : Shape.Concatenates (([⟨S1, a⟩, ⟨S8, b⟩] : List ((s : Shape) × (s.Idx → α))).map (·.1)) S9 0) :
    concatenate S9 0 [⟨S1, a⟩, ⟨S8, b⟩] h = concat18 a b := rfl

/-- Evaluates a fold over a literal list of operations at a literal buffer: the value of the
operation that writes the buffer, at its operands' values, recursively, down to the contents the
fold starts from. -/
local macro "fold_results" : tactic =>
  `(tactic| (simp (disch := decide) only [after_cons, after_nil,
      nullary_result', unary_result', binary_result', ternary_result',
      nullary_result_ne', unary_result_ne', binary_result_ne', ternary_result_ne', concat18_eq]))

variable (W : Valuation τ sig (Elt F))

set_option maxHeartbeats 4000000 in
/-- The slot of every sorted position, when `W` holds a single zero and the inclusive running sum of `g`. -/
theorem C_v64 (g : IVec S9 32)
    (h42 : ((W (Proc.devRef .tc main_v42)) : IVec S1 32) = broadcastInDim S1 ![] Facts₀.bcast_S_S1 (constantI S_ 32 0#32))
    (h43 : ((W (Proc.devRef .tc main_v43)) : IVec S9 32) = Stages.cumsum9 g) :
    ((after Gen.hostOps0_11 (after Gen.hostOps0_10 W)) (Proc.devRef .tc main_v64) : IVec S65536 32)
      = Stages.dest (W (Proc.devRef .tc main_v41)) (Stages.groupStart g) (W (Proc.devRef .tc main_v22)) := by
  simp only [Gen.hostOps0_10, Gen.hostOps0_11]
  fold_results
  rw [h42, h43]
  simp only [Stages.dest, Stages.groupStart, Stages.exclusive9, Stages.norm65536, concat18]
  all_goals rfl

set_option maxHeartbeats 4000000 in
/-- The group of every tile. -/
theorem C_v75 :
    ((after Gen.hostOps0_11 (after Gen.hostOps0_10 W)) (Proc.devRef .tc main_v75) : IVec S73 32)
      = Stages.gid (W (Proc.devRef .tc main_v41)) := by
  simp only [Gen.hostOps0_10, Gen.hostOps0_11]
  fold_results
  try simp only [TRef.toBuf, TRef.ofBuf, cast_eq]
  simp only [Stages.gid]
  all_goals rfl

set_option maxHeartbeats 4000000 in
/-- None of these operations writes this buffer: it keeps its contents. -/
theorem C_carry_v14 :
    (after Gen.hostOps0_11 (after Gen.hostOps0_10 W)) (Proc.devRef .tc main_v14) = W (Proc.devRef .tc main_v14) := by
  simp only [Gen.hostOps0_10, Gen.hostOps0_11]
  fold_results

set_option maxHeartbeats 4000000 in
/-- None of these operations writes this buffer: it keeps its contents. -/
theorem C_carry_v15 :
    (after Gen.hostOps0_11 (after Gen.hostOps0_10 W)) (Proc.devRef .tc main_v15) = W (Proc.devRef .tc main_v15) := by
  simp only [Gen.hostOps0_10, Gen.hostOps0_11]
  fold_results

set_option maxHeartbeats 4000000 in
/-- None of these operations writes this buffer: it keeps its contents. -/
theorem C_carry_arg0 :
    (after Gen.hostOps0_11 (after Gen.hostOps0_10 W)) (Proc.devRef .tc main_arg0) = W (Proc.devRef .tc main_arg0) := by
  simp only [Gen.hostOps0_10, Gen.hostOps0_11]
  fold_results

set_option maxHeartbeats 4000000 in
/-- None of these operations writes this buffer: it keeps its contents. -/
theorem C_carry_arg1 :
    (after Gen.hostOps0_11 (after Gen.hostOps0_10 W)) (Proc.devRef .tc main_arg1) = W (Proc.devRef .tc main_arg1) := by
  simp only [Gen.hostOps0_10, Gen.hostOps0_11]
  fold_results

set_option maxHeartbeats 4000000 in
/-- None of these operations writes this buffer: it keeps its contents. -/
theorem C_carry_arg3 :
    (after Gen.hostOps0_11 (after Gen.hostOps0_10 W)) (Proc.devRef .tc main_arg3) = W (Proc.devRef .tc main_arg3) := by
  simp only [Gen.hostOps0_10, Gen.hostOps0_11]
  fold_results

set_option maxHeartbeats 4000000 in
/-- None of these operations writes this buffer: it keeps its contents. -/
theorem C_carry_arg4 :
    (after Gen.hostOps0_11 (after Gen.hostOps0_10 W)) (Proc.devRef .tc main_arg4) = W (Proc.devRef .tc main_arg4) := by
  simp only [Gen.hostOps0_10, Gen.hostOps0_11]
  fold_results

end Cert.KernelIdeal.Prefix

end
-- ==== Proof.PrefixD.lean ====
import proofs.«132156_j59742995087902_2_alg».proof.Proof.Stages
import proofs.«132156_j59742995087902_2_alg».proof.Proof.Gen.KernelIdeal.Launch

/-!
# The last stretch of operations before the region, from arbitrary contents

For any contents `W` of the buffers, the padded arrays the stretch writes are the stage functions
of the contents `W` holds at the buffers the stretch reads.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- Evaluates a fold over a literal list of operations at a literal buffer: the value of the
operation that writes the buffer, at its operands' values, recursively, down to the contents the
fold starts from. -/
local macro "fold_results" : tactic =>
  `(tactic| (simp (disch := decide) only [after_cons, after_nil,
      nullary_result', unary_result', binary_result', ternary_result',
      nullary_result_ne', unary_result_ne', binary_result_ne', ternary_result_ne']))

variable (W : Valuation τ sig (Elt F))

set_option maxHeartbeats 4000000 in
/-- The padded rows. -/
theorem D_v104 :
    ((after Gen.hostOps0_12 W) (Proc.devRef .tc main_v104) : FVec F S74752x4 .f32)
      = Stages.xPadded (W (Proc.devRef .tc main_v14)) (W (Proc.devRef .tc main_v15)) (W (Proc.devRef .tc main_v64)) := by
  simp only [Gen.hostOps0_12]
  fold_results
  try simp only [TRef.toBuf, TRef.ofBuf, cast_eq]
  simp only [Stages.xPadded, Stages.norm65536]
  all_goals rfl

set_option maxHeartbeats 4000000 in
/-- The rows of the first table in the padded layout. -/
theorem D_v128 :
    ((after Gen.hostOps0_12 W) (Proc.devRef .tc main_v128) : FVec F S74752x512 .bf16)
      = Stages.tePadded (W (Proc.devRef .tc main_arg3)) (Stages.idPadded (W (Proc.devRef .tc main_arg0)) (W (Proc.devRef .tc main_v15)) (W (Proc.devRef .tc main_v64))) := by
  simp only [Gen.hostOps0_12]
  fold_results
  try simp only [TRef.toBuf, TRef.ofBuf, cast_eq]
  simp only [Stages.tePadded, Stages.idPadded, Stages.norm65536, Stages.norm74752]
  all_goals rfl

set_option maxHeartbeats 4000000 in
/-- The rows of the second table in the padded layout. -/
theorem D_v136 :
    ((after Gen.hostOps0_12 W) (Proc.devRef .tc main_v136) : FVec F S74752x512 .bf16)
      = Stages.sePadded (W (Proc.devRef .tc main_arg4)) (Stages.idPadded (W (Proc.devRef .tc main_arg1)) (W (Proc.devRef .tc main_v15)) (W (Proc.devRef .tc main_v64))) := by
  simp only [Gen.hostOps0_12]
  fold_results
  try simp only [TRef.toBuf, TRef.ofBuf, cast_eq]
  simp only [Stages.sePadded, Stages.idPadded, Stages.norm65536, Stages.norm74752]
  all_goals rfl

set_option maxHeartbeats 4000000 in
/-- The slots by original position. -/
theorem D_v144 :
    ((after Gen.hostOps0_12 W) (Proc.devRef .tc main_v144) : IVec S65536 32)
      = Stages.destOrig (W (Proc.devRef .tc main_v15)) (W (Proc.devRef .tc main_v64)) := by
  simp only [Gen.hostOps0_12]
  fold_results
  try simp only [TRef.toBuf, TRef.ofBuf, cast_eq]
  simp only [Stages.destOrig, Stages.norm65536]
  all_goals rfl

set_option maxHeartbeats 4000000 in
/-- None of these operations writes this buffer: it keeps its contents. -/
theorem D_carry_v75 :
    (after Gen.hostOps0_12 W) (Proc.devRef .tc main_v75) = W (Proc.devRef .tc main_v75) := by
  simp only [Gen.hostOps0_12]
  fold_results

end Cert.KernelIdeal.Prefix

end
-- ==== Proof.Prefix.lean ====
import proofs.«132156_j59742995087902_2_alg».proof.Proof.PrefixA
import proofs.«132156_j59742995087902_2_alg».proof.Proof.PrefixB
import proofs.«132156_j59742995087902_2_alg».proof.Proof.PrefixC
import proofs.«132156_j59742995087902_2_alg».proof.Proof.PrefixD
import proofs.«132156_j59742995087902_2_alg».proof.Proof.Gen.KernelIdeal.Frame

/-!
# The arrays at the entry of the kernel region, as stage functions of the arguments

The contents of the buffers when the kernel region is entered are a fold over the concatenation of
thirteen lists of operations.  A fold over a concatenation is the fold over the second list started
from the fold over the first, so the contents are thirteen nested folds; each buffer the region
reads is then evaluated segment by segment: the last segment that writes it gives its value in
terms of the contents before that segment, a segment that does not write a buffer leaves it, and
the first segments give the values in terms of the argument arrays.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- A fold over a concatenation is the fold over the second list, started from the fold over the
first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ)

/-- The contents at the entry of the region, as thirteen nested folds. -/
theorem V0_eq (c : Dev nD) :
    Gen.V0 m c = (after Gen.hostOps0_12 (after Gen.hostOps0_11 (after Gen.hostOps0_10 (after Gen.hostOps0_9 (after Gen.hostOps0_8 (after Gen.hostOps0_7 (after Gen.hostOps0_6 (after Gen.hostOps0_5 (after Gen.hostOps0_4 (after Gen.hostOps0_3 (after Gen.hostOps0_2 (after Gen.hostOps0_1 (after Gen.hostOps0 (fun b => m (c, b))))))))))))))) := by
  simp only [Gen.V0, List.flatten_cons, List.flatten_nil, List.append_nil, after_append]

/-- The table of tile groups the region reads is `gidOf` of the first argument (by segments). -/
theorem V_v75' (c : Dev nD) :
    (Gen.V m c main_v75 : IVec S73 32) = Stages.gidOf (m ((c : Thread nD τ).loc main_arg0)) := by
  show (Gen.V0 m c (Proc.devRef .tc main_v75) : IVec S73 32) = _
  rw [V0_eq, D_carry_v75, C_v75, B_v41, A_v23, A_v24]
  rfl

/-- The padded rows the region reads are `xPaddedOf` of the first and third arguments. -/
theorem V_v104 (c : Dev nD) :
    (Gen.V m c main_v104 : FVec F S74752x4 .f32) = Stages.xPaddedOf (m ((c : Thread nD τ).loc main_arg0)) (m ((c : Thread nD τ).loc main_arg2)) := by
  show (Gen.V0 m c (Proc.devRef .tc main_v104) : FVec F S74752x4 .f32) = _
  rw [V0_eq, D_v104, C_carry_v14, B_carry_v14, A_v14, C_carry_v15, B_carry_v15, A_v15,
    C_v64 _ _ (B_v42 _) (B_v43 _), B_v41, B_carry_v22, A_v22, A_v23, A_v24]
  rfl

/-- The padded rows of the first table the region reads are `tePaddedOf` of the first and fourth
arguments. -/
theorem V_v128 (c : Dev nD) :
    (Gen.V m c main_v128 : FVec F S74752x512 .bf16) = Stages.tePaddedOf (m ((c : Thread nD τ).loc main_arg0)) (m ((c : Thread nD τ).loc main_arg3)) := by
  show (Gen.V0 m c (Proc.devRef .tc main_v128) : FVec F S74752x512 .bf16) = _
  rw [V0_eq, D_v128, C_carry_arg3, B_carry_arg3, A_carry_arg3, C_carry_arg0, B_carry_arg0,
    A_carry_arg0, C_carry_v15, B_carry_v15, A_v15, C_v64 _ _ (B_v42 _) (B_v43 _), B_v41, B_carry_v22, A_v22, A_v23, A_v24]
  rfl

/-- The padded rows of the second table the region reads are `sePaddedOf` of the first, second
and fifth arguments. -/
theorem V_v136 (c : Dev nD) :
    (Gen.V m c main_v136 : FVec F S74752x512 .bf16) = Stages.sePaddedOf (m ((c : Thread nD τ).loc main_arg0)) (m ((c : Thread nD τ).loc main_arg1)) (m ((c : Thread nD τ).loc main_arg4)) := by
  show (Gen.V0 m c (Proc.devRef .tc main_v136) : FVec F S74752x512 .bf16) = _
  rw [V0_eq, D_v136, C_carry_arg4, B_carry_arg4, A_carry_arg4, C_carry_arg1, B_carry_arg1,
    A_carry_arg1, C_carry_v15, B_carry_v15, A_v15, C_v64 _ _ (B_v42 _) (B_v43 _), B_v41, B_carry_v22, A_v22, A_v23, A_v24]
  rfl

/-- The array of slots by original position at the entry of the region is `destOrigOf` of the
first argument. -/
theorem V_v144 (c : Dev nD) :
    (Gen.V m c main_v144 : IVec S65536 32) = Stages.destOrigOf (m ((c : Thread nD τ).loc main_arg0)) := by
  show (Gen.V0 m c (Proc.devRef .tc main_v144) : IVec S65536 32) = _
  rw [V0_eq, D_v144, C_carry_v15, B_carry_v15, A_v15, C_v64 _ _ (B_v42 _) (B_v43 _), B_v41, B_carry_v22, A_v22, A_v23, A_v24]
  rfl

end Cert.KernelIdeal.Prefix

end
-- ==== Proof.Prefix5.lean ====
import proofs.«132156_j59742995087902_2_alg».proof.Proof.Stages
import proofs.«132156_j59742995087902_2_alg».proof.Proof.Gen.KernelIdeal.Frame

/-!
# The narrow-format copies of three arguments, and the operations after the region

The contents of the buffers when the kernel region is entered are given by the program as a fold
over the list of its operations.  This file evaluates that fold at the buffers the region reads and
identifies each with the corresponding pure function of the argument arrays (`Stages`): the fold
is unfolded operation by operation — every buffer is written exactly once, so reading a buffer
after the list is reading the value of the one operation that writes it, at the values of its
operands —, and the resulting composition of operations is the stage function by unfolding.
-/

set_option maxRecDepth 16384

noncomputable section

namespace Cert.KernelIdeal.Prefix

open Idealize.ShloMosaic Idealize.ShloMosaic.TcCoe Cert.KernelIdeal
open Idealize.ShloMosaic.StableHlo

variable {F : FTy → Type} [FloatOps F]

/-- A one-entry array followed by an eight-entry array, as a function of the two arrays. -/
private def concat18 {α : Type} (a : S1.Idx → α) (b : S8.Idx → α) : S9.Idx → α :=
  concatenate S9 0 [⟨S1, a⟩, ⟨S8, b⟩] Facts₀.concatenates_S1_S8_S9_d0

/-- The concatenation of a one-entry and an eight-entry array is `concat18` of the two, whatever
proof of the shape condition it carries. -/
private theorem concat18_eq {α : Type} (a : S1.Idx → α) (b : S8.Idx → α)
    (h : Shape.Concatenates (([⟨S1, a⟩, ⟨S8, b⟩] : List ((s : Shape) × (s.Idx → α))).map (·.1)) S9 0) :
    concatenate S9 0 [⟨S1, a⟩, ⟨S8, b⟩] h = concat18 a b := rfl

/-- Evaluates a fold over a literal list of operations at a literal buffer: the value of the
operation that writes the buffer, at its operands' values, recursively; a concatenation is first
turned into `concat18` so that its two operands are evaluated as well. -/
local macro "fold_results" : tactic =>
  `(tactic| (simp (disch := decide) only [after_cons, after_nil,
      nullary_result', unary_result', binary_result', ternary_result',
      nullary_result_ne', unary_result_ne', binary_result_ne', ternary_result_ne', concat18_eq]))

variable (m : (ℓ : Loc nD τ sig) → Buf (Elt F) ℓ)

/-- The program's last array, after the operations that follow the region, from any contents `W`
of the buffers at the region's exit: the rows of the region's output array at the slots the array
of slots by original position holds. -/
theorem tail_v155 (W : Valuation τ sig (Elt F)) :
    (StableHlo.after (List.flatten [Gen.hostOps1]) W (Proc.devRef .tc main_v155) : FVec F S65536x512 .f32)
      = Stages.result (W (Proc.devRef .tc main_v148)) (W (Proc.devRef .tc main_v144)) := by
  simp only [Gen.hostOps1, List.flatten_cons, List.flatten_nil, List.append_nil]
  fold_results
  simp only [Stages.result, Stages.norm65536]
  all_goals rfl

set_option maxHeartbeats 4000000 in
/-- The narrow-format copy of argument 5 the region reads. -/
theorem V_v145 (c : Dev nD) :
    (Gen.V m c main_v145 : FVec F S9x4x512 .bf16)
      = truncf .bf16 (m ((c : Thread nD τ).loc main_arg5)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  fold_results
  all_goals rfl

set_option maxHeartbeats 4000000 in
/-- The narrow-format copy of argument 7 the region reads. -/
theorem V_v146 (c : Dev nD) :
    (Gen.V m c main_v146 : FVec F S9x512x512 .bf16)
      = truncf .bf16 (m ((c : Thread nD τ).loc main_arg7)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  fold_results
  all_goals rfl

set_option maxHeartbeats 4000000 in
/-- The narrow-format copy of argument 9 the region reads. -/
theorem V_v147 (c : Dev nD) :
    (Gen.V m c main_v147 : FVec F S1536x512 .bf16)
      = truncf .bf16 (m ((c : Thread nD τ).loc main_arg9)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  fold_results
  all_goals rfl

end Cert.KernelIdeal.Prefix

end
-- ==== Proof.Bridge.lean ====
/-
  The kernel program's result, entry by entry, is the common target.

  Entry `(e, q)` of the result is entry `(row e, q)` of the padded array, `row e` being the padded row the routing
  gave edge `e`. That entry is `Spec.rowOut` of the weights, of the group the table gives row `e`'s tile, and of row
  `e` of the three padded operands. The routing facts say these are edge `e`'s own group, scaled parameters and
  embedding rows; the weights are the argument arrays themselves, since at the ideal instance a change of float
  format is the identity.
-/
import proofs.«132156_j59742995087902_2_alg».proof.Proof.KRun
import proofs.«132156_j59742995087902_2_alg».proof.Proof.Routing
import proofs.«132156_j59742995087902_2_alg».proof.Proof.Prefix
import proofs.«132156_j59742995087902_2_alg».proof.Proof.Prefix1
import proofs.«132156_j59742995087902_2_alg».proof.Proof.Prefix5
import proofs.«132156_j59742995087902_2_alg».proof.Proof.Target

noncomputable section

namespace Cert.KernelIdeal.Bridge

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem rowOf_ix2 (r : Fin 74752) (q : Fin 512) : KValue.rowOf (ix2 r q) = r := Fin.ext rfl
theorem colOf_ix2 (r : Fin 74752) (q : Fin 512) : KValue.colOf (ix2 r q) = q := Fin.ext rfl

/-- The first-layer weights the region finds are the argument's. -/
theorem W1v_eq (c : Dev nD) : KValue.W1v m c = fun g a k => (m ((c : Thread nD τ).loc main_arg5)) (ix3 g a k) := by
  funext g a k
  unfold KValue.W1v
  rw [Prefix.V_v145 m c]
  rfl

theorem W2v_eq (c : Dev nD) : KValue.W2v m c = fun g k d => (m ((c : Thread nD τ).loc main_arg7)) (ix3 g k d) := by
  funext g k d
  unfold KValue.W2v
  rw [Prefix.V_v146 m c]
  rfl

theorem Wfv_eq (c : Dev nD) : KValue.Wfv m c = fun k q => (m ((c : Thread nD τ).loc main_arg9)) (ix2 k q) := by
  funext k q
  unfold KValue.Wfv
  rw [Prefix.V_v147 m c]
  rfl

theorem b1v_eq (c : Dev nD) : KValue.b1v m c = fun g k => (m ((c : Thread nD τ).loc main_arg6)) (ix2 g k) := by
  funext g k
  unfold KValue.b1v
  rw [Gen.V_main_arg6 m c]

theorem b2v_eq (c : Dev nD) : KValue.b2v m c = fun g d => (m ((c : Thread nD τ).loc main_arg8)) (ix2 g d) := by
  funext g d
  unfold KValue.b2v
  rw [Gen.V_main_arg8 m c]

theorem bfv_eq (c : Dev nD) : KValue.bfv m c = fun q => (m ((c : Thread nD τ).loc main_arg10)) (ix1 q) := by
  funext q
  unfold KValue.bfv
  rw [Gen.V_main_arg10 m c]

/-- THE KERNEL'S RESULT at `(e, q)`. -/
theorem kout_apply (c : Dev nD) (e : Fin 65536) (q : Fin 512) :
    KRun.Kout m c (ix2 e q)
      = Cert.Target.target (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) e q := by
  unfold KRun.Kout
  rw [Prefix.V_v144 m c, Routing.result_apply]
  unfold KValue.Gpad Cert.Target.target Cert.Spec.G
  rw [rowOf_ix2, colOf_ix2, W1v_eq, W2v_eq, Wfv_eq, b1v_eq, b2v_eq, bfv_eq]
  have hx : KValue.xPv m c ⟨Cert.Derived.pos 74752 (Stages.destOrigOf (m ((c : Thread nD τ).loc main_arg0)) (ix1 e)), Cert.Derived.pos_lt (by decide) _⟩
      = Cert.Derived.x (fun e p => (m ((c : Thread nD τ).loc main_arg2)) (ix2 e p)) (fun e => (m ((c : Thread nD τ).loc main_arg0)) (ix1 e)) e := by
    funext a
    unfold KValue.xPv
    rw [Prefix.V_v104 m c]
    exact Routing.xPadded_row _ _ e a _
  have hte : KValue.tePv m c ⟨Cert.Derived.pos 74752 (Stages.destOrigOf (m ((c : Thread nD τ).loc main_arg0)) (ix1 e)), Cert.Derived.pos_lt (by decide) _⟩
      = Cert.Derived.te (fun i k => (m ((c : Thread nD τ).loc main_arg3)) (ix2 i k)) (fun e => (m ((c : Thread nD τ).loc main_arg0)) (ix1 e)) e := by
    funext k
    unfold KValue.tePv
    rw [Prefix.V_v128 m c]
    exact Routing.tePadded_row _ _ e k _
  have hse : KValue.sePv m c ⟨Cert.Derived.pos 74752 (Stages.destOrigOf (m ((c : Thread nD τ).loc main_arg0)) (ix1 e)), Cert.Derived.pos_lt (by decide) _⟩
      = Cert.Derived.se (fun i k => (m ((c : Thread nD τ).loc main_arg4)) (ix2 i k)) (fun e => (m ((c : Thread nD τ).loc main_arg1)) (ix1 e)) e := by
    funext k
    unfold KValue.sePv
    rw [Prefix.V_v136 m c]
    exact Routing.sePadded_row _ _ _ e k _
  have hg : KValue.gidv m c (KValue.tileOf ⟨Cert.Derived.pos 74752 (Stages.destOrigOf (m ((c : Thread nD τ).loc main_arg0)) (ix1 e)), Cert.Derived.pos_lt (by decide) _⟩)
      = Cert.Derived.grp (fun e => (m ((c : Thread nD τ).loc main_arg0)) (ix1 e)) e := by
    refine Fin.ext ?_
    have h8 := Cert.Derived.baseWord_le (fun e => (m ((c : Thread nD τ).loc main_arg0)) (ix1 e)) e
    have key : (V m c main_v75 : IVec S73 32) (ix1 (KValue.tileOf ⟨Cert.Derived.pos 74752 (Stages.destOrigOf (m ((c : Thread nD τ).loc main_arg0)) (ix1 e)), Cert.Derived.pos_lt (by decide) _⟩))
        = Cert.Derived.baseWord (fun e => (m ((c : Thread nD τ).loc main_arg0)) (ix1 e)) e :=
      (congrFun (Prefix.V_v75 m c) _).trans (Routing.gid_row _ e _)
    exact (congrArg (fun w : BitVec 32 => min w.toNat 8) key).trans (min_eq_left h8)
  rw [hx, hte, hse, hg]

end Cert.KernelIdeal.Bridge

end
-- ==== Proof.lean ====
/-
  The five claims of this certificate.

  Frames. The two kernel programs' frames are the generated ones; their one hypothesis — that every word of the
  prefetched group table lies in `0 … 8` — holds for every input because the host computes that table with a final
  clip to `[0, 8]`. The reference's frame is its run with the result dropped.

  Preservation. The ideal pass rewrote nothing.

  Equal results. Both programs, read at the ideal instance, produce the array `Target.target` of the argument
  arrays: the reference directly (its nine rounds of "where the base group is t, take group t's perceptron" end at
  each edge's own group), the kernel program through its grouping: it sorts the edges by base group, pads each
  group to whole tiles of 1024 rows, runs every tile with the weights of the tile's group, and gathers each edge's
  row back. Nothing beyond commutativity and associativity of addition is used, so the finiteness of the inputs
  is never opened.
-/
import proofs.«132156_j59742995087902_2_alg».proof.Defs
import proofs.«132156_j59742995087902_2_alg».proof.Proof.Frames
import proofs.«132156_j59742995087902_2_alg».proof.Proof.RefRun
import proofs.«132156_j59742995087902_2_alg».proof.Proof.RefRead
import proofs.«132156_j59742995087902_2_alg».proof.Proof.KRun
import proofs.«132156_j59742995087902_2_alg».proof.Proof.Bridge
import proofs.«132156_j59742995087902_2_alg».proof.Proof.Gen.ReferenceIdeal
import proofs.«132156_j59742995087902_2_alg».proof.Proof.Gen.Pre_finite_inputs

noncomputable section

namespace Cert.Proof

open Idealize.ShloMosaic Idealize.ShloMosaic.TcCoe Idealize.ShloMosaic.ValueIdx Idealize.SL.Sem

/-- The reference's frame: its run, the result dropped. -/
theorem frame_ReferenceIdeal :
    @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- The common result as an array. -/
def common (a0 a1 : (⟨1, ![65536]⟩ : Shape).Idx → BitVec 32)
    (a2 : (⟨2, ![65536, 4]⟩ : Shape).Idx → EReal) (a3 : (⟨2, ![14, 512]⟩ : Shape).Idx → EReal)
    (a4 : (⟨2, ![4, 512]⟩ : Shape).Idx → EReal) (a5 : (⟨3, ![9, 4, 512]⟩ : Shape).Idx → EReal)
    (a6 : (⟨2, ![9, 512]⟩ : Shape).Idx → EReal) (a7 : (⟨3, ![9, 512, 512]⟩ : Shape).Idx → EReal)
    (a8 : (⟨2, ![9, 512]⟩ : Shape).Idx → EReal) (a9 : (⟨2, ![1536, 512]⟩ : Shape).Idx → EReal)
    (a10 : (⟨1, ![512]⟩ : Shape).Idx → EReal) : (⟨2, ![65536, 512]⟩ : Shape).Idx → EReal :=
  fun i => Cert.Target.target a0 a1 a2 a3 a4 a5 a6 a7 a8 a9 a10 ⟨(i 0).val, (i 0).isLt⟩ ⟨(i 1).val, (i 1).isLt⟩

theorem common_ix2 (a0 a1 a2 a3 a4 a5 a6 a7 a8 a9 a10) (e : Fin 65536) (q : Fin 512) :
    common a0 a1 a2 a3 a4 a5 a6 a7 a8 a9 a10 (ix2 e q) = Cert.Target.target a0 a1 a2 a3 a4 a5 a6 a7 a8 a9 a10 e q := rfl

/-- Both idealized programs end with the common result. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => common (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · -- the kernel program
    have hO : Cert.KernelIdeal.Gen.Ok m := trivial
    have hH : Cert.KernelIdeal.Gen.Hyps m hO :=
      Cert.KernelIdeal.FrameHyps.hyps_of_tbl m hO ⟨_, Cert.KernelIdeal.Prefix.V_v75 m 0⟩
    refine (θ_run Cert.KernelIdeal.defs _ _).mono (fun r h c => ⟨(h c).1.trans ?_, (h c).2⟩)
      (Cert.KernelIdeal.KRun.run m ρ hO hH)
    funext i
    obtain ⟨e, q, rfl⟩ : ∃ (e : Fin 65536) (q : Fin 512), i = ix2 e q := ⟨i 0, i 1, eq_ix2 i⟩
    show _ = common _ _ _ _ _ _ _ _ _ _ _ (ix2 e q)
    rw [common_ix2]
    exact Cert.KernelIdeal.Bridge.kout_apply m c e q
  · -- the reference
    refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10⟩ := hagree c
    rw [h0, h1, h2, h3, h4, h5, h6, h7, h8, h9, h10]
    funext i
    obtain ⟨e, q, rfl⟩ : ∃ (e : Fin 65536) (q : Fin 512), i = ix2 e q := ⟨i 0, i 1, eq_ix2 i⟩
    show _ = common _ _ _ _ _ _ _ _ _ _ _ (ix2 e q)
    rw [common_ix2]
    exact Cert.ReferenceIdeal.RefRead.out_apply _ _ _ _ _ _ _ _ _ _ _ e q

theorem claim : Cert.Claim :=
  ⟨Cert.Kernel.Gen.facts, Cert.KernelIdeal.Gen.facts, Cert.ReferenceIdeal.Gen.facts, Cert.Pre_finite_inputs.Gen.facts,
    Cert.Proof.Frames.frame_Kernel, Cert.Proof.Frames.frame_KernelIdeal, frame_ReferenceIdeal, preserves, algebraic⟩

end Cert.Proof

end
